-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x256 : Shape := ⟨4, ![4, 64, 256, 256]⟩
abbrev S_ : Shape := ⟨0, ![]⟩

class Facts : Prop where
  bcast_S_S4x64x256x256 : S_.BroadcastsInDim S4x64x256x256 (![] : Fin 0 → Fin S4x64x256x256.rank)
  reducesTo_S4x64x256x256_S_d0_1_2_3 : S4x64x256x256.ReducesTo [0, 1, 2, 3] S_
  h_S_ : 0 < S_.numel

variable [Facts]

def fn {F : FTy → Type} [FloatOps F] (main_arg0 : FVec F S4x64x256x256 .f32) : IVec S_ 1 :=
  let main_v0 : FVec F S4x64x256x256 .f32 := Host.absf main_arg0
  let main_cst : FVec F S_ .f32 := constant S_ .f32 0x7F800000#32
  let main_v1 : FVec F S4x64x256x256 .f32 := broadcastInDim S4x64x256x256 ![] bcast_S_S4x64x256x256 main_cst
  let main_v2 : IVec S4x64x256x256 1 := cmpf .olt main_v0 main_v1
  let main_c : IVec S_ 1 := constantI S_ 1 1#1
  let main_v3 : IVec S_ 1 := (fun x v => Host.reduce IntOp.andi x v reducesTo_S4x64x256x256_S_d0_1_2_3 h_S_) main_v2 main_c
  main_v3
-- ==== Kernel.lean ====
abbrev S4x64x256x256 : Shape := ⟨4, ![4, 64, 256, 256]⟩
abbrev S4x64x1x1 : Shape := ⟨4, ![4, 64, 1, 1]⟩
abbrev S1x64x256x256 : Shape := ⟨4, ![1, 64, 256, 256]⟩
abbrev S1x64x1x1 : Shape := ⟨4, ![1, 64, 1, 1]⟩
abbrev S64x256x256 : Shape := ⟨3, ![64, 256, 256]⟩
abbrev S64x256 : Shape := ⟨2, ![64, 256]⟩
abbrev S64 : Shape := ⟨1, ![64]⟩
abbrev S64x1x1 : Shape := ⟨3, ![64, 1, 1]⟩
abbrev S4x8x256x256 : Shape := ⟨4, ![4, 8, 256, 256]⟩
abbrev S1x16x256x256 : Shape := ⟨4, ![1, 16, 256, 256]⟩
abbrev S1x16x1x1 : Shape := ⟨4, ![1, 16, 1, 1]⟩
abbrev S1x8x256x256 : Shape := ⟨4, ![1, 8, 256, 256]⟩
abbrev S256x256 : Shape := ⟨2, ![256, 256]⟩
abbrev S8x256x256 : Shape := ⟨3, ![8, 256, 256]⟩
abbrev S16x256x256 : Shape := ⟨3, ![16, 256, 256]⟩
abbrev S16x1x1 : Shape := ⟨3, ![16, 1, 1]⟩
abbrev S16x1x256 : Shape := ⟨3, ![16, 1, 256]⟩
abbrev S16x255x256 : Shape := ⟨3, ![16, 255, 256]⟩
abbrev S16x256x1 : Shape := ⟨3, ![16, 256, 1]⟩
abbrev S16x256x255 : Shape := ⟨3, ![16, 256, 255]⟩
abbrev S1x256x256 : Shape := ⟨3, ![1, 256, 256]⟩
abbrev S1x1x256x256 : Shape := ⟨4, ![1, 1, 256, 256]⟩

abbrev nBuf : Space → Nat
  | .hbm => 3
  | .vmem => 13
  | .smem => 0
  | _ => 0

abbrev bufTy : (tb : Table) → Fin (tcTables nBuf tb) → BufTy
  | .hbm, ⟨0, _⟩ => ⟨S4x64x256x256, .f32⟩
  | .hbm, ⟨1, _⟩ => ⟨S4x64x1x1, .f32⟩
  | .hbm, ⟨2, _⟩ => ⟨S4x8x256x256, .f32⟩
  | .local _ .vmem, ⟨0, _⟩ => ⟨S1x64x256x256, .f32⟩
  | .local _ .vmem, ⟨1, _⟩ => ⟨S1x64x256x256, .f32⟩
  | .local _ .vmem, ⟨2, _⟩ => ⟨S1x64x1x1, .f32⟩
  | .local _ .vmem, ⟨3, _⟩ => ⟨S1x64x1x1, .f32⟩
  | .local _ .vmem, ⟨4, _⟩ => ⟨S1x16x256x256, .f32⟩
  | .local _ .vmem, ⟨5, _⟩ => ⟨S1x16x256x256, .f32⟩
  | .local _ .vmem, ⟨6, _⟩ => ⟨S1x16x1x1, .f32⟩
  | .local _ .vmem, ⟨7, _⟩ => ⟨S1x16x1x1, .f32⟩
  | .local _ .vmem, ⟨8, _⟩ => ⟨S1x8x256x256, .f32⟩
  | .local _ .vmem, ⟨9, _⟩ => ⟨S1x8x256x256, .f32⟩
  | .local _ .vmem, ⟨10, _⟩ => ⟨S256x256, .f32⟩
  | .local _ .vmem, ⟨11, _⟩ => ⟨S8x256x256, .f32⟩
  | .local _ .vmem, ⟨12, _⟩ => ⟨S8x256x256, .f32⟩
  | _, _ => ⟨S4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v180 : BitVec 1 := Scalar.cmpi .eq arg1 c3_i32
  let v181 : BitVec 32 := Scalar.extui v180
  let c0_i32_117 : BitVec 32 := 0#32
  let v182 : BitVec 1 := Scalar.cmpi .ne v181 c0_i32_117
  v182

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x64x256x256_S1x64x256x256_0_0_0_0 : ∀ a, (![0, 0, 0, 0] : Fin 4 → Nat) a + S1x64x256x256.size a ≤ S1x64x256x256.size a
  h_S1x64x256x256 : 0 < S1x64x256x256.numel
  shapeCasts_S1x64x256x256_S64x256x256 : S1x64x256x256.ShapeCasts S64x256x256
  reduces_S64x256x256_S64x256 : S64x256x256.Reduces [2] S64x256
  reduces_S64x256_S64 : S64x256.Reduces [1] S64
  shapeCasts_S64_S64x1x1 : S64.ShapeCasts S64x1x1
  inb_S1x64x1x1_S1x64x1x1_0_0_0_0 : ∀ a, (![0, 0, 0, 0] : Fin 4 → Nat) a + S1x64x1x1.size a ≤ S1x64x1x1.size a
  h_S1x64x1x1 : 0 < S1x64x1x1.numel
  shapeCasts_S1x64x1x1_S64x1x1 : S1x64x1x1.ShapeCasts S64x1x1
  shapeCasts_S64x1x1_S1x64x1x1 : S64x1x1.ShapeCasts S1x64x1x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  inb_S1x16x1x1_S1x16x1x1_0_0_0_0 : ∀ a, (![0, 0, 0, 0] : Fin 4 → Nat) a + S1x16x1x1.size a ≤ S1x16x1x1.size a
  h_S1x16x1x1 : 0 < S1x16x1x1.numel
  shapeCasts_S1x16x1x1_S16x1x1 : S1x16x1x1.ShapeCasts S16x1x1
  broadcasts_S16x1x1_S16x256x256 : S16x1x1.Broadcasts S16x256x256
  reduces_S16x256x256_S256x256 : S16x256x256.Reduces [0] S256x256
  slices_S16x256x256_o0_1_0_S16x1x256 : S16x256x256.Slices ![0, 1, 0] S16x1x256
  slices_S16x256x256_o0_0_0_S16x255x256 : S16x256x256.Slices ![0, 0, 0] S16x255x256
  concatenates_S16x1x256_S16x255x256_S16x256x256_d1 : Shape.Concatenates [S16x1x256, S16x255x256] S16x256x256 1
  slices_S16x256x256_o0_0_1_S16x256x1 : S16x256x256.Slices ![0, 0, 1] S16x256x1
  slices_S16x256x256_o0_0_0_S16x256x255 : S16x256x256.Slices ![0, 0, 0] S16x256x255
  concatenates_S16x256x1_S16x256x255_S16x256x256_d2 : Shape.Concatenates [S16x256x1, S16x256x255] S16x256x256 2
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  shapeCasts_S256x256_S1x256x256 : S256x256.ShapeCasts S1x256x256
  inb_S8x256x256_S1x256x256_1_0_0 : ∀ a, (![1, 0, 0] : Fin 3 → Nat) a + S1x256x256.size a ≤ S8x256x256.size a
  slices_S16x256x256_o0_0_1_S16x256x255 : S16x256x256.Slices ![0, 0, 1] S16x256x255
  slices_S16x256x256_o0_0_254_S16x256x1 : S16x256x256.Slices ![0, 0, 254] S16x256x1
  concatenates_S16x256x255_S16x256x1_S16x256x256_d2 : Shape.Concatenates [S16x256x255, S16x256x1] S16x256x256 2
  inb_S8x256x256_S1x256x256_2_0_0 : ∀ a, (![2, 0, 0] : Fin 3 → Nat) a + S1x256x256.size a ≤ S8x256x256.size a
  inb_S8x256x256_S1x256x256_3_0_0 : ∀ a, (![3, 0, 0] : Fin 3 → Nat) a + S1x256x256.size a ≤ S8x256x256.size a
  inb_S8x256x256_S1x256x256_4_0_0 : ∀ a, (![4, 0, 0] : Fin 3 → Nat) a + S1x256x256.size a ≤ S8x256x256.size a
  slices_S16x256x256_o0_1_0_S16x255x256 : S16x256x256.Slices ![0, 1, 0] S16x255x256
  slices_S16x256x256_o0_254_0_S16x1x256 : S16x256x256.Slices ![0, 254, 0] S16x1x256
  concatenates_S16x255x256_S16x1x256_S16x256x256_d1 : Shape.Concatenates [S16x255x256, S16x1x256] S16x256x256 1
  inb_S8x256x256_S1x256x256_5_0_0 : ∀ a, (![5, 0, 0] : Fin 3 → Nat) a + S1x256x256.size a ≤ S8x256x256.size a
  inb_S8x256x256_S1x256x256_6_0_0 : ∀ a, (![6, 0, 0] : Fin 3 → Nat) a + S1x256x256.size a ≤ S8x256x256.size a
  inb_S8x256x256_S1x256x256_7_0_0 : ∀ a, (![7, 0, 0] : Fin 3 → Nat) a + S1x256x256.size a ≤ S8x256x256.size a
  inb_S1x8x256x256_S1x1x256x256_0_0_0_0 : ∀ a, (![0, 0, 0, 0] : Fin 4 → Nat) a + S1x1x256x256.size a ≤ S1x8x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  inb_S1x8x256x256_S1x1x256x256_0_1_0_0 : ∀ a, (![0, 1, 0, 0] : Fin 4 → Nat) a + S1x1x256x256.size a ≤ S1x8x256x256.size a
  inb_S1x8x256x256_S1x1x256x256_0_2_0_0 : ∀ a, (![0, 2, 0, 0] : Fin 4 → Nat) a + S1x1x256x256.size a ≤ S1x8x256x256.size a
  inb_S1x8x256x256_S1x1x256x256_0_3_0_0 : ∀ a, (![0, 3, 0, 0] : Fin 4 → Nat) a + S1x1x256x256.size a ≤ S1x8x256x256.size a
  inb_S1x8x256x256_S1x1x256x256_0_4_0_0 : ∀ a, (![0, 4, 0, 0] : Fin 4 → Nat) a + S1x1x256x256.size a ≤ S1x8x256x256.size a
  inb_S1x8x256x256_S1x1x256x256_0_5_0_0 : ∀ a, (![0, 5, 0, 0] : Fin 4 → Nat) a + S1x1x256x256.size a ≤ S1x8x256x256.size a
  inb_S1x8x256x256_S1x1x256x256_0_6_0_0 : ∀ a, (![0, 6, 0, 0] : Fin 4 → Nat) a + S1x1x256x256.size a ≤ S1x8x256x256.size a
  inb_S1x8x256x256_S1x1x256x256_0_7_0_0 : ∀ a, (![0, 7, 0, 0] : Fin 4 → Nat) a + S1x1x256x256.size a ≤ S1x8x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x256.size a ≤ S4x64x256x256.size a
  hwx0_0 : ∀ i : grid0.Coords, EltTy.bits .f32 = 32 ∨ (Rect.block (s := S4x64x256x256) S1x64x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1x1.size a ≤ S4x64x1x1.size a
  hwx0_1 : ∀ i : grid0.Coords, EltTy.bits .f32 = 32 ∨ (Rect.block (s := S4x64x1x1) S1x64x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x256.size a ≤ S4x64x256x256.size a
  hwx1_0 : ∀ i : grid1.Coords, EltTy.bits .f32 = 32 ∨ (Rect.block (s := S4x64x256x256) S1x16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x1x1.size a ≤ S4x64x1x1.size a
  hwx1_1 : ∀ i : grid1.Coords, EltTy.bits .f32 = 32 ∨ (Rect.block (s := S4x64x1x1) S1x16x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x256x256.size a ≤ S4x8x256x256.size a
  hwx1_2 : ∀ i : grid1.Coords, EltTy.bits .f32 = 32 ∨ (Rect.block (s := S4x8x256x256) S1x8x256x256.size (cc1_transform_2 i) (hinb1_2 i)).WholeWords (EltTy.packing .f32)

variable [Facts₀]

abbrev win0_0 : Pipeline.Window sig grid0 :=
  Pipeline.Window.ofSpec (Memref.whole main_arg0) S1x64x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x16x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x8x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x64x256x256 : Shape := ⟨4, ![4, 64, 256, 256]⟩
abbrev S_ : Shape := ⟨0, ![]⟩
abbrev S4x64 : Shape := ⟨2, ![4, 64]⟩
abbrev S4x64x1x1 : Shape := ⟨4, ![4, 64, 1, 1]⟩
abbrev S4x64x1x256 : Shape := ⟨4, ![4, 64, 1, 256]⟩
abbrev S4x64x257x256 : Shape := ⟨4, ![4, 64, 257, 256]⟩
abbrev S4x64x258x256 : Shape := ⟨4, ![4, 64, 258, 256]⟩
abbrev S4x64x258x1 : Shape := ⟨4, ![4, 64, 258, 1]⟩
abbrev S4x64x258x257 : Shape := ⟨4, ![4, 64, 258, 257]⟩
abbrev S4x64x258x258 : Shape := ⟨4, ![4, 64, 258, 258]⟩
abbrev S4x256x256 : Shape := ⟨3, ![4, 256, 256]⟩
abbrev S4x1x256x256 : Shape := ⟨4, ![4, 1, 256, 256]⟩
abbrev S4x8x256x256 : Shape := ⟨4, ![4, 8, 256, 256]⟩

abbrev nBuf : Space → Nat
  | .hbm => 158
  | .vmem => 0
  | .smem => 0
  | _ => 0

abbrev hbmTy0_0 (i : Nat) : BufTy := match i % 128 with
  | 0 => ⟨S4x64x256x256, .f32⟩
  | 1 => ⟨S_, .f32⟩
  | 2 => ⟨S4x64, .f32⟩
  | 3 => ⟨S4x64x1x1, .f32⟩
  | 4 => ⟨S_, .f32⟩
  | 5 => ⟨S4x64x1x1, .f32⟩
  | 6 => ⟨S4x64x1x1, .f32⟩
  | 7 => ⟨S_, .i32⟩
  | 8 => ⟨S4x64x1x256, .f32⟩
  | 9 => ⟨S4x64x1x256, .f32⟩
  | 10 => ⟨S4x64x1x256, .f32⟩
  | 11 => ⟨S4x64x257x256, .f32⟩
  | 12 => ⟨S4x64x1x256, .f32⟩
  | 13 => ⟨S4x64x1x256, .f32⟩
  | 14 => ⟨S4x64x1x256, .f32⟩
  | 15 => ⟨S4x64x258x256, .f32⟩
  | 16 => ⟨S4x64x258x1, .f32⟩
  | 17 => ⟨S4x64x258x1, .f32⟩
  | 18 => ⟨S4x64x258x1, .f32⟩
  | 19 => ⟨S4x64x258x257, .f32⟩
  | 20 => ⟨S4x64x258x1, .f32⟩
  | 21 => ⟨S4x64x258x1, .f32⟩
  | 22 => ⟨S4x64x258x1, .f32⟩
  | 23 => ⟨S4x64x258x258, .f32⟩
  | 24 => ⟨S4x64x256x256, .f32⟩
  | 25 => ⟨S4x64x256x256, .f32⟩
  | 26 => ⟨S4x64x256x256, .f32⟩
  | 27 => ⟨S_, .f32⟩
  | 28 => ⟨S4x256x256, .f32⟩
  | 29 => ⟨S4x64x256x256, .f32⟩
  | 30 => ⟨S4x64x256x256, .f32⟩
  | 31 => ⟨S4x64x256x256, .f32⟩
  | 32 => ⟨S4x64x256x256, .f32⟩
  | 33 => ⟨S_, .f32⟩
  | 34 => ⟨S4x256x256, .f32⟩
  | 35 => ⟨S4x64x256x256, .f32⟩
  | 36 => ⟨S_, .f32⟩
  | 37 => ⟨S4x256x256, .f32⟩
  | 38 => ⟨S4x256x256, .f32⟩
  | 39 => ⟨S4x256x256, .f32⟩
  | 40 => ⟨S_, .f32⟩
  | 41 => ⟨S4x256x256, .f32⟩
  | 42 => ⟨S4x256x256, .f32⟩
  | 43 => ⟨S4x256x256, .f32⟩
  | 44 => ⟨S4x64x256x256, .f32⟩
  | 45 => ⟨S4x64x256x256, .f32⟩
  | 46 => ⟨S4x64x256x256, .f32⟩
  | 47 => ⟨S4x64x256x256, .f32⟩
  | 48 => ⟨S_, .f32⟩
  | 49 => ⟨S4x256x256, .f32⟩
  | 50 => ⟨S4x64x256x256, .f32⟩
  | 51 => ⟨S_, .f32⟩
  | 52 => ⟨S4x256x256, .f32⟩
  | 53 => ⟨S4x256x256, .f32⟩
  | 54 => ⟨S4x256x256, .f32⟩
  | 55 => ⟨S_, .f32⟩
  | 56 => ⟨S4x256x256, .f32⟩
  | 57 => ⟨S4x256x256, .f32⟩
  | 58 => ⟨S4x256x256, .f32⟩
  | 59 => ⟨S4x64x256x256, .f32⟩
  | 60 => ⟨S4x64x256x256, .f32⟩
  | 61 => ⟨S4x64x256x256, .f32⟩
  | 62 => ⟨S4x64x256x256, .f32⟩
  | 63 => ⟨S_, .f32⟩
  | 64 => ⟨S4x256x256, .f32⟩
  | 65 => ⟨S4x64x256x256, .f32⟩
  | 66 => ⟨S_, .f32⟩
  | 67 => ⟨S4x256x256, .f32⟩
  | 68 => ⟨S4x256x256, .f32⟩
  | 69 => ⟨S4x256x256, .f32⟩
  | 70 => ⟨S_, .f32⟩
  | 71 => ⟨S4x256x256, .f32⟩
  | 72 => ⟨S4x256x256, .f32⟩
  | 73 => ⟨S4x256x256, .f32⟩
  | 74 => ⟨S4x64x256x256, .f32⟩
  | 75 => ⟨S4x64x256x256, .f32⟩
  | 76 => ⟨S4x64x256x256, .f32⟩
  | 77 => ⟨S4x64x256x256, .f32⟩
  | 78 => ⟨S_, .f32⟩
  | 79 => ⟨S4x256x256, .f32⟩
  | 80 => ⟨S4x64x256x256, .f32⟩
  | 81 => ⟨S_, .f32⟩
  | 82 => ⟨S4x256x256, .f32⟩
  | 83 => ⟨S4x256x256, .f32⟩
  | 84 => ⟨S4x256x256, .f32⟩
  | 85 => ⟨S_, .f32⟩
  | 86 => ⟨S4x256x256, .f32⟩
  | 87 => ⟨S4x256x256, .f32⟩
  | 88 => ⟨S4x256x256, .f32⟩
  | 89 => ⟨S4x64x256x256, .f32⟩
  | 90 => ⟨S4x64x256x256, .f32⟩
  | 91 => ⟨S4x64x256x256, .f32⟩
  | 92 => ⟨S4x64x256x256, .f32⟩
  | 93 => ⟨S_, .f32⟩
  | 94 => ⟨S4x256x256, .f32⟩
  | 95 => ⟨S4x64x256x256, .f32⟩
  | 96 => ⟨S_, .f32⟩
  | 97 => ⟨S4x256x256, .f32⟩
  | 98 => ⟨S4x256x256, .f32⟩
  | 99 => ⟨S4x256x256, .f32⟩
  | 100 => ⟨S_, .f32⟩
  | 101 => ⟨S4x256x256, .f32⟩
  | 102 => ⟨S4x256x256, .f32⟩
  | 103 => ⟨S4x256x256, .f32⟩
  | 104 => ⟨S4x64x256x256, .f32⟩
  | 105 => ⟨S4x64x256x256, .f32⟩
  | 106 => ⟨S4x64x256x256, .f32⟩
  | 107 => ⟨S4x64x256x256, .f32⟩
  | 108 => ⟨S_, .f32⟩
  | 109 => ⟨S4x256x256, .f32⟩
  | 110 => ⟨S4x64x256x256, .f32⟩
  | 111 => ⟨S_, .f32⟩
  | 112 => ⟨S4x256x256, .f32⟩
  | 113 => ⟨S4x256x256, .f32⟩
  | 114 => ⟨S4x256x256, .f32⟩
  | 115 => ⟨S_, .f32⟩
  | 116 => ⟨S4x256x256, .f32⟩
  | 117 => ⟨S4x256x256, .f32⟩
  | 118 => ⟨S4x256x256, .f32⟩
  | 119 => ⟨S4x64x256x256, .f32⟩
  | 120 => ⟨S4x64x256x256, .f32⟩
  | 121 => ⟨S4x64x256x256, .f32⟩
  | 122 => ⟨S4x64x256x256, .f32⟩
  | 123 => ⟨S_, .f32⟩
  | 124 => ⟨S4x256x256, .f32⟩
  | 125 => ⟨S4x64x256x256, .f32⟩
  | 126 => ⟨S_, .f32⟩
  | 127 => ⟨S4x256x256, .f32⟩
  | _ => ⟨S4x64x256x256, .f32⟩

abbrev hbmTy0_1 (i : Nat) : BufTy := match i % 128 with
  | 0 => ⟨S4x256x256, .f32⟩
  | 1 => ⟨S4x256x256, .f32⟩
  | 2 => ⟨S_, .f32⟩
  | 3 => ⟨S4x256x256, .f32⟩
  | 4 => ⟨S4x256x256, .f32⟩
  | 5 => ⟨S4x256x256, .f32⟩
  | 6 => ⟨S4x64x256x256, .f32⟩
  | 7 => ⟨S4x64x256x256, .f32⟩
  | 8 => ⟨S4x64x256x256, .f32⟩
  | 9 => ⟨S4x64x256x256, .f32⟩
  | 10 => ⟨S_, .f32⟩
  | 11 => ⟨S4x256x256, .f32⟩
  | 12 => ⟨S4x64x256x256, .f32⟩
  | 13 => ⟨S_, .f32⟩
  | 14 => ⟨S4x256x256, .f32⟩
  | 15 => ⟨S4x256x256, .f32⟩
  | 16 => ⟨S4x256x256, .f32⟩
  | 17 => ⟨S_, .f32⟩
  | 18 => ⟨S4x256x256, .f32⟩
  | 19 => ⟨S4x256x256, .f32⟩
  | 20 => ⟨S4x256x256, .f32⟩
  | 21 => ⟨S4x1x256x256, .f32⟩
  | 22 => ⟨S4x1x256x256, .f32⟩
  | 23 => ⟨S4x1x256x256, .f32⟩
  | 24 => ⟨S4x1x256x256, .f32⟩
  | 25 => ⟨S4x1x256x256, .f32⟩
  | 26 => ⟨S4x1x256x256, .f32⟩
  | 27 => ⟨S4x1x256x256, .f32⟩
  | 28 => ⟨S4x1x256x256, .f32⟩
  | 29 => ⟨S4x8x256x256, .f32⟩
  | _ => ⟨S4x64x256x256, .f32⟩

abbrev hbmTy (i : Nat) : BufTy := match i / 128 with
  | 0 => hbmTy0_0 i
  | 1 => hbmTy0_1 i
  | _ => ⟨S4x64x256x256, .f32⟩

abbrev bufTy : (tb : Table) → Fin (tcTables nBuf tb) → BufTy
  | .hbm, ⟨i, _⟩ => hbmTy i
  | _, _ => ⟨S4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_cst_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_17 : Ref sig .tc := ⟨.hbm, 108, rfl⟩
abbrev main_v73 : Ref sig .tc := ⟨.hbm, 109, rfl⟩
abbrev main_v74 : Ref sig .tc := ⟨.hbm, 110, rfl⟩
abbrev main_cst_18 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_19 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_20 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_22 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_v97 : Ref sig .tc := ⟨.hbm, 139, rfl⟩
abbrev main_v98 : Ref sig .tc := ⟨.hbm, 140, rfl⟩
abbrev main_cst_24 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_25 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩

abbrev nD : Nat := 1
abbrev τ : Topo := Topo.v7x

variable {F : FTy → Type} [FloatOps F]

class Facts₀ : Prop where
  reducesTo_S4x64x256x256_S4x64_d2_3 : S4x64x256x256.ReducesTo [2, 3] S4x64
  h_S_ : 0 < S_.numel
  bcast_S4x64_S4x64x1x1_0_1 : S4x64.BroadcastsInDim S4x64x1x1 (![0, 1] : Fin 2 → Fin S4x64x1x1.rank)
  bcast_S_S4x64x1x1 : S_.BroadcastsInDim S4x64x1x1 (![] : Fin 0 → Fin S4x64x1x1.rank)
  slices_S4x64x256x256_S4x64x1x256_0_0_0_0 : S4x64x256x256.Slices ![0, 0, 0, 0] S4x64x1x256
  slices_S4x64x256x256_S4x64x1x256_0_0_1_0 : S4x64x256x256.Slices ![0, 0, 1, 0] S4x64x1x256
  concatenates_S4x64x1x256_S4x64x256x256_S4x64x257x256_d2 : Shape.Concatenates [S4x64x1x256, S4x64x256x256] S4x64x257x256 2
  slices_S4x64x257x256_S4x64x1x256_0_0_256_0 : S4x64x257x256.Slices ![0, 0, 256, 0] S4x64x1x256
  slices_S4x64x257x256_S4x64x1x256_0_0_255_0 : S4x64x257x256.Slices ![0, 0, 255, 0] S4x64x1x256
  concatenates_S4x64x257x256_S4x64x1x256_S4x64x258x256_d2 : Shape.Concatenates [S4x64x257x256, S4x64x1x256] S4x64x258x256 2
  slices_S4x64x258x256_S4x64x258x1_0_0_0_0 : S4x64x258x256.Slices ![0, 0, 0, 0] S4x64x258x1
  slices_S4x64x258x256_S4x64x258x1_0_0_0_1 : S4x64x258x256.Slices ![0, 0, 0, 1] S4x64x258x1
  concatenates_S4x64x258x1_S4x64x258x256_S4x64x258x257_d3 : Shape.Concatenates [S4x64x258x1, S4x64x258x256] S4x64x258x257 3
  slices_S4x64x258x257_S4x64x258x1_0_0_0_256 : S4x64x258x257.Slices ![0, 0, 0, 256] S4x64x258x1
  slices_S4x64x258x257_S4x64x258x1_0_0_0_255 : S4x64x258x257.Slices ![0, 0, 0, 255] S4x64x258x1
  concatenates_S4x64x258x257_S4x64x258x1_S4x64x258x258_d3 : Shape.Concatenates [S4x64x258x257, S4x64x258x1] S4x64x258x258 3
  bcast_S4x64x1x1_S4x64x256x256_0_1_2_3 : S4x64x1x1.BroadcastsInDim S4x64x256x256 (![0, 1, 2, 3] : Fin 4 → Fin S4x64x256x256.rank)
  reducesTo_S4x64x256x256_S4x256x256_d1 : S4x64x256x256.ReducesTo [1] S4x256x256
  slices_S4x64x258x258_S4x64x256x256_0_0_0_0 : S4x64x258x258.Slices ![0, 0, 0, 0] S4x64x256x256
  bcast_S_S4x256x256 : S_.BroadcastsInDim S4x256x256 (![] : Fin 0 → Fin S4x256x256.rank)
  slices_S4x64x258x258_S4x64x256x256_0_0_0_1 : S4x64x258x258.Slices ![0, 0, 0, 1] S4x64x256x256
  slices_S4x64x258x258_S4x64x256x256_0_0_0_2 : S4x64x258x258.Slices ![0, 0, 0, 2] S4x64x256x256
  slices_S4x64x258x258_S4x64x256x256_0_0_1_0 : S4x64x258x258.Slices ![0, 0, 1, 0] S4x64x256x256
  slices_S4x64x258x258_S4x64x256x256_0_0_1_2 : S4x64x258x258.Slices ![0, 0, 1, 2] S4x64x256x256
  slices_S4x64x258x258_S4x64x256x256_0_0_2_0 : S4x64x258x258.Slices ![0, 0, 2, 0] S4x64x256x256
  slices_S4x64x258x258_S4x64x256x256_0_0_2_1 : S4x64x258x258.Slices ![0, 0, 2, 1] S4x64x256x256
  slices_S4x64x258x258_S4x64x256x256_0_0_2_2 : S4x64x258x258.Slices ![0, 0, 2, 2] S4x64x256x256
  bcast_S4x256x256_S4x1x256x256_0_2_3 : S4x256x256.BroadcastsInDim S4x1x256x256 (![0, 2, 3] : Fin 3 → Fin S4x1x256x256.rank)
  concatenates_S4x1x256x256_S4x1x256x256_S4x1x256x256_S4x1x256x256_S4x1x256x256_S4x1x256x256_S4x1x256x256_S4x1x256x256_S4x8x256x256_d1 : Shape.Concatenates [S4x1x256x256, S4x1x256x256, S4x1x256x256, S4x1x256x256, S4x1x256x256, S4x1x256x256, S4x1x256x256, S4x1x256x256] S4x8x256x256 1

variable [Facts₀]

class Facts : Prop extends Facts₀ where

variable [Facts]
-- ==== Proof.K.Reg0.lean ====
/-
  The first kernel region (the per-channel spatial mean), run at any float instance.

  The region has four grid points, one per image. At point t the body reads the whole [1,64,256,256] block of the
  input (image t), adds each channel's 256 × 256 entries up, scales the 64 sums by one constant and stores them
  as the [1,64,1,1] block t of the region's output. Written here: the block a window holds at a point, the
  body's run (the output's staging buffer ends holding the one stored value), and the proof data of the
  pipeline over any contents V the region is entered from.
-/
import proofs.«100834_j73478300500485_1_alg».proof.Proof.Gen.Kernel.Launch
import proofs.«100834_j73478300500485_1_alg».proof.Proof.Gen.Kernel.Skeleton
import proofs.«100834_j73478300500485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block, as the body loads it. -/
abbrev rIn0 : Rect S1x64x256x256 := Rect.unit (s := S1x64x256x256) ![0, 0, 0, 0] S1x64x256x256.size inb_S1x64x256x256_S1x64x256x256_0_0_0_0
/-- The whole output block, as the body stores it. -/
abbrev rOut0 : Rect S1x64x1x1 := Rect.unit (s := S1x64x1x1) ![0, 0, 0, 0] S1x64x1x1.size inb_S1x64x1x1_S1x64x1x1_0_0_0_0

/-- What the body leaves in the output's staging buffer: the 64 scaled channel sums of the input block. -/
def out0_1 (x0 : Vec F S1x64x256x256 .f32) : Vec F S1x64x1x1 .f32 :=
  View.canon [⟨rOut0, k0_pay1 (View.ld x0 rIn0)⟩]

theorem cover0_1 (p0 : Vec F S1x64x1x1 .f32) (y : S1x64x1x1.Idx) :
    ∃ pc ∈ ([⟨rOut0, p0⟩] : List (View.Piece (Elt F) S1x64x1x1 .f32)), y ∈ pc.1.set :=
  View.cover_of_tiled [⟨rOut0, p0⟩] S1x64x1x1.size (by rfl) y

set_option maxHeartbeats 1000000 in
/-- The body on whole staging buffers: the input's is left as read, the output's ends at out0_1 of the input's. -/
theorem sound_kernel0 (c : Dev nD) (E : Set ℕ) (i : grid0.Coords) (arg1 : Memref sig .tc .vmem S1x64x256x256 .f32) (harg1 : arg1.IsWhole) (arg2 : Memref sig .tc .vmem S1x64x1x1 .f32) (harg2 : arg2.IsWhole)
    (x0 : Vec F S1x64x256x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core c: the arrays as the region finds them; after the body at point t the input's
    buffer at its block and the output's at out0_1 of it; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Base.lean ====
/-
  The second kernel region (the windowed correlations), what its three control cases share.

  The region's grid is 4 × 4: point t = 4·b + j works on image b and on the j-th chunk of 16 channels. Its body
  keeps three arrays between points — the running Σ cx² ([256,256]) and, per neighbour, the running Σ cn·cx and
  Σ cn·cn ([8,256,256] each). At j = 0 it first zeroes them; at every point it adds the chunk's sums; at j = 3 it
  finally stores the eight quotients into the output block, which is written back only there. So a point is in one
  of three cases: first chunk (j = 0), middle chunk (j = 1, 2), last chunk (j = 3). Written here: the windows' blocks,
  the two conditions in closed form, where the output window is idle, and the scoped buffers the region does not
  stage spelt out one by one.
-/
import proofs.«100834_j73478300500485_1_alg».proof.Proof.Gen.Kernel.Launch
import proofs.«100834_j73478300500485_1_alg».proof.Proof.Gen.Kernel.Skeleton
import proofs.«100834_j73478300500485_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input window's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- "This is the first chunk": the body's first condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last chunk": the body's second condition. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle, and not written back, except on the last chunk. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1_2 : View sig .tc .vmem S1x8x256x256 .f32 := (Memref.whole cc1_stg2_0 : Memref sig .tc .vmem S1x8x256x256 .f32).view
/-- Each window's current staging buffer at point t, as the pipeline passes it to the body. -/
abbrev ms1_0 (t : Fin cfg1.N) : Memref sig .tc .vmem S1x16x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x256x256 .f32 := win1_2.stage (cfg1.slots t 2)
abbrev hs1_2 (t : Fin cfg1.N) : (ms1_2 t).IsWhole := hstage1_2 ((cfg1.slots t 2).cast nbuf1_2)
/-- The three arrays kept between points. -/
abbrev scM1_0 : Memref sig .tc .vmem S256x256 .f32 := Memref.whole cc1_scratch0
abbrev scM1_1 : Memref sig .tc .vmem S8x256x256 .f32 := Memref.whole cc1_scratch1
abbrev scM1_2 : Memref sig .tc .vmem S8x256x256 .f32 := Memref.whole cc1_scratch2
abbrev VS1_0 : View sig .tc .vmem S256x256 .f32 := scM1_0.view
abbrev VS1_1 : View sig .tc .vmem S8x256x256 .f32 := scM1_1.view
abbrev VS1_2 : View sig .tc .vmem S8x256x256 .f32 := scM1_2.view

/-- The first region's four staging buffers, which this region never touches, each at some contents. -/
def other1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before its first point: those four buffers, the three kept arrays at anything, and the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1_0 fullShare d) ∗ (∃ d, owns (c : Thread nD τ) scM1_1 fullShare d) ∗ (∃ d, owns (c : Thread nD τ) scM1_2 fullShare d))
        ∗ (∃ r, prngReg c r)) := by
  unfold Pipeline.ΦA; rw [scopedRest1_eq]; simp only [scM1_0, scM1_1, scM1_2, owns_whole]; try rfl

end Cert.Kernel.Hand

end
-- ==== Proof.K.Reg1RunA.lean ====
/-
  The second region's body on the FIRST channel chunk of an image (the first condition holds, the second fails).

  The three kept arrays are at anything when the body starts: it stores zeros over each, then adds the chunk's sums
  into them; the output block is not stored into and is handed back as found. What each kept array ends with is
  found by running the body: a list of stored pieces (last first), the witness of this definition.
-/
import proofs.«100834_j73478300500485_1_alg».proof.Proof.K.Reg1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x16x256x256 .f32) (harg2 : arg2.IsWhole) (arg3 : Memref sig .tc .vmem S1x16x1x1 .f32) (harg3 : arg3.IsWhole) (arg4 : Memref sig .tc .vmem S1x8x256x256 .f32) (harg4 : arg4.IsWhole) (arg5 : Memref sig .tc .vmem S256x256 .f32) (harg5 : arg5.IsWhole) (arg6 : Memref sig .tc .vmem S8x256x256 .f32) (harg6 : arg6.IsWhole) (arg7 : Memref sig .tc .vmem S8x256x256 .f32) (harg7 : arg7.IsWhole) (hc0 : cond1_0 i) (hc1 : ¬cond1_1 i)
    (x0 : Vec F S1x16x256x256 .f32) (x1 : Vec F S1x16x1x1 .f32) :
    Σ' (L2 : List (View.Piece (Elt F) S1x8x256x256 .f32)) (LS0 : List (View.Piece (Elt F) S256x256 .f32)) (LS1 : List (View.Piece (Elt F) S8x256x256 .f32)), { LS2 : List (View.Piece (Elt F) S8x256x256 .f32) //
      ∀ (xi2 : Vec F S1x8x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, ?_, fun xi2 E K => ?run⟩
  case run =>
    simp only [cc1_kernel_eq_skeleton]; unfold cc1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.K.Reg1RunB.lean ====
/-
  The second region's body on a MIDDLE channel chunk of an image (both conditions fail).

  The three kept arrays start at what the point before left; the body adds the chunk's sums into them; the output
  block is not stored into and is handed back as found.
-/
import proofs.«100834_j73478300500485_1_alg».proof.Proof.K.Reg1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x16x256x256 .f32) (harg2 : arg2.IsWhole) (arg3 : Memref sig .tc .vmem S1x16x1x1 .f32) (harg3 : arg3.IsWhole) (arg4 : Memref sig .tc .vmem S1x8x256x256 .f32) (harg4 : arg4.IsWhole) (arg5 : Memref sig .tc .vmem S256x256 .f32) (harg5 : arg5.IsWhole) (arg6 : Memref sig .tc .vmem S8x256x256 .f32) (harg6 : arg6.IsWhole) (arg7 : Memref sig .tc .vmem S8x256x256 .f32) (harg7 : arg7.IsWhole) (hc0 : ¬cond1_0 i) (hc1 : ¬cond1_1 i)
    (x0 : Vec F S1x16x256x256 .f32) (x1 : Vec F S1x16x1x1 .f32) (xs0 : Vec F S256x256 .f32) (xs1 : Vec F S8x256x256 .f32) (xs2 : Vec F S8x256x256 .f32) :
    Σ' (L2 : List (View.Piece (Elt F) S1x8x256x256 .f32)) (LS0 : List (View.Piece (Elt F) S256x256 .f32)) (LS1 : List (View.Piece (Elt F) S8x256x256 .f32)), { LS2 : List (View.Piece (Elt F) S8x256x256 .f32) //
      ∀ (xi2 : Vec F S1x8x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, ?_, fun xi2 E K => ?run⟩
  case run =>
    simp only [cc1_kernel_eq_skeleton]; unfold cc1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.K.Reg1RunC.lean ====
/-
  The second region's body on the LAST channel chunk of an image (the first condition fails, the second holds).

  The three kept arrays start at what the point before left; the body adds the chunk's sums into them and then
  stores, for each of the eight neighbours, the quotient of the sums into the output block, whose buffer starts at
  anything and ends with those eight stored pieces.
-/
import proofs.«100834_j73478300500485_1_alg».proof.Proof.K.Reg1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x16x256x256 .f32) (harg2 : arg2.IsWhole) (arg3 : Memref sig .tc .vmem S1x16x1x1 .f32) (harg3 : arg3.IsWhole) (arg4 : Memref sig .tc .vmem S1x8x256x256 .f32) (harg4 : arg4.IsWhole) (arg5 : Memref sig .tc .vmem S256x256 .f32) (harg5 : arg5.IsWhole) (arg6 : Memref sig .tc .vmem S8x256x256 .f32) (harg6 : arg6.IsWhole) (arg7 : Memref sig .tc .vmem S8x256x256 .f32) (harg7 : arg7.IsWhole) (hc0 : ¬cond1_0 i) (hc1 : cond1_1 i)
    (x0 : Vec F S1x16x256x256 .f32) (x1 : Vec F S1x16x1x1 .f32) (xs0 : Vec F S256x256 .f32) (xs1 : Vec F S8x256x256 .f32) (xs2 : Vec F S8x256x256 .f32) :
    Σ' (L2 : List (View.Piece (Elt F) S1x8x256x256 .f32)) (LS0 : List (View.Piece (Elt F) S256x256 .f32)) (LS1 : List (View.Piece (Elt F) S8x256x256 .f32)), { LS2 : List (View.Piece (Elt F) S8x256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, ?_, ?_, fun E K => ?run⟩
  case run =>
    simp only [cc1_kernel_eq_skeleton]; unfold cc1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Hand

end
-- ==== Proof.K.Reg1Dat.lean ====
/-
  The second kernel region's proof data: what the output block and the three kept arrays hold after every point.

  Point by point (t = 4·b + j): on the first chunk (j = 0) the contents are what the first-chunk run leaves from the
  point's two input blocks alone; on a middle or last chunk they are what that case's run leaves from the input
  blocks and from the three arrays as the point before left them. The pipeline's invariant between points says exactly
  that: the three arrays hold the previous point's contents. The output block is stored, and written back, only on
  the last chunk of an image.
-/
import proofs.«100834_j73478300500485_1_alg».proof.Proof.K.Reg1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block's buffer and the three kept arrays, in this order. -/
abbrev Out4 (F : FTy → Type) : Type := Vec F S1x8x256x256 .f32 × Vec F S256x256 .f32 × Vec F S8x256x256 .f32 × Vec F S8x256x256 .f32

/-- The first-chunk run at point t, on the point's staging buffers and input blocks. -/
def runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t)
/-- The middle-chunk run at point t, from the kept arrays' previous contents. -/
def runB (c : Dev nD) (t : Fin cfg1.N) (h0 : ¬t.val % 4 = 0) (h1 : ¬t.val % 4 = 3) (p : Out4 F) :=
  kernelRun1_B (F := F) c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) p.2.1 p.2.2.1 p.2.2.2
/-- The last-chunk run at point t, from the kept arrays' previous contents. -/
def runC (c : Dev nD) (t : Fin cfg1.N) (h0 : ¬t.val % 4 = 0) (h1 : t.val % 4 = 3) (p : Out4 F) :=
  kernelRun1_C (F := F) c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) p.2.1 p.2.2.1 p.2.2.2

/-- A run's four piece lists read back as contents. -/
def readBack (L2 : List (View.Piece (Elt F) S1x8x256x256 .f32)) (LS0 : List (View.Piece (Elt F) S256x256 .f32))
    (LS1 LS2 : List (View.Piece (Elt F) S8x256x256 .f32)) : Out4 F :=
  (VO1_2.read (Elt F) (VO1_2.writes (Elt F) VO1_2.junk L2), VS1_0.read (Elt F) (VS1_0.writes (Elt F) VS1_0.junk LS0),
    VS1_1.read (Elt F) (VS1_1.writes (Elt F) VS1_1.junk LS1), VS1_2.read (Elt F) (VS1_2.writes (Elt F) VS1_2.junk LS2))

def resA (c : Dev nD) (t : Fin cfg1.N) (h0 : t.val % 4 = 0) (h1 : ¬t.val % 4 = 3) : Out4 F :=
  readBack (runA V c t h0 h1).1 (runA V c t h0 h1).2.1 (runA V c t h0 h1).2.2.1 (runA V c t h0 h1).2.2.2.1
def resB (c : Dev nD) (t : Fin cfg1.N) (h0 : ¬t.val % 4 = 0) (h1 : ¬t.val % 4 = 3) (p : Out4 F) : Out4 F :=
  readBack (runB V c t h0 h1 p).1 (runB V c t h0 h1 p).2.1 (runB V c t h0 h1 p).2.2.1 (runB V c t h0 h1 p).2.2.2.1
def resC (c : Dev nD) (t : Fin cfg1.N) (h0 : ¬t.val % 4 = 0) (h1 : t.val % 4 = 3) (p : Out4 F) : Out4 F :=
  readBack (runC V c t h0 h1 p).1 (runC V c t h0 h1 p).2.1 (runC V c t h0 h1 p).2.2.1 (runC V c t h0 h1 p).2.2.2.1

/-- THE ACCUMULATION: the output buffer and the three kept arrays after the body at position n. -/
def outsAt1 (c : Dev nD) : (n : ℕ) → n < cfg1.N → Out4 F
  | 0, hn => resA V c ⟨0, hn⟩ (Nat.zero_mod 4) (by simp)
  | n + 1, hn =>
    if h0 : (n + 1) % 4 = 0 then resA V c ⟨n + 1, hn⟩ h0 (by simp only []; omega)
    else if h1 : (n + 1) % 4 = 3 then resC V c ⟨n + 1, hn⟩ h0 h1 (outsAt1 c n (Nat.lt_of_succ_lt hn))
    else resB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = resA V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = resB V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = resC V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-- The three kept arrays at given contents. -/
def kept (c : Dev nD) (p : Out4 F) : sProp 𝕄 :=
  iprop(owns (c : Thread nD τ) scM1_0 fullShare p.2.1 ∗ owns (c : Thread nD τ) scM1_1 fullShare p.2.2.1 ∗ owns (c : Thread nD τ) scM1_2 fullShare p.2.2.2)

/-- The invariant before position n: before the first point the three arrays hold anything; afterwards what the
    point before left. -/
def PhiS1 (c : Dev nD) : (n : ℕ) → n ≤ cfg1.N → sProp 𝕄
  | 0, _ => Pipeline.ΦA spec1 c
  | n + 1, hn => iprop(iprop(other1 (F := F) c ∗ kept c (outsAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(other1 (F := F) c ∗ kept c (outsAt1 V c n hn)) ∗ (∃ r, prngReg c r)) := rfl
theorem PhiS1_pos (c : Dev nD) (n : ℕ) (h : n ≤ cfg1.N) (hz : n ≠ 0) :
    PhiS1 V c n h = iprop(iprop(other1 (F := F) c ∗ kept c (outsAt1 V c (n - 1) (by omega))) ∗ (∃ r, prngReg c r)) := by
  cases n with
  | zero => exact absurd rfl hz
  | succ n => rfl

/-- The pipeline's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Hand

end
-- ==== Proof.K.Reg1Body.lean ====
/-
  The second kernel region's body obligation.

  Every kept array is covered by the pieces a run stores into it (each run stores every 256 × 256 plane of it), and on
  the last chunk the eight stored planes cover the output block; so what a buffer holds after the body is its
  pieces read back, whatever it held before. With that, the body at a point takes the invariant "the kept arrays
  hold the previous point's contents" to the same at the next point, in each of the three cases.
-/
import proofs.«100834_j73478300500485_1_alg».proof.Proof.K.Reg1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem coverA_0 (c : Dev nD) (t : Fin cfg1.N) (h0 : t.val % 4 = 0) (h1 : ¬t.val % 4 = 3) (y : S256x256.Idx) :
    ∃ pc ∈ (runA V c t h0 h1).2.1, y ∈ pc.1.set :=
  View.cover_of_tiledL (runA V c t h0 h1).2.1 S256x256.size (by sl_kernel_rfl) y
theorem coverA_1 (c : Dev nD) (t : Fin cfg1.N) (h0 : t.val % 4 = 0) (h1 : ¬t.val % 4 = 3) (y : S8x256x256.Idx) :
    ∃ pc ∈ (runA V c t h0 h1).2.2.1, y ∈ pc.1.set :=
  View.cover_of_tiledBy (runA V c t h0 h1).2.2.1 S1x256x256.size (by sl_kernel_rfl) y
theorem coverA_2 (c : Dev nD) (t : Fin cfg1.N) (h0 : t.val % 4 = 0) (h1 : ¬t.val % 4 = 3) (y : S8x256x256.Idx) :
    ∃ pc ∈ (runA V c t h0 h1).2.2.2.1, y ∈ pc.1.set :=
  View.cover_of_tiledBy (runA V c t h0 h1).2.2.2.1 S1x256x256.size (by sl_kernel_rfl) y

theorem coverB_0 (c : Dev nD) (t : Fin cfg1.N) (h0 : ¬t.val % 4 = 0) (h1 : ¬t.val % 4 = 3) (p : Out4 F) (y : S256x256.Idx) :
    ∃ pc ∈ (runB V c t h0 h1 p).2.1, y ∈ pc.1.set :=
  View.cover_of_tiledL (runB V c t h0 h1 p).2.1 S256x256.size (by sl_kernel_rfl) y
theorem coverB_1 (c : Dev nD) (t : Fin cfg1.N) (h0 : ¬t.val % 4 = 0) (h1 : ¬t.val % 4 = 3) (p : Out4 F) (y : S8x256x256.Idx) :
    ∃ pc ∈ (runB V c t h0 h1 p).2.2.1, y ∈ pc.1.set :=
  View.cover_of_tiledBy (runB V c t h0 h1 p).2.2.1 S1x256x256.size (by sl_kernel_rfl) y
theorem coverB_2 (c : Dev nD) (t : Fin cfg1.N) (h0 : ¬t.val % 4 = 0) (h1 : ¬t.val % 4 = 3) (p : Out4 F) (y : S8x256x256.Idx) :
    ∃ pc ∈ (runB V c t h0 h1 p).2.2.2.1, y ∈ pc.1.set :=
  View.cover_of_tiledBy (runB V c t h0 h1 p).2.2.2.1 S1x256x256.size (by sl_kernel_rfl) y

theorem coverC_0 (c : Dev nD) (t : Fin cfg1.N) (h0 : ¬t.val % 4 = 0) (h1 : t.val % 4 = 3) (p : Out4 F) (y : S256x256.Idx) :
    ∃ pc ∈ (runC V c t h0 h1 p).2.1, y ∈ pc.1.set :=
  View.cover_of_tiledL (runC V c t h0 h1 p).2.1 S256x256.size (by sl_kernel_rfl) y
theorem coverC_1 (c : Dev nD) (t : Fin cfg1.N) (h0 : ¬t.val % 4 = 0) (h1 : t.val % 4 = 3) (p : Out4 F) (y : S8x256x256.Idx) :
    ∃ pc ∈ (runC V c t h0 h1 p).2.2.1, y ∈ pc.1.set :=
  View.cover_of_tiledBy (runC V c t h0 h1 p).2.2.1 S1x256x256.size (by sl_kernel_rfl) y
theorem coverC_2 (c : Dev nD) (t : Fin cfg1.N) (h0 : ¬t.val % 4 = 0) (h1 : t.val % 4 = 3) (p : Out4 F) (y : S8x256x256.Idx) :
    ∃ pc ∈ (runC V c t h0 h1 p).2.2.2.1, y ∈ pc.1.set :=
  View.cover_of_tiledBy (runC V c t h0 h1 p).2.2.2.1 S1x256x256.size (by sl_kernel_rfl) y

theorem coverC_out (c : Dev nD) (t : Fin cfg1.N) (h0 : ¬t.val % 4 = 0) (h1 : t.val % 4 = 3) (p : Out4 F) (y : S1x8x256x256.Idx) :
    ∃ pc ∈ (runC V c t h0 h1 p).1, y ∈ pc.1.set :=
  View.cover_of_tiledL (runC V c t h0 h1 p).1 S1x1x256x256.size (by sl_kernel_rfl) y

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t (fun h => h1 ((hcond1_1 t).mp h))) (noFlush1_2 t (fun h => h1 ((hcond1_1 t).mp h)))]
    rw [outsAt1_A V c t h0 h1]
    by_cases hz : t.val = 0
    · rw [PhiS1_castSucc V c t, PhiS1_zero V c _ _ hz, PhiA1_eq]
      iintro ⟨⟨⟨Ha, Hb, Hc, Hd, HS0, HS1, HS2⟩, Hg⟩, Ho, ⟨%d0, H0⟩, ⟨%d1, H1⟩, ⟨%d2, H2⟩⟩
      ihave Hoth := (show iprop(_ ∗ _ ∗ _ ∗ _) ⊢ other1 (F := F) c from .rfl) $$ [Ha Hb Hc Hd]
      · isplitl [Ha]; · iexact Ha
        isplitl [Hb]; · iexact Hb
        isplitl [Hc]; · iexact Hc
        iexact Hd
      iapply ((runA V c t h0 h1).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [Hoth HS0 HS1 HS2 Hg]
      · isplitl [Hoth HS0 HS1 HS2]
        · isplitl [Hoth]; · iexact Hoth
          (try unfold kept); unfold resA readBack; dsimp only
          isplitl [HS0]
          · unfold owns; iexists _; isplitr
            swap; · iexact HS0
            ipureintro; exact View.read_writes_of_cover _ _ _ _ _ (coverA_0 V c t h0 h1)
          isplitl [HS1]
          · unfold owns; iexists _; isplitr
            swap; · iexact HS1
            ipureintro; exact View.read_writes_of_cover _ _ _ _ _ (coverA_1 V c t h0 h1)
          unfold owns; iexists _; isplitr
          swap; · iexact HS2
          ipureintro; exact View.read_writes_of_cover _ _ _ _ _ (coverA_2 V c t h0 h1)
        iexact Hg
      isplitl [Ho]; · iexact Ho
      isplitl [H0]; · iexact H0
      isplitl [H1]; · iexact H1
      iexists _; iexact H2
    · rw [PhiS1_castSucc V c t, PhiS1_pos V c _ _ hz]
      unfold kept
      iintro ⟨⟨⟨Hoth, HS0, HS1, HS2⟩, Hg⟩, Ho, ⟨%d0, H0⟩, ⟨%d1, H1⟩, ⟨%d2, H2⟩⟩
      iapply ((runA V c t h0 h1).2.2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [Hoth HS0 HS1 HS2 Hg]
      · isplitl [Hoth HS0 HS1 HS2]
        · isplitl [Hoth]; · iexact Hoth
          (try unfold kept); unfold resA readBack; dsimp only
          isplitl [HS0]
          · unfold owns; iexists _; isplitr
            swap; · iexact HS0
            ipureintro; exact View.read_writes_of_cover _ _ _ _ _ (coverA_0 V c t h0 h1)
          isplitl [HS1]
          · unfold owns; iexists _; isplitr
            swap; · iexact HS1
            ipureintro; exact View.read_writes_of_cover _ _ _ _ _ (coverA_1 V c t h0 h1)
          unfold owns; iexists _; isplitr
          swap; · iexact HS2
          ipureintro; exact View.read_writes_of_cover _ _ _ _ _ (coverA_2 V c t h0 h1)
        iexact Hg
      isplitl [Ho]; · iexact Ho
      isplitl [H0]; · iexact H0
      isplitl [H1]; · iexact H1
      iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t ((hcond1_1 t).mpr h1)], after1_2]
      rw [outsAt1_C V c t h0 h1]
      have hz : t.val ≠ 0 := fun hz => h0 (by rw [hz])
      rw [PhiS1_castSucc V c t, PhiS1_pos V c _ _ hz]
      unfold kept
      iintro ⟨⟨⟨Hoth, HS0, HS1, HS2⟩, Hg⟩, Ho, ⟨%d0, H0⟩, ⟨%d1, H1⟩, ⟨%d2, H2⟩⟩
      iapply ((runC V c t h0 h1 (outsAt1 V c (t.val - 1) (Nat.lt_of_le_of_lt (Nat.sub_le _ _) t.isLt))).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [Hoth HS0 HS1 HS2 Hg]
      · isplitl [Hoth HS0 HS1 HS2]
        · isplitl [Hoth]; · iexact Hoth
          (try unfold kept); unfold resC readBack; dsimp only
          isplitl [HS0]
          · unfold owns; iexists _; isplitr
            swap; · iexact HS0
            ipureintro; exact View.read_writes_of_cover _ _ _ _ _ (coverC_0 V c t h0 h1 _)
          isplitl [HS1]
          · unfold owns; iexists _; isplitr
            swap; · iexact HS1
            ipureintro; exact View.read_writes_of_cover _ _ _ _ _ (coverC_1 V c t h0 h1 _)
          unfold owns; iexists _; isplitr
          swap; · iexact HS2
          ipureintro; exact View.read_writes_of_cover _ _ _ _ _ (coverC_2 V c t h0 h1 _)
        iexact Hg
      isplitl [Ho]; · iexact Ho
      isplitl [H0]; · iexact H0
      isplitl [H1]; · iexact H1
      unfold resC readBack; dsimp only
      unfold owns; iexists _; isplitr
      swap; · iexact H2
      ipureintro; exact View.read_writes_of_cover _ _ _ _ _ (coverC_out V c t h0 h1 _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      have hz : t.val ≠ 0 := fun hz => h0 (by rw [hz])
      rw [PhiS1_castSucc V c t, PhiS1_pos V c _ _ hz]
      unfold kept
      iintro ⟨⟨⟨Hoth, HS0, HS1, HS2⟩, Hg⟩, Ho, ⟨%d0, H0⟩, ⟨%d1, H1⟩, ⟨%d2, H2⟩⟩
      iapply ((runB V c t h0 h1 (outsAt1 V c (t.val - 1) (Nat.lt_of_le_of_lt (Nat.sub_le _ _) t.isLt))).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [Hoth HS0 HS1 HS2 Hg]
      · isplitl [Hoth HS0 HS1 HS2]
        · isplitl [Hoth]; · iexact Hoth
          (try unfold kept); unfold resB readBack; dsimp only
          isplitl [HS0]
          · unfold owns; iexists _; isplitr
            swap; · iexact HS0
            ipureintro; exact View.read_writes_of_cover _ _ _ _ _ (coverB_0 V c t h0 h1 _)
          isplitl [HS1]
          · unfold owns; iexists _; isplitr
            swap; · iexact HS1
            ipureintro; exact View.read_writes_of_cover _ _ _ _ _ (coverB_1 V c t h0 h1 _)
          unfold owns; iexists _; isplitr
          swap; · iexact HS2
          ipureintro; exact View.read_writes_of_cover _ _ _ _ _ (coverB_2 V c t h0 h1 _)
        iexact Hg
      isplitl [Ho]; · iexact Ho
      isplitl [H0]; · iexact H0
      isplitl [H1]; · iexact H1
      iexists _; iexact H2

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the kept arrays' contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  unfold kept other1
  iintro ⟨⟨⟨Ha, Hb, Hc, Hd⟩, HS0, HS1, HS2⟩, Hg⟩
  isplitr [Hg]
  · isplitl [Ha]; · iexact Ha
    isplitl [Hb]; · iexact Hb
    isplitl [Hc]; · iexact Hc
    isplitl [Hd]; · iexact Hd
    isplitl [HS0]; · iexists _; iexact HS0
    isplitl [HS1]; · iexists _; iexact HS1
    iexists _; iexact HS2
  iexact Hg

end Cert.Kernel.Hand

end
-- ==== Proof.K.Run.lean ====
/-
  The whole program run: the two kernel regions one after the other.

  Between the regions every buffer outside the scoped memory holds named contents: at launch the memory m; after the
  first region the same except its output array (the channel means), which holds what the region's write-backs leave;
  after the second region the same except the result array, likewise. The run theorem says every weakly fair
  execution terminates without fault with every such buffer at the last of these contents — which gives both the
  result array by name and the argument array unchanged.
-/
import proofs.«100834_j73478300500485_1_alg».proof.Proof.K.Reg0
import proofs.«100834_j73478300500485_1_alg».proof.Proof.K.Reg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- The argument array is an input of both regions, so it ends as launched. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := (W1_arr m c 0).trans (((dat0 (V0 m) c).arrAt_in 0 rfl _).trans (A_eq0 (V0 m) c 0))
    _ = m ((c : Thread nD τ).loc main_arg0) := rfl

/-- The result array ends at what the second region's write-backs leave. -/
theorem W2_main_v1 (c : Dev nD) : W2 m c (Proc.devRef .tc main_v1) = (dat1 (V1 m) c).arrAt 2 cfg1.N := W2_arr m c 2
/-- The second region finds the channel means where the first region's write-backs left them. -/
theorem V1_main_v0 (c : Dev nD) : V1 m c main_v0 = (dat0 (V0 m) c).arrAt 1 cfg0.N := W1_arr m c 1
/-- and the argument array as launched. -/
theorem V1_main_arg0 (c : Dev nD) : V1 m c main_arg0 = m ((c : Thread nD τ).loc main_arg0) :=
  (W1_arr m c 0).trans (((dat0 (V0 m) c).arrAt_in 0 rfl _).trans (A_eq0 (V0 m) c 0))

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V1 m) c)
    unfold Pipeline.ΦA
    iintro ⟨Hp, -, Hr⟩
    isplitl [Hr]; · iexact Hr
    iexact Hp
  hout c := by
    rw [Pipeline.ownSems0_none]
    refine .trans (show (pdats m 1 c).Φ (Fin.last _) ⊢ Pipeline.ΦA spec1 c from hout1 (V1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: every weakly fair execution of the program from memory m terminates, nothing faulting, with the result
    array at what the second region's write-backs leave and the argument array as launched. -/
theorem run_all : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c)⟩)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_all m ρ)

end Cert.Kernel.Hand

end
-- ==== Proof.KI.Reg0.lean ====
/-
  The first kernel region (the per-channel spatial mean), run at any float instance.

  The region has four grid points, one per image. At point t the body reads the whole [1,64,256,256] block of the
  input (image t), adds each channel's 256 × 256 entries up, scales the 64 sums by one constant and stores them
  as the [1,64,1,1] block t of the region's output. Written here: the block a window holds at a point, the
  body's run (the output's staging buffer ends holding the one stored value), and the proof data of the
  pipeline over any contents V the region is entered from.
-/
import proofs.«100834_j73478300500485_1_alg».proof.Proof.Gen.KernelIdeal.Launch
import proofs.«100834_j73478300500485_1_alg».proof.Proof.Gen.KernelIdeal.Skeleton
import proofs.«100834_j73478300500485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block, as the body loads it. -/
abbrev rIn0 : Rect S1x64x256x256 := Rect.unit (s := S1x64x256x256) ![0, 0, 0, 0] S1x64x256x256.size inb_S1x64x256x256_S1x64x256x256_0_0_0_0
/-- The whole output block, as the body stores it. -/
abbrev rOut0 : Rect S1x64x1x1 := Rect.unit (s := S1x64x1x1) ![0, 0, 0, 0] S1x64x1x1.size inb_S1x64x1x1_S1x64x1x1_0_0_0_0

/-- What the body leaves in the output's staging buffer: the 64 scaled channel sums of the input block. -/
def out0_1 (x0 : Vec F S1x64x256x256 .f32) : Vec F S1x64x1x1 .f32 :=
  View.canon [⟨rOut0, k0_pay1 (View.ld x0 rIn0)⟩]

theorem cover0_1 (p0 : Vec F S1x64x1x1 .f32) (y : S1x64x1x1.Idx) :
    ∃ pc ∈ ([⟨rOut0, p0⟩] : List (View.Piece (Elt F) S1x64x1x1 .f32)), y ∈ pc.1.set :=
  View.cover_of_tiled [⟨rOut0, p0⟩] S1x64x1x1.size (by rfl) y

set_option maxHeartbeats 1000000 in
/-- The body on whole staging buffers: the input's is left as read, the output's ends at out0_1 of the input's. -/
theorem sound_kernel0 (c : Dev nD) (E : Set ℕ) (i : grid0.Coords) (arg1 : Memref sig .tc .vmem S1x64x256x256 .f32) (harg1 : arg1.IsWhole) (arg2 : Memref sig .tc .vmem S1x64x1x1 .f32) (harg2 : arg2.IsWhole)
    (x0 : Vec F S1x64x256x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core c: the arrays as the region finds them; after the body at point t the input's
    buffer at its block and the output's at out0_1 of it; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Base.lean ====
/-
  The second kernel region (the windowed correlations), what its three control cases share.

  The region's grid is 4 × 4: point t = 4·b + j works on image b and on the j-th chunk of 16 channels. Its body
  keeps three arrays between points — the running Σ cx² ([256,256]) and, per neighbour, the running Σ cn·cx and
  Σ cn·cn ([8,256,256] each). At j = 0 it first zeroes them; at every point it adds the chunk's sums; at j = 3 it
  finally stores the eight quotients into the output block, which is written back only there. So a point is in one
  of three cases: first chunk (j = 0), middle chunk (j = 1, 2), last chunk (j = 3). Written here: the windows' blocks,
  the two conditions in closed form, where the output window is idle, and the scoped buffers the region does not
  stage spelt out one by one.
-/
import proofs.«100834_j73478300500485_1_alg».proof.Proof.Gen.KernelIdeal.Launch
import proofs.«100834_j73478300500485_1_alg».proof.Proof.Gen.KernelIdeal.Skeleton
import proofs.«100834_j73478300500485_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input window's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- "This is the first chunk": the body's first condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last chunk": the body's second condition. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle, and not written back, except on the last chunk. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1_2 : View sig .tc .vmem S1x8x256x256 .f32 := (Memref.whole cc1_stg2_0 : Memref sig .tc .vmem S1x8x256x256 .f32).view
/-- Each window's current staging buffer at point t, as the pipeline passes it to the body. -/
abbrev ms1_0 (t : Fin cfg1.N) : Memref sig .tc .vmem S1x16x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x256x256 .f32 := win1_2.stage (cfg1.slots t 2)
abbrev hs1_2 (t : Fin cfg1.N) : (ms1_2 t).IsWhole := hstage1_2 ((cfg1.slots t 2).cast nbuf1_2)
/-- The three arrays kept between points. -/
abbrev scM1_0 : Memref sig .tc .vmem S256x256 .f32 := Memref.whole cc1_scratch0
abbrev scM1_1 : Memref sig .tc .vmem S8x256x256 .f32 := Memref.whole cc1_scratch1
abbrev scM1_2 : Memref sig .tc .vmem S8x256x256 .f32 := Memref.whole cc1_scratch2
abbrev VS1_0 : View sig .tc .vmem S256x256 .f32 := scM1_0.view
abbrev VS1_1 : View sig .tc .vmem S8x256x256 .f32 := scM1_1.view
abbrev VS1_2 : View sig .tc .vmem S8x256x256 .f32 := scM1_2.view

/-- The first region's four staging buffers, which this region never touches, each at some contents. -/
def other1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before its first point: those four buffers, the three kept arrays at anything, and the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1_0 fullShare d) ∗ (∃ d, owns (c : Thread nD τ) scM1_1 fullShare d) ∗ (∃ d, owns (c : Thread nD τ) scM1_2 fullShare d))
        ∗ (∃ r, prngReg c r)) := by
  unfold Pipeline.ΦA; rw [scopedRest1_eq]; simp only [scM1_0, scM1_1, scM1_2, owns_whole]; try rfl

end Cert.KernelIdeal.Hand

end
-- ==== Proof.KI.Reg1RunA.lean ====
/-
  The second region's body on the FIRST channel chunk of an image (the first condition holds, the second fails).

  The three kept arrays are at anything when the body starts: it stores zeros over each, then adds the chunk's sums
  into them; the output block is not stored into and is handed back as found. What each kept array ends with is
  found by running the body: a list of stored pieces (last first), the witness of this definition.
-/
import proofs.«100834_j73478300500485_1_alg».proof.Proof.KI.Reg1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x16x256x256 .f32) (harg2 : arg2.IsWhole) (arg3 : Memref sig .tc .vmem S1x16x1x1 .f32) (harg3 : arg3.IsWhole) (arg4 : Memref sig .tc .vmem S1x8x256x256 .f32) (harg4 : arg4.IsWhole) (arg5 : Memref sig .tc .vmem S256x256 .f32) (harg5 : arg5.IsWhole) (arg6 : Memref sig .tc .vmem S8x256x256 .f32) (harg6 : arg6.IsWhole) (arg7 : Memref sig .tc .vmem S8x256x256 .f32) (harg7 : arg7.IsWhole) (hc0 : cond1_0 i) (hc1 : ¬cond1_1 i)
    (x0 : Vec F S1x16x256x256 .f32) (x1 : Vec F S1x16x1x1 .f32) :
    Σ' (L2 : List (View.Piece (Elt F) S1x8x256x256 .f32)) (LS0 : List (View.Piece (Elt F) S256x256 .f32)) (LS1 : List (View.Piece (Elt F) S8x256x256 .f32)), { LS2 : List (View.Piece (Elt F) S8x256x256 .f32) //
      ∀ (xi2 : Vec F S1x8x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, ?_, fun xi2 E K => ?run⟩
  case run =>
    simp only [cc1_kernel_eq_skeleton]; unfold cc1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KI.Reg1RunB.lean ====
/-
  The second region's body on a MIDDLE channel chunk of an image (both conditions fail).

  The three kept arrays start at what the point before left; the body adds the chunk's sums into them; the output
  block is not stored into and is handed back as found.
-/
import proofs.«100834_j73478300500485_1_alg».proof.Proof.KI.Reg1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x16x256x256 .f32) (harg2 : arg2.IsWhole) (arg3 : Memref sig .tc .vmem S1x16x1x1 .f32) (harg3 : arg3.IsWhole) (arg4 : Memref sig .tc .vmem S1x8x256x256 .f32) (harg4 : arg4.IsWhole) (arg5 : Memref sig .tc .vmem S256x256 .f32) (harg5 : arg5.IsWhole) (arg6 : Memref sig .tc .vmem S8x256x256 .f32) (harg6 : arg6.IsWhole) (arg7 : Memref sig .tc .vmem S8x256x256 .f32) (harg7 : arg7.IsWhole) (hc0 : ¬cond1_0 i) (hc1 : ¬cond1_1 i)
    (x0 : Vec F S1x16x256x256 .f32) (x1 : Vec F S1x16x1x1 .f32) (xs0 : Vec F S256x256 .f32) (xs1 : Vec F S8x256x256 .f32) (xs2 : Vec F S8x256x256 .f32) :
    Σ' (L2 : List (View.Piece (Elt F) S1x8x256x256 .f32)) (LS0 : List (View.Piece (Elt F) S256x256 .f32)) (LS1 : List (View.Piece (Elt F) S8x256x256 .f32)), { LS2 : List (View.Piece (Elt F) S8x256x256 .f32) //
      ∀ (xi2 : Vec F S1x8x256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, ?_, ?_, fun xi2 E K => ?run⟩
  case run =>
    simp only [cc1_kernel_eq_skeleton]; unfold cc1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.KI.Reg1RunC.lean ====
/-
  The second region's body on the LAST channel chunk of an image (the first condition fails, the second holds).

  The three kept arrays start at what the point before left; the body adds the chunk's sums into them and then
  stores, for each of the eight neighbours, the quotient of the sums into the output block, whose buffer starts at
  anything and ends with those eight stored pieces.
-/
import proofs.«100834_j73478300500485_1_alg».proof.Proof.KI.Reg1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x16x256x256 .f32) (harg2 : arg2.IsWhole) (arg3 : Memref sig .tc .vmem S1x16x1x1 .f32) (harg3 : arg3.IsWhole) (arg4 : Memref sig .tc .vmem S1x8x256x256 .f32) (harg4 : arg4.IsWhole) (arg5 : Memref sig .tc .vmem S256x256 .f32) (harg5 : arg5.IsWhole) (arg6 : Memref sig .tc .vmem S8x256x256 .f32) (harg6 : arg6.IsWhole) (arg7 : Memref sig .tc .vmem S8x256x256 .f32) (harg7 : arg7.IsWhole) (hc0 : ¬cond1_0 i) (hc1 : cond1_1 i)
    (x0 : Vec F S1x16x256x256 .f32) (x1 : Vec F S1x16x1x1 .f32) (xs0 : Vec F S256x256 .f32) (xs1 : Vec F S8x256x256 .f32) (xs2 : Vec F S8x256x256 .f32) :
    Σ' (L2 : List (View.Piece (Elt F) S1x8x256x256 .f32)) (LS0 : List (View.Piece (Elt F) S256x256 .f32)) (LS1 : List (View.Piece (Elt F) S8x256x256 .f32)), { LS2 : List (View.Piece (Elt F) S8x256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, ?_, ?_, fun E K => ?run⟩
  case run =>
    simp only [cc1_kernel_eq_skeleton]; unfold cc1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.KI.Reg1Dat.lean ====
/-
  The second kernel region's proof data: what the output block and the three kept arrays hold after every point.

  Point by point (t = 4·b + j): on the first chunk (j = 0) the contents are what the first-chunk run leaves from the
  point's two input blocks alone; on a middle or last chunk they are what that case's run leaves from the input
  blocks and from the three arrays as the point before left them. The pipeline's invariant between points says exactly
  that: the three arrays hold the previous point's contents. The output block is stored, and written back, only on
  the last chunk of an image.
-/
import proofs.«100834_j73478300500485_1_alg».proof.Proof.KI.Reg1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block's buffer and the three kept arrays, in this order. -/
abbrev Out4 (F : FTy → Type) : Type := Vec F S1x8x256x256 .f32 × Vec F S256x256 .f32 × Vec F S8x256x256 .f32 × Vec F S8x256x256 .f32

/-- The first-chunk run at point t, on the point's staging buffers and input blocks. -/
def runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t)
/-- The middle-chunk run at point t, from the kept arrays' previous contents. -/
def runB (c : Dev nD) (t : Fin cfg1.N) (h0 : ¬t.val % 4 = 0) (h1 : ¬t.val % 4 = 3) (p : Out4 F) :=
  kernelRun1_B (F := F) c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) p.2.1 p.2.2.1 p.2.2.2
/-- The last-chunk run at point t, from the kept arrays' previous contents. -/
def runC (c : Dev nD) (t : Fin cfg1.N) (h0 : ¬t.val % 4 = 0) (h1 : t.val % 4 = 3) (p : Out4 F) :=
  kernelRun1_C (F := F) c (grid1.coords t) (ms1_0 t) (hs1_0 t) (ms1_1 t) (hs1_1 t) (ms1_2 t) (hs1_2 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) p.2.1 p.2.2.1 p.2.2.2

/-- A run's four piece lists read back as contents. -/
def readBack (L2 : List (View.Piece (Elt F) S1x8x256x256 .f32)) (LS0 : List (View.Piece (Elt F) S256x256 .f32))
    (LS1 LS2 : List (View.Piece (Elt F) S8x256x256 .f32)) : Out4 F :=
  (VO1_2.read (Elt F) (VO1_2.writes (Elt F) VO1_2.junk L2), VS1_0.read (Elt F) (VS1_0.writes (Elt F) VS1_0.junk LS0),
    VS1_1.read (Elt F) (VS1_1.writes (Elt F) VS1_1.junk LS1), VS1_2.read (Elt F) (VS1_2.writes (Elt F) VS1_2.junk LS2))

def resA (c : Dev nD) (t : Fin cfg1.N) (h0 : t.val % 4 = 0) (h1 : ¬t.val % 4 = 3) : Out4 F :=
  readBack (runA V c t h0 h1).1 (runA V c t h0 h1).2.1 (runA V c t h0 h1).2.2.1 (runA V c t h0 h1).2.2.2.1
def resB (c : Dev nD) (t : Fin cfg1.N) (h0 : ¬t.val % 4 = 0) (h1 : ¬t.val % 4 = 3) (p : Out4 F) : Out4 F :=
  readBack (runB V c t h0 h1 p).1 (runB V c t h0 h1 p).2.1 (runB V c t h0 h1 p).2.2.1 (runB V c t h0 h1 p).2.2.2.1
def resC (c : Dev nD) (t : Fin cfg1.N) (h0 : ¬t.val % 4 = 0) (h1 : t.val % 4 = 3) (p : Out4 F) : Out4 F :=
  readBack (runC V c t h0 h1 p).1 (runC V c t h0 h1 p).2.1 (runC V c t h0 h1 p).2.2.1 (runC V c t h0 h1 p).2.2.2.1

/-- THE ACCUMULATION: the output buffer and the three kept arrays after the body at position n. -/
def outsAt1 (c : Dev nD) : (n : ℕ) → n < cfg1.N → Out4 F
  | 0, hn => resA V c ⟨0, hn⟩ (Nat.zero_mod 4) (by simp)
  | n + 1, hn =>
    if h0 : (n + 1) % 4 = 0 then resA V c ⟨n + 1, hn⟩ h0 (by simp only []; omega)
    else if h1 : (n + 1) % 4 = 3 then resC V c ⟨n + 1, hn⟩ h0 h1 (outsAt1 c n (Nat.lt_of_succ_lt hn))
    else resB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = resA V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = resB V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = resC V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-- The three kept arrays at given contents. -/
def kept (c : Dev nD) (p : Out4 F) : sProp 𝕄 :=
  iprop(owns (c : Thread nD τ) scM1_0 fullShare p.2.1 ∗ owns (c : Thread nD τ) scM1_1 fullShare p.2.2.1 ∗ owns (c : Thread nD τ) scM1_2 fullShare p.2.2.2)

/-- The invariant before position n: before the first point the three arrays hold anything; afterwards what the
    point before left. -/
def PhiS1 (c : Dev nD) : (n : ℕ) → n ≤ cfg1.N → sProp 𝕄
  | 0, _ => Pipeline.ΦA spec1 c
  | n + 1, hn => iprop(iprop(other1 (F := F) c ∗ kept c (outsAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(other1 (F := F) c ∗ kept c (outsAt1 V c n hn)) ∗ (∃ r, prngReg c r)) := rfl
theorem PhiS1_pos (c : Dev nD) (n : ℕ) (h : n ≤ cfg1.N) (hz : n ≠ 0) :
    PhiS1 V c n h = iprop(iprop(other1 (F := F) c ∗ kept c (outsAt1 V c (n - 1) (by omega))) ∗ (∃ r, prngReg c r)) := by
  cases n with
  | zero => exact absurd rfl hz
  | succ n => rfl

/-- The pipeline's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Hand

end
-- ==== Proof.KI.Reg1Body.lean ====
/-
  The second kernel region's body obligation.

  Every kept array is covered by the pieces a run stores into it (each run stores every 256 × 256 plane of it), and on
  the last chunk the eight stored planes cover the output block; so what a buffer holds after the body is its
  pieces read back, whatever it held before. With that, the body at a point takes the invariant "the kept arrays
  hold the previous point's contents" to the same at the next point, in each of the three cases.
-/
import proofs.«100834_j73478300500485_1_alg».proof.Proof.KI.Reg1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem coverA_0 (c : Dev nD) (t : Fin cfg1.N) (h0 : t.val % 4 = 0) (h1 : ¬t.val % 4 = 3) (y : S256x256.Idx) :
    ∃ pc ∈ (runA V c t h0 h1).2.1, y ∈ pc.1.set :=
  View.cover_of_tiledL (runA V c t h0 h1).2.1 S256x256.size (by sl_kernel_rfl) y
theorem coverA_1 (c : Dev nD) (t : Fin cfg1.N) (h0 : t.val % 4 = 0) (h1 : ¬t.val % 4 = 3) (y : S8x256x256.Idx) :
    ∃ pc ∈ (runA V c t h0 h1).2.2.1, y ∈ pc.1.set :=
  View.cover_of_tiledBy (runA V c t h0 h1).2.2.1 S1x256x256.size (by sl_kernel_rfl) y
theorem coverA_2 (c : Dev nD) (t : Fin cfg1.N) (h0 : t.val % 4 = 0) (h1 : ¬t.val % 4 = 3) (y : S8x256x256.Idx) :
    ∃ pc ∈ (runA V c t h0 h1).2.2.2.1, y ∈ pc.1.set :=
  View.cover_of_tiledBy (runA V c t h0 h1).2.2.2.1 S1x256x256.size (by sl_kernel_rfl) y

theorem coverB_0 (c : Dev nD) (t : Fin cfg1.N) (h0 : ¬t.val % 4 = 0) (h1 : ¬t.val % 4 = 3) (p : Out4 F) (y : S256x256.Idx) :
    ∃ pc ∈ (runB V c t h0 h1 p).2.1, y ∈ pc.1.set :=
  View.cover_of_tiledL (runB V c t h0 h1 p).2.1 S256x256.size (by sl_kernel_rfl) y
theorem coverB_1 (c : Dev nD) (t : Fin cfg1.N) (h0 : ¬t.val % 4 = 0) (h1 : ¬t.val % 4 = 3) (p : Out4 F) (y : S8x256x256.Idx) :
    ∃ pc ∈ (runB V c t h0 h1 p).2.2.1, y ∈ pc.1.set :=
  View.cover_of_tiledBy (runB V c t h0 h1 p).2.2.1 S1x256x256.size (by sl_kernel_rfl) y
theorem coverB_2 (c : Dev nD) (t : Fin cfg1.N) (h0 : ¬t.val % 4 = 0) (h1 : ¬t.val % 4 = 3) (p : Out4 F) (y : S8x256x256.Idx) :
    ∃ pc ∈ (runB V c t h0 h1 p).2.2.2.1, y ∈ pc.1.set :=
  View.cover_of_tiledBy (runB V c t h0 h1 p).2.2.2.1 S1x256x256.size (by sl_kernel_rfl) y

theorem coverC_0 (c : Dev nD) (t : Fin cfg1.N) (h0 : ¬t.val % 4 = 0) (h1 : t.val % 4 = 3) (p : Out4 F) (y : S256x256.Idx) :
    ∃ pc ∈ (runC V c t h0 h1 p).2.1, y ∈ pc.1.set :=
  View.cover_of_tiledL (runC V c t h0 h1 p).2.1 S256x256.size (by sl_kernel_rfl) y
theorem coverC_1 (c : Dev nD) (t : Fin cfg1.N) (h0 : ¬t.val % 4 = 0) (h1 : t.val % 4 = 3) (p : Out4 F) (y : S8x256x256.Idx) :
    ∃ pc ∈ (runC V c t h0 h1 p).2.2.1, y ∈ pc.1.set :=
  View.cover_of_tiledBy (runC V c t h0 h1 p).2.2.1 S1x256x256.size (by sl_kernel_rfl) y
theorem coverC_2 (c : Dev nD) (t : Fin cfg1.N) (h0 : ¬t.val % 4 = 0) (h1 : t.val % 4 = 3) (p : Out4 F) (y : S8x256x256.Idx) :
    ∃ pc ∈ (runC V c t h0 h1 p).2.2.2.1, y ∈ pc.1.set :=
  View.cover_of_tiledBy (runC V c t h0 h1 p).2.2.2.1 S1x256x256.size (by sl_kernel_rfl) y

theorem coverC_out (c : Dev nD) (t : Fin cfg1.N) (h0 : ¬t.val % 4 = 0) (h1 : t.val % 4 = 3) (p : Out4 F) (y : S1x8x256x256.Idx) :
    ∃ pc ∈ (runC V c t h0 h1 p).1, y ∈ pc.1.set :=
  View.cover_of_tiledL (runC V c t h0 h1 p).1 S1x1x256x256.size (by sl_kernel_rfl) y

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t (fun h => h1 ((hcond1_1 t).mp h))) (noFlush1_2 t (fun h => h1 ((hcond1_1 t).mp h)))]
    rw [outsAt1_A V c t h0 h1]
    by_cases hz : t.val = 0
    · rw [PhiS1_castSucc V c t, PhiS1_zero V c _ _ hz, PhiA1_eq]
      iintro ⟨⟨⟨Ha, Hb, Hc, Hd, HS0, HS1, HS2⟩, Hg⟩, Ho, ⟨%d0, H0⟩, ⟨%d1, H1⟩, ⟨%d2, H2⟩⟩
      ihave Hoth := (show iprop(_ ∗ _ ∗ _ ∗ _) ⊢ other1 (F := F) c from .rfl) $$ [Ha Hb Hc Hd]
      · isplitl [Ha]; · iexact Ha
        isplitl [Hb]; · iexact Hb
        isplitl [Hc]; · iexact Hc
        iexact Hd
      iapply ((runA V c t h0 h1).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [Hoth HS0 HS1 HS2 Hg]
      · isplitl [Hoth HS0 HS1 HS2]
        · isplitl [Hoth]; · iexact Hoth
          (try unfold kept); unfold resA readBack; dsimp only
          isplitl [HS0]
          · unfold owns; iexists _; isplitr
            swap; · iexact HS0
            ipureintro; exact View.read_writes_of_cover _ _ _ _ _ (coverA_0 V c t h0 h1)
          isplitl [HS1]
          · unfold owns; iexists _; isplitr
            swap; · iexact HS1
            ipureintro; exact View.read_writes_of_cover _ _ _ _ _ (coverA_1 V c t h0 h1)
          unfold owns; iexists _; isplitr
          swap; · iexact HS2
          ipureintro; exact View.read_writes_of_cover _ _ _ _ _ (coverA_2 V c t h0 h1)
        iexact Hg
      isplitl [Ho]; · iexact Ho
      isplitl [H0]; · iexact H0
      isplitl [H1]; · iexact H1
      iexists _; iexact H2
    · rw [PhiS1_castSucc V c t, PhiS1_pos V c _ _ hz]
      unfold kept
      iintro ⟨⟨⟨Hoth, HS0, HS1, HS2⟩, Hg⟩, Ho, ⟨%d0, H0⟩, ⟨%d1, H1⟩, ⟨%d2, H2⟩⟩
      iapply ((runA V c t h0 h1).2.2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [Hoth HS0 HS1 HS2 Hg]
      · isplitl [Hoth HS0 HS1 HS2]
        · isplitl [Hoth]; · iexact Hoth
          (try unfold kept); unfold resA readBack; dsimp only
          isplitl [HS0]
          · unfold owns; iexists _; isplitr
            swap; · iexact HS0
            ipureintro; exact View.read_writes_of_cover _ _ _ _ _ (coverA_0 V c t h0 h1)
          isplitl [HS1]
          · unfold owns; iexists _; isplitr
            swap; · iexact HS1
            ipureintro; exact View.read_writes_of_cover _ _ _ _ _ (coverA_1 V c t h0 h1)
          unfold owns; iexists _; isplitr
          swap; · iexact HS2
          ipureintro; exact View.read_writes_of_cover _ _ _ _ _ (coverA_2 V c t h0 h1)
        iexact Hg
      isplitl [Ho]; · iexact Ho
      isplitl [H0]; · iexact H0
      isplitl [H1]; · iexact H1
      iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t ((hcond1_1 t).mpr h1)], after1_2]
      rw [outsAt1_C V c t h0 h1]
      have hz : t.val ≠ 0 := fun hz => h0 (by rw [hz])
      rw [PhiS1_castSucc V c t, PhiS1_pos V c _ _ hz]
      unfold kept
      iintro ⟨⟨⟨Hoth, HS0, HS1, HS2⟩, Hg⟩, Ho, ⟨%d0, H0⟩, ⟨%d1, H1⟩, ⟨%d2, H2⟩⟩
      iapply ((runC V c t h0 h1 (outsAt1 V c (t.val - 1) (Nat.lt_of_le_of_lt (Nat.sub_le _ _) t.isLt))).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [Hoth HS0 HS1 HS2 Hg]
      · isplitl [Hoth HS0 HS1 HS2]
        · isplitl [Hoth]; · iexact Hoth
          (try unfold kept); unfold resC readBack; dsimp only
          isplitl [HS0]
          · unfold owns; iexists _; isplitr
            swap; · iexact HS0
            ipureintro; exact View.read_writes_of_cover _ _ _ _ _ (coverC_0 V c t h0 h1 _)
          isplitl [HS1]
          · unfold owns; iexists _; isplitr
            swap; · iexact HS1
            ipureintro; exact View.read_writes_of_cover _ _ _ _ _ (coverC_1 V c t h0 h1 _)
          unfold owns; iexists _; isplitr
          swap; · iexact HS2
          ipureintro; exact View.read_writes_of_cover _ _ _ _ _ (coverC_2 V c t h0 h1 _)
        iexact Hg
      isplitl [Ho]; · iexact Ho
      isplitl [H0]; · iexact H0
      isplitl [H1]; · iexact H1
      unfold resC readBack; dsimp only
      unfold owns; iexists _; isplitr
      swap; · iexact H2
      ipureintro; exact View.read_writes_of_cover _ _ _ _ _ (coverC_out V c t h0 h1 _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      have hz : t.val ≠ 0 := fun hz => h0 (by rw [hz])
      rw [PhiS1_castSucc V c t, PhiS1_pos V c _ _ hz]
      unfold kept
      iintro ⟨⟨⟨Hoth, HS0, HS1, HS2⟩, Hg⟩, Ho, ⟨%d0, H0⟩, ⟨%d1, H1⟩, ⟨%d2, H2⟩⟩
      iapply ((runB V c t h0 h1 (outsAt1 V c (t.val - 1) (Nat.lt_of_le_of_lt (Nat.sub_le _ _) t.isLt))).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [Hoth HS0 HS1 HS2 Hg]
      · isplitl [Hoth HS0 HS1 HS2]
        · isplitl [Hoth]; · iexact Hoth
          (try unfold kept); unfold resB readBack; dsimp only
          isplitl [HS0]
          · unfold owns; iexists _; isplitr
            swap; · iexact HS0
            ipureintro; exact View.read_writes_of_cover _ _ _ _ _ (coverB_0 V c t h0 h1 _)
          isplitl [HS1]
          · unfold owns; iexists _; isplitr
            swap; · iexact HS1
            ipureintro; exact View.read_writes_of_cover _ _ _ _ _ (coverB_1 V c t h0 h1 _)
          unfold owns; iexists _; isplitr
          swap; · iexact HS2
          ipureintro; exact View.read_writes_of_cover _ _ _ _ _ (coverB_2 V c t h0 h1 _)
        iexact Hg
      isplitl [Ho]; · iexact Ho
      isplitl [H0]; · iexact H0
      isplitl [H1]; · iexact H1
      iexists _; iexact H2

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the kept arrays' contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  unfold kept other1
  iintro ⟨⟨⟨Ha, Hb, Hc, Hd⟩, HS0, HS1, HS2⟩, Hg⟩
  isplitr [Hg]
  · isplitl [Ha]; · iexact Ha
    isplitl [Hb]; · iexact Hb
    isplitl [Hc]; · iexact Hc
    isplitl [Hd]; · iexact Hd
    isplitl [HS0]; · iexists _; iexact HS0
    isplitl [HS1]; · iexists _; iexact HS1
    iexists _; iexact HS2
  iexact Hg

end Cert.KernelIdeal.Hand

end
-- ==== Proof.KI.Run.lean ====
/-
  The whole program run: the two kernel regions one after the other.

  Between the regions every buffer outside the scoped memory holds named contents: at launch the memory m; after the
  first region the same except its output array (the channel means), which holds what the region's write-backs leave;
  after the second region the same except the result array, likewise. The run theorem says every weakly fair
  execution terminates without fault with every such buffer at the last of these contents — which gives both the
  result array by name and the argument array unchanged.
-/
import proofs.«100834_j73478300500485_1_alg».proof.Proof.KI.Reg0
import proofs.«100834_j73478300500485_1_alg».proof.Proof.KI.Reg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the first region: its arrays at what the pipeline leaves, every other buffer as before. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- The argument array is an input of both regions, so it ends as launched. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := (W1_arr m c 0).trans (((dat0 (V0 m) c).arrAt_in 0 rfl _).trans (A_eq0 (V0 m) c 0))
    _ = m ((c : Thread nD τ).loc main_arg0) := rfl

/-- The result array ends at what the second region's write-backs leave. -/
theorem W2_main_v1 (c : Dev nD) : W2 m c (Proc.devRef .tc main_v1) = (dat1 (V1 m) c).arrAt 2 cfg1.N := W2_arr m c 2
/-- The second region finds the channel means where the first region's write-backs left them. -/
theorem V1_main_v0 (c : Dev nD) : V1 m c main_v0 = (dat0 (V0 m) c).arrAt 1 cfg0.N := W1_arr m c 1
/-- and the argument array as launched. -/
theorem V1_main_arg0 (c : Dev nD) : V1 m c main_arg0 = m ((c : Thread nD τ).loc main_arg0) :=
  (W1_arr m c 0).trans (((dat0 (V0 m) c).arrAt_in 0 rfl _).trans (A_eq0 (V0 m) c 0))

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V1 m) c)
    unfold Pipeline.ΦA
    iintro ⟨Hp, -, Hr⟩
    isplitl [Hr]; · iexact Hr
    iexact Hp
  hout c := by
    rw [Pipeline.ownSems0_none]
    refine .trans (show (pdats m 1 c).Φ (Fin.last _) ⊢ Pipeline.ΦA spec1 c from hout1 (V1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: every weakly fair execution of the program from memory m terminates, nothing faulting, with the result
    array at what the second region's write-backs leave and the argument array as launched. -/
theorem run_all : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c)⟩)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_all m ρ)

end Cert.KernelIdeal.Hand

end
-- ==== Proof.Spec.lean ====
/-
  The result both programs are shown to compute, as one function of the input array, on the extended reals.

  For an input x of shape [4, 64, 256, 256] (batch b, channel c, row h, column w):
    mean b c      = (Σ_h Σ_w x[b,c,h,w]) / 65536                      the spatial mean of one channel
    cx b c h w    = x[b,c,h,w] − mean b c                               the centred value at a pixel
    refl i d      = the neighbour index i + d − 1 reflected into 0..255 (−1 ↦ 1, 256 ↦ 254), for d = 0, 1, 2
    cn k b c h w  = x[b,c,refl h (dh k), refl w (dw k)] − mean b c      the centred value at the k-th neighbour
  where k = 0..7 runs over the 3 × 3 window in row-major order with the centre left out, and the result is
    out[b,k,h,w]  = (Σ_c cn·cx) / max (√((Σ_c cn·cn) · (Σ_c cx·cx))) ε
  the cosine similarity of the 64-channel vectors at a pixel and at its k-th neighbour; ε is the f32 word 0x322BCC77.
  Sums are Finset sums in the commutative monoid of the extended reals, so any grouping of them is the same value.
-/
import Idealize.ShloMosaic.PureOps.Ideal
import Idealize.ShloMosaic.Lib.ValueIdx

noncomputable section

namespace Cert.Spec

open Idealize.ShloMosaic Idealize.ShloMosaic.ValueIdx

/-- The input array's index type and contents. -/
abbrev XIdx : Type := (⟨4, ![4, 64, 256, 256]⟩ : Shape).Idx
/-- The result array's index type. -/
abbrev OIdx : Type := (⟨4, ![4, 8, 256, 256]⟩ : Shape).Idx

/-- The neighbour index `i + d − 1` (d = 0, 1, 2) with the reflecting boundary: `−1 ↦ 1`, `256 ↦ 254`. -/
def refl (i : Fin 256) (d : Fin 3) : Fin 256 :=
  ⟨if i.val + d.val = 0 then 1 else if i.val + d.val = 257 then 254 else i.val + d.val - 1, by
    have := i.isLt; have := d.isLt; split_ifs <;> omega⟩

/-- Row offset (plus one) of the k-th neighbour: the 3 × 3 window in row-major order, centre left out. -/
def dh (k : Fin 8) : Fin 3 := ![0, 0, 0, 1, 1, 2, 2, 2] k
/-- Column offset (plus one) of the k-th neighbour. -/
def dw (k : Fin 8) : Fin 3 := ![0, 1, 2, 0, 2, 0, 1, 2] k

/-- The lower bound ε of the denominator. -/
def eps : EReal := Ideal.ofBits .f32 0x322BCC77#32

/-- The spatial mean of channel `c` of image `b`. -/
def mean (x : XIdx → EReal) (b : Fin 4) (c : Fin 64) : EReal :=
  Ideal.div (∑ h : Fin 256, ∑ w : Fin 256, x (ix4 b c h w)) ((65536 : ℝ) : EReal)

/-- The centred value at a pixel. -/
def cx (x : XIdx → EReal) (b : Fin 4) (c : Fin 64) (h w : Fin 256) : EReal :=
  x (ix4 b c h w) - mean x b c

/-- The centred value at the pixel's k-th neighbour (reflecting boundary). -/
def cn (x : XIdx → EReal) (k : Fin 8) (b : Fin 4) (c : Fin 64) (h w : Fin 256) : EReal :=
  x (ix4 b c (refl h (dh k)) (refl w (dw k))) - mean x b c

/-- Σ_c cx², the squared norm of the centred channel vector at a pixel. -/
def norm (x : XIdx → EReal) (b : Fin 4) (h w : Fin 256) : EReal := ∑ c : Fin 64, cx x b c h w * cx x b c h w
/-- Σ_c cn·cx. -/
def num (x : XIdx → EReal) (k : Fin 8) (b : Fin 4) (h w : Fin 256) : EReal := ∑ c : Fin 64, cn x k b c h w * cx x b c h w
/-- Σ_c cn². -/
def den (x : XIdx → EReal) (k : Fin 8) (b : Fin 4) (h w : Fin 256) : EReal := ∑ c : Fin 64, cn x k b c h w * cn x k b c h w

/-- The result at explicit coordinates. -/
def outAt (x : XIdx → EReal) (b : Fin 4) (k : Fin 8) (h w : Fin 256) : EReal :=
  Ideal.div (num x k b h w) (max (Ideal.sqrt (den x k b h w * norm x b h w)) eps)

/-- The result array. -/
def G (x : XIdx → EReal) : OIdx → EReal := fun j => outAt x (j 0) (j 1) (j 2) (j 3)

theorem G_ix4 (x : XIdx → EReal) (b : Fin 4) (k : Fin 8) (h w : Fin 256) : G x (ix4 b k h w) = outAt x b k h w := rfl

end Cert.Spec

end
-- ==== Proof.ValConsts.lean ====
/-
  The one float literal of the mean: the f32 word 0x37800000 is 2⁻¹⁶ = 1/65536, so multiplying an extended real by it
  is dividing by 65536 (at the infinities too: the divisor is a nonzero real).
-/
import Idealize.ShloMosaic.PureOps.Ideal

noncomputable section

namespace Cert.KVal

open Idealize.ShloMosaic

/-- The word 0x37800000 (sign 0, exponent 111, fraction 0) denotes 2^(111 − 127) = 1/65536. -/
theorem ofBits_inv65536 : Ideal.ofBits .f32 0x37800000#32 = ((1 / 65536 : ℝ) : EReal) := by
  simp [Ideal.ofBits, Ideal.ieee, -EReal.coe_mul]; norm_num

/-- The product with 1/65536 is the quotient by 65536, for every extended real. -/
theorem mul_inv65536 (s : EReal) :
    s * Ideal.ofBits .f32 0x37800000#32 = Ideal.div s ((65536 : ℝ) : EReal) := by
  rw [ofBits_inv65536, Ideal.div_coe (by norm_num : (65536 : ℝ) ≠ 0)]

/-- The zero word denotes 0. -/
theorem ofBits_zero : Ideal.ofBits .f32 0x00000000#32 = 0 := by
  simp [Ideal.ofBits, Ideal.ieee]

end Cert.KVal

end
-- ==== Proof.ValMean.lean ====
/-
  The first region's stored value: at channel c the block's spatial mean.
  The body sums the block [1, 64, 256, 256] over its last axis, then over the remaining last axis (each lane sum starting
  from the neutral zero, so it is the bare finite sum), multiplies by the word 0x37800000 = 1/65536 and lays the 64 results
  out as [1, 64, 1, 1]. So the entry (0, c, 0, 0) is (Σ_h Σ_w v[0,c,h,w]) / 65536.
-/
import Idealize.ShloMosaic.Lib.ValueLayout
import Idealize.ShloMosaic.PureOps.Ideal.Laws
import proofs.«100834_j73478300500485_1_alg».proof.Proof.Gen.KernelIdeal.Skeleton
import proofs.«100834_j73478300500485_1_alg».proof.Proof.Spec
import proofs.«100834_j73478300500485_1_alg».proof.Proof.ValConsts

noncomputable section

namespace Cert.KVal

open Idealize.ShloMosaic Idealize.ShloMosaic.ValueIdx Cert.KernelIdeal Cert.KernelIdeal.Gen

/-- The sum of a [64, 256, 256] array over its last axis, at (c, h): the sum over w of the entries (c, h, w). -/
theorem sum_last_64x256x256 (src : FVec Ideal S64x256x256 .f32) (hr : S64x256x256.Reduces [2] S64x256)
    (hφ : FKind.Formats .f32) (hacc : (0x00000000#32 : BitVec 32) = FKind.add.neutral .f32 hφ) (c : Fin 64) (h : Fin 256) :
    multiReduction .add [2] S64x256 src 0x00000000#32 hr hφ hacc (ix2 c h) = ∑ w : Fin 256, src (ix3 c h w) := by
  refine (Ideal.multiReduction_add_single src _ hr hφ hacc (ix2 c h)).trans ?_
  refine Finset.sum_congr rfl fun w _ => congrArg src ?_
  funext a; apply Fin.ext
  match a with
  | ⟨0, _⟩ => rfl
  | ⟨1, _⟩ => rfl
  | ⟨2, _⟩ => rfl

/-- The sum of a [64, 256] array over its last axis, at c: the sum over h of the entries (c, h). -/
theorem sum_last_64x256 (src : FVec Ideal S64x256 .f32) (hr : S64x256.Reduces [1] S64)
    (hφ : FKind.Formats .f32) (hacc : (0x00000000#32 : BitVec 32) = FKind.add.neutral .f32 hφ) (c : Fin 64) :
    multiReduction .add [1] S64 src 0x00000000#32 hr hφ hacc (ix1 c) = ∑ h : Fin 256, src (ix2 c h) := by
  refine (Ideal.multiReduction_add_single src _ hr hφ hacc (ix1 c)).trans ?_
  refine Finset.sum_congr rfl fun h _ => congrArg src ?_
  funext a; apply Fin.ext
  match a with
  | ⟨0, _⟩ => rfl
  | ⟨1, _⟩ => rfl

/-- The first region's payload at (0, c, 0, 0): the block's double sum over the pixel coordinates, divided by 65536. -/
theorem k0_pay1_apply (v0 : Vec Ideal S1x64x256x256 .f32) (c : Fin 64) (u0 u2 u3 : Fin 1) :
    k0_pay1 (F := Ideal) v0 (ix4 u0 c u2 u3)
      = Ideal.div (∑ h : Fin 256, ∑ w : Fin 256, v0 (ix4 (0 : Fin 1) c h w)) ((65536 : ℝ) : EReal) := by
  unfold k0_pay1
  refine (shapeCast_abc_1abc_apply _ _ u0 c u2 u3).trans ?_
  refine (shapeCast_apply _ _ (ix3 c u2 u3) (ix1 c) ?_).trans ?_
  · rw [Shape.rowMajor_val_one, Shape.rowMajor_val_three]
    show c.val = (c.val * 1 + u2.val) * 1 + u3.val
    omega
  refine (mulf_apply _ _ _).trans ?_
  refine Eq.trans ?_ (mul_inv65536 _)
  refine congrArg₂ (· * ·) ?_ rfl
  refine (sum_last_64x256 _ _ _ _ c).trans ?_
  refine Finset.sum_congr rfl fun h _ => ?_
  refine (sum_last_64x256x256 _ _ _ _ c h).trans ?_
  refine Finset.sum_congr rfl fun w _ => ?_
  exact shapeCast_1abc_abc_apply _ _ c h w

/-- The same entry as the specification's mean: when the block is image b of the array x, the stored value at channel c
    is the spatial mean of channel c of image b. -/
theorem k0_pay1_eq_mean (x : Cert.Spec.XIdx → EReal) (b : Fin 4) (v0 : Vec Ideal S1x64x256x256 .f32)
    (hv : ∀ (c : Fin 64) (h w : Fin 256), v0 (ix4 (0 : Fin 1) c h w) = x (ix4 b c h w))
    (c : Fin 64) (u0 u2 u3 : Fin 1) :
    k0_pay1 (F := Ideal) v0 (ix4 u0 c u2 u3) = Cert.Spec.mean x b c := by
  rw [k0_pay1_apply]
  unfold Cert.Spec.mean
  refine congrArg (fun s => Ideal.div s ((65536 : ℝ) : EReal)) ?_
  exact Finset.sum_congr rfl fun h _ => Finset.sum_congr rfl fun w _ => hv c h w

end Cert.KVal

end
-- ==== Proof.KI.Value0.lean ====
/-
  What the first kernel region leaves in its output array, at the ideal instance: the per-channel spatial means.

  Point t of the region reads image t (block t of the input along the batch axis) and writes back block t of the
  [4,64,1,1] output; the body's stored value at channel c is the mean of that image's channel c. The four blocks tile
  the output array, so the array ends holding  (b, c) ↦ mean x b c  everywhere.
-/
import proofs.«100834_j73478300500485_1_alg».proof.Proof.KI.Run
import proofs.«100834_j73478300500485_1_alg».proof.Proof.Spec
import proofs.«100834_j73478300500485_1_alg».proof.Proof.ValMean
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem hz4 : (![0, 0, 0, 0] : Fin 4 → Nat) = fun _ => 0 := funext fun a => by fin_cases a <;> rfl

/-- The input array on core c. -/
abbrev xin (c : Dev nD) : Cert.Spec.XIdx → EReal := m ((c : Thread nD τ).loc main_arg0)

/-- The channel means, as contents of the first region's output array. -/
def means (c : Dev nD) : Buf (Elt Ideal) ((c : Thread nD τ).loc main_v0) :=
  fun j => Cert.Spec.mean (xin m c) (j 0) (j 1)

theorem idx_facts0 : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The input block at point t is image t. -/
theorem iblk0_in (c : Dev nD) (t : Fin cfg0.N) (ht : t.val < 4) (ch : Fin 64) (h w : Fin 256) :
    iblk0 (V0 m) c 0 t (ix4 (0 : Fin 1) ch h w) = xin m c (ix4 (⟨t.val, ht⟩ : Fin 4) ch h w) := by
  obtain ⟨e0, e1, e2, e3, -, -, -, -⟩ := idx_facts0 t
  unfold iblk0
  show V0 m c main_arg0 (((cfg0.win 0).blk t).view.emb (ix4 (0 : Fin 1) ch h w)) = _
  refine congrArg (m ((c : Thread nD τ).loc main_arg0)) ?_
  funext a; apply Fin.ext
  match a with
  | ⟨0, _⟩ => show win0_0.index t (0 : Fin 4) * 1 + 1 * 0 = t.val; omega
  | ⟨1, _⟩ => show win0_0.index t (1 : Fin 4) * 64 + 1 * ch.val = ch.val; omega
  | ⟨2, _⟩ => show win0_0.index t (2 : Fin 4) * 256 + 1 * h.val = h.val; omega
  | ⟨3, _⟩ => show win0_0.index t (3 : Fin 4) * 256 + 1 * w.val = w.val; omega

/-- What point t writes back is block t of the means. -/
theorem flushed_eq0 (c : Dev nD) (t : Fin cfg0.N) :
    (dat0 (V0 m) c).flushed 1 t = ((cfg0.win 1).blk t).view.read (Elt Ideal) (means m c) := by
  show (cfg0.win 1).cut (grid0.coords t) ((dat0 (V0 m) c).after 1 t) = _
  rw [after0_1]
  unfold out0_1
  rw [View.canon_unit_zero hz4]
  simp only [View.ld_unit_zero (S := S1x64x256x256) hz4]
  have ht : t.val < 4 := lt_of_lt_of_eq t.isLt N_0
  obtain ⟨-, -, -, -, e4, e5, e6, e7⟩ := idx_facts0 t
  funext j
  obtain ⟨u0, ch, u2, u3, rfl⟩ : ∃ (u0 : Fin 1) (ch : Fin 64) (u2 u3 : Fin 1), j = ix4 u0 ch u2 u3 := ⟨j 0, j 1, j 2, j 3, eq_ix4 j⟩
  show k0_pay1 (F := Ideal) (iblk0 (V0 m) c 0 t) (ix4 u0 ch u2 u3) = means m c (((cfg0.win 1).blk t).view.emb (ix4 u0 ch u2 u3))
  rw [Cert.KVal.k0_pay1_eq_mean (xin m c) ⟨t.val, ht⟩ (iblk0 (V0 m) c 0 t) (fun ch h w => iblk0_in m c t ht ch h w) ch u0 u2 u3]
  unfold means
  congr 1
  · apply Fin.ext; show t.val = win0_1.index t (0 : Fin 4) * 1 + 1 * u0.val; have := u0.isLt; omega
  · apply Fin.ext; show ch.val = win0_1.index t (1 : Fin 4) * 64 + 1 * ch.val; omega

theorem mem_blk0 (t : Fin cfg0.N) (i : S4x64x1x1.Idx) :
    i ∈ ((cfg0.win 1).blk t).view.set ↔ ∀ a : Fin 4, win0_1.index t a * S1x64x1x1.size a ≤ (i a).val ∧ (i a).val < win0_1.index t a * S1x64x1x1.size a + S1x64x1x1.size a := by
  show i ∈ ((View.whole main_v0).slice (win0_1.rect t)).set ↔ _
  rw [View.set_slice_whole, Rect.mem_set_unit]
  exact Iff.rfl

/-- The first region's output array ends holding the channel means. -/
theorem final0 (c : Dev nD) : (dat0 (V0 m) c).arrAt 1 cfg0.N = means m c :=
  (dat0 (V0 m) c).arrAt_eq_of_cover 1 (means m c) (fun t _ => flushed_eq0 m c t) fun i => by
    have hi0 : (i 0).val < 4 := (i 0).isLt
    have hi1 : (i 1).val < 64 := (i 1).isLt
    have hi2 : (i 2).val < 1 := (i 2).isLt
    have hi3 : (i 3).val < 1 := (i 3).isLt
    have hN : (i 0).val < cfg0.N := lt_of_lt_of_eq hi0 (show (4 : ℕ) = cfg0.N from N_0.symm)
    refine ⟨⟨(i 0).val, hN⟩, flush0_1 _, ?_⟩
    rw [mem_blk0]
    obtain ⟨-, -, -, -, e4, e5, e6, e7⟩ := idx_facts0 ⟨(i 0).val, hN⟩
    intro a
    match a with
    | ⟨0, _⟩ => show win0_1.index _ (0 : Fin 4) * 1 ≤ (i 0).val ∧ (i 0).val < win0_1.index _ (0 : Fin 4) * 1 + 1; rw [e4]; dsimp only; omega
    | ⟨1, _⟩ => show win0_1.index _ (1 : Fin 4) * 64 ≤ (i 1).val ∧ (i 1).val < win0_1.index _ (1 : Fin 4) * 64 + 64; rw [e5]; omega
    | ⟨2, _⟩ => show win0_1.index _ (2 : Fin 4) * 1 ≤ (i 2).val ∧ (i 2).val < win0_1.index _ (2 : Fin 4) * 1 + 1; rw [e6]; omega
    | ⟨3, _⟩ => show win0_1.index _ (3 : Fin 4) * 1 ≤ (i 3).val ∧ (i 3).val < win0_1.index _ (3 : Fin 4) * 1 + 1; rw [e7]; omega

/-- So the second region finds the channel means in its second input array. -/
theorem V1_means (c : Dev nD) : V1 m c main_v0 = means m c := (V1_main_v0 m c).trans (final0 m c)

end Cert.KernelIdeal.Hand

end
-- ==== Proof.ValAcc.lean ====
/-
  The algebra of an accumulation over four channel chunks of sixteen.
  An accumulator starts at zero; the step for chunk t adds the sum of that chunk's sixteen terms. After the four steps
  the accumulator holds the sum of all 64 terms. Only the commutative-monoid structure of the extended reals is used
  (associativity of +, and 0 + a = a), so no finiteness is needed.
-/
import Mathlib.Data.EReal.Basic
import Mathlib.Algebra.BigOperators.Fin

noncomputable section

namespace Cert.KVal

open scoped BigOperators

/-- Channel number 16·t + c: channel c of chunk t. -/
def chunk (t : Fin 4) (c : Fin 16) : Fin 64 := ⟨16 * t.val + c.val, by have := t.isLt; have := c.isLt; omega⟩

@[simp] theorem chunk_val (t : Fin 4) (c : Fin 16) : (chunk t c).val = 16 * t.val + c.val := rfl

/-- The sum over 64 channels is the sum over the four chunks of sixteen, grouped from the left. -/
theorem sum_eq_four_chunks {M : Type*} [AddCommMonoid M] (f : Fin 64 → M) :
    ∑ c : Fin 64, f c
      = ((∑ c : Fin 16, f (chunk 0 c) + ∑ c : Fin 16, f (chunk 1 c)) + ∑ c : Fin 16, f (chunk 2 c))
          + ∑ c : Fin 16, f (chunk 3 c) := by
  have h1 := Fin.sum_univ_add (a := 48) (b := 16) (fun i => f i)
  have h2 := Fin.sum_univ_add (a := 32) (b := 16) (fun i => f (Fin.castAdd 16 i))
  have h3 := Fin.sum_univ_add (a := 16) (b := 16) (fun i => f (Fin.castAdd 16 (Fin.castAdd 16 i)))
  rw [h3] at h2
  rw [h2] at h1
  exact h1

/-- The four accumulation steps from a zero accumulator, in the order they are taken: the total over the 64 channels. -/
theorem four_steps_from_zero (f : Fin 64 → EReal) :
    (((0 + ∑ c : Fin 16, f (chunk 0 c)) + ∑ c : Fin 16, f (chunk 1 c)) + ∑ c : Fin 16, f (chunk 2 c))
        + ∑ c : Fin 16, f (chunk 3 c)
      = ∑ c : Fin 64, f c := by
  rw [zero_add, sum_eq_four_chunks]

/-- The same with each chunk's sum itself started from a zero. -/
theorem four_steps_from_zero' (f : Fin 64 → EReal) :
    (((0 + (0 + ∑ c : Fin 16, f (chunk 0 c))) + (0 + ∑ c : Fin 16, f (chunk 1 c))) + (0 + ∑ c : Fin 16, f (chunk 2 c)))
        + (0 + ∑ c : Fin 16, f (chunk 3 c))
      = ∑ c : Fin 64, f c := by
  simp only [zero_add]
  exact (sum_eq_four_chunks f).symm

/-- The accumulator after the first n steps: zero, then one chunk's sum added per step. -/
def accUpTo (f : Fin 64 → EReal) : ℕ → EReal
  | 0 => 0
  | n + 1 => accUpTo f n + (if h : n < 4 then ∑ c : Fin 16, f (chunk ⟨n, h⟩ c) else 0)

@[simp] theorem accUpTo_zero (f : Fin 64 → EReal) : accUpTo f 0 = 0 := rfl

/-- One step: the accumulator after chunk t is the accumulator before it plus the chunk's sum. -/
theorem accUpTo_succ (f : Fin 64 → EReal) (t : Fin 4) :
    accUpTo f (t.val + 1) = accUpTo f t.val + ∑ c : Fin 16, f (chunk t c) := by
  show accUpTo f t.val + (if h : t.val < 4 then ∑ c : Fin 16, f (chunk ⟨t.val, h⟩ c) else 0) = _
  rw [dif_pos t.isLt]

/-- After the four steps the accumulator is the total over the 64 channels. -/
theorem accUpTo_four (f : Fin 64 → EReal) : accUpTo f 4 = ∑ c : Fin 64, f c := by
  have e0 := accUpTo_succ f 0
  have e1 := accUpTo_succ f 1
  have e2 := accUpTo_succ f 2
  have e3 := accUpTo_succ f 3
  have h : accUpTo f 4 = (((0 + ∑ c : Fin 16, f (chunk 0 c)) + ∑ c : Fin 16, f (chunk 1 c)) + ∑ c : Fin 16, f (chunk 2 c))
        + ∑ c : Fin 16, f (chunk 3 c) := by
    rw [← accUpTo_zero f]
    exact e3.trans (by rw [show ((3 : Fin 4).val) = (2 : Fin 4).val + 1 from rfl, e2,
      show ((2 : Fin 4).val) = (1 : Fin 4).val + 1 from rfl, e1, show ((1 : Fin 4).val) = (0 : Fin 4).val + 1 from rfl, e0]; rfl)
  rw [h, four_steps_from_zero]

end Cert.KVal

end
-- ==== Proof.ValShift.lean ====
/-
  The shifted arrays. A [16, 256, 256] array is shifted by one along its row axis (axis 1) or its column axis (axis 2)
  with a reflecting boundary, by concatenating two slices:
    towards lower indices   [a[1:2], a[0:255]]      so position i reads a at 1 for i = 0 and at i − 1 otherwise;
    towards higher indices  [a[1:256], a[254:255]]  so position i reads a at i + 1 for i < 255 and at 254 for i = 255.
  Both are "a at refl i d" with d = 0 and d = 2 (d = 1 is no shift). The k-th neighbour's array is the row shift by dh k
  followed by the column shift by dw k, and reads, at (c, h, w), the array at (c, refl h (dh k), refl w (dw k)).
-/
import Idealize.ShloMosaic.Lib.ValueLayout
import proofs.«100834_j73478300500485_1_alg».proof.Proof.Gen.KernelIdeal.Skeleton
import proofs.«100834_j73478300500485_1_alg».proof.Proof.Spec

noncomputable section

namespace Cert.KVal

open Idealize.ShloMosaic Idealize.ShloMosaic.ValueIdx Cert.KernelIdeal Cert.KernelIdeal.Gen

variable {α : Type}

/-! ## Rank-3 slices and two-piece concatenations at explicit coordinates -/

/-- A rank-3 slice at (a, b, e) is the source at the coordinates moved by the offsets. -/
theorem slice3_apply {n0 n1 n2 m0 m1 m2 : Nat} (o0 o1 o2 : Nat) (X : (⟨3, ![n0, n1, n2]⟩ : Shape).Idx → α)
    (h : (⟨3, ![n0, n1, n2]⟩ : Shape).Slices ![o0, o1, o2] ⟨3, ![m0, m1, m2]⟩)
    (a : Fin m0) (b : Fin m1) (e : Fin m2) (a' : Fin n0) (b' : Fin n1) (e' : Fin n2)
    (ha : a'.val = o0 + a.val) (hb : b'.val = o1 + b.val) (he : e'.val = o2 + e.val) :
    extractStridedSlice ⟨3, ![m0, m1, m2]⟩ ![o0, o1, o2] X h (ix3 a b e) = X (ix3 a' b' e') :=
  extractStridedSlice_apply _ _ _ _ _ (fun ax => by
    match ax with
    | ⟨0, _⟩ => exact ha
    | ⟨1, _⟩ => exact hb
    | ⟨2, _⟩ => exact he)

/-- Two pieces joined along axis 1, at a row inside the first piece. -/
theorem concat3_axis1_left {n0 n1 n2 p q : Nat} (x₁ : (⟨3, ![n0, p, n2]⟩ : Shape).Idx → α)
    (x₂ : (⟨3, ![n0, q, n2]⟩ : Shape).Idx → α)
    (hc : Shape.Concatenates [⟨3, ![n0, p, n2]⟩, ⟨3, ![n0, q, n2]⟩] ⟨3, ![n0, n1, n2]⟩ 1)
    (a : Fin n0) (b : Fin n1) (e : Fin n2) (b' : Fin p) (hb : b'.val = b.val) :
    concatenate ⟨3, ![n0, n1, n2]⟩ 1 [⟨⟨3, ![n0, p, n2]⟩, x₁⟩, ⟨⟨3, ![n0, q, n2]⟩, x₂⟩] hc (ix3 a b e) = x₁ (ix3 a b' e) :=
  concatenate_pair_apply_left 1 x₁ x₂ hc _ rfl _ (fun ax => by
    match ax with
    | ⟨0, _⟩ => rfl
    | ⟨1, _⟩ => exact hb
    | ⟨2, _⟩ => rfl)

/-- Two pieces joined along axis 1, at a row inside the second piece. -/
theorem concat3_axis1_right {n0 n1 n2 p q : Nat} (x₁ : (⟨3, ![n0, p, n2]⟩ : Shape).Idx → α)
    (x₂ : (⟨3, ![n0, q, n2]⟩ : Shape).Idx → α)
    (hc : Shape.Concatenates [⟨3, ![n0, p, n2]⟩, ⟨3, ![n0, q, n2]⟩] ⟨3, ![n0, n1, n2]⟩ 1)
    (a : Fin n0) (b : Fin n1) (e : Fin n2) (b' : Fin q) (hb : b'.val + p = b.val) :
    concatenate ⟨3, ![n0, n1, n2]⟩ 1 [⟨⟨3, ![n0, p, n2]⟩, x₁⟩, ⟨⟨3, ![n0, q, n2]⟩, x₂⟩] hc (ix3 a b e) = x₂ (ix3 a b' e) :=
  concatenate_pair_apply_right 1 x₁ x₂ hc _ rfl rfl _ (fun ax hne => by
    match ax with
    | ⟨0, _⟩ => rfl
    | ⟨1, _⟩ => exact absurd rfl hne
    | ⟨2, _⟩ => rfl) hb

/-- Two pieces joined along axis 2, at a column inside the first piece. -/
theorem concat3_axis2_left {n0 n1 n2 p q : Nat} (x₁ : (⟨3, ![n0, n1, p]⟩ : Shape).Idx → α)
    (x₂ : (⟨3, ![n0, n1, q]⟩ : Shape).Idx → α)
    (hc : Shape.Concatenates [⟨3, ![n0, n1, p]⟩, ⟨3, ![n0, n1, q]⟩] ⟨3, ![n0, n1, n2]⟩ 2)
    (a : Fin n0) (b : Fin n1) (e : Fin n2) (e' : Fin p) (he : e'.val = e.val) :
    concatenate ⟨3, ![n0, n1, n2]⟩ 2 [⟨⟨3, ![n0, n1, p]⟩, x₁⟩, ⟨⟨3, ![n0, n1, q]⟩, x₂⟩] hc (ix3 a b e) = x₁ (ix3 a b e') :=
  concatenate_pair_apply_left 2 x₁ x₂ hc _ rfl _ (fun ax => by
    match ax with
    | ⟨0, _⟩ => rfl
    | ⟨1, _⟩ => rfl
    | ⟨2, _⟩ => exact he)

/-- Two pieces joined along axis 2, at a column inside the second piece. -/
theorem concat3_axis2_right {n0 n1 n2 p q : Nat} (x₁ : (⟨3, ![n0, n1, p]⟩ : Shape).Idx → α)
    (x₂ : (⟨3, ![n0, n1, q]⟩ : Shape).Idx → α)
    (hc : Shape.Concatenates [⟨3, ![n0, n1, p]⟩, ⟨3, ![n0, n1, q]⟩] ⟨3, ![n0, n1, n2]⟩ 2)
    (a : Fin n0) (b : Fin n1) (e : Fin n2) (e' : Fin q) (he : e'.val + p = e.val) :
    concatenate ⟨3, ![n0, n1, n2]⟩ 2 [⟨⟨3, ![n0, n1, p]⟩, x₁⟩, ⟨⟨3, ![n0, n1, q]⟩, x₂⟩] hc (ix3 a b e) = x₂ (ix3 a b e') :=
  concatenate_pair_apply_right 2 x₁ x₂ hc _ rfl rfl _ (fun ax hne => by
    match ax with
    | ⟨0, _⟩ => rfl
    | ⟨1, _⟩ => rfl
    | ⟨2, _⟩ => exact absurd rfl hne) he

/-! ## The reflected neighbour index, case by case -/

theorem refl_zero_of_eq (i : Fin 256) (h0 : i.val = 0) : (Cert.Spec.refl i 0).val = 1 := by
  have e : (0 : Fin 3).val = 0 := rfl
  show (if i.val + (0 : Fin 3).val = 0 then 1 else if i.val + (0 : Fin 3).val = 257 then 254 else i.val + (0 : Fin 3).val - 1) = 1
  rw [e, if_pos (by omega)]

theorem refl_zero_of_ne (i : Fin 256) (h0 : i.val ≠ 0) : (Cert.Spec.refl i 0).val = i.val - 1 := by
  have := i.isLt
  have e : (0 : Fin 3).val = 0 := rfl
  show (if i.val + (0 : Fin 3).val = 0 then 1 else if i.val + (0 : Fin 3).val = 257 then 254 else i.val + (0 : Fin 3).val - 1) = _
  rw [e, if_neg (by omega), if_neg (by omega)]
  rfl

theorem refl_one (i : Fin 256) : Cert.Spec.refl i 1 = i := by
  apply Fin.ext
  have := i.isLt
  have e : (1 : Fin 3).val = 1 := rfl
  show (if i.val + (1 : Fin 3).val = 0 then 1 else if i.val + (1 : Fin 3).val = 257 then 254 else i.val + (1 : Fin 3).val - 1) = _
  rw [e, if_neg (by omega), if_neg (by omega)]
  rfl

theorem refl_two_of_eq (i : Fin 256) (h0 : i.val = 255) : (Cert.Spec.refl i 2).val = 254 := by
  have e : (2 : Fin 3).val = 2 := rfl
  show (if i.val + (2 : Fin 3).val = 0 then 1 else if i.val + (2 : Fin 3).val = 257 then 254 else i.val + (2 : Fin 3).val - 1) = 254
  rw [e, if_neg (by omega), if_pos (by omega)]

theorem refl_two_of_ne (i : Fin 256) (h0 : i.val ≠ 255) : (Cert.Spec.refl i 2).val = i.val + 1 := by
  have := i.isLt
  have e : (2 : Fin 3).val = 2 := rfl
  show (if i.val + (2 : Fin 3).val = 0 then 1 else if i.val + (2 : Fin 3).val = 257 then 254 else i.val + (2 : Fin 3).val - 1) = _
  rw [e, if_neg (by omega), if_neg (by omega)]
  rfl

/-! ## The four one-step shifts of a [16, 256, 256] array -/

/-- Rows shifted towards lower indices: row 1 first, then rows 0 … 254. -/
def shHm (v : S16x256x256.Idx → α) : S16x256x256.Idx → α :=
  concatenate S16x256x256 1 [⟨S16x1x256, extractStridedSlice S16x1x256 ![0, 1, 0] v slices_S16x256x256_o0_1_0_S16x1x256⟩,
    ⟨S16x255x256, extractStridedSlice S16x255x256 ![0, 0, 0] v slices_S16x256x256_o0_0_0_S16x255x256⟩]
    concatenates_S16x1x256_S16x255x256_S16x256x256_d1

/-- Rows shifted towards higher indices: rows 1 … 255, then row 254. -/
def shHp (v : S16x256x256.Idx → α) : S16x256x256.Idx → α :=
  concatenate S16x256x256 1 [⟨S16x255x256, extractStridedSlice S16x255x256 ![0, 1, 0] v slices_S16x256x256_o0_1_0_S16x255x256⟩,
    ⟨S16x1x256, extractStridedSlice S16x1x256 ![0, 254, 0] v slices_S16x256x256_o0_254_0_S16x1x256⟩]
    concatenates_S16x255x256_S16x1x256_S16x256x256_d1

/-- Columns shifted towards lower indices: column 1 first, then columns 0 … 254. -/
def shWm (v : S16x256x256.Idx → α) : S16x256x256.Idx → α :=
  concatenate S16x256x256 2 [⟨S16x256x1, extractStridedSlice S16x256x1 ![0, 0, 1] v slices_S16x256x256_o0_0_1_S16x256x1⟩,
    ⟨S16x256x255, extractStridedSlice S16x256x255 ![0, 0, 0] v slices_S16x256x256_o0_0_0_S16x256x255⟩]
    concatenates_S16x256x1_S16x256x255_S16x256x256_d2

/-- Columns shifted towards higher indices: columns 1 … 255, then column 254. -/
def shWp (v : S16x256x256.Idx → α) : S16x256x256.Idx → α :=
  concatenate S16x256x256 2 [⟨S16x256x255, extractStridedSlice S16x256x255 ![0, 0, 1] v slices_S16x256x256_o0_0_1_S16x256x255⟩,
    ⟨S16x256x1, extractStridedSlice S16x256x1 ![0, 0, 254] v slices_S16x256x256_o0_0_254_S16x256x1⟩]
    concatenates_S16x256x255_S16x256x1_S16x256x256_d2

theorem shHm_apply (v : S16x256x256.Idx → α) (c : Fin 16) (h w : Fin 256) :
    shHm v (ix3 c h w) = v (ix3 c (Cert.Spec.refl h 0) w) := by
  have hh := h.isLt
  unfold shHm
  by_cases h0 : h.val = 0
  · refine (concat3_axis1_left _ _ _ c h w (0 : Fin 1) h0.symm).trans ?_
    exact slice3_apply 0 1 0 v _ c 0 w c (Cert.Spec.refl h 0) w (Nat.zero_add _).symm
      (refl_zero_of_eq _ h0) (Nat.zero_add _).symm
  · refine (concat3_axis1_right _ _ _ c h w (⟨h.val - 1, by omega⟩ : Fin 255) (by show h.val - 1 + 1 = h.val; omega)).trans ?_
    exact slice3_apply 0 0 0 v _ c _ w c (Cert.Spec.refl h 0) w (Nat.zero_add _).symm
      ((refl_zero_of_ne _ h0).trans (Nat.zero_add _).symm) (Nat.zero_add _).symm

theorem shHp_apply (v : S16x256x256.Idx → α) (c : Fin 16) (h w : Fin 256) :
    shHp v (ix3 c h w) = v (ix3 c (Cert.Spec.refl h 2) w) := by
  have hh := h.isLt
  unfold shHp
  by_cases h0 : h.val = 255
  · refine (concat3_axis1_right _ _ _ c h w (0 : Fin 1) (by show 0 + 255 = h.val; omega)).trans ?_
    exact slice3_apply 0 254 0 v _ c 0 w c (Cert.Spec.refl h 2) w (Nat.zero_add _).symm
      (refl_two_of_eq _ h0) (Nat.zero_add _).symm
  · refine (concat3_axis1_left _ _ _ c h w (⟨h.val, by omega⟩ : Fin 255) rfl).trans ?_
    exact slice3_apply 0 1 0 v _ c _ w c (Cert.Spec.refl h 2) w (Nat.zero_add _).symm
      ((refl_two_of_ne _ h0).trans (Nat.add_comm _ _)) (Nat.zero_add _).symm

theorem shWm_apply (v : S16x256x256.Idx → α) (c : Fin 16) (h w : Fin 256) :
    shWm v (ix3 c h w) = v (ix3 c h (Cert.Spec.refl w 0)) := by
  have hw := w.isLt
  unfold shWm
  by_cases h0 : w.val = 0
  · refine (concat3_axis2_left _ _ _ c h w (0 : Fin 1) h0.symm).trans ?_
    exact slice3_apply 0 0 1 v _ c h 0 c h (Cert.Spec.refl w 0) (Nat.zero_add _).symm (Nat.zero_add _).symm
      (refl_zero_of_eq _ h0)
  · refine (concat3_axis2_right _ _ _ c h w (⟨w.val - 1, by omega⟩ : Fin 255) (by show w.val - 1 + 1 = w.val; omega)).trans ?_
    exact slice3_apply 0 0 0 v _ c h _ c h (Cert.Spec.refl w 0) (Nat.zero_add _).symm (Nat.zero_add _).symm
      ((refl_zero_of_ne _ h0).trans (Nat.zero_add _).symm)

theorem shWp_apply (v : S16x256x256.Idx → α) (c : Fin 16) (h w : Fin 256) :
    shWp v (ix3 c h w) = v (ix3 c h (Cert.Spec.refl w 2)) := by
  have hw := w.isLt
  unfold shWp
  by_cases h0 : w.val = 255
  · refine (concat3_axis2_right _ _ _ c h w (0 : Fin 1) (by show 0 + 255 = w.val; omega)).trans ?_
    exact slice3_apply 0 0 254 v _ c h 0 c h (Cert.Spec.refl w 2) (Nat.zero_add _).symm (Nat.zero_add _).symm
      (refl_two_of_eq _ h0)
  · refine (concat3_axis2_left _ _ _ c h w (⟨w.val, by omega⟩ : Fin 255) rfl).trans ?_
    exact slice3_apply 0 0 1 v _ c h _ c h (Cert.Spec.refl w 2) (Nat.zero_add _).symm (Nat.zero_add _).symm
      ((refl_two_of_ne _ h0).trans (Nat.add_comm _ _))

/-! ## The shift by an offset d = 0, 1, 2 (that is, by d − 1), and the k-th neighbour's array -/

/-- The row shift by d − 1. -/
def shH (d : Fin 3) (v : S16x256x256.Idx → α) : S16x256x256.Idx → α :=
  match d with
  | ⟨0, _⟩ => shHm v
  | ⟨1, _⟩ => v
  | ⟨2, _⟩ => shHp v

/-- The column shift by d − 1. -/
def shW (d : Fin 3) (v : S16x256x256.Idx → α) : S16x256x256.Idx → α :=
  match d with
  | ⟨0, _⟩ => shWm v
  | ⟨1, _⟩ => v
  | ⟨2, _⟩ => shWp v

theorem shH_apply (d : Fin 3) (v : S16x256x256.Idx → α) (c : Fin 16) (h w : Fin 256) :
    shH d v (ix3 c h w) = v (ix3 c (Cert.Spec.refl h d) w) := by
  match d with
  | ⟨0, _⟩ => exact shHm_apply v c h w
  | ⟨1, _⟩ => show v _ = v _; rw [show (⟨1, by omega⟩ : Fin 3) = 1 from rfl, refl_one]
  | ⟨2, _⟩ => exact shHp_apply v c h w

theorem shW_apply (d : Fin 3) (v : S16x256x256.Idx → α) (c : Fin 16) (h w : Fin 256) :
    shW d v (ix3 c h w) = v (ix3 c h (Cert.Spec.refl w d)) := by
  match d with
  | ⟨0, _⟩ => exact shWm_apply v c h w
  | ⟨1, _⟩ => show v _ = v _; rw [show (⟨1, by omega⟩ : Fin 3) = 1 from rfl, refl_one]
  | ⟨2, _⟩ => exact shWp_apply v c h w

/-- The k-th neighbour's array: rows shifted by dh k − 1, then columns by dw k − 1. -/
def shifted (k : Fin 8) (v : S16x256x256.Idx → α) : S16x256x256.Idx → α :=
  shW (Cert.Spec.dw k) (shH (Cert.Spec.dh k) v)

/-- The k-th neighbour's array at (c, h, w) is the array at the reflected neighbour pixel. -/
theorem shifted_apply (k : Fin 8) (v : S16x256x256.Idx → α) (c : Fin 16) (h w : Fin 256) :
    shifted k v (ix3 c h w) = v (ix3 c (Cert.Spec.refl h (Cert.Spec.dh k)) (Cert.Spec.refl w (Cert.Spec.dw k))) := by
  unfold shifted
  rw [shW_apply, shH_apply]

/-! ## The eight shifted payloads are the eight neighbours' arrays -/

theorem k1_pay21_eq (v3 : Vec Ideal S1x16x256x256 .f32) (v5 : Vec Ideal S1x16x1x1 .f32) :
    k1_pay21 (F := Ideal) v3 v5 = shifted 0 (k1_pay19 (F := Ideal) v3 v5) := rfl
theorem k1_pay24_eq (v8 : FVec Ideal S16x256x256 .f32) : k1_pay24 (F := Ideal) v8 = shifted 1 v8 := rfl
theorem k1_pay27_eq (v8 : FVec Ideal S16x256x256 .f32) : k1_pay27 (F := Ideal) v8 = shifted 2 v8 := rfl
theorem k1_pay32_eq (v8 : FVec Ideal S16x256x256 .f32) : k1_pay32 (F := Ideal) v8 = shifted 3 v8 := rfl
theorem k1_pay35_eq (v8 : FVec Ideal S16x256x256 .f32) : k1_pay35 (F := Ideal) v8 = shifted 4 v8 := rfl
theorem k1_pay38_eq (v8 : FVec Ideal S16x256x256 .f32) : k1_pay38 (F := Ideal) v8 = shifted 5 v8 := rfl
theorem k1_pay41_eq (v8 : FVec Ideal S16x256x256 .f32) : k1_pay41 (F := Ideal) v8 = shifted 6 v8 := rfl
theorem k1_pay44_eq (v8 : FVec Ideal S16x256x256 .f32) : k1_pay44 (F := Ideal) v8 = shifted 7 v8 := rfl

end Cert.KVal

end
-- ==== Proof.ValStep.lean ====
/-
  The second region's arithmetic, one operation shape at a time, read at explicit coordinates on the extended reals:
  the sum over the sixteen channels of a chunk, the layout casts between [256, 256], [1, 256, 256] and [1, 1, 256, 256],
  one accumulation step  acc + Σ_c a·b  into a plane, and the final quotient  num / max(√(den·norm), ε).
-/
import Idealize.ShloMosaic.Lib.ValueLayout
import Idealize.ShloMosaic.PureOps.Ideal.Laws
import proofs.«100834_j73478300500485_1_alg».proof.Proof.Gen.KernelIdeal.Skeleton
import proofs.«100834_j73478300500485_1_alg».proof.Proof.Spec

noncomputable section

namespace Cert.KVal

open Idealize.ShloMosaic Idealize.ShloMosaic.ValueIdx Cert.KernelIdeal Cert.KernelIdeal.Gen

/-- The sum of a [16, 256, 256] array over its channel axis, at (h, w): the sum over c of the entries (c, h, w).
    The reduction starts from the neutral zero, so it is the bare finite sum. -/
theorem sum_chan (src : FVec Ideal S16x256x256 .f32) (hr : S16x256x256.Reduces [0] S256x256)
    (hφ : FKind.Formats .f32) (hacc : (0x00000000#32 : BitVec 32) = FKind.add.neutral .f32 hφ) (h w : Fin 256) :
    multiReduction .add [0] S256x256 src 0x00000000#32 hr hφ hacc (ix2 h w) = ∑ c : Fin 16, src (ix3 c h w) := by
  refine (Ideal.multiReduction_add_single src _ hr hφ hacc (ix2 h w)).trans ?_
  refine Finset.sum_congr rfl fun c _ => congrArg src ?_
  funext a; apply Fin.ext
  match a with
  | ⟨0, _⟩ => rfl
  | ⟨1, _⟩ => rfl
  | ⟨2, _⟩ => rfl

/-- A [256, 256] array laid out as [1, 1, 256, 256] reads, at (0, 0, h, w), the array at (h, w). -/
theorem cast_hw_11hw {α : Type} (x : S256x256.Idx → α) (hc : S256x256.ShapeCasts S1x1x256x256) (u0 u1 : Fin 1)
    (h w : Fin 256) : shapeCast S1x1x256x256 x hc (ix4 u0 u1 h w) = x (ix2 h w) :=
  shapeCast_apply x hc _ _ (by
    have h0 : u0.val = 0 := by omega
    have h1 : u1.val = 0 := by omega
    rw [Shape.rowMajor_val_four, Shape.rowMajor_val_two]
    show h.val * 256 + w.val = ((u0.val * 1 + u1.val) * 256 + h.val) * 256 + w.val
    rw [h0, h1]; omega)

/-- One accumulation step into a [1, 256, 256] plane: the plane's old value plus the sum over the chunk's sixteen
    channels of the products a·b. -/
theorem step_plane (a b : FVec Ideal S16x256x256 .f32) (acc : Vec Ideal S1x256x256 .f32)
    (h1 : S1x256x256.ShapeCasts S256x256) (h2 : S256x256.ShapeCasts S1x256x256)
    (hr : S16x256x256.Reduces [0] S256x256) (hφ : FKind.Formats .f32)
    (hacc : (0x00000000#32 : BitVec 32) = FKind.add.neutral .f32 hφ) (u : Fin 1) (h w : Fin 256) :
    shapeCast S1x256x256
        (addf (shapeCast S256x256 acc h1 : FVec Ideal S256x256 .f32)
          (multiReduction .add [0] S256x256 (mulf a b) 0x00000000#32 hr hφ hacc)) h2 (ix3 u h w)
      = acc (ix3 (0 : Fin 1) h w) + ∑ c : Fin 16, a (ix3 c h w) * b (ix3 c h w) := by
  refine (shapeCast_ab_1ab_apply _ h2 u h w).trans ?_
  refine (addf_apply _ _ _).trans ?_
  refine congrArg₂ (· + ·) (shapeCast_1ab_ab_apply acc h1 h w) ?_
  exact sum_chan _ hr hφ hacc h w

/-- The same step when the old value already comes as a [256, 256] array and the products as one array. -/
theorem step_plane' (p : FVec Ideal S16x256x256 .f32) (acc : FVec Ideal S256x256 .f32)
    (h2 : S256x256.ShapeCasts S1x256x256)
    (hr : S16x256x256.Reduces [0] S256x256) (hφ : FKind.Formats .f32)
    (hacc : (0x00000000#32 : BitVec 32) = FKind.add.neutral .f32 hφ) (u : Fin 1) (h w : Fin 256) :
    shapeCast S1x256x256 (addf acc (multiReduction .add [0] S256x256 p 0x00000000#32 hr hφ hacc)) h2 (ix3 u h w)
      = acc (ix2 h w) + ∑ c : Fin 16, p (ix3 c h w) := by
  refine (shapeCast_ab_1ab_apply _ h2 u h w).trans ?_
  refine (addf_apply _ _ _).trans ?_
  exact congrArg (acc (ix2 h w) + ·) (sum_chan _ hr hφ hacc h w)

/-- The final quotient at a pixel: num / max(√(den · norm), ε), stored as a [1, 1, 256, 256] plane. -/
theorem quot_plane (den : Vec Ideal S1x256x256 .f32) (norm : Vec Ideal S256x256 .f32) (num : Vec Ideal S1x256x256 .f32)
    (h1 : S1x256x256.ShapeCasts S256x256) (h3 : S256x256.ShapeCasts S1x1x256x256) (u0 u1 : Fin 1) (h w : Fin 256) :
    shapeCast S1x1x256x256
        (divf (shapeCast S256x256 num h1 : FVec Ideal S256x256 .f32)
          (maximumf (sqrt (mulf (shapeCast S256x256 den h1 : FVec Ideal S256x256 .f32) norm))
            (broadcast S256x256 (Scalar.ofBits (F := Ideal) .f32 0x322BCC77#32)))) h3 (ix4 u0 u1 h w)
      = Ideal.div (num (ix3 (0 : Fin 1) h w))
          (max (Ideal.sqrt (den (ix3 (0 : Fin 1) h w) * norm (ix2 h w))) Cert.Spec.eps) := by
  refine (cast_hw_11hw _ h3 u0 u1 h w).trans ?_
  refine (divf_apply _ _ _).trans ?_
  refine congrArg₂ Ideal.div (shapeCast_1ab_ab_apply num h1 h w) ?_
  refine (maximumf_apply _ _ _).trans ?_
  refine congrArg₂ max ?_ rfl
  show Ideal.sqrt (shapeCast S256x256 den h1 (ix2 h w) * norm (ix2 h w)) = _
  rw [shapeCast_1ab_ab_apply den h1 h w]

end Cert.KVal

end
-- ==== Proof.ValCx.lean ====
/-
  The second region, the part common to all directions: the zero initialisations of the three accumulators, the centred
  chunk  cx[c,h,w] = x[0,c,h,w] − m[0,c,0,0]  (the mean block broadcast over the pixels), and the step of the squared
  norm  norm + Σ_c cx². Each is read at explicit coordinates, and then restated against the specification when the
  blocks are chunk t of image b of the input and of its channel means.
-/
import proofs.«100834_j73478300500485_1_alg».proof.Proof.ValConsts
import proofs.«100834_j73478300500485_1_alg».proof.Proof.ValAcc
import proofs.«100834_j73478300500485_1_alg».proof.Proof.ValShift
import proofs.«100834_j73478300500485_1_alg».proof.Proof.ValStep

noncomputable section

namespace Cert.KVal

open Idealize.ShloMosaic Idealize.ShloMosaic.ValueIdx Cert.KernelIdeal Cert.KernelIdeal.Gen

/-! ## The zero initialisations (first chunk only) -/

/-- The squared-norm accumulator starts at zero. -/
theorem k1_pay16_apply (h w : Fin 256) : k1_pay16 (F := Ideal) (ix2 h w) = 0 := by
  unfold k1_pay16
  refine (congrFun (shapeCast_self _ _) _).trans ?_
  exact ofBits_zero

/-- The eight numerator accumulators start at zero. -/
theorem k1_pay17_apply (k : Fin 8) (h w : Fin 256) : k1_pay17 (F := Ideal) (ix3 k h w) = 0 := by
  unfold k1_pay17
  refine (congrFun (shapeCast_self _ _) _).trans ?_
  exact ofBits_zero

/-- The eight denominator accumulators start at zero. -/
theorem k1_pay18_apply (k : Fin 8) (h w : Fin 256) : k1_pay18 (F := Ideal) (ix3 k h w) = 0 := by
  unfold k1_pay18
  refine (congrFun (shapeCast_self _ _) _).trans ?_
  exact ofBits_zero

/-! ## The centred chunk -/

/-- The centred chunk at (c, h, w): the input block at (0, c, h, w) minus the mean block at (0, c, 0, 0). -/
theorem k1_pay19_apply (v3 : Vec Ideal S1x16x256x256 .f32) (v5 : Vec Ideal S1x16x1x1 .f32) (c : Fin 16) (h w : Fin 256) :
    k1_pay19 (F := Ideal) v3 v5 (ix3 c h w)
      = v3 (ix4 (0 : Fin 1) c h w) - v5 (ix4 (0 : Fin 1) c (0 : Fin 1) (0 : Fin 1)) := by
  unfold k1_pay19
  refine (subf_apply _ _ _).trans ?_
  refine congrArg₂ (· - ·) (shapeCast_1abc_abc_apply v3 _ c h w) ?_
  refine (broadcastTo_apply _ _ (ix3 c h w) (ix3 c (0 : Fin 1) (0 : Fin 1)) (fun a => by
    match a with
    | ⟨0, _⟩ => rfl
    | ⟨1, _⟩ => rfl
    | ⟨2, _⟩ => rfl)).trans ?_
  exact shapeCast_1abc_abc_apply v5 _ c (0 : Fin 1) (0 : Fin 1)

/-- The blocks of grid point (b, t): channels 16t … 16t + 15 of image b of the input, and their means. -/
structure IsChunk (x : Cert.Spec.XIdx → EReal) (b : Fin 4) (t : Fin 4)
    (v3 : Vec Ideal S1x16x256x256 .f32) (v5 : Vec Ideal S1x16x1x1 .f32) : Prop where
  /-- the input block is the chunk of the input -/
  inp : ∀ (c : Fin 16) (h w : Fin 256), v3 (ix4 (0 : Fin 1) c h w) = x (ix4 b (chunk t c) h w)
  /-- the mean block holds the chunk's channel means -/
  mean : ∀ c : Fin 16, v5 (ix4 (0 : Fin 1) c (0 : Fin 1) (0 : Fin 1)) = Cert.Spec.mean x b (chunk t c)

/-- A [16, 256, 256] array that is the centred chunk t of image b. -/
def IsCx (x : Cert.Spec.XIdx → EReal) (b : Fin 4) (t : Fin 4) (v8 : FVec Ideal S16x256x256 .f32) : Prop :=
  ∀ (c : Fin 16) (h w : Fin 256), v8 (ix3 c h w) = Cert.Spec.cx x b (chunk t c) h w

/-- On the blocks of grid point (b, t) the centred chunk is the specification's centred value. -/
theorem k1_pay19_isCx {x : Cert.Spec.XIdx → EReal} {b t : Fin 4} {v3 : Vec Ideal S1x16x256x256 .f32}
    {v5 : Vec Ideal S1x16x1x1 .f32} (hb : IsChunk x b t v3 v5) : IsCx x b t (k1_pay19 (F := Ideal) v3 v5) := by
  intro c h w
  rw [k1_pay19_apply, hb.inp, hb.mean]
  rfl

/-- The k-th neighbour's array of a centred chunk holds the specification's centred neighbour values. -/
theorem shifted_isCx {x : Cert.Spec.XIdx → EReal} {b t : Fin 4} {v8 : FVec Ideal S16x256x256 .f32}
    (hv : IsCx x b t v8) (k : Fin 8) (c : Fin 16) (h w : Fin 256) :
    shifted k v8 (ix3 c h w) = Cert.Spec.cn x k b (chunk t c) h w := by
  rw [shifted_apply, hv]
  rfl

/-! ## The squared-norm step -/

/-- The squared-norm accumulator after a step: its old value plus the sum over the chunk of cx². -/
theorem k1_pay20_apply (v3 : Vec Ideal S1x16x256x256 .f32) (v5 : Vec Ideal S1x16x1x1 .f32) (v9 : Vec Ideal S256x256 .f32)
    (h w : Fin 256) :
    k1_pay20 (F := Ideal) v3 v5 v9 (ix2 h w)
      = v9 (ix2 h w) + ∑ c : Fin 16, k1_pay19 (F := Ideal) v3 v5 (ix3 c h w) * k1_pay19 (F := Ideal) v3 v5 (ix3 c h w) := by
  unfold k1_pay20
  refine (congrFun (shapeCast_self _ _) _).trans ?_
  refine (addf_apply _ _ _).trans ?_
  exact congrArg (v9 (ix2 h w) + ·) (sum_chan _ _ _ _ h w)

/-- The same step against the specification. -/
theorem k1_pay20_spec {x : Cert.Spec.XIdx → EReal} {b t : Fin 4} {v3 : Vec Ideal S1x16x256x256 .f32}
    {v5 : Vec Ideal S1x16x1x1 .f32} (hb : IsChunk x b t v3 v5) (v9 : Vec Ideal S256x256 .f32) (h w : Fin 256) :
    k1_pay20 (F := Ideal) v3 v5 v9 (ix2 h w)
      = v9 (ix2 h w) + ∑ c : Fin 16, Cert.Spec.cx x b (chunk t c) h w * Cert.Spec.cx x b (chunk t c) h w := by
  rw [k1_pay20_apply]
  exact congrArg (v9 (ix2 h w) + ·) (Finset.sum_congr rfl fun c _ => by rw [k1_pay19_isCx hb c h w])

end Cert.KVal

end
-- ==== Proof.KI.Value1Blocks.lean ====
/-
  The second region's input blocks. Point t = 4·b + j reads, through its first window, channels 16·j … 16·j + 15 of image b
  of the input array, and through its second window the same channels of image b of the channel means.
-/
import proofs.«100834_j73478300500485_1_alg».proof.Proof.KI.Value0
import proofs.«100834_j73478300500485_1_alg».proof.Proof.ValCx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem idx_facts1 : ∀ t : Fin cfg1.N, win1_0.index t (0 : Fin 4) = t.val / 4 ∧ win1_0.index t (1 : Fin 4) = t.val % 4
    ∧ win1_0.index t (2 : Fin 4) = 0 ∧ win1_0.index t (3 : Fin 4) = 0
    ∧ win1_1.index t (0 : Fin 4) = t.val / 4 ∧ win1_1.index t (1 : Fin 4) = t.val % 4
    ∧ win1_1.index t (2 : Fin 4) = 0 ∧ win1_1.index t (3 : Fin 4) = 0 :=
  (by decide +kernel : ∀ t : Fin grid1.N, _)

/-- The blocks of point t are chunk t mod 4 of image t / 4. -/
theorem isChunk1 (c : Dev nD) (t : Fin cfg1.N) (hb : t.val / 4 < 4) :
    Cert.KVal.IsChunk (xin m c) ⟨t.val / 4, hb⟩ ⟨t.val % 4, Nat.mod_lt _ (by decide)⟩
      (iblk1 (V1 m) c 0 t) (iblk1 (V1 m) c 1 t) := by
  obtain ⟨e0, e1, e2, e3, e4, e5, e6, e7⟩ := idx_facts1 t
  refine ⟨fun ch h w => ?_, fun ch => ?_⟩
  · unfold iblk1
    show V1 m c main_arg0 (((cfg1.win 0).blk t).view.emb (ix4 (0 : Fin 1) ch h w)) = _
    rw [V1_main_arg0]
    refine congrArg (m ((c : Thread nD τ).loc main_arg0)) ?_
    funext a; apply Fin.ext
    match a with
    | ⟨0, _⟩ => show win1_0.index t (0 : Fin 4) * 1 + 1 * 0 = t.val / 4; omega
    | ⟨1, _⟩ => show win1_0.index t (1 : Fin 4) * 16 + 1 * ch.val = 16 * (t.val % 4) + ch.val; omega
    | ⟨2, _⟩ => show win1_0.index t (2 : Fin 4) * 256 + 1 * h.val = h.val; omega
    | ⟨3, _⟩ => show win1_0.index t (3 : Fin 4) * 256 + 1 * w.val = w.val; omega
  · unfold iblk1
    show V1 m c main_v0 (((cfg1.win 1).blk t).view.emb (ix4 (0 : Fin 1) ch (0 : Fin 1) (0 : Fin 1))) = _
    rw [V1_means]
    unfold means
    congr 1
    · apply Fin.ext; show win1_1.index t (0 : Fin 4) * 1 + 1 * 0 = t.val / 4; omega
    · apply Fin.ext; show win1_1.index t (1 : Fin 4) * 16 + 1 * ch.val = 16 * (t.val % 4) + ch.val; omega

end Cert.KernelIdeal.Hand

end
-- ==== Proof.KI.Value1Pieces.lean ====
/-
  Plane by plane. The two [8, 256, 256] accumulators are written one [1, 256, 256] plane at a time (plane k at offset
  (k, 0, 0)), and the output block [1, 8, 256, 256] one [1, 1, 256, 256] plane at a time (plane k at offset (0, k, 0, 0)).
  What a list of eight such writes, last first (planes 7 … 0), leaves at an index of plane k is the k-th write's value at
  the same pixel — whatever was written before them.
-/
import Idealize.ShloMosaic.Lib.Pipeline.Value
import Idealize.ShloMosaic.Lib.ValueIdx
import proofs.«100834_j73478300500485_1_alg».proof.Proof.Gen.KernelIdeal.Skeleton

set_option maxRecDepth 16384

noncomputable section

namespace Cert.KernelIdeal.Hand

open Cert.KernelIdeal
open Idealize.ShloMosaic Idealize.ShloMosaic.ValueIdx

/-- The k-th of eight things. -/
def pick8 {α : Sort _} (a0 a1 a2 a3 a4 a5 a6 a7 : α) (k : Fin 8) : α :=
  match k with
  | ⟨0, _⟩ => a0 | ⟨1, _⟩ => a1 | ⟨2, _⟩ => a2 | ⟨3, _⟩ => a3
  | ⟨4, _⟩ => a4 | ⟨5, _⟩ => a5 | ⟨6, _⟩ => a6 | ⟨7, _⟩ => a7

theorem hz2 : (![0, 0] : Fin 2 → Nat) = fun _ => 0 := funext fun a => by fin_cases a <;> rfl
theorem hz3 : (![0, 0, 0] : Fin 3 → Nat) = fun _ => 0 := funext fun a => by fin_cases a <;> rfl

variable {Val : EltTy → Type} {e : EltTy}

/-- Plane k of an [8, 256, 256] array at its local pixel (h, w) is the array's index (k, h, w). -/
theorem plane_emb (k : ℕ) (hk : k < 8) (inb : ∀ a, (![k, 0, 0] : Fin 3 → Nat) a + (![1, 256, 256] : Fin 3 → Nat) a ≤ S8x256x256.size a)
    (u : Fin 1) (h w : Fin 256) :
    (Rect.unit (s := S8x256x256) ![k, 0, 0] ![1, 256, 256] inb).emb (ix3 u h w) = ix3 (⟨k, hk⟩ : Fin 8) h w := by
  funext a; apply Fin.ext
  have := u.isLt
  match a with
  | ⟨0, _⟩ => show k + 1 * u.val = k; omega
  | ⟨1, _⟩ => show 0 + 1 * h.val = h.val; omega
  | ⟨2, _⟩ => show 0 + 1 * w.val = w.val; omega

/-- An index of plane k is in no other plane. -/
theorem plane_not_mem (i : ℕ) (k : Fin 8) (hik : i ≠ k.val)
    (inb : ∀ a, (![i, 0, 0] : Fin 3 → Nat) a + (![1, 256, 256] : Fin 3 → Nat) a ≤ S8x256x256.size a) (h w : Fin 256) :
    ix3 k h w ∉ (Rect.unit (s := S8x256x256) ![i, 0, 0] ![1, 256, 256] inb).set := by
  rw [Rect.mem_set_unit]
  intro hm
  have h0 := hm (0 : Fin 3)
  have h1 : i ≤ k.val := h0.1
  have h2 : k.val < i + 1 := h0.2
  omega

/-- Plane k of the output block [1, 8, 256, 256] at its local pixel (h, w) is the block's index (0, k, h, w). -/
theorem oplane_emb (k : ℕ) (hk : k < 8) (inb : ∀ a, (![0, k, 0, 0] : Fin 4 → Nat) a + (![1, 1, 256, 256] : Fin 4 → Nat) a ≤ S1x8x256x256.size a)
    (u0 u1 : Fin 1) (h w : Fin 256) :
    (Rect.unit (s := S1x8x256x256) ![0, k, 0, 0] ![1, 1, 256, 256] inb).emb (ix4 u0 u1 h w) = ix4 (0 : Fin 1) (⟨k, hk⟩ : Fin 8) h w := by
  funext a; apply Fin.ext
  have := u0.isLt; have := u1.isLt
  match a with
  | ⟨0, _⟩ => show 0 + 1 * u0.val = 0; omega
  | ⟨1, _⟩ => show k + 1 * u1.val = k; omega
  | ⟨2, _⟩ => show 0 + 1 * h.val = h.val; omega
  | ⟨3, _⟩ => show 0 + 1 * w.val = w.val; omega

theorem oplane_not_mem (i : ℕ) (k : Fin 8) (hik : i ≠ k.val)
    (inb : ∀ a, (![0, i, 0, 0] : Fin 4 → Nat) a + (![1, 1, 256, 256] : Fin 4 → Nat) a ≤ S1x8x256x256.size a) (h w : Fin 256) :
    ix4 (0 : Fin 1) k h w ∉ (Rect.unit (s := S1x8x256x256) ![0, i, 0, 0] ![1, 1, 256, 256] inb).set := by
  rw [Rect.mem_set_unit]
  intro hm
  have h0 := hm (1 : Fin 4)
  have h1 : i ≤ k.val := h0.1
  have h2 : k.val < i + 1 := h0.2
  omega

variable [∀ e, Nonempty (Val e)]

/-- Eight plane writes of an [8, 256, 256] array (planes 7 … 0, last first) over anything: at (k, h, w) the k-th write's
    value at the pixel. -/
theorem canon_planes8
    (i0 : ∀ a, (![0, 0, 0] : Fin 3 → Nat) a + (![1, 256, 256] : Fin 3 → Nat) a ≤ S8x256x256.size a)
    (i1 : ∀ a, (![1, 0, 0] : Fin 3 → Nat) a + (![1, 256, 256] : Fin 3 → Nat) a ≤ S8x256x256.size a)
    (i2 : ∀ a, (![2, 0, 0] : Fin 3 → Nat) a + (![1, 256, 256] : Fin 3 → Nat) a ≤ S8x256x256.size a)
    (i3 : ∀ a, (![3, 0, 0] : Fin 3 → Nat) a + (![1, 256, 256] : Fin 3 → Nat) a ≤ S8x256x256.size a)
    (i4 : ∀ a, (![4, 0, 0] : Fin 3 → Nat) a + (![1, 256, 256] : Fin 3 → Nat) a ≤ S8x256x256.size a)
    (i5 : ∀ a, (![5, 0, 0] : Fin 3 → Nat) a + (![1, 256, 256] : Fin 3 → Nat) a ≤ S8x256x256.size a)
    (i6 : ∀ a, (![6, 0, 0] : Fin 3 → Nat) a + (![1, 256, 256] : Fin 3 → Nat) a ≤ S8x256x256.size a)
    (i7 : ∀ a, (![7, 0, 0] : Fin 3 → Nat) a + (![1, 256, 256] : Fin 3 → Nat) a ≤ S8x256x256.size a)
    (P0 P1 P2 P3 P4 P5 P6 P7 : S1x256x256.Idx → Val e) (M : List (View.Piece Val S8x256x256 e)) (k : Fin 8) (h w : Fin 256) :
    View.canon ((⟨Rect.unit ![7, 0, 0] ![1, 256, 256] i7, P7⟩ : View.Piece Val S8x256x256 e) ::
      (⟨Rect.unit ![6, 0, 0] ![1, 256, 256] i6, P6⟩ : View.Piece Val S8x256x256 e) ::
      (⟨Rect.unit ![5, 0, 0] ![1, 256, 256] i5, P5⟩ : View.Piece Val S8x256x256 e) ::
      (⟨Rect.unit ![4, 0, 0] ![1, 256, 256] i4, P4⟩ : View.Piece Val S8x256x256 e) ::
      (⟨Rect.unit ![3, 0, 0] ![1, 256, 256] i3, P3⟩ : View.Piece Val S8x256x256 e) ::
      (⟨Rect.unit ![2, 0, 0] ![1, 256, 256] i2, P2⟩ : View.Piece Val S8x256x256 e) ::
      (⟨Rect.unit ![1, 0, 0] ![1, 256, 256] i1, P1⟩ : View.Piece Val S8x256x256 e) ::
      (⟨Rect.unit ![0, 0, 0] ![1, 256, 256] i0, P0⟩ : View.Piece Val S8x256x256 e) :: M) (ix3 k h w)
      = pick8 P0 P1 P2 P3 P4 P5 P6 P7 k (ix3 (0 : Fin 1) h w) := by
  match k with
  | ⟨0, hk⟩ =>
    show _ = P0 (ix3 (0 : Fin 1) h w)
    rw [View.canon_cons_of_not_mem (⟨Rect.unit ![7, 0, 0] ![1, 256, 256] i7, P7⟩ : View.Piece Val S8x256x256 e) _ (plane_not_mem 7 ⟨0, hk⟩ (by show (7 : ℕ) ≠ 0; decide) i7 h w)]
    rw [View.canon_cons_of_not_mem (⟨Rect.unit ![6, 0, 0] ![1, 256, 256] i6, P6⟩ : View.Piece Val S8x256x256 e) _ (plane_not_mem 6 ⟨0, hk⟩ (by show (6 : ℕ) ≠ 0; decide) i6 h w)]
    rw [View.canon_cons_of_not_mem (⟨Rect.unit ![5, 0, 0] ![1, 256, 256] i5, P5⟩ : View.Piece Val S8x256x256 e) _ (plane_not_mem 5 ⟨0, hk⟩ (by show (5 : ℕ) ≠ 0; decide) i5 h w)]
    rw [View.canon_cons_of_not_mem (⟨Rect.unit ![4, 0, 0] ![1, 256, 256] i4, P4⟩ : View.Piece Val S8x256x256 e) _ (plane_not_mem 4 ⟨0, hk⟩ (by show (4 : ℕ) ≠ 0; decide) i4 h w)]
    rw [View.canon_cons_of_not_mem (⟨Rect.unit ![3, 0, 0] ![1, 256, 256] i3, P3⟩ : View.Piece Val S8x256x256 e) _ (plane_not_mem 3 ⟨0, hk⟩ (by show (3 : ℕ) ≠ 0; decide) i3 h w)]
    rw [View.canon_cons_of_not_mem (⟨Rect.unit ![2, 0, 0] ![1, 256, 256] i2, P2⟩ : View.Piece Val S8x256x256 e) _ (plane_not_mem 2 ⟨0, hk⟩ (by show (2 : ℕ) ≠ 0; decide) i2 h w)]
    rw [View.canon_cons_of_not_mem (⟨Rect.unit ![1, 0, 0] ![1, 256, 256] i1, P1⟩ : View.Piece Val S8x256x256 e) _ (plane_not_mem 1 ⟨0, hk⟩ (by show (1 : ℕ) ≠ 0; decide) i1 h w)]
    have e := View.canon_cons_emb (Val := Val) (Rect.unit (s := S8x256x256) ![0, 0, 0] ![1, 256, 256] i0) P0 (M) (ix3 (0 : Fin 1) h w)
    rw [plane_emb 0 hk i0 (0 : Fin 1) h w] at e
    exact e
  | ⟨1, hk⟩ =>
    show _ = P1 (ix3 (0 : Fin 1) h w)
    rw [View.canon_cons_of_not_mem (⟨Rect.unit ![7, 0, 0] ![1, 256, 256] i7, P7⟩ : View.Piece Val S8x256x256 e) _ (plane_not_mem 7 ⟨1, hk⟩ (by show (7 : ℕ) ≠ 1; decide) i7 h w)]
    rw [View.canon_cons_of_not_mem (⟨Rect.unit ![6, 0, 0] ![1, 256, 256] i6, P6⟩ : View.Piece Val S8x256x256 e) _ (plane_not_mem 6 ⟨1, hk⟩ (by show (6 : ℕ) ≠ 1; decide) i6 h w)]
    rw [View.canon_cons_of_not_mem (⟨Rect.unit ![5, 0, 0] ![1, 256, 256] i5, P5⟩ : View.Piece Val S8x256x256 e) _ (plane_not_mem 5 ⟨1, hk⟩ (by show (5 : ℕ) ≠ 1; decide) i5 h w)]
    rw [View.canon_cons_of_not_mem (⟨Rect.unit ![4, 0, 0] ![1, 256, 256] i4, P4⟩ : View.Piece Val S8x256x256 e) _ (plane_not_mem 4 ⟨1, hk⟩ (by show (4 : ℕ) ≠ 1; decide) i4 h w)]
    rw [View.canon_cons_of_not_mem (⟨Rect.unit ![3, 0, 0] ![1, 256, 256] i3, P3⟩ : View.Piece Val S8x256x256 e) _ (plane_not_mem 3 ⟨1, hk⟩ (by show (3 : ℕ) ≠ 1; decide) i3 h w)]
    rw [View.canon_cons_of_not_mem (⟨Rect.unit ![2, 0, 0] ![1, 256, 256] i2, P2⟩ : View.Piece Val S8x256x256 e) _ (plane_not_mem 2 ⟨1, hk⟩ (by show (2 : ℕ) ≠ 1; decide) i2 h w)]
    have e := View.canon_cons_emb (Val := Val) (Rect.unit (s := S8x256x256) ![1, 0, 0] ![1, 256, 256] i1) P1 ((⟨Rect.unit ![0, 0, 0] ![1, 256, 256] i0, P0⟩ : View.Piece Val S8x256x256 e) :: M) (ix3 (0 : Fin 1) h w)
    rw [plane_emb 1 hk i1 (0 : Fin 1) h w] at e
    exact e
  | ⟨2, hk⟩ =>
    show _ = P2 (ix3 (0 : Fin 1) h w)
    rw [View.canon_cons_of_not_mem (⟨Rect.unit ![7, 0, 0] ![1, 256, 256] i7, P7⟩ : View.Piece Val S8x256x256 e) _ (plane_not_mem 7 ⟨2, hk⟩ (by show (7 : ℕ) ≠ 2; decide) i7 h w)]
    rw [View.canon_cons_of_not_mem (⟨Rect.unit ![6, 0, 0] ![1, 256, 256] i6, P6⟩ : View.Piece Val S8x256x256 e) _ (plane_not_mem 6 ⟨2, hk⟩ (by show (6 : ℕ) ≠ 2; decide) i6 h w)]
    rw [View.canon_cons_of_not_mem (⟨Rect.unit ![5, 0, 0] ![1, 256, 256] i5, P5⟩ : View.Piece Val S8x256x256 e) _ (plane_not_mem 5 ⟨2, hk⟩ (by show (5 : ℕ) ≠ 2; decide) i5 h w)]
    rw [View.canon_cons_of_not_mem (⟨Rect.unit ![4, 0, 0] ![1, 256, 256] i4, P4⟩ : View.Piece Val S8x256x256 e) _ (plane_not_mem 4 ⟨2, hk⟩ (by show (4 : ℕ) ≠ 2; decide) i4 h w)]
    rw [View.canon_cons_of_not_mem (⟨Rect.unit ![3, 0, 0] ![1, 256, 256] i3, P3⟩ : View.Piece Val S8x256x256 e) _ (plane_not_mem 3 ⟨2, hk⟩ (by show (3 : ℕ) ≠ 2; decide) i3 h w)]
    have e := View.canon_cons_emb (Val := Val) (Rect.unit (s := S8x256x256) ![2, 0, 0] ![1, 256, 256] i2) P2 ((⟨Rect.unit ![1, 0, 0] ![1, 256, 256] i1, P1⟩ : View.Piece Val S8x256x256 e) :: (⟨Rect.unit ![0, 0, 0] ![1, 256, 256] i0, P0⟩ : View.Piece Val S8x256x256 e) :: M) (ix3 (0 : Fin 1) h w)
    rw [plane_emb 2 hk i2 (0 : Fin 1) h w] at e
    exact e
  | ⟨3, hk⟩ =>
    show _ = P3 (ix3 (0 : Fin 1) h w)
    rw [View.canon_cons_of_not_mem (⟨Rect.unit ![7, 0, 0] ![1, 256, 256] i7, P7⟩ : View.Piece Val S8x256x256 e) _ (plane_not_mem 7 ⟨3, hk⟩ (by show (7 : ℕ) ≠ 3; decide) i7 h w)]
    rw [View.canon_cons_of_not_mem (⟨Rect.unit ![6, 0, 0] ![1, 256, 256] i6, P6⟩ : View.Piece Val S8x256x256 e) _ (plane_not_mem 6 ⟨3, hk⟩ (by show (6 : ℕ) ≠ 3; decide) i6 h w)]
    rw [View.canon_cons_of_not_mem (⟨Rect.unit ![5, 0, 0] ![1, 256, 256] i5, P5⟩ : View.Piece Val S8x256x256 e) _ (plane_not_mem 5 ⟨3, hk⟩ (by show (5 : ℕ) ≠ 3; decide) i5 h w)]
    rw [View.canon_cons_of_not_mem (⟨Rect.unit ![4, 0, 0] ![1, 256, 256] i4, P4⟩ : View.Piece Val S8x256x256 e) _ (plane_not_mem 4 ⟨3, hk⟩ (by show (4 : ℕ) ≠ 3; decide) i4 h w)]
    have e := View.canon_cons_emb (Val := Val) (Rect.unit (s := S8x256x256) ![3, 0, 0] ![1, 256, 256] i3) P3 ((⟨Rect.unit ![2, 0, 0] ![1, 256, 256] i2, P2⟩ : View.Piece Val S8x256x256 e) :: (⟨Rect.unit ![1, 0, 0] ![1, 256, 256] i1, P1⟩ : View.Piece Val S8x256x256 e) :: (⟨Rect.unit ![0, 0, 0] ![1, 256, 256] i0, P0⟩ : View.Piece Val S8x256x256 e) :: M) (ix3 (0 : Fin 1) h w)
    rw [plane_emb 3 hk i3 (0 : Fin 1) h w] at e
    exact e
  | ⟨4, hk⟩ =>
    show _ = P4 (ix3 (0 : Fin 1) h w)
    rw [View.canon_cons_of_not_mem (⟨Rect.unit ![7, 0, 0] ![1, 256, 256] i7, P7⟩ : View.Piece Val S8x256x256 e) _ (plane_not_mem 7 ⟨4, hk⟩ (by show (7 : ℕ) ≠ 4; decide) i7 h w)]
    rw [View.canon_cons_of_not_mem (⟨Rect.unit ![6, 0, 0] ![1, 256, 256] i6, P6⟩ : View.Piece Val S8x256x256 e) _ (plane_not_mem 6 ⟨4, hk⟩ (by show (6 : ℕ) ≠ 4; decide) i6 h w)]
    rw [View.canon_cons_of_not_mem (⟨Rect.unit ![5, 0, 0] ![1, 256, 256] i5, P5⟩ : View.Piece Val S8x256x256 e) _ (plane_not_mem 5 ⟨4, hk⟩ (by show (5 : ℕ) ≠ 4; decide) i5 h w)]
    have e := View.canon_cons_emb (Val := Val) (Rect.unit (s := S8x256x256) ![4, 0, 0] ![1, 256, 256] i4) P4 ((⟨Rect.unit ![3, 0, 0] ![1, 256, 256] i3, P3⟩ : View.Piece Val S8x256x256 e) :: (⟨Rect.unit ![2, 0, 0] ![1, 256, 256] i2, P2⟩ : View.Piece Val S8x256x256 e) :: (⟨Rect.unit ![1, 0, 0] ![1, 256, 256] i1, P1⟩ : View.Piece Val S8x256x256 e) :: (⟨Rect.unit ![0, 0, 0] ![1, 256, 256] i0, P0⟩ : View.Piece Val S8x256x256 e) :: M) (ix3 (0 : Fin 1) h w)
    rw [plane_emb 4 hk i4 (0 : Fin 1) h w] at e
    exact e
  | ⟨5, hk⟩ =>
    show _ = P5 (ix3 (0 : Fin 1) h w)
    rw [View.canon_cons_of_not_mem (⟨Rect.unit ![7, 0, 0] ![1, 256, 256] i7, P7⟩ : View.Piece Val S8x256x256 e) _ (plane_not_mem 7 ⟨5, hk⟩ (by show (7 : ℕ) ≠ 5; decide) i7 h w)]
    rw [View.canon_cons_of_not_mem (⟨Rect.unit ![6, 0, 0] ![1, 256, 256] i6, P6⟩ : View.Piece Val S8x256x256 e) _ (plane_not_mem 6 ⟨5, hk⟩ (by show (6 : ℕ) ≠ 5; decide) i6 h w)]
    have e := View.canon_cons_emb (Val := Val) (Rect.unit (s := S8x256x256) ![5, 0, 0] ![1, 256, 256] i5) P5 ((⟨Rect.unit ![4, 0, 0] ![1, 256, 256] i4, P4⟩ : View.Piece Val S8x256x256 e) :: (⟨Rect.unit ![3, 0, 0] ![1, 256, 256] i3, P3⟩ : View.Piece Val S8x256x256 e) :: (⟨Rect.unit ![2, 0, 0] ![1, 256, 256] i2, P2⟩ : View.Piece Val S8x256x256 e) :: (⟨Rect.unit ![1, 0, 0] ![1, 256, 256] i1, P1⟩ : View.Piece Val S8x256x256 e) :: (⟨Rect.unit ![0, 0, 0] ![1, 256, 256] i0, P0⟩ : View.Piece Val S8x256x256 e) :: M) (ix3 (0 : Fin 1) h w)
    rw [plane_emb 5 hk i5 (0 : Fin 1) h w] at e
    exact e
  | ⟨6, hk⟩ =>
    show _ = P6 (ix3 (0 : Fin 1) h w)
    rw [View.canon_cons_of_not_mem (⟨Rect.unit ![7, 0, 0] ![1, 256, 256] i7, P7⟩ : View.Piece Val S8x256x256 e) _ (plane_not_mem 7 ⟨6, hk⟩ (by show (7 : ℕ) ≠ 6; decide) i7 h w)]
    have e := View.canon_cons_emb (Val := Val) (Rect.unit (s := S8x256x256) ![6, 0, 0] ![1, 256, 256] i6) P6 ((⟨Rect.unit ![5, 0, 0] ![1, 256, 256] i5, P5⟩ : View.Piece Val S8x256x256 e) :: (⟨Rect.unit ![4, 0, 0] ![1, 256, 256] i4, P4⟩ : View.Piece Val S8x256x256 e) :: (⟨Rect.unit ![3, 0, 0] ![1, 256, 256] i3, P3⟩ : View.Piece Val S8x256x256 e) :: (⟨Rect.unit ![2, 0, 0] ![1, 256, 256] i2, P2⟩ : View.Piece Val S8x256x256 e) :: (⟨Rect.unit ![1, 0, 0] ![1, 256, 256] i1, P1⟩ : View.Piece Val S8x256x256 e) :: (⟨Rect.unit ![0, 0, 0] ![1, 256, 256] i0, P0⟩ : View.Piece Val S8x256x256 e) :: M) (ix3 (0 : Fin 1) h w)
    rw [plane_emb 6 hk i6 (0 : Fin 1) h w] at e
    exact e
  | ⟨7, hk⟩ =>
    show _ = P7 (ix3 (0 : Fin 1) h w)
    have e := View.canon_cons_emb (Val := Val) (Rect.unit (s := S8x256x256) ![7, 0, 0] ![1, 256, 256] i7) P7 ((⟨Rect.unit ![6, 0, 0] ![1, 256, 256] i6, P6⟩ : View.Piece Val S8x256x256 e) :: (⟨Rect.unit ![5, 0, 0] ![1, 256, 256] i5, P5⟩ : View.Piece Val S8x256x256 e) :: (⟨Rect.unit ![4, 0, 0] ![1, 256, 256] i4, P4⟩ : View.Piece Val S8x256x256 e) :: (⟨Rect.unit ![3, 0, 0] ![1, 256, 256] i3, P3⟩ : View.Piece Val S8x256x256 e) :: (⟨Rect.unit ![2, 0, 0] ![1, 256, 256] i2, P2⟩ : View.Piece Val S8x256x256 e) :: (⟨Rect.unit ![1, 0, 0] ![1, 256, 256] i1, P1⟩ : View.Piece Val S8x256x256 e) :: (⟨Rect.unit ![0, 0, 0] ![1, 256, 256] i0, P0⟩ : View.Piece Val S8x256x256 e) :: M) (ix3 (0 : Fin 1) h w)
    rw [plane_emb 7 hk i7 (0 : Fin 1) h w] at e
    exact e

/-- Eight plane writes of the output block (planes 7 … 0, last first) over anything: at (0, k, h, w) the k-th write's
    value at the pixel. -/
theorem canon_oplanes8
    (i0 : ∀ a, (![0, 0, 0, 0] : Fin 4 → Nat) a + (![1, 1, 256, 256] : Fin 4 → Nat) a ≤ S1x8x256x256.size a)
    (i1 : ∀ a, (![0, 1, 0, 0] : Fin 4 → Nat) a + (![1, 1, 256, 256] : Fin 4 → Nat) a ≤ S1x8x256x256.size a)
    (i2 : ∀ a, (![0, 2, 0, 0] : Fin 4 → Nat) a + (![1, 1, 256, 256] : Fin 4 → Nat) a ≤ S1x8x256x256.size a)
    (i3 : ∀ a, (![0, 3, 0, 0] : Fin 4 → Nat) a + (![1, 1, 256, 256] : Fin 4 → Nat) a ≤ S1x8x256x256.size a)
    (i4 : ∀ a, (![0, 4, 0, 0] : Fin 4 → Nat) a + (![1, 1, 256, 256] : Fin 4 → Nat) a ≤ S1x8x256x256.size a)
    (i5 : ∀ a, (![0, 5, 0, 0] : Fin 4 → Nat) a + (![1, 1, 256, 256] : Fin 4 → Nat) a ≤ S1x8x256x256.size a)
    (i6 : ∀ a, (![0, 6, 0, 0] : Fin 4 → Nat) a + (![1, 1, 256, 256] : Fin 4 → Nat) a ≤ S1x8x256x256.size a)
    (i7 : ∀ a, (![0, 7, 0, 0] : Fin 4 → Nat) a + (![1, 1, 256, 256] : Fin 4 → Nat) a ≤ S1x8x256x256.size a)
    (P0 P1 P2 P3 P4 P5 P6 P7 : S1x1x256x256.Idx → Val e) (M : List (View.Piece Val S1x8x256x256 e)) (k : Fin 8) (h w : Fin 256) :
    View.canon ((⟨Rect.unit ![0, 7, 0, 0] ![1, 1, 256, 256] i7, P7⟩ : View.Piece Val S1x8x256x256 e) ::
      (⟨Rect.unit ![0, 6, 0, 0] ![1, 1, 256, 256] i6, P6⟩ : View.Piece Val S1x8x256x256 e) ::
      (⟨Rect.unit ![0, 5, 0, 0] ![1, 1, 256, 256] i5, P5⟩ : View.Piece Val S1x8x256x256 e) ::
      (⟨Rect.unit ![0, 4, 0, 0] ![1, 1, 256, 256] i4, P4⟩ : View.Piece Val S1x8x256x256 e) ::
      (⟨Rect.unit ![0, 3, 0, 0] ![1, 1, 256, 256] i3, P3⟩ : View.Piece Val S1x8x256x256 e) ::
      (⟨Rect.unit ![0, 2, 0, 0] ![1, 1, 256, 256] i2, P2⟩ : View.Piece Val S1x8x256x256 e) ::
      (⟨Rect.unit ![0, 1, 0, 0] ![1, 1, 256, 256] i1, P1⟩ : View.Piece Val S1x8x256x256 e) ::
      (⟨Rect.unit ![0, 0, 0, 0] ![1, 1, 256, 256] i0, P0⟩ : View.Piece Val S1x8x256x256 e) :: M) (ix4 (0 : Fin 1) k h w)
      = pick8 P0 P1 P2 P3 P4 P5 P6 P7 k (ix4 (0 : Fin 1) (0 : Fin 1) h w) := by
  match k with
  | ⟨0, hk⟩ =>
    show _ = P0 (ix4 (0 : Fin 1) (0 : Fin 1) h w)
    rw [View.canon_cons_of_not_mem (⟨Rect.unit ![0, 7, 0, 0] ![1, 1, 256, 256] i7, P7⟩ : View.Piece Val S1x8x256x256 e) _ (oplane_not_mem 7 ⟨0, hk⟩ (by show (7 : ℕ) ≠ 0; decide) i7 h w)]
    rw [View.canon_cons_of_not_mem (⟨Rect.unit ![0, 6, 0, 0] ![1, 1, 256, 256] i6, P6⟩ : View.Piece Val S1x8x256x256 e) _ (oplane_not_mem 6 ⟨0, hk⟩ (by show (6 : ℕ) ≠ 0; decide) i6 h w)]
    rw [View.canon_cons_of_not_mem (⟨Rect.unit ![0, 5, 0, 0] ![1, 1, 256, 256] i5, P5⟩ : View.Piece Val S1x8x256x256 e) _ (oplane_not_mem 5 ⟨0, hk⟩ (by show (5 : ℕ) ≠ 0; decide) i5 h w)]
    rw [View.canon_cons_of_not_mem (⟨Rect.unit ![0, 4, 0, 0] ![1, 1, 256, 256] i4, P4⟩ : View.Piece Val S1x8x256x256 e) _ (oplane_not_mem 4 ⟨0, hk⟩ (by show (4 : ℕ) ≠ 0; decide) i4 h w)]
    rw [View.canon_cons_of_not_mem (⟨Rect.unit ![0, 3, 0, 0] ![1, 1, 256, 256] i3, P3⟩ : View.Piece Val S1x8x256x256 e) _ (oplane_not_mem 3 ⟨0, hk⟩ (by show (3 : ℕ) ≠ 0; decide) i3 h w)]
    rw [View.canon_cons_of_not_mem (⟨Rect.unit ![0, 2, 0, 0] ![1, 1, 256, 256] i2, P2⟩ : View.Piece Val S1x8x256x256 e) _ (oplane_not_mem 2 ⟨0, hk⟩ (by show (2 : ℕ) ≠ 0; decide) i2 h w)]
    rw [View.canon_cons_of_not_mem (⟨Rect.unit ![0, 1, 0, 0] ![1, 1, 256, 256] i1, P1⟩ : View.Piece Val S1x8x256x256 e) _ (oplane_not_mem 1 ⟨0, hk⟩ (by show (1 : ℕ) ≠ 0; decide) i1 h w)]
    have e := View.canon_cons_emb (Val := Val) (Rect.unit (s := S1x8x256x256) ![0, 0, 0, 0] ![1, 1, 256, 256] i0) P0 (M) (ix4 (0 : Fin 1) (0 : Fin 1) h w)
    rw [oplane_emb 0 hk i0 (0 : Fin 1) (0 : Fin 1) h w] at e
    exact e
  | ⟨1, hk⟩ =>
    show _ = P1 (ix4 (0 : Fin 1) (0 : Fin 1) h w)
    rw [View.canon_cons_of_not_mem (⟨Rect.unit ![0, 7, 0, 0] ![1, 1, 256, 256] i7, P7⟩ : View.Piece Val S1x8x256x256 e) _ (oplane_not_mem 7 ⟨1, hk⟩ (by show (7 : ℕ) ≠ 1; decide) i7 h w)]
    rw [View.canon_cons_of_not_mem (⟨Rect.unit ![0, 6, 0, 0] ![1, 1, 256, 256] i6, P6⟩ : View.Piece Val S1x8x256x256 e) _ (oplane_not_mem 6 ⟨1, hk⟩ (by show (6 : ℕ) ≠ 1; decide) i6 h w)]
    rw [View.canon_cons_of_not_mem (⟨Rect.unit ![0, 5, 0, 0] ![1, 1, 256, 256] i5, P5⟩ : View.Piece Val S1x8x256x256 e) _ (oplane_not_mem 5 ⟨1, hk⟩ (by show (5 : ℕ) ≠ 1; decide) i5 h w)]
    rw [View.canon_cons_of_not_mem (⟨Rect.unit ![0, 4, 0, 0] ![1, 1, 256, 256] i4, P4⟩ : View.Piece Val S1x8x256x256 e) _ (oplane_not_mem 4 ⟨1, hk⟩ (by show (4 : ℕ) ≠ 1; decide) i4 h w)]
    rw [View.canon_cons_of_not_mem (⟨Rect.unit ![0, 3, 0, 0] ![1, 1, 256, 256] i3, P3⟩ : View.Piece Val S1x8x256x256 e) _ (oplane_not_mem 3 ⟨1, hk⟩ (by show (3 : ℕ) ≠ 1; decide) i3 h w)]
    rw [View.canon_cons_of_not_mem (⟨Rect.unit ![0, 2, 0, 0] ![1, 1, 256, 256] i2, P2⟩ : View.Piece Val S1x8x256x256 e) _ (oplane_not_mem 2 ⟨1, hk⟩ (by show (2 : ℕ) ≠ 1; decide) i2 h w)]
    have e := View.canon_cons_emb (Val := Val) (Rect.unit (s := S1x8x256x256) ![0, 1, 0, 0] ![1, 1, 256, 256] i1) P1 ((⟨Rect.unit ![0, 0, 0, 0] ![1, 1, 256, 256] i0, P0⟩ : View.Piece Val S1x8x256x256 e) :: M) (ix4 (0 : Fin 1) (0 : Fin 1) h w)
    rw [oplane_emb 1 hk i1 (0 : Fin 1) (0 : Fin 1) h w] at e
    exact e
  | ⟨2, hk⟩ =>
    show _ = P2 (ix4 (0 : Fin 1) (0 : Fin 1) h w)
    rw [View.canon_cons_of_not_mem (⟨Rect.unit ![0, 7, 0, 0] ![1, 1, 256, 256] i7, P7⟩ : View.Piece Val S1x8x256x256 e) _ (oplane_not_mem 7 ⟨2, hk⟩ (by show (7 : ℕ) ≠ 2; decide) i7 h w)]
    rw [View.canon_cons_of_not_mem (⟨Rect.unit ![0, 6, 0, 0] ![1, 1, 256, 256] i6, P6⟩ : View.Piece Val S1x8x256x256 e) _ (oplane_not_mem 6 ⟨2, hk⟩ (by show (6 : ℕ) ≠ 2; decide) i6 h w)]
    rw [View.canon_cons_of_not_mem (⟨Rect.unit ![0, 5, 0, 0] ![1, 1, 256, 256] i5, P5⟩ : View.Piece Val S1x8x256x256 e) _ (oplane_not_mem 5 ⟨2, hk⟩ (by show (5 : ℕ) ≠ 2; decide) i5 h w)]
    rw [View.canon_cons_of_not_mem (⟨Rect.unit ![0, 4, 0, 0] ![1, 1, 256, 256] i4, P4⟩ : View.Piece Val S1x8x256x256 e) _ (oplane_not_mem 4 ⟨2, hk⟩ (by show (4 : ℕ) ≠ 2; decide) i4 h w)]
    rw [View.canon_cons_of_not_mem (⟨Rect.unit ![0, 3, 0, 0] ![1, 1, 256, 256] i3, P3⟩ : View.Piece Val S1x8x256x256 e) _ (oplane_not_mem 3 ⟨2, hk⟩ (by show (3 : ℕ) ≠ 2; decide) i3 h w)]
    have e := View.canon_cons_emb (Val := Val) (Rect.unit (s := S1x8x256x256) ![0, 2, 0, 0] ![1, 1, 256, 256] i2) P2 ((⟨Rect.unit ![0, 1, 0, 0] ![1, 1, 256, 256] i1, P1⟩ : View.Piece Val S1x8x256x256 e) :: (⟨Rect.unit ![0, 0, 0, 0] ![1, 1, 256, 256] i0, P0⟩ : View.Piece Val S1x8x256x256 e) :: M) (ix4 (0 : Fin 1) (0 : Fin 1) h w)
    rw [oplane_emb 2 hk i2 (0 : Fin 1) (0 : Fin 1) h w] at e
    exact e
  | ⟨3, hk⟩ =>
    show _ = P3 (ix4 (0 : Fin 1) (0 : Fin 1) h w)
    rw [View.canon_cons_of_not_mem (⟨Rect.unit ![0, 7, 0, 0] ![1, 1, 256, 256] i7, P7⟩ : View.Piece Val S1x8x256x256 e) _ (oplane_not_mem 7 ⟨3, hk⟩ (by show (7 : ℕ) ≠ 3; decide) i7 h w)]
    rw [View.canon_cons_of_not_mem (⟨Rect.unit ![0, 6, 0, 0] ![1, 1, 256, 256] i6, P6⟩ : View.Piece Val S1x8x256x256 e) _ (oplane_not_mem 6 ⟨3, hk⟩ (by show (6 : ℕ) ≠ 3; decide) i6 h w)]
    rw [View.canon_cons_of_not_mem (⟨Rect.unit ![0, 5, 0, 0] ![1, 1, 256, 256] i5, P5⟩ : View.Piece Val S1x8x256x256 e) _ (oplane_not_mem 5 ⟨3, hk⟩ (by show (5 : ℕ) ≠ 3; decide) i5 h w)]
    rw [View.canon_cons_of_not_mem (⟨Rect.unit ![0, 4, 0, 0] ![1, 1, 256, 256] i4, P4⟩ : View.Piece Val S1x8x256x256 e) _ (oplane_not_mem 4 ⟨3, hk⟩ (by show (4 : ℕ) ≠ 3; decide) i4 h w)]
    have e := View.canon_cons_emb (Val := Val) (Rect.unit (s := S1x8x256x256) ![0, 3, 0, 0] ![1, 1, 256, 256] i3) P3 ((⟨Rect.unit ![0, 2, 0, 0] ![1, 1, 256, 256] i2, P2⟩ : View.Piece Val S1x8x256x256 e) :: (⟨Rect.unit ![0, 1, 0, 0] ![1, 1, 256, 256] i1, P1⟩ : View.Piece Val S1x8x256x256 e) :: (⟨Rect.unit ![0, 0, 0, 0] ![1, 1, 256, 256] i0, P0⟩ : View.Piece Val S1x8x256x256 e) :: M) (ix4 (0 : Fin 1) (0 : Fin 1) h w)
    rw [oplane_emb 3 hk i3 (0 : Fin 1) (0 : Fin 1) h w] at e
    exact e
  | ⟨4, hk⟩ =>
    show _ = P4 (ix4 (0 : Fin 1) (0 : Fin 1) h w)
    rw [View.canon_cons_of_not_mem (⟨Rect.unit ![0, 7, 0, 0] ![1, 1, 256, 256] i7, P7⟩ : View.Piece Val S1x8x256x256 e) _ (oplane_not_mem 7 ⟨4, hk⟩ (by show (7 : ℕ) ≠ 4; decide) i7 h w)]
    rw [View.canon_cons_of_not_mem (⟨Rect.unit ![0, 6, 0, 0] ![1, 1, 256, 256] i6, P6⟩ : View.Piece Val S1x8x256x256 e) _ (oplane_not_mem 6 ⟨4, hk⟩ (by show (6 : ℕ) ≠ 4; decide) i6 h w)]
    rw [View.canon_cons_of_not_mem (⟨Rect.unit ![0, 5, 0, 0] ![1, 1, 256, 256] i5, P5⟩ : View.Piece Val S1x8x256x256 e) _ (oplane_not_mem 5 ⟨4, hk⟩ (by show (5 : ℕ) ≠ 4; decide) i5 h w)]
    have e := View.canon_cons_emb (Val := Val) (Rect.unit (s := S1x8x256x256) ![0, 4, 0, 0] ![1, 1, 256, 256] i4) P4 ((⟨Rect.unit ![0, 3, 0, 0] ![1, 1, 256, 256] i3, P3⟩ : View.Piece Val S1x8x256x256 e) :: (⟨Rect.unit ![0, 2, 0, 0] ![1, 1, 256, 256] i2, P2⟩ : View.Piece Val S1x8x256x256 e) :: (⟨Rect.unit ![0, 1, 0, 0] ![1, 1, 256, 256] i1, P1⟩ : View.Piece Val S1x8x256x256 e) :: (⟨Rect.unit ![0, 0, 0, 0] ![1, 1, 256, 256] i0, P0⟩ : View.Piece Val S1x8x256x256 e) :: M) (ix4 (0 : Fin 1) (0 : Fin 1) h w)
    rw [oplane_emb 4 hk i4 (0 : Fin 1) (0 : Fin 1) h w] at e
    exact e
  | ⟨5, hk⟩ =>
    show _ = P5 (ix4 (0 : Fin 1) (0 : Fin 1) h w)
    rw [View.canon_cons_of_not_mem (⟨Rect.unit ![0, 7, 0, 0] ![1, 1, 256, 256] i7, P7⟩ : View.Piece Val S1x8x256x256 e) _ (oplane_not_mem 7 ⟨5, hk⟩ (by show (7 : ℕ) ≠ 5; decide) i7 h w)]
    rw [View.canon_cons_of_not_mem (⟨Rect.unit ![0, 6, 0, 0] ![1, 1, 256, 256] i6, P6⟩ : View.Piece Val S1x8x256x256 e) _ (oplane_not_mem 6 ⟨5, hk⟩ (by show (6 : ℕ) ≠ 5; decide) i6 h w)]
    have e := View.canon_cons_emb (Val := Val) (Rect.unit (s := S1x8x256x256) ![0, 5, 0, 0] ![1, 1, 256, 256] i5) P5 ((⟨Rect.unit ![0, 4, 0, 0] ![1, 1, 256, 256] i4, P4⟩ : View.Piece Val S1x8x256x256 e) :: (⟨Rect.unit ![0, 3, 0, 0] ![1, 1, 256, 256] i3, P3⟩ : View.Piece Val S1x8x256x256 e) :: (⟨Rect.unit ![0, 2, 0, 0] ![1, 1, 256, 256] i2, P2⟩ : View.Piece Val S1x8x256x256 e) :: (⟨Rect.unit ![0, 1, 0, 0] ![1, 1, 256, 256] i1, P1⟩ : View.Piece Val S1x8x256x256 e) :: (⟨Rect.unit ![0, 0, 0, 0] ![1, 1, 256, 256] i0, P0⟩ : View.Piece Val S1x8x256x256 e) :: M) (ix4 (0 : Fin 1) (0 : Fin 1) h w)
    rw [oplane_emb 5 hk i5 (0 : Fin 1) (0 : Fin 1) h w] at e
    exact e
  | ⟨6, hk⟩ =>
    show _ = P6 (ix4 (0 : Fin 1) (0 : Fin 1) h w)
    rw [View.canon_cons_of_not_mem (⟨Rect.unit ![0, 7, 0, 0] ![1, 1, 256, 256] i7, P7⟩ : View.Piece Val S1x8x256x256 e) _ (oplane_not_mem 7 ⟨6, hk⟩ (by show (7 : ℕ) ≠ 6; decide) i7 h w)]
    have e := View.canon_cons_emb (Val := Val) (Rect.unit (s := S1x8x256x256) ![0, 6, 0, 0] ![1, 1, 256, 256] i6) P6 ((⟨Rect.unit ![0, 5, 0, 0] ![1, 1, 256, 256] i5, P5⟩ : View.Piece Val S1x8x256x256 e) :: (⟨Rect.unit ![0, 4, 0, 0] ![1, 1, 256, 256] i4, P4⟩ : View.Piece Val S1x8x256x256 e) :: (⟨Rect.unit ![0, 3, 0, 0] ![1, 1, 256, 256] i3, P3⟩ : View.Piece Val S1x8x256x256 e) :: (⟨Rect.unit ![0, 2, 0, 0] ![1, 1, 256, 256] i2, P2⟩ : View.Piece Val S1x8x256x256 e) :: (⟨Rect.unit ![0, 1, 0, 0] ![1, 1, 256, 256] i1, P1⟩ : View.Piece Val S1x8x256x256 e) :: (⟨Rect.unit ![0, 0, 0, 0] ![1, 1, 256, 256] i0, P0⟩ : View.Piece Val S1x8x256x256 e) :: M) (ix4 (0 : Fin 1) (0 : Fin 1) h w)
    rw [oplane_emb 6 hk i6 (0 : Fin 1) (0 : Fin 1) h w] at e
    exact e
  | ⟨7, hk⟩ =>
    show _ = P7 (ix4 (0 : Fin 1) (0 : Fin 1) h w)
    have e := View.canon_cons_emb (Val := Val) (Rect.unit (s := S1x8x256x256) ![0, 7, 0, 0] ![1, 1, 256, 256] i7) P7 ((⟨Rect.unit ![0, 6, 0, 0] ![1, 1, 256, 256] i6, P6⟩ : View.Piece Val S1x8x256x256 e) :: (⟨Rect.unit ![0, 5, 0, 0] ![1, 1, 256, 256] i5, P5⟩ : View.Piece Val S1x8x256x256 e) :: (⟨Rect.unit ![0, 4, 0, 0] ![1, 1, 256, 256] i4, P4⟩ : View.Piece Val S1x8x256x256 e) :: (⟨Rect.unit ![0, 3, 0, 0] ![1, 1, 256, 256] i3, P3⟩ : View.Piece Val S1x8x256x256 e) :: (⟨Rect.unit ![0, 2, 0, 0] ![1, 1, 256, 256] i2, P2⟩ : View.Piece Val S1x8x256x256 e) :: (⟨Rect.unit ![0, 1, 0, 0] ![1, 1, 256, 256] i1, P1⟩ : View.Piece Val S1x8x256x256 e) :: (⟨Rect.unit ![0, 0, 0, 0] ![1, 1, 256, 256] i0, P0⟩ : View.Piece Val S1x8x256x256 e) :: M) (ix4 (0 : Fin 1) (0 : Fin 1) h w)
    rw [oplane_emb 7 hk i7 (0 : Fin 1) (0 : Fin 1) h w] at e
    exact e

end Cert.KernelIdeal.Hand

end
-- ==== Proof.ValNumDen.lean ====
/-
  The second region, direction by direction: the numerator step  num_k + Σ_c cn_k·cx  and the denominator step
  den_k + Σ_c cn_k·cn_k  over the sixteen channels of a chunk, where cn_k is the k-th neighbour's array of the centred
  chunk cx. One lemma per kind, generic in the direction k; every stored value is an instance of one of the two.
  The "spec" forms restate a step when cx is the centred chunk t of image b of the input.
-/
import proofs.«100834_j73478300500485_1_alg».proof.Proof.ValCx

noncomputable section

namespace Cert.KVal

open Idealize.ShloMosaic Idealize.ShloMosaic.ValueIdx Cert.KernelIdeal Cert.KernelIdeal.Gen
open Cert.Spec (refl dh dw cx cn)

/-! ## The two steps, generic in the direction -/

/-- The numerator step of direction k at a pixel. -/
theorem num_step (k : Fin 8) (v8 : FVec Ideal S16x256x256 .f32) (acc : Vec Ideal S1x256x256 .f32)
    (h1 : S1x256x256.ShapeCasts S256x256) (h2 : S256x256.ShapeCasts S1x256x256)
    (hr : S16x256x256.Reduces [0] S256x256) (hφ : FKind.Formats .f32)
    (hacc : (0x00000000#32 : BitVec 32) = FKind.add.neutral .f32 hφ) (u : Fin 1) (h w : Fin 256) :
    shapeCast S1x256x256
        (addf (shapeCast S256x256 acc h1 : FVec Ideal S256x256 .f32)
          (multiReduction .add [0] S256x256 (mulf (shifted k v8) v8) 0x00000000#32 hr hφ hacc)) h2 (ix3 u h w)
      = acc (ix3 (0 : Fin 1) h w)
        + ∑ c : Fin 16, v8 (ix3 c (refl h (dh k)) (refl w (dw k))) * v8 (ix3 c h w) := by
  refine (step_plane _ _ acc h1 h2 hr hφ hacc u h w).trans ?_
  exact congrArg (acc (ix3 (0 : Fin 1) h w) + ·)
    (Finset.sum_congr rfl fun c _ => congrArg (· * v8 (ix3 c h w)) (shifted_apply k v8 c h w))

/-- The denominator step of direction k at a pixel. -/
theorem den_step (k : Fin 8) (v8 : FVec Ideal S16x256x256 .f32) (acc : Vec Ideal S1x256x256 .f32)
    (h1 : S1x256x256.ShapeCasts S256x256) (h2 : S256x256.ShapeCasts S1x256x256)
    (hr : S16x256x256.Reduces [0] S256x256) (hφ : FKind.Formats .f32)
    (hacc : (0x00000000#32 : BitVec 32) = FKind.add.neutral .f32 hφ) (u : Fin 1) (h w : Fin 256) :
    shapeCast S1x256x256
        (addf (shapeCast S256x256 acc h1 : FVec Ideal S256x256 .f32)
          (multiReduction .add [0] S256x256 (mulf (shifted k v8) (shifted k v8)) 0x00000000#32 hr hφ hacc)) h2 (ix3 u h w)
      = acc (ix3 (0 : Fin 1) h w)
        + ∑ c : Fin 16, v8 (ix3 c (refl h (dh k)) (refl w (dw k))) * v8 (ix3 c (refl h (dh k)) (refl w (dw k))) := by
  refine (step_plane _ _ acc h1 h2 hr hφ hacc u h w).trans ?_
  exact congrArg (acc (ix3 (0 : Fin 1) h w) + ·)
    (Finset.sum_congr rfl fun c _ => by rw [shifted_apply k v8 c h w])

/-- A chunk's numerator sum against the specification. -/
theorem num_sum_spec {x : Cert.Spec.XIdx → EReal} {b t : Fin 4} {v8 : FVec Ideal S16x256x256 .f32}
    (hv : IsCx x b t v8) (k : Fin 8) (h w : Fin 256) :
    ∑ c : Fin 16, v8 (ix3 c (refl h (dh k)) (refl w (dw k))) * v8 (ix3 c h w)
      = ∑ c : Fin 16, cn x k b (chunk t c) h w * cx x b (chunk t c) h w :=
  Finset.sum_congr rfl fun c _ => by rw [hv, hv]; rfl

/-- A chunk's denominator sum against the specification. -/
theorem den_sum_spec {x : Cert.Spec.XIdx → EReal} {b t : Fin 4} {v8 : FVec Ideal S16x256x256 .f32}
    (hv : IsCx x b t v8) (k : Fin 8) (h w : Fin 256) :
    ∑ c : Fin 16, v8 (ix3 c (refl h (dh k)) (refl w (dw k))) * v8 (ix3 c (refl h (dh k)) (refl w (dw k)))
      = ∑ c : Fin 16, cn x k b (chunk t c) h w * cn x k b (chunk t c) h w :=
  Finset.sum_congr rfl fun c _ => by rw [hv]; rfl

/-! ## The accumulator loads passed on as [256, 256] arrays -/

theorem k1_pay28_apply (v63 : Vec Ideal S1x256x256 .f32) (h w : Fin 256) :
    k1_pay28 (F := Ideal) v63 (ix2 h w) = v63 (ix3 (0 : Fin 1) h w) := by
  unfold k1_pay28; exact shapeCast_1ab_ab_apply v63 _ h w

theorem k1_pay45_apply (v164 : Vec Ideal S1x256x256 .f32) (h w : Fin 256) :
    k1_pay45 (F := Ideal) v164 (ix2 h w) = v164 (ix3 (0 : Fin 1) h w) := by
  unfold k1_pay45; exact shapeCast_1ab_ab_apply v164 _ h w

/-- The products cn₂·cx passed on as one array. -/
theorem k1_pay29_apply (v8 : FVec Ideal S16x256x256 .f32) (c : Fin 16) (h w : Fin 256) :
    k1_pay29 (F := Ideal) v8 (ix3 c h w) = v8 (ix3 c (refl h (dh 2)) (refl w (dw 2))) * v8 (ix3 c h w) :=
  congrArg (· * v8 (ix3 c h w)) (shifted_apply 2 v8 c h w)

/-! ## The numerator steps, direction by direction -/

/-- Direction 0 (written from the input and mean blocks). -/
theorem k1_pay22_apply (v3 : Vec Ideal S1x16x256x256 .f32) (v5 : Vec Ideal S1x16x1x1 .f32) (v22 : Vec Ideal S1x256x256 .f32)
    (u : Fin 1) (h w : Fin 256) :
    k1_pay22 (F := Ideal) v3 v5 v22 (ix3 u h w)
      = v22 (ix3 (0 : Fin 1) h w)
        + ∑ c : Fin 16, k1_pay19 (F := Ideal) v3 v5 (ix3 c (refl h (dh 0)) (refl w (dw 0))) * k1_pay19 (F := Ideal) v3 v5 (ix3 c h w) :=
  num_step 0 (k1_pay19 (F := Ideal) v3 v5) v22 _ _ _ _ _ u h w

theorem k1_pay22_spec {x : Cert.Spec.XIdx → EReal} {b t : Fin 4} {v3 : Vec Ideal S1x16x256x256 .f32}
    {v5 : Vec Ideal S1x16x1x1 .f32} (hb : IsChunk x b t v3 v5) (v22 : Vec Ideal S1x256x256 .f32) (u : Fin 1) (h w : Fin 256) :
    k1_pay22 (F := Ideal) v3 v5 v22 (ix3 u h w)
      = v22 (ix3 (0 : Fin 1) h w) + ∑ c : Fin 16, cn x 0 b (chunk t c) h w * cx x b (chunk t c) h w :=
  (k1_pay22_apply v3 v5 v22 u h w).trans (congrArg (v22 (ix3 (0 : Fin 1) h w) + ·) (num_sum_spec (k1_pay19_isCx hb) 0 h w))

/-- Direction 1. -/
theorem k1_pay25_apply (v8 : FVec Ideal S16x256x256 .f32) (v41 : Vec Ideal S1x256x256 .f32) (u : Fin 1) (h w : Fin 256) :
    k1_pay25 (F := Ideal) v8 v41 (ix3 u h w)
      = v41 (ix3 (0 : Fin 1) h w) + ∑ c : Fin 16, v8 (ix3 c (refl h (dh 1)) (refl w (dw 1))) * v8 (ix3 c h w) :=
  num_step 1 v8 v41 _ _ _ _ _ u h w

theorem k1_pay25_spec {x : Cert.Spec.XIdx → EReal} {b t : Fin 4} {v8 : FVec Ideal S16x256x256 .f32} (hv : IsCx x b t v8)
    (v41 : Vec Ideal S1x256x256 .f32) (u : Fin 1) (h w : Fin 256) :
    k1_pay25 (F := Ideal) v8 v41 (ix3 u h w)
      = v41 (ix3 (0 : Fin 1) h w) + ∑ c : Fin 16, cn x 1 b (chunk t c) h w * cx x b (chunk t c) h w :=
  (k1_pay25_apply v8 v41 u h w).trans (congrArg (v41 (ix3 (0 : Fin 1) h w) + ·) (num_sum_spec hv 1 h w))

/-- Direction 3. -/
theorem k1_pay33_apply (v8 : FVec Ideal S16x256x256 .f32) (v82 : Vec Ideal S1x256x256 .f32) (u : Fin 1) (h w : Fin 256) :
    k1_pay33 (F := Ideal) v8 v82 (ix3 u h w)
      = v82 (ix3 (0 : Fin 1) h w) + ∑ c : Fin 16, v8 (ix3 c (refl h (dh 3)) (refl w (dw 3))) * v8 (ix3 c h w) :=
  num_step 3 v8 v82 _ _ _ _ _ u h w

theorem k1_pay33_spec {x : Cert.Spec.XIdx → EReal} {b t : Fin 4} {v8 : FVec Ideal S16x256x256 .f32} (hv : IsCx x b t v8)
    (v82 : Vec Ideal S1x256x256 .f32) (u : Fin 1) (h w : Fin 256) :
    k1_pay33 (F := Ideal) v8 v82 (ix3 u h w)
      = v82 (ix3 (0 : Fin 1) h w) + ∑ c : Fin 16, cn x 3 b (chunk t c) h w * cx x b (chunk t c) h w :=
  (k1_pay33_apply v8 v82 u h w).trans (congrArg (v82 (ix3 (0 : Fin 1) h w) + ·) (num_sum_spec hv 3 h w))

/-- Direction 4. -/
theorem k1_pay36_apply (v8 : FVec Ideal S16x256x256 .f32) (v101 : Vec Ideal S1x256x256 .f32) (u : Fin 1) (h w : Fin 256) :
    k1_pay36 (F := Ideal) v8 v101 (ix3 u h w)
      = v101 (ix3 (0 : Fin 1) h w) + ∑ c : Fin 16, v8 (ix3 c (refl h (dh 4)) (refl w (dw 4))) * v8 (ix3 c h w) :=
  num_step 4 v8 v101 _ _ _ _ _ u h w

theorem k1_pay36_spec {x : Cert.Spec.XIdx → EReal} {b t : Fin 4} {v8 : FVec Ideal S16x256x256 .f32} (hv : IsCx x b t v8)
    (v101 : Vec Ideal S1x256x256 .f32) (u : Fin 1) (h w : Fin 256) :
    k1_pay36 (F := Ideal) v8 v101 (ix3 u h w)
      = v101 (ix3 (0 : Fin 1) h w) + ∑ c : Fin 16, cn x 4 b (chunk t c) h w * cx x b (chunk t c) h w :=
  (k1_pay36_apply v8 v101 u h w).trans (congrArg (v101 (ix3 (0 : Fin 1) h w) + ·) (num_sum_spec hv 4 h w))

/-- Direction 5. -/
theorem k1_pay39_apply (v8 : FVec Ideal S16x256x256 .f32) (v123 : Vec Ideal S1x256x256 .f32) (u : Fin 1) (h w : Fin 256) :
    k1_pay39 (F := Ideal) v8 v123 (ix3 u h w)
      = v123 (ix3 (0 : Fin 1) h w) + ∑ c : Fin 16, v8 (ix3 c (refl h (dh 5)) (refl w (dw 5))) * v8 (ix3 c h w) :=
  num_step 5 v8 v123 _ _ _ _ _ u h w

theorem k1_pay39_spec {x : Cert.Spec.XIdx → EReal} {b t : Fin 4} {v8 : FVec Ideal S16x256x256 .f32} (hv : IsCx x b t v8)
    (v123 : Vec Ideal S1x256x256 .f32) (u : Fin 1) (h w : Fin 256) :
    k1_pay39 (F := Ideal) v8 v123 (ix3 u h w)
      = v123 (ix3 (0 : Fin 1) h w) + ∑ c : Fin 16, cn x 5 b (chunk t c) h w * cx x b (chunk t c) h w :=
  (k1_pay39_apply v8 v123 u h w).trans (congrArg (v123 (ix3 (0 : Fin 1) h w) + ·) (num_sum_spec hv 5 h w))

/-- Direction 6. -/
theorem k1_pay42_apply (v8 : FVec Ideal S16x256x256 .f32) (v142 : Vec Ideal S1x256x256 .f32) (u : Fin 1) (h w : Fin 256) :
    k1_pay42 (F := Ideal) v8 v142 (ix3 u h w)
      = v142 (ix3 (0 : Fin 1) h w) + ∑ c : Fin 16, v8 (ix3 c (refl h (dh 6)) (refl w (dw 6))) * v8 (ix3 c h w) :=
  num_step 6 v8 v142 _ _ _ _ _ u h w

theorem k1_pay42_spec {x : Cert.Spec.XIdx → EReal} {b t : Fin 4} {v8 : FVec Ideal S16x256x256 .f32} (hv : IsCx x b t v8)
    (v142 : Vec Ideal S1x256x256 .f32) (u : Fin 1) (h w : Fin 256) :
    k1_pay42 (F := Ideal) v8 v142 (ix3 u h w)
      = v142 (ix3 (0 : Fin 1) h w) + ∑ c : Fin 16, cn x 6 b (chunk t c) h w * cx x b (chunk t c) h w :=
  (k1_pay42_apply v8 v142 u h w).trans (congrArg (v142 (ix3 (0 : Fin 1) h w) + ·) (num_sum_spec hv 6 h w))

/-- Direction 2: the old value and the products arrive as arrays computed before (k1_pay28, k1_pay29). -/
theorem k1_pay30_apply (v64 : FVec Ideal S256x256 .f32) (v65 : FVec Ideal S16x256x256 .f32) (u : Fin 1) (h w : Fin 256) :
    k1_pay30 (F := Ideal) v64 v65 (ix3 u h w) = v64 (ix2 h w) + ∑ c : Fin 16, v65 (ix3 c h w) := by
  unfold k1_pay30
  exact step_plane' v65 v64 _ _ _ _ u h w

theorem k1_pay30_comp (v8 : FVec Ideal S16x256x256 .f32) (v63 : Vec Ideal S1x256x256 .f32) (u : Fin 1) (h w : Fin 256) :
    k1_pay30 (F := Ideal) (k1_pay28 (F := Ideal) v63) (k1_pay29 (F := Ideal) v8) (ix3 u h w)
      = v63 (ix3 (0 : Fin 1) h w) + ∑ c : Fin 16, v8 (ix3 c (refl h (dh 2)) (refl w (dw 2))) * v8 (ix3 c h w) := by
  rw [k1_pay30_apply, k1_pay28_apply]
  exact congrArg (v63 (ix3 (0 : Fin 1) h w) + ·) (Finset.sum_congr rfl fun c _ => k1_pay29_apply v8 c h w)

theorem k1_pay30_spec {x : Cert.Spec.XIdx → EReal} {b t : Fin 4} {v8 : FVec Ideal S16x256x256 .f32} (hv : IsCx x b t v8)
    (v63 : Vec Ideal S1x256x256 .f32) (u : Fin 1) (h w : Fin 256) :
    k1_pay30 (F := Ideal) (k1_pay28 (F := Ideal) v63) (k1_pay29 (F := Ideal) v8) (ix3 u h w)
      = v63 (ix3 (0 : Fin 1) h w) + ∑ c : Fin 16, cn x 2 b (chunk t c) h w * cx x b (chunk t c) h w :=
  (k1_pay30_comp v8 v63 u h w).trans (congrArg (v63 (ix3 (0 : Fin 1) h w) + ·) (num_sum_spec hv 2 h w))

/-- Direction 7: the old value and the shifted array arrive as arrays computed before (k1_pay45, k1_pay44). -/
theorem k1_pay1_apply (v8 v163 : FVec Ideal S16x256x256 .f32) (v165 : FVec Ideal S256x256 .f32) (u : Fin 1) (h w : Fin 256) :
    k1_pay1 (F := Ideal) v8 v163 v165 (ix3 u h w) = v165 (ix2 h w) + ∑ c : Fin 16, v163 (ix3 c h w) * v8 (ix3 c h w) := by
  unfold k1_pay1
  exact step_plane' (mulf v163 v8) v165 _ _ _ _ u h w

theorem k1_pay1_comp (v8 : FVec Ideal S16x256x256 .f32) (v164 : Vec Ideal S1x256x256 .f32) (u : Fin 1) (h w : Fin 256) :
    k1_pay1 (F := Ideal) v8 (k1_pay44 (F := Ideal) v8) (k1_pay45 (F := Ideal) v164) (ix3 u h w)
      = v164 (ix3 (0 : Fin 1) h w) + ∑ c : Fin 16, v8 (ix3 c (refl h (dh 7)) (refl w (dw 7))) * v8 (ix3 c h w) := by
  rw [k1_pay1_apply, k1_pay45_apply]
  exact congrArg (v164 (ix3 (0 : Fin 1) h w) + ·)
    (Finset.sum_congr rfl fun c _ => congrArg (· * v8 (ix3 c h w)) (shifted_apply 7 v8 c h w))

theorem k1_pay1_spec {x : Cert.Spec.XIdx → EReal} {b t : Fin 4} {v8 : FVec Ideal S16x256x256 .f32} (hv : IsCx x b t v8)
    (v164 : Vec Ideal S1x256x256 .f32) (u : Fin 1) (h w : Fin 256) :
    k1_pay1 (F := Ideal) v8 (k1_pay44 (F := Ideal) v8) (k1_pay45 (F := Ideal) v164) (ix3 u h w)
      = v164 (ix3 (0 : Fin 1) h w) + ∑ c : Fin 16, cn x 7 b (chunk t c) h w * cx x b (chunk t c) h w :=
  (k1_pay1_comp v8 v164 u h w).trans (congrArg (v164 (ix3 (0 : Fin 1) h w) + ·) (num_sum_spec hv 7 h w))

/-! ## The denominator steps, direction by direction -/

/-- Direction 1. -/
theorem k1_pay26_apply (v8 : FVec Ideal S16x256x256 .f32) (v49 : Vec Ideal S1x256x256 .f32) (u : Fin 1) (h w : Fin 256) :
    k1_pay26 (F := Ideal) v8 v49 (ix3 u h w)
      = v49 (ix3 (0 : Fin 1) h w)
        + ∑ c : Fin 16, v8 (ix3 c (refl h (dh 1)) (refl w (dw 1))) * v8 (ix3 c (refl h (dh 1)) (refl w (dw 1))) :=
  den_step 1 v8 v49 _ _ _ _ _ u h w

theorem k1_pay26_spec {x : Cert.Spec.XIdx → EReal} {b t : Fin 4} {v8 : FVec Ideal S16x256x256 .f32} (hv : IsCx x b t v8)
    (v49 : Vec Ideal S1x256x256 .f32) (u : Fin 1) (h w : Fin 256) :
    k1_pay26 (F := Ideal) v8 v49 (ix3 u h w)
      = v49 (ix3 (0 : Fin 1) h w) + ∑ c : Fin 16, cn x 1 b (chunk t c) h w * cn x 1 b (chunk t c) h w :=
  (k1_pay26_apply v8 v49 u h w).trans (congrArg (v49 (ix3 (0 : Fin 1) h w) + ·) (den_sum_spec hv 1 h w))

/-- Direction 3. -/
theorem k1_pay34_apply (v8 : FVec Ideal S16x256x256 .f32) (v90 : Vec Ideal S1x256x256 .f32) (u : Fin 1) (h w : Fin 256) :
    k1_pay34 (F := Ideal) v8 v90 (ix3 u h w)
      = v90 (ix3 (0 : Fin 1) h w)
        + ∑ c : Fin 16, v8 (ix3 c (refl h (dh 3)) (refl w (dw 3))) * v8 (ix3 c (refl h (dh 3)) (refl w (dw 3))) :=
  den_step 3 v8 v90 _ _ _ _ _ u h w

theorem k1_pay34_spec {x : Cert.Spec.XIdx → EReal} {b t : Fin 4} {v8 : FVec Ideal S16x256x256 .f32} (hv : IsCx x b t v8)
    (v90 : Vec Ideal S1x256x256 .f32) (u : Fin 1) (h w : Fin 256) :
    k1_pay34 (F := Ideal) v8 v90 (ix3 u h w)
      = v90 (ix3 (0 : Fin 1) h w) + ∑ c : Fin 16, cn x 3 b (chunk t c) h w * cn x 3 b (chunk t c) h w :=
  (k1_pay34_apply v8 v90 u h w).trans (congrArg (v90 (ix3 (0 : Fin 1) h w) + ·) (den_sum_spec hv 3 h w))

/-- Direction 4. -/
theorem k1_pay37_apply (v8 : FVec Ideal S16x256x256 .f32) (v109 : Vec Ideal S1x256x256 .f32) (u : Fin 1) (h w : Fin 256) :
    k1_pay37 (F := Ideal) v8 v109 (ix3 u h w)
      = v109 (ix3 (0 : Fin 1) h w)
        + ∑ c : Fin 16, v8 (ix3 c (refl h (dh 4)) (refl w (dw 4))) * v8 (ix3 c (refl h (dh 4)) (refl w (dw 4))) :=
  den_step 4 v8 v109 _ _ _ _ _ u h w

theorem k1_pay37_spec {x : Cert.Spec.XIdx → EReal} {b t : Fin 4} {v8 : FVec Ideal S16x256x256 .f32} (hv : IsCx x b t v8)
    (v109 : Vec Ideal S1x256x256 .f32) (u : Fin 1) (h w : Fin 256) :
    k1_pay37 (F := Ideal) v8 v109 (ix3 u h w)
      = v109 (ix3 (0 : Fin 1) h w) + ∑ c : Fin 16, cn x 4 b (chunk t c) h w * cn x 4 b (chunk t c) h w :=
  (k1_pay37_apply v8 v109 u h w).trans (congrArg (v109 (ix3 (0 : Fin 1) h w) + ·) (den_sum_spec hv 4 h w))

/-- Direction 6. -/
theorem k1_pay43_apply (v8 : FVec Ideal S16x256x256 .f32) (v150 : Vec Ideal S1x256x256 .f32) (u : Fin 1) (h w : Fin 256) :
    k1_pay43 (F := Ideal) v8 v150 (ix3 u h w)
      = v150 (ix3 (0 : Fin 1) h w)
        + ∑ c : Fin 16, v8 (ix3 c (refl h (dh 6)) (refl w (dw 6))) * v8 (ix3 c (refl h (dh 6)) (refl w (dw 6))) :=
  den_step 6 v8 v150 _ _ _ _ _ u h w

theorem k1_pay43_spec {x : Cert.Spec.XIdx → EReal} {b t : Fin 4} {v8 : FVec Ideal S16x256x256 .f32} (hv : IsCx x b t v8)
    (v150 : Vec Ideal S1x256x256 .f32) (u : Fin 1) (h w : Fin 256) :
    k1_pay43 (F := Ideal) v8 v150 (ix3 u h w)
      = v150 (ix3 (0 : Fin 1) h w) + ∑ c : Fin 16, cn x 6 b (chunk t c) h w * cn x 6 b (chunk t c) h w :=
  (k1_pay43_apply v8 v150 u h w).trans (congrArg (v150 (ix3 (0 : Fin 1) h w) + ·) (den_sum_spec hv 6 h w))

/-- Direction 0: the neighbour's array arrives as an array computed before. -/
theorem k1_pay23_apply (v21 : FVec Ideal S16x256x256 .f32) (v30 : Vec Ideal S1x256x256 .f32) (u : Fin 1) (h w : Fin 256) :
    k1_pay23 (F := Ideal) v21 v30 (ix3 u h w)
      = v30 (ix3 (0 : Fin 1) h w) + ∑ c : Fin 16, v21 (ix3 c h w) * v21 (ix3 c h w) := by
  unfold k1_pay23
  exact step_plane v21 v21 v30 _ _ _ _ _ u h w

theorem k1_pay23_comp (v3 : Vec Ideal S1x16x256x256 .f32) (v5 : Vec Ideal S1x16x1x1 .f32) (v30 : Vec Ideal S1x256x256 .f32)
    (u : Fin 1) (h w : Fin 256) :
    k1_pay23 (F := Ideal) (k1_pay21 (F := Ideal) v3 v5) v30 (ix3 u h w)
      = v30 (ix3 (0 : Fin 1) h w)
        + ∑ c : Fin 16, k1_pay19 (F := Ideal) v3 v5 (ix3 c (refl h (dh 0)) (refl w (dw 0)))
            * k1_pay19 (F := Ideal) v3 v5 (ix3 c (refl h (dh 0)) (refl w (dw 0))) :=
  den_step 0 (k1_pay19 (F := Ideal) v3 v5) v30 _ _ _ _ _ u h w

theorem k1_pay23_spec {x : Cert.Spec.XIdx → EReal} {b t : Fin 4} {v3 : Vec Ideal S1x16x256x256 .f32}
    {v5 : Vec Ideal S1x16x1x1 .f32} (hb : IsChunk x b t v3 v5) (v30 : Vec Ideal S1x256x256 .f32) (u : Fin 1) (h w : Fin 256) :
    k1_pay23 (F := Ideal) (k1_pay21 (F := Ideal) v3 v5) v30 (ix3 u h w)
      = v30 (ix3 (0 : Fin 1) h w) + ∑ c : Fin 16, cn x 0 b (chunk t c) h w * cn x 0 b (chunk t c) h w :=
  (k1_pay23_comp v3 v5 v30 u h w).trans (congrArg (v30 (ix3 (0 : Fin 1) h w) + ·) (den_sum_spec (k1_pay19_isCx hb) 0 h w))

/-- Direction 2: the neighbour's array arrives as an array computed before. -/
theorem k1_pay31_apply (v62 : FVec Ideal S16x256x256 .f32) (v71 : Vec Ideal S1x256x256 .f32) (u : Fin 1) (h w : Fin 256) :
    k1_pay31 (F := Ideal) v62 v71 (ix3 u h w)
      = v71 (ix3 (0 : Fin 1) h w) + ∑ c : Fin 16, v62 (ix3 c h w) * v62 (ix3 c h w) := by
  unfold k1_pay31
  exact step_plane v62 v62 v71 _ _ _ _ _ u h w

theorem k1_pay31_comp (v8 : FVec Ideal S16x256x256 .f32) (v71 : Vec Ideal S1x256x256 .f32) (u : Fin 1) (h w : Fin 256) :
    k1_pay31 (F := Ideal) (k1_pay27 (F := Ideal) v8) v71 (ix3 u h w)
      = v71 (ix3 (0 : Fin 1) h w)
        + ∑ c : Fin 16, v8 (ix3 c (refl h (dh 2)) (refl w (dw 2))) * v8 (ix3 c (refl h (dh 2)) (refl w (dw 2))) :=
  den_step 2 v8 v71 _ _ _ _ _ u h w

theorem k1_pay31_spec {x : Cert.Spec.XIdx → EReal} {b t : Fin 4} {v8 : FVec Ideal S16x256x256 .f32} (hv : IsCx x b t v8)
    (v71 : Vec Ideal S1x256x256 .f32) (u : Fin 1) (h w : Fin 256) :
    k1_pay31 (F := Ideal) (k1_pay27 (F := Ideal) v8) v71 (ix3 u h w)
      = v71 (ix3 (0 : Fin 1) h w) + ∑ c : Fin 16, cn x 2 b (chunk t c) h w * cn x 2 b (chunk t c) h w :=
  (k1_pay31_comp v8 v71 u h w).trans (congrArg (v71 (ix3 (0 : Fin 1) h w) + ·) (den_sum_spec hv 2 h w))

/-- Direction 5: the neighbour's array arrives as an array computed before. -/
theorem k1_pay40_apply (v122 : FVec Ideal S16x256x256 .f32) (v131 : Vec Ideal S1x256x256 .f32) (u : Fin 1) (h w : Fin 256) :
    k1_pay40 (F := Ideal) v122 v131 (ix3 u h w)
      = v131 (ix3 (0 : Fin 1) h w) + ∑ c : Fin 16, v122 (ix3 c h w) * v122 (ix3 c h w) := by
  unfold k1_pay40
  exact step_plane v122 v122 v131 _ _ _ _ _ u h w

theorem k1_pay40_comp (v8 : FVec Ideal S16x256x256 .f32) (v131 : Vec Ideal S1x256x256 .f32) (u : Fin 1) (h w : Fin 256) :
    k1_pay40 (F := Ideal) (k1_pay38 (F := Ideal) v8) v131 (ix3 u h w)
      = v131 (ix3 (0 : Fin 1) h w)
        + ∑ c : Fin 16, v8 (ix3 c (refl h (dh 5)) (refl w (dw 5))) * v8 (ix3 c (refl h (dh 5)) (refl w (dw 5))) :=
  den_step 5 v8 v131 _ _ _ _ _ u h w

theorem k1_pay40_spec {x : Cert.Spec.XIdx → EReal} {b t : Fin 4} {v8 : FVec Ideal S16x256x256 .f32} (hv : IsCx x b t v8)
    (v131 : Vec Ideal S1x256x256 .f32) (u : Fin 1) (h w : Fin 256) :
    k1_pay40 (F := Ideal) (k1_pay38 (F := Ideal) v8) v131 (ix3 u h w)
      = v131 (ix3 (0 : Fin 1) h w) + ∑ c : Fin 16, cn x 5 b (chunk t c) h w * cn x 5 b (chunk t c) h w :=
  (k1_pay40_comp v8 v131 u h w).trans (congrArg (v131 (ix3 (0 : Fin 1) h w) + ·) (den_sum_spec hv 5 h w))

/-- Direction 7: the neighbour's array arrives as an array computed before. -/
theorem k1_pay2_apply (v163 : FVec Ideal S16x256x256 .f32) (v172 : Vec Ideal S1x256x256 .f32) (u : Fin 1) (h w : Fin 256) :
    k1_pay2 (F := Ideal) v163 v172 (ix3 u h w)
      = v172 (ix3 (0 : Fin 1) h w) + ∑ c : Fin 16, v163 (ix3 c h w) * v163 (ix3 c h w) := by
  unfold k1_pay2
  exact step_plane v163 v163 v172 _ _ _ _ _ u h w

theorem k1_pay2_comp (v8 : FVec Ideal S16x256x256 .f32) (v172 : Vec Ideal S1x256x256 .f32) (u : Fin 1) (h w : Fin 256) :
    k1_pay2 (F := Ideal) (k1_pay44 (F := Ideal) v8) v172 (ix3 u h w)
      = v172 (ix3 (0 : Fin 1) h w)
        + ∑ c : Fin 16, v8 (ix3 c (refl h (dh 7)) (refl w (dw 7))) * v8 (ix3 c (refl h (dh 7)) (refl w (dw 7))) :=
  den_step 7 v8 v172 _ _ _ _ _ u h w

theorem k1_pay2_spec {x : Cert.Spec.XIdx → EReal} {b t : Fin 4} {v8 : FVec Ideal S16x256x256 .f32} (hv : IsCx x b t v8)
    (v172 : Vec Ideal S1x256x256 .f32) (u : Fin 1) (h w : Fin 256) :
    k1_pay2 (F := Ideal) (k1_pay44 (F := Ideal) v8) v172 (ix3 u h w)
      = v172 (ix3 (0 : Fin 1) h w) + ∑ c : Fin 16, cn x 7 b (chunk t c) h w * cn x 7 b (chunk t c) h w :=
  (k1_pay2_comp v8 v172 u h w).trans (congrArg (v172 (ix3 (0 : Fin 1) h w) + ·) (den_sum_spec hv 7 h w))

end Cert.KVal

end
-- ==== Proof.ValQuot.lean ====
/-
  The second region's last step, on the last chunk: for each direction k the stored value at a pixel is
    num_k / max(√(den_k · norm), ε)
  read from the three accumulators. Five directions compute it in one piece; directions 2, 4 and 6 receive part of it
  (the denominator plane, its square root and ε, or the whole lower-bounded root and the numerator plane) as arrays
  computed before.
-/
import proofs.«100834_j73478300500485_1_alg».proof.Proof.ValStep

noncomputable section

namespace Cert.KVal

open Idealize.ShloMosaic Idealize.ShloMosaic.ValueIdx Cert.KernelIdeal Cert.KernelIdeal.Gen

/-- The quotient against the specification: with the three accumulators holding the specification's sums at the pixel,
    the stored value is the specification's result. -/
theorem quot_spec {x : Cert.Spec.XIdx → EReal} {b : Fin 4} {k : Fin 8} {h w : Fin 256} {d n m : EReal}
    (hd : d = Cert.Spec.den x k b h w) (hn : n = Cert.Spec.norm x b h w) (hm : m = Cert.Spec.num x k b h w) :
    Ideal.div m (max (Ideal.sqrt (d * n)) Cert.Spec.eps) = Cert.Spec.outAt x b k h w := by
  subst hd hn hm; rfl

/-! ## Directions 0, 1, 3, 5, 7: the quotient in one piece (arguments: den plane, norm, num plane) -/

/-- Direction 0. -/
theorem k1_pay5_apply (v183 : Vec Ideal S1x256x256 .f32) (v185 : Vec Ideal S256x256 .f32) (v190 : Vec Ideal S1x256x256 .f32)
    (u0 u1 : Fin 1) (h w : Fin 256) :
    k1_pay5 (F := Ideal) v183 v185 v190 (ix4 u0 u1 h w)
      = Ideal.div (v190 (ix3 (0 : Fin 1) h w))
          (max (Ideal.sqrt (v183 (ix3 (0 : Fin 1) h w) * v185 (ix2 h w))) Cert.Spec.eps) := by
  unfold k1_pay5
  exact quot_plane v183 v185 v190 _ _ u0 u1 h w

/-- Direction 1. -/
theorem k1_pay6_apply (v196 : Vec Ideal S1x256x256 .f32) (v198 : Vec Ideal S256x256 .f32) (v203 : Vec Ideal S1x256x256 .f32)
    (u0 u1 : Fin 1) (h w : Fin 256) :
    k1_pay6 (F := Ideal) v196 v198 v203 (ix4 u0 u1 h w)
      = Ideal.div (v203 (ix3 (0 : Fin 1) h w))
          (max (Ideal.sqrt (v196 (ix3 (0 : Fin 1) h w) * v198 (ix2 h w))) Cert.Spec.eps) := by
  unfold k1_pay6
  exact quot_plane v196 v198 v203 _ _ u0 u1 h w

/-- Direction 3. -/
theorem k1_pay9_apply (v222 : Vec Ideal S1x256x256 .f32) (v224 : Vec Ideal S256x256 .f32) (v229 : Vec Ideal S1x256x256 .f32)
    (u0 u1 : Fin 1) (h w : Fin 256) :
    k1_pay9 (F := Ideal) v222 v224 v229 (ix4 u0 u1 h w)
      = Ideal.div (v229 (ix3 (0 : Fin 1) h w))
          (max (Ideal.sqrt (v222 (ix3 (0 : Fin 1) h w) * v224 (ix2 h w))) Cert.Spec.eps) := by
  unfold k1_pay9
  exact quot_plane v222 v224 v229 _ _ u0 u1 h w

/-- Direction 5. -/
theorem k1_pay13_apply (v248 : Vec Ideal S1x256x256 .f32) (v250 : Vec Ideal S256x256 .f32) (v255 : Vec Ideal S1x256x256 .f32)
    (u0 u1 : Fin 1) (h w : Fin 256) :
    k1_pay13 (F := Ideal) v248 v250 v255 (ix4 u0 u1 h w)
      = Ideal.div (v255 (ix3 (0 : Fin 1) h w))
          (max (Ideal.sqrt (v248 (ix3 (0 : Fin 1) h w) * v250 (ix2 h w))) Cert.Spec.eps) := by
  unfold k1_pay13
  exact quot_plane v248 v250 v255 _ _ u0 u1 h w

/-- Direction 7. -/
theorem k1_pay4_apply (v274 : Vec Ideal S1x256x256 .f32) (v276 : Vec Ideal S256x256 .f32) (v281 : Vec Ideal S1x256x256 .f32)
    (u0 u1 : Fin 1) (h w : Fin 256) :
    k1_pay4 (F := Ideal) v274 v276 v281 (ix4 u0 u1 h w)
      = Ideal.div (v281 (ix3 (0 : Fin 1) h w))
          (max (Ideal.sqrt (v274 (ix3 (0 : Fin 1) h w) * v276 (ix2 h w))) Cert.Spec.eps) := by
  unfold k1_pay4
  exact quot_plane v274 v276 v281 _ _ u0 u1 h w

/-! ## Direction 2: the denominator plane arrives as a [256, 256] array -/

theorem k1_pay7_apply (v209 : Vec Ideal S1x256x256 .f32) (h w : Fin 256) :
    k1_pay7 (F := Ideal) v209 (ix2 h w) = v209 (ix3 (0 : Fin 1) h w) := by
  unfold k1_pay7; exact shapeCast_1ab_ab_apply v209 _ h w

theorem k1_pay8_apply (v210 : FVec Ideal S256x256 .f32) (v211 : Vec Ideal S256x256 .f32) (v216 : Vec Ideal S1x256x256 .f32)
    (u0 u1 : Fin 1) (h w : Fin 256) :
    k1_pay8 (F := Ideal) v210 v211 v216 (ix4 u0 u1 h w)
      = Ideal.div (v216 (ix3 (0 : Fin 1) h w)) (max (Ideal.sqrt (v210 (ix2 h w) * v211 (ix2 h w))) Cert.Spec.eps) := by
  unfold k1_pay8
  refine (cast_hw_11hw _ _ u0 u1 h w).trans ?_
  refine (divf_apply _ _ _).trans ?_
  exact congrArg₂ Ideal.div (shapeCast_1ab_ab_apply v216 _ h w) rfl

theorem k1_pay8_comp (v209 : Vec Ideal S1x256x256 .f32) (v211 : Vec Ideal S256x256 .f32) (v216 : Vec Ideal S1x256x256 .f32)
    (u0 u1 : Fin 1) (h w : Fin 256) :
    k1_pay8 (F := Ideal) (k1_pay7 (F := Ideal) v209) v211 v216 (ix4 u0 u1 h w)
      = Ideal.div (v216 (ix3 (0 : Fin 1) h w))
          (max (Ideal.sqrt (v209 (ix3 (0 : Fin 1) h w) * v211 (ix2 h w))) Cert.Spec.eps) := by
  rw [k1_pay8_apply, k1_pay7_apply]

/-! ## Direction 4: the root √(den · norm) and the ε array arrive as arrays -/

theorem k1_pay10_apply (v235 : Vec Ideal S1x256x256 .f32) (v237 : Vec Ideal S256x256 .f32) (h w : Fin 256) :
    k1_pay10 (F := Ideal) v235 v237 (ix2 h w) = Ideal.sqrt (v235 (ix3 (0 : Fin 1) h w) * v237 (ix2 h w)) := by
  unfold k1_pay10
  show Ideal.sqrt (shapeCast S256x256 v235 _ (ix2 h w) * v237 (ix2 h w)) = _
  rw [shapeCast_1ab_ab_apply v235 _ h w]

theorem k1_pay11_apply (h w : Fin 256) : k1_pay11 (F := Ideal) (ix2 h w) = Cert.Spec.eps := rfl

theorem k1_pay12_apply (v239 v240 : FVec Ideal S256x256 .f32) (v242 : Vec Ideal S1x256x256 .f32)
    (u0 u1 : Fin 1) (h w : Fin 256) :
    k1_pay12 (F := Ideal) v239 v240 v242 (ix4 u0 u1 h w)
      = Ideal.div (v242 (ix3 (0 : Fin 1) h w)) (max (v239 (ix2 h w)) (v240 (ix2 h w))) := by
  unfold k1_pay12
  refine (cast_hw_11hw _ _ u0 u1 h w).trans ?_
  refine (divf_apply _ _ _).trans ?_
  exact congrArg₂ Ideal.div (shapeCast_1ab_ab_apply v242 _ h w) rfl

theorem k1_pay12_comp (v235 : Vec Ideal S1x256x256 .f32) (v237 : Vec Ideal S256x256 .f32) (v242 : Vec Ideal S1x256x256 .f32)
    (u0 u1 : Fin 1) (h w : Fin 256) :
    k1_pay12 (F := Ideal) (k1_pay10 (F := Ideal) v235 v237) (k1_pay11 (F := Ideal)) v242 (ix4 u0 u1 h w)
      = Ideal.div (v242 (ix3 (0 : Fin 1) h w))
          (max (Ideal.sqrt (v235 (ix3 (0 : Fin 1) h w) * v237 (ix2 h w))) Cert.Spec.eps) := by
  rw [k1_pay12_apply, k1_pay10_apply, k1_pay11_apply]

/-! ## Direction 6: the lower-bounded root and the numerator plane arrive as arrays -/

theorem k1_pay14_apply (v261 : Vec Ideal S1x256x256 .f32) (v263 : Vec Ideal S256x256 .f32) (h w : Fin 256) :
    k1_pay14 (F := Ideal) v261 v263 (ix2 h w)
      = max (Ideal.sqrt (v261 (ix3 (0 : Fin 1) h w) * v263 (ix2 h w))) Cert.Spec.eps := by
  unfold k1_pay14
  refine (maximumf_apply _ _ _).trans ?_
  refine congrArg₂ max ?_ rfl
  show Ideal.sqrt (shapeCast S256x256 v261 _ (ix2 h w) * v263 (ix2 h w)) = _
  rw [shapeCast_1ab_ab_apply v261 _ h w]

theorem k1_pay15_apply (v268 : Vec Ideal S1x256x256 .f32) (h w : Fin 256) :
    k1_pay15 (F := Ideal) v268 (ix2 h w) = v268 (ix3 (0 : Fin 1) h w) := by
  unfold k1_pay15; exact shapeCast_1ab_ab_apply v268 _ h w

theorem k1_pay3_apply (v267 v269 : FVec Ideal S256x256 .f32) (u0 u1 : Fin 1) (h w : Fin 256) :
    k1_pay3 (F := Ideal) v267 v269 (ix4 u0 u1 h w) = Ideal.div (v269 (ix2 h w)) (v267 (ix2 h w)) := by
  unfold k1_pay3
  exact cast_hw_11hw _ _ u0 u1 h w

theorem k1_pay3_comp (v261 : Vec Ideal S1x256x256 .f32) (v263 : Vec Ideal S256x256 .f32) (v268 : Vec Ideal S1x256x256 .f32)
    (u0 u1 : Fin 1) (h w : Fin 256) :
    k1_pay3 (F := Ideal) (k1_pay14 (F := Ideal) v261 v263) (k1_pay15 (F := Ideal) v268) (ix4 u0 u1 h w)
      = Ideal.div (v268 (ix3 (0 : Fin 1) h w))
          (max (Ideal.sqrt (v261 (ix3 (0 : Fin 1) h w) * v263 (ix2 h w))) Cert.Spec.eps) := by
  rw [k1_pay3_apply, k1_pay14_apply, k1_pay15_apply]

end Cert.KVal

end
-- ==== Proof.ValInv.lean ====
/-
  The accumulators as partial sums. At a pixel (h, w) of image b the three kinds of accumulated terms are, per channel c,
    cx², cn_k·cx and cn_k·cn_k;
  after the steps for chunks 0 … t an accumulator holds the partial sum over the first t + 1 chunks, and after all four
  the specification's norm, num_k and den_k.
-/
import proofs.«100834_j73478300500485_1_alg».proof.Proof.ValAcc
import proofs.«100834_j73478300500485_1_alg».proof.Proof.Spec

noncomputable section

namespace Cert.KVal

open Idealize.ShloMosaic Idealize.ShloMosaic.ValueIdx

/-- The squared-norm term of channel c at a pixel. -/
def normF (x : Cert.Spec.XIdx → EReal) (b : Fin 4) (h w : Fin 256) : Fin 64 → EReal :=
  fun c => Cert.Spec.cx x b c h w * Cert.Spec.cx x b c h w
/-- The numerator term of direction k and channel c at a pixel. -/
def numF (x : Cert.Spec.XIdx → EReal) (k : Fin 8) (b : Fin 4) (h w : Fin 256) : Fin 64 → EReal :=
  fun c => Cert.Spec.cn x k b c h w * Cert.Spec.cx x b c h w
/-- The denominator term of direction k and channel c at a pixel. -/
def denF (x : Cert.Spec.XIdx → EReal) (k : Fin 8) (b : Fin 4) (h w : Fin 256) : Fin 64 → EReal :=
  fun c => Cert.Spec.cn x k b c h w * Cert.Spec.cn x k b c h w

/-- One step of any accumulator: old partial sum plus the chunk's sum is the next partial sum. -/
theorem acc_step_of {f : Fin 64 → EReal} {t : Fin 4} {P acc : EReal}
    (hP : P = acc + ∑ c : Fin 16, f (chunk t c)) (hacc : acc = accUpTo f t.val) : P = accUpTo f (t.val + 1) := by
  rw [hP, hacc, accUpTo_succ]

/-- The first step, onto a zero: the partial sum over chunk 0. -/
theorem acc_first_of {f : Fin 64 → EReal} {P : EReal} (hP : P = 0 + ∑ c : Fin 16, f (chunk 0 c)) : P = accUpTo f 1 := by
  rw [hP]; exact (accUpTo_succ f 0).symm

theorem accUpTo_normF_four (x : Cert.Spec.XIdx → EReal) (b : Fin 4) (h w : Fin 256) :
    accUpTo (normF x b h w) 4 = Cert.Spec.norm x b h w := accUpTo_four _
theorem accUpTo_numF_four (x : Cert.Spec.XIdx → EReal) (k : Fin 8) (b : Fin 4) (h w : Fin 256) :
    accUpTo (numF x k b h w) 4 = Cert.Spec.num x k b h w := accUpTo_four _
theorem accUpTo_denF_four (x : Cert.Spec.XIdx → EReal) (k : Fin 8) (b : Fin 4) (h w : Fin 256) :
    accUpTo (denF x k b h w) 4 = Cert.Spec.den x k b h w := accUpTo_four _

end Cert.KVal

end
-- ==== Proof.KI.Value1At.lean ====
/-
  The second region's stored values, direction by direction, as functions of what the body reads.
  For direction k the numerator plane written is  old plane + Σ_c cn_k·cx,  the denominator plane  old plane + Σ_c cn_k²,
  and on the last chunk the output plane  num_k / max(√(den_k · norm), ε)  of the accumulators' new contents. The body
  writes the eight directions by eight differently factored pieces of code; here they are gathered into one function of
  the direction, and read at a pixel.
-/
import proofs.«100834_j73478300500485_1_alg».proof.Proof.KI.Value1Pieces
import proofs.«100834_j73478300500485_1_alg».proof.Proof.ValNumDen
import proofs.«100834_j73478300500485_1_alg».proof.Proof.ValQuot
import proofs.«100834_j73478300500485_1_alg».proof.Proof.ValInv

set_option maxRecDepth 16384

noncomputable section

namespace Cert.KernelIdeal.Hand

open Cert.KernelIdeal Cert.KernelIdeal.Gen
open Idealize.ShloMosaic Idealize.ShloMosaic.ValueIdx
open Cert.KVal

section Generic
variable {F : FTy → Type} [FloatOps F]

/-- Plane k of an [8, 256, 256] array, as the body loads it. -/
def planes (Z : Vec F S8x256x256 .f32) : Fin 8 → Vec F S1x256x256 .f32 :=
  pick8
    (View.ld Z (Rect.unit ![0, 0, 0] ![1, 256, 256] inb_S8x256x256_S1x256x256_0_0_0))
    (View.ld Z (Rect.unit ![1, 0, 0] ![1, 256, 256] inb_S8x256x256_S1x256x256_1_0_0))
    (View.ld Z (Rect.unit ![2, 0, 0] ![1, 256, 256] inb_S8x256x256_S1x256x256_2_0_0))
    (View.ld Z (Rect.unit ![3, 0, 0] ![1, 256, 256] inb_S8x256x256_S1x256x256_3_0_0))
    (View.ld Z (Rect.unit ![4, 0, 0] ![1, 256, 256] inb_S8x256x256_S1x256x256_4_0_0))
    (View.ld Z (Rect.unit ![5, 0, 0] ![1, 256, 256] inb_S8x256x256_S1x256x256_5_0_0))
    (View.ld Z (Rect.unit ![6, 0, 0] ![1, 256, 256] inb_S8x256x256_S1x256x256_6_0_0))
    (View.ld Z (Rect.unit ![7, 0, 0] ![1, 256, 256] inb_S8x256x256_S1x256x256_7_0_0))

/-- The numerator plane the body writes for direction k, from the point's blocks and the planes' old values. -/
def numAt (x0 : Vec F S1x16x256x256 .f32) (x1 : Vec F S1x16x1x1 .f32) (pl : Fin 8 → Vec F S1x256x256 .f32) :
    Fin 8 → FVec F S1x256x256 .f32 :=
  pick8 (k1_pay22 x0 x1 (pl 0)) (k1_pay25 (k1_pay19 x0 x1) (pl 1)) (k1_pay30 (k1_pay28 (pl 2)) (k1_pay29 (k1_pay19 x0 x1)))
    (k1_pay33 (k1_pay19 x0 x1) (pl 3)) (k1_pay36 (k1_pay19 x0 x1) (pl 4)) (k1_pay39 (k1_pay19 x0 x1) (pl 5)) (k1_pay42 (k1_pay19 x0 x1) (pl 6))
    (k1_pay1 (k1_pay19 x0 x1) (k1_pay44 (k1_pay19 x0 x1)) (k1_pay45 (pl 7)))

/-- The denominator plane the body writes for direction k. -/
def denAt (x0 : Vec F S1x16x256x256 .f32) (x1 : Vec F S1x16x1x1 .f32) (pl : Fin 8 → Vec F S1x256x256 .f32) :
    Fin 8 → FVec F S1x256x256 .f32 :=
  pick8 (k1_pay23 (k1_pay21 x0 x1) (pl 0)) (k1_pay26 (k1_pay19 x0 x1) (pl 1)) (k1_pay31 (k1_pay27 (k1_pay19 x0 x1)) (pl 2))
    (k1_pay34 (k1_pay19 x0 x1) (pl 3)) (k1_pay37 (k1_pay19 x0 x1) (pl 4)) (k1_pay40 (k1_pay38 (k1_pay19 x0 x1)) (pl 5)) (k1_pay43 (k1_pay19 x0 x1) (pl 6))
    (k1_pay2 (k1_pay44 (k1_pay19 x0 x1)) (pl 7))

/-- The output plane the body writes for direction k on the last chunk, from the accumulators' planes. -/
def quotAt (dpl : Fin 8 → Vec F S1x256x256 .f32) (nrm : Vec F S256x256 .f32) (npl : Fin 8 → Vec F S1x256x256 .f32) :
    Fin 8 → FVec F S1x1x256x256 .f32 :=
  pick8 (k1_pay5 (dpl 0) nrm (npl 0)) (k1_pay6 (dpl 1) nrm (npl 1)) (k1_pay8 (k1_pay7 (dpl 2)) nrm (npl 2))
    (k1_pay9 (dpl 3) nrm (npl 3)) (k1_pay12 (k1_pay10 (dpl 4) nrm) k1_pay11 (npl 4)) (k1_pay13 (dpl 5) nrm (npl 5))
    (k1_pay3 (k1_pay14 (dpl 6) nrm) (k1_pay15 (npl 6))) (k1_pay4 (dpl 7) nrm (npl 7))

end Generic

/-- Plane k at the pixel (h, w) is the array at (k, h, w). -/
theorem planes_apply {F : FTy → Type} [FloatOps F] (Z : Vec F S8x256x256 .f32) (k : Fin 8) (u : Fin 1) (h w : Fin 256) :
    planes Z k (ix3 u h w) = Z (ix3 k h w) := by
  match k with
  | ⟨0, hk⟩ => exact congrArg Z (plane_emb 0 hk _ u h w)
  | ⟨1, hk⟩ => exact congrArg Z (plane_emb 1 hk _ u h w)
  | ⟨2, hk⟩ => exact congrArg Z (plane_emb 2 hk _ u h w)
  | ⟨3, hk⟩ => exact congrArg Z (plane_emb 3 hk _ u h w)
  | ⟨4, hk⟩ => exact congrArg Z (plane_emb 4 hk _ u h w)
  | ⟨5, hk⟩ => exact congrArg Z (plane_emb 5 hk _ u h w)
  | ⟨6, hk⟩ => exact congrArg Z (plane_emb 6 hk _ u h w)
  | ⟨7, hk⟩ => exact congrArg Z (plane_emb 7 hk _ u h w)

/-- The numerator plane of direction k at a pixel, on the blocks of chunk t of image b: the old value plus the chunk's
    sum of cn_k·cx. -/
theorem numAt_spec {x : Cert.Spec.XIdx → EReal} {b t : Fin 4} {x0 : Vec Ideal S1x16x256x256 .f32}
    {x1 : Vec Ideal S1x16x1x1 .f32} (hb : IsChunk x b t x0 x1) (pl : Fin 8 → Vec Ideal S1x256x256 .f32)
    (k : Fin 8) (h w : Fin 256) :
    numAt (F := Ideal) x0 x1 pl k (ix3 (0 : Fin 1) h w)
      = pl k (ix3 (0 : Fin 1) h w) + ∑ ch : Fin 16, numF x k b h w (chunk t ch) := by
  have hv := k1_pay19_isCx hb
  match k with
  | ⟨0, _⟩ => exact k1_pay22_spec hb (pl 0) 0 h w
  | ⟨1, _⟩ => exact k1_pay25_spec hv (pl 1) 0 h w
  | ⟨2, _⟩ => exact k1_pay30_spec hv (pl 2) 0 h w
  | ⟨3, _⟩ => exact k1_pay33_spec hv (pl 3) 0 h w
  | ⟨4, _⟩ => exact k1_pay36_spec hv (pl 4) 0 h w
  | ⟨5, _⟩ => exact k1_pay39_spec hv (pl 5) 0 h w
  | ⟨6, _⟩ => exact k1_pay42_spec hv (pl 6) 0 h w
  | ⟨7, _⟩ => exact k1_pay1_spec hv (pl 7) 0 h w

/-- The denominator plane of direction k at a pixel: the old value plus the chunk's sum of cn_k². -/
theorem denAt_spec {x : Cert.Spec.XIdx → EReal} {b t : Fin 4} {x0 : Vec Ideal S1x16x256x256 .f32}
    {x1 : Vec Ideal S1x16x1x1 .f32} (hb : IsChunk x b t x0 x1) (pl : Fin 8 → Vec Ideal S1x256x256 .f32)
    (k : Fin 8) (h w : Fin 256) :
    denAt (F := Ideal) x0 x1 pl k (ix3 (0 : Fin 1) h w)
      = pl k (ix3 (0 : Fin 1) h w) + ∑ ch : Fin 16, denF x k b h w (chunk t ch) := by
  have hv := k1_pay19_isCx hb
  match k with
  | ⟨0, _⟩ => exact k1_pay23_spec hb (pl 0) 0 h w
  | ⟨1, _⟩ => exact k1_pay26_spec hv (pl 1) 0 h w
  | ⟨2, _⟩ => exact k1_pay31_spec hv (pl 2) 0 h w
  | ⟨3, _⟩ => exact k1_pay34_spec hv (pl 3) 0 h w
  | ⟨4, _⟩ => exact k1_pay37_spec hv (pl 4) 0 h w
  | ⟨5, _⟩ => exact k1_pay40_spec hv (pl 5) 0 h w
  | ⟨6, _⟩ => exact k1_pay43_spec hv (pl 6) 0 h w
  | ⟨7, _⟩ => exact k1_pay2_spec hv (pl 7) 0 h w

/-- The output plane of direction k at a pixel: num / max(√(den · norm), ε) of the planes it is given. -/
theorem quotAt_apply (dpl : Fin 8 → Vec Ideal S1x256x256 .f32) (nrm : Vec Ideal S256x256 .f32)
    (npl : Fin 8 → Vec Ideal S1x256x256 .f32) (k : Fin 8) (h w : Fin 256) :
    quotAt (F := Ideal) dpl nrm npl k (ix4 (0 : Fin 1) (0 : Fin 1) h w)
      = Ideal.div (npl k (ix3 (0 : Fin 1) h w))
          (max (Ideal.sqrt (dpl k (ix3 (0 : Fin 1) h w) * nrm (ix2 h w))) Cert.Spec.eps) := by
  match k with
  | ⟨0, _⟩ => exact k1_pay5_apply (dpl 0) nrm (npl 0) 0 0 h w
  | ⟨1, _⟩ => exact k1_pay6_apply (dpl 1) nrm (npl 1) 0 0 h w
  | ⟨2, _⟩ => exact k1_pay8_comp (dpl 2) nrm (npl 2) 0 0 h w
  | ⟨3, _⟩ => exact k1_pay9_apply (dpl 3) nrm (npl 3) 0 0 h w
  | ⟨4, _⟩ => exact k1_pay12_comp (dpl 4) nrm (npl 4) 0 0 h w
  | ⟨5, _⟩ => exact k1_pay13_apply (dpl 5) nrm (npl 5) 0 0 h w
  | ⟨6, _⟩ => exact k1_pay3_comp (dpl 6) nrm (npl 6) 0 0 h w
  | ⟨7, _⟩ => exact k1_pay4_apply (dpl 7) nrm (npl 7) 0 0 h w

end Cert.KernelIdeal.Hand

end
-- ==== Proof.KI.Value1Read.lean ====
/-
  Reading the kept arrays back. A load of the whole [256, 256] array after writes reads what the writes left; a load of
  plane k of an [8, 256, 256] array after writes reads plane k of what they left; and a plane write to another plane does
  not change it.
-/
import proofs.«100834_j73478300500485_1_alg».proof.Proof.KI.Value0
import proofs.«100834_j73478300500485_1_alg».proof.Proof.KI.Value1At
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat)

variable {F : FTy → Type} [FloatOps F]

/-- What was put into a kept array reads back unchanged. -/
theorem sc_read0 (X : Vec F S256x256 .f32) :
    View.read (Elt F) (View.whole cc1_scratch0) ((Memref.isWhole_whole _ : scM1_0.IsWhole).unread X) = X :=
  (Memref.isWhole_whole _ : scM1_0.IsWhole).read_unread X
theorem sc_read1 (X : Vec F S8x256x256 .f32) :
    View.read (Elt F) (View.whole cc1_scratch1) ((Memref.isWhole_whole _ : scM1_1.IsWhole).unread X) = X :=
  (Memref.isWhole_whole _ : scM1_1.IsWhole).read_unread X
theorem sc_read2 (X : Vec F S8x256x256 .f32) :
    View.read (Elt F) (View.whole cc1_scratch2) ((Memref.isWhole_whole _ : scM1_2.IsWhole).unread X) = X :=
  (Memref.isWhole_whole _ : scM1_2.IsWhole).read_unread X

variable {Val : EltTy → Type} [∀ e, Nonempty (Val e)] {e : EltTy}

/-- A whole load of the [256, 256] array after writes reads what they left. -/
theorem readCov_whole2 {sig : RefSig} {κ : Kind} {sp : Space} (v : View sig κ sp S256x256 e)
    (L : List (View.Piece Val S256x256 e)) (inb : ∀ a, (![0, 0] : Fin 2 → Nat) a + S256x256.size a ≤ S256x256.size a) :
    v.readCov L (Rect.unit ![0, 0] S256x256.size inb).toLoadRect = View.canon L := by
  rw [View.readCov_eq_canon']
  exact View.ld_unit_zero hz2 inb (View.canon L)

theorem readCov_whole2' {sig : RefSig} {κ : Kind} {sp : Space} (v : View sig κ sp S256x256 e)
    (L : List (View.Piece Val S256x256 e)) (inb : ∀ a, (![0, 0] : Fin 2 → Nat) a + (![256, 256] : Fin 2 → Nat) a ≤ S256x256.size a) :
    v.readCov L (Rect.unit ![0, 0] ![256, 256] inb).toLoadRect = View.canon L :=
  readCov_whole2 v L inb

/-- A load of plane k of an [8, 256, 256] array after writes reads plane k of what they left. -/
theorem readCov_plane {sig : RefSig} {κ : Kind} {sp : Space} (v : View sig κ sp S8x256x256 e)
    (L : List (View.Piece Val S8x256x256 e)) (k : ℕ)
    (inb : ∀ a, (![k, 0, 0] : Fin 3 → Nat) a + (![1, 256, 256] : Fin 3 → Nat) a ≤ S8x256x256.size a) :
    v.readCov L (Rect.unit ![k, 0, 0] ![1, 256, 256] inb).toLoadRect
      = View.ld (View.canon L) (Rect.unit ![k, 0, 0] ![1, 256, 256] inb) :=
  View.readCov_eq_canon' v L _

/-- A write to plane i leaves plane k ≠ i as it was. -/
theorem ld_canon_skip (i k : ℕ) (hik : i ≠ k)
    (inbi : ∀ a, (![i, 0, 0] : Fin 3 → Nat) a + (![1, 256, 256] : Fin 3 → Nat) a ≤ S8x256x256.size a)
    (inbk : ∀ a, (![k, 0, 0] : Fin 3 → Nat) a + (![1, 256, 256] : Fin 3 → Nat) a ≤ S8x256x256.size a)
    (w : S1x256x256.Idx → Val e) (L : List (View.Piece Val S8x256x256 e)) :
    View.ld (View.canon ((⟨Rect.unit ![i, 0, 0] ![1, 256, 256] inbi, w⟩ : View.Piece Val S8x256x256 e) :: L))
        (Rect.unit ![k, 0, 0] ![1, 256, 256] inbk)
      = View.ld (View.canon L) (Rect.unit ![k, 0, 0] ![1, 256, 256] inbk) := by
  funext x
  refine View.canon_cons_of_not_mem (⟨Rect.unit ![i, 0, 0] ![1, 256, 256] inbi, w⟩ : View.Piece Val S8x256x256 e) L ?_
  rw [Rect.mem_set_unit]
  intro hm
  have h0 := hm (0 : Fin 3)
  have hx : (x (0 : Fin 3)).val < 1 := (x (0 : Fin 3)).isLt
  have h1 : i ≤ k + 1 * (x (0 : Fin 3)).val := h0.1
  have h2 : k + 1 * (x (0 : Fin 3)).val < i + 1 := h0.2
  omega

end Cert.KernelIdeal.Hand

end
-- ==== Proof.KI.Value1CaseA.lean ====
/-
  The first chunk (j = 0): the three kept arrays are first filled with zeros, then updated as on any chunk; every load of
  an old value reads the zeros just stored (a plane written meanwhile is another plane).
-/
import proofs.«100834_j73478300500485_1_alg».proof.Proof.KI.Value0
import proofs.«100834_j73478300500485_1_alg».proof.Proof.KI.Value1Read
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat)

variable {F : FTy → Type} [FloatOps F]

variable (V : (c : Dev nD) → (b : Ref sig .tc) → Buf (Elt F) ((c : Thread nD τ).loc b))

theorem resA_norm (c : Dev nD) (t : Fin cfg1.N) (h0 : t.val % 4 = 0) (h1 : ¬t.val % 4 = 3) :
    (resA V c t h0 h1).2.1 = k1_pay20 (iblk1 V c 0 t) (iblk1 V c 1 t) k1_pay16 := by
  unfold resA readBack
  dsimp only
  simp only [View.read_writes_junk_eq_canon]
  unfold runA kernelRun1_A
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  rw [View.canon_cons_unit_zero (S := S256x256) hz2, View.readCov_unit_zero (S := S256x256) _ hz2]

theorem resA_num (c : Dev nD) (t : Fin cfg1.N) (h0 : t.val % 4 = 0) (h1 : ¬t.val % 4 = 3)
    (k : Fin 8) (h w : Fin 256) :
    (resA V c t h0 h1).2.2.1 (ix3 k h w)
      = numAt (iblk1 V c 0 t) (iblk1 V c 1 t) (planes k1_pay17) k (ix3 (0 : Fin 1) h w) := by
  unfold resA readBack
  dsimp only
  simp only [View.read_writes_junk_eq_canon]
  unfold runA kernelRun1_A
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  simp only [readCov_plane, ld_canon_skip 0 1 (by decide), ld_canon_skip 0 2 (by decide), ld_canon_skip 1 2 (by decide), ld_canon_skip 0 3 (by decide), ld_canon_skip 1 3 (by decide), ld_canon_skip 2 3 (by decide), ld_canon_skip 0 4 (by decide), ld_canon_skip 1 4 (by decide), ld_canon_skip 2 4 (by decide), ld_canon_skip 3 4 (by decide), ld_canon_skip 0 5 (by decide), ld_canon_skip 1 5 (by decide), ld_canon_skip 2 5 (by decide), ld_canon_skip 3 5 (by decide), ld_canon_skip 4 5 (by decide), ld_canon_skip 0 6 (by decide), ld_canon_skip 1 6 (by decide), ld_canon_skip 2 6 (by decide), ld_canon_skip 3 6 (by decide), ld_canon_skip 4 6 (by decide), ld_canon_skip 5 6 (by decide), ld_canon_skip 0 7 (by decide), ld_canon_skip 1 7 (by decide), ld_canon_skip 2 7 (by decide), ld_canon_skip 3 7 (by decide), ld_canon_skip 4 7 (by decide), ld_canon_skip 5 7 (by decide), ld_canon_skip 6 7 (by decide), View.canon_unit_zero (S := S8x256x256) hz3]
  exact canon_planes8 _ _ _ _ _ _ _ _ _ _ _ _ _ _ _ _ _ k h w

theorem resA_den (c : Dev nD) (t : Fin cfg1.N) (h0 : t.val % 4 = 0) (h1 : ¬t.val % 4 = 3)
    (k : Fin 8) (h w : Fin 256) :
    (resA V c t h0 h1).2.2.2 (ix3 k h w)
      = denAt (iblk1 V c 0 t) (iblk1 V c 1 t) (planes k1_pay18) k (ix3 (0 : Fin 1) h w) := by
  unfold resA readBack
  dsimp only
  simp only [View.read_writes_junk_eq_canon]
  unfold runA kernelRun1_A
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  simp only [readCov_plane, ld_canon_skip 0 1 (by decide), ld_canon_skip 0 2 (by decide), ld_canon_skip 1 2 (by decide), ld_canon_skip 0 3 (by decide), ld_canon_skip 1 3 (by decide), ld_canon_skip 2 3 (by decide), ld_canon_skip 0 4 (by decide), ld_canon_skip 1 4 (by decide), ld_canon_skip 2 4 (by decide), ld_canon_skip 3 4 (by decide), ld_canon_skip 0 5 (by decide), ld_canon_skip 1 5 (by decide), ld_canon_skip 2 5 (by decide), ld_canon_skip 3 5 (by decide), ld_canon_skip 4 5 (by decide), ld_canon_skip 0 6 (by decide), ld_canon_skip 1 6 (by decide), ld_canon_skip 2 6 (by decide), ld_canon_skip 3 6 (by decide), ld_canon_skip 4 6 (by decide), ld_canon_skip 5 6 (by decide), ld_canon_skip 0 7 (by decide), ld_canon_skip 1 7 (by decide), ld_canon_skip 2 7 (by decide), ld_canon_skip 3 7 (by decide), ld_canon_skip 4 7 (by decide), ld_canon_skip 5 7 (by decide), ld_canon_skip 6 7 (by decide), View.canon_unit_zero (S := S8x256x256) hz3]
  exact canon_planes8 _ _ _ _ _ _ _ _ _ _ _ _ _ _ _ _ _ k h w

end Cert.KernelIdeal.Hand

end
-- ==== Proof.KI.Value1CaseB.lean ====
/-
  A middle chunk (j = 1, 2): what the point leaves in the three kept arrays, from the point's blocks and what the point
  before left. The squared-norm array gets its one store's value; each plane of the other two gets the value of the
  store to that plane, which read the plane's old contents.
-/
import proofs.«100834_j73478300500485_1_alg».proof.Proof.KI.Value0
import proofs.«100834_j73478300500485_1_alg».proof.Proof.KI.Value1Read
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat)

variable {F : FTy → Type} [FloatOps F]

variable (V : (c : Dev nD) → (b : Ref sig .tc) → Buf (Elt F) ((c : Thread nD τ).loc b))

theorem resB_norm (c : Dev nD) (t : Fin cfg1.N) (h0 : ¬t.val % 4 = 0) (h1 : ¬t.val % 4 = 3) (p : Out4 F) :
    (resB V c t h0 h1 p).2.1 = k1_pay20 (iblk1 V c 0 t) (iblk1 V c 1 t) p.2.1 := by
  unfold resB readBack
  dsimp only
  simp only [View.read_writes_junk_eq_canon]
  unfold runB kernelRun1_B
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  rw [View.canon_unit_zero hz2]

theorem resB_num (c : Dev nD) (t : Fin cfg1.N) (h0 : ¬t.val % 4 = 0) (h1 : ¬t.val % 4 = 3) (p : Out4 F)
    (k : Fin 8) (h w : Fin 256) :
    (resB V c t h0 h1 p).2.2.1 (ix3 k h w)
      = numAt (iblk1 V c 0 t) (iblk1 V c 1 t) (planes p.2.2.1) k (ix3 (0 : Fin 1) h w) := by
  unfold resB readBack
  dsimp only
  simp only [View.read_writes_junk_eq_canon]
  unfold runB kernelRun1_B
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  exact canon_planes8 _ _ _ _ _ _ _ _ _ _ _ _ _ _ _ _ [] k h w

theorem resB_den (c : Dev nD) (t : Fin cfg1.N) (h0 : ¬t.val % 4 = 0) (h1 : ¬t.val % 4 = 3) (p : Out4 F)
    (k : Fin 8) (h w : Fin 256) :
    (resB V c t h0 h1 p).2.2.2 (ix3 k h w)
      = denAt (iblk1 V c 0 t) (iblk1 V c 1 t) (planes p.2.2.2) k (ix3 (0 : Fin 1) h w) := by
  unfold resB readBack
  dsimp only
  simp only [View.read_writes_junk_eq_canon]
  unfold runB kernelRun1_B
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  exact canon_planes8 _ _ _ _ _ _ _ _ _ _ _ _ _ _ _ _ [] k h w

end Cert.KernelIdeal.Hand

end
-- ==== Proof.KI.Value1CaseC.lean ====
/-
  The last chunk (j = 3): the three kept arrays are updated as on a middle chunk, and then each output plane k is written
  from the arrays' NEW contents: plane k of the denominators, the squared norm, plane k of the numerators.
-/
import proofs.«100834_j73478300500485_1_alg».proof.Proof.KI.Value0
import proofs.«100834_j73478300500485_1_alg».proof.Proof.KI.Value1Read
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat)

variable {F : FTy → Type} [FloatOps F]

variable (V : (c : Dev nD) → (b : Ref sig .tc) → Buf (Elt F) ((c : Thread nD τ).loc b))

theorem resC_norm (c : Dev nD) (t : Fin cfg1.N) (h0 : ¬t.val % 4 = 0) (h1 : t.val % 4 = 3) (p : Out4 F) :
    (resC V c t h0 h1 p).2.1 = k1_pay20 (iblk1 V c 0 t) (iblk1 V c 1 t) p.2.1 := by
  unfold resC readBack
  dsimp only
  simp only [View.read_writes_junk_eq_canon]
  unfold runC kernelRun1_C
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  rw [View.canon_unit_zero hz2]

theorem resC_num (c : Dev nD) (t : Fin cfg1.N) (h0 : ¬t.val % 4 = 0) (h1 : t.val % 4 = 3) (p : Out4 F)
    (k : Fin 8) (h w : Fin 256) :
    (resC V c t h0 h1 p).2.2.1 (ix3 k h w)
      = numAt (iblk1 V c 0 t) (iblk1 V c 1 t) (planes p.2.2.1) k (ix3 (0 : Fin 1) h w) := by
  unfold resC readBack
  dsimp only
  simp only [View.read_writes_junk_eq_canon]
  unfold runC kernelRun1_C
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  exact canon_planes8 _ _ _ _ _ _ _ _ _ _ _ _ _ _ _ _ [] k h w

theorem resC_den (c : Dev nD) (t : Fin cfg1.N) (h0 : ¬t.val % 4 = 0) (h1 : t.val % 4 = 3) (p : Out4 F)
    (k : Fin 8) (h w : Fin 256) :
    (resC V c t h0 h1 p).2.2.2 (ix3 k h w)
      = denAt (iblk1 V c 0 t) (iblk1 V c 1 t) (planes p.2.2.2) k (ix3 (0 : Fin 1) h w) := by
  unfold resC readBack
  dsimp only
  simp only [View.read_writes_junk_eq_canon]
  unfold runC kernelRun1_C
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  exact canon_planes8 _ _ _ _ _ _ _ _ _ _ _ _ _ _ _ _ [] k h w

/-- Plane i, for a literal i, is the load through the i-th plane's rectangle. -/
theorem planes_lit0 (Z : Vec F S8x256x256 .f32) :
    planes Z 0 = View.ld Z (Rect.unit ![0, 0, 0] ![1, 256, 256] inb_S8x256x256_S1x256x256_0_0_0) := rfl
theorem planes_lit1 (Z : Vec F S8x256x256 .f32) :
    planes Z 1 = View.ld Z (Rect.unit ![1, 0, 0] ![1, 256, 256] inb_S8x256x256_S1x256x256_1_0_0) := rfl
theorem planes_lit2 (Z : Vec F S8x256x256 .f32) :
    planes Z 2 = View.ld Z (Rect.unit ![2, 0, 0] ![1, 256, 256] inb_S8x256x256_S1x256x256_2_0_0) := rfl
theorem planes_lit3 (Z : Vec F S8x256x256 .f32) :
    planes Z 3 = View.ld Z (Rect.unit ![3, 0, 0] ![1, 256, 256] inb_S8x256x256_S1x256x256_3_0_0) := rfl
theorem planes_lit4 (Z : Vec F S8x256x256 .f32) :
    planes Z 4 = View.ld Z (Rect.unit ![4, 0, 0] ![1, 256, 256] inb_S8x256x256_S1x256x256_4_0_0) := rfl
theorem planes_lit5 (Z : Vec F S8x256x256 .f32) :
    planes Z 5 = View.ld Z (Rect.unit ![5, 0, 0] ![1, 256, 256] inb_S8x256x256_S1x256x256_5_0_0) := rfl
theorem planes_lit6 (Z : Vec F S8x256x256 .f32) :
    planes Z 6 = View.ld Z (Rect.unit ![6, 0, 0] ![1, 256, 256] inb_S8x256x256_S1x256x256_6_0_0) := rfl
theorem planes_lit7 (Z : Vec F S8x256x256 .f32) :
    planes Z 7 = View.ld Z (Rect.unit ![7, 0, 0] ![1, 256, 256] inb_S8x256x256_S1x256x256_7_0_0) := rfl

/-- The output block's plane k on the last chunk: the quotient of the kept arrays' new contents. -/
theorem resC_out (c : Dev nD) (t : Fin cfg1.N) (h0 : ¬t.val % 4 = 0) (h1 : t.val % 4 = 3) (p : Out4 F)
    (k : Fin 8) (h w : Fin 256) :
    (resC V c t h0 h1 p).1 (ix4 (0 : Fin 1) k h w)
      = quotAt (planes (resC V c t h0 h1 p).2.2.2) (resC V c t h0 h1 p).2.1 (planes (resC V c t h0 h1 p).2.2.1) k
          (ix4 (0 : Fin 1) (0 : Fin 1) h w) := by
  unfold resC readBack
  dsimp only
  simp only [View.read_writes_junk_eq_canon]
  unfold runC kernelRun1_C
  dsimp only
  sl_unfold_words
  simp only [View.readAt_eq_ld, Memref.IsWhole.read_unread, sc_read0, sc_read1, sc_read2, View.ld_unit_zero (S := S1x16x256x256) hz4, View.ld_unit_zero (S := S1x16x1x1) hz4, View.ld_unit_zero (S := S256x256) hz2]
  simp only [readCov_whole2, readCov_whole2', readCov_plane]
  refine (canon_oplanes8 _ _ _ _ _ _ _ _ _ _ _ _ _ _ _ _ [] k h w).trans ?_
  unfold quotAt
  simp only [planes_lit0, planes_lit1, planes_lit2, planes_lit3, planes_lit4, planes_lit5, planes_lit6, planes_lit7]

end Cert.KernelIdeal.Hand

end
-- ==== Proof.KI.Value1.lean ====
/-
  The second region's value. By induction over its 16 points: after point t = 4·b + j the three kept arrays hold, at every
  pixel, the partial sums over the first j + 1 channel chunks of image b — of cx² (the squared norm), of cn_k·cx and of
  cn_k·cn_k for each direction k. On the last chunk (j = 3) the sums are complete, and the output block's plane k is the
  quotient num_k / max(√(den_k · norm), ε) of the complete sums: the specification's result for image b.
-/
import proofs.«100834_j73478300500485_1_alg».proof.Proof.KI.Value1Blocks
import proofs.«100834_j73478300500485_1_alg».proof.Proof.KI.Value1CaseA
import proofs.«100834_j73478300500485_1_alg».proof.Proof.KI.Value1CaseB
import proofs.«100834_j73478300500485_1_alg».proof.Proof.KI.Value1CaseC

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.KVal

variable (m : (ℓ : Loc nD τ sig) → Buf (Elt Ideal) ℓ)

/-- The kept arrays hold the partial sums of image b over the first j + 1 chunks. -/
def Inv1 (x : Cert.Spec.XIdx → EReal) (b : Fin 4) (j : ℕ) (p : Out4 Ideal) : Prop :=
  (∀ h w : Fin 256, p.2.1 (ix2 h w) = accUpTo (normF x b h w) (j + 1))
  ∧ (∀ (k : Fin 8) (h w : Fin 256), p.2.2.1 (ix3 k h w) = accUpTo (numF x k b h w) (j + 1))
  ∧ (∀ (k : Fin 8) (h w : Fin 256), p.2.2.2 (ix3 k h w) = accUpTo (denF x k b h w) (j + 1))

/-- The blocks of point t = 4·b + j are chunk j of image b. -/
theorem isChunk1' (c : Dev nD) (t : Fin cfg1.N) (b : Fin 4) (j : ℕ) (hj : j < 4) (e : t.val = 4 * b.val + j) :
    IsChunk (xin m c) b ⟨j, hj⟩ (iblk1 (V1 m) c 0 t) (iblk1 (V1 m) c 1 t) := by
  have hb : t.val / 4 < 4 := by have := b.isLt; omega
  have hch := isChunk1 m c t hb
  have eb : (⟨t.val / 4, hb⟩ : Fin 4) = b := Fin.ext (by show t.val / 4 = b.val; omega)
  have ej : (⟨t.val % 4, Nat.mod_lt _ (by decide)⟩ : Fin 4) = ⟨j, hj⟩ := Fin.ext (by show t.val % 4 = j; omega)
  rw [eb, ej] at hch
  exact hch

/-- First chunk. -/
theorem stepA (c : Dev nD) (t : Fin cfg1.N) (b : Fin 4) (e : t.val = 4 * b.val + 0)
    (h0 : t.val % 4 = 0) (h1 : ¬t.val % 4 = 3) : Inv1 (xin m c) b 0 (resA (V1 m) c t h0 h1) := by
  have hch := isChunk1' m c t b 0 (by decide) e
  refine ⟨fun h w => ?_, fun k h w => ?_, fun k h w => ?_⟩
  · rw [resA_norm]
    exact acc_step_of (t := ⟨0, by decide⟩) (k1_pay20_spec hch _ h w) (k1_pay16_apply h w)
  · rw [resA_num]
    refine acc_step_of (t := ⟨0, by decide⟩) (numAt_spec hch _ k h w) ?_
    rw [planes_apply]; exact k1_pay17_apply k h w
  · rw [resA_den]
    refine acc_step_of (t := ⟨0, by decide⟩) (denAt_spec hch _ k h w) ?_
    rw [planes_apply]; exact k1_pay18_apply k h w

/-- A middle chunk. -/
theorem stepB (c : Dev nD) (t : Fin cfg1.N) (b : Fin 4) (j : ℕ) (hj : j < 4) (e : t.val = 4 * b.val + j)
    (h0 : ¬t.val % 4 = 0) (h1 : ¬t.val % 4 = 3) (p : Out4 Ideal) (hp : Inv1 (xin m c) b (j - 1) p) :
    Inv1 (xin m c) b j (resB (V1 m) c t h0 h1 p) := by
  have hch := isChunk1' m c t b j hj e
  have ej : j - 1 + 1 = j := by omega
  obtain ⟨hp0, hp1, hp2⟩ := hp
  rw [ej] at hp0 hp1 hp2
  refine ⟨fun h w => ?_, fun k h w => ?_, fun k h w => ?_⟩
  · rw [resB_norm]
    exact acc_step_of (t := ⟨j, hj⟩) (k1_pay20_spec hch _ h w) (hp0 h w)
  · rw [resB_num]
    refine acc_step_of (t := ⟨j, hj⟩) (numAt_spec hch _ k h w) ?_
    rw [planes_apply]; exact hp1 k h w
  · rw [resB_den]
    refine acc_step_of (t := ⟨j, hj⟩) (denAt_spec hch _ k h w) ?_
    rw [planes_apply]; exact hp2 k h w

/-- The last chunk, the kept arrays. -/
theorem stepC (c : Dev nD) (t : Fin cfg1.N) (b : Fin 4) (j : ℕ) (hj : j < 4) (e : t.val = 4 * b.val + j)
    (h0 : ¬t.val % 4 = 0) (h1 : t.val % 4 = 3) (p : Out4 Ideal) (hp : Inv1 (xin m c) b (j - 1) p) :
    Inv1 (xin m c) b j (resC (V1 m) c t h0 h1 p) := by
  have hch := isChunk1' m c t b j hj e
  have ej : j - 1 + 1 = j := by omega
  obtain ⟨hp0, hp1, hp2⟩ := hp
  rw [ej] at hp0 hp1 hp2
  refine ⟨fun h w => ?_, fun k h w => ?_, fun k h w => ?_⟩
  · rw [resC_norm]
    exact acc_step_of (t := ⟨j, hj⟩) (k1_pay20_spec hch _ h w) (hp0 h w)
  · rw [resC_num]
    refine acc_step_of (t := ⟨j, hj⟩) (numAt_spec hch _ k h w) ?_
    rw [planes_apply]; exact hp1 k h w
  · rw [resC_den]
    refine acc_step_of (t := ⟨j, hj⟩) (denAt_spec hch _ k h w) ?_
    rw [planes_apply]; exact hp2 k h w

/-- After every point the kept arrays hold the partial sums. -/
theorem inv1 (c : Dev nD) : ∀ (n : ℕ) (hn : n < cfg1.N) (b : Fin 4) (j : ℕ) (hj : j < 4) (e : n = 4 * b.val + j),
    Inv1 (xin m c) b j (outsAt1 (V1 m) c n hn)
  | 0, hn, b, j, hj, e => by
    obtain rfl : j = 0 := by omega
    have h := outsAt1_A (V1 m) c ⟨0, hn⟩ (Nat.zero_mod 4) (by simp)
    rw [show outsAt1 (V1 m) c 0 hn = _ from h]
    exact stepA m c ⟨0, hn⟩ b e _ _
  | n + 1, hn, b, j, hj, e => by
    by_cases h0 : (n + 1) % 4 = 0
    · obtain rfl : j = 0 := by omega
      have h1 : ¬(n + 1) % 4 = 3 := by omega
      have h := outsAt1_A (V1 m) c ⟨n + 1, hn⟩ h0 h1
      rw [show outsAt1 (V1 m) c (n + 1) hn = _ from h]
      exact stepA m c ⟨n + 1, hn⟩ b e _ _
    · have ih := inv1 c n (Nat.lt_of_succ_lt hn) b (j - 1) (by omega) (by omega)
      by_cases h1 : (n + 1) % 4 = 3
      · have h := outsAt1_C (V1 m) c ⟨n + 1, hn⟩ h0 h1
        rw [show outsAt1 (V1 m) c (n + 1) hn = _ from h]
        exact stepC m c ⟨n + 1, hn⟩ b j hj e h0 h1 _ ih
      · have h := outsAt1_B (V1 m) c ⟨n + 1, hn⟩ h0 h1
        rw [show outsAt1 (V1 m) c (n + 1) hn = _ from h]
        exact stepB m c ⟨n + 1, hn⟩ b j hj e h0 h1 _ ih

/-- On the last chunk of image b the output block's plane k holds the specification's result. -/
theorem out_last (c : Dev nD) (t : Fin cfg1.N) (h3 : t.val % 4 = 3) (hb : t.val / 4 < 4) (k : Fin 8) (h w : Fin 256) :
    (outsAt1 (V1 m) c t.val t.isLt).1 (ix4 (0 : Fin 1) k h w) = Cert.Spec.outAt (xin m c) ⟨t.val / 4, hb⟩ k h w := by
  have h0 : ¬t.val % 4 = 0 := by omega
  have e : t.val = 4 * (⟨t.val / 4, hb⟩ : Fin 4).val + 3 := by show t.val = 4 * (t.val / 4) + 3; omega
  have hinv := inv1 m c t.val t.isLt ⟨t.val / 4, hb⟩ 3 (by decide) e
  rw [outsAt1_C (V1 m) c t h0 h3] at hinv ⊢
  obtain ⟨i0, i1, i2⟩ := hinv
  rw [resC_out, quotAt_apply, planes_apply, planes_apply]
  exact quot_spec ((i2 k h w).trans (accUpTo_denF_four _ _ _ _ _)) ((i0 h w).trans (accUpTo_normF_four _ _ _ _))
    ((i1 k h w).trans (accUpTo_numF_four _ _ _ _ _))

end Cert.KernelIdeal.Hand

end
-- ==== Proof.KI.Value1Final.lean ====
/-
  The second kernel region's write-backs, and the kernel's run read as the specification.

  The output window is written back only at the last channel chunk of an image b (point 4b + 3), and what is written
  is the [1,8,256,256] block b of the result array; the four blocks tile the array. At such a point the output
  buffer holds, at (k, h, w), the specification's value for image b; so the result array ends holding the
  specification's function of the input, everywhere.
-/
import proofs.«100834_j73478300500485_1_alg».proof.Proof.KI.Value1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem idx_facts1o : ∀ t : Fin cfg1.N, win1_2.index t (0 : Fin 4) = t.val / 4 ∧ win1_2.index t (1 : Fin 4) = 0
    ∧ win1_2.index t (2 : Fin 4) = 0 ∧ win1_2.index t (3 : Fin 4) = 0 :=
  (by decide +kernel : ∀ t : Fin grid1.N, _)

/-- The result, as contents of the result array. -/
def result (c : Dev nD) : Buf (Elt Ideal) ((c : Thread nD τ).loc main_v1) := Cert.Spec.G (xin m c)

/-- What a last-chunk point writes back is its image's block of the result. -/
theorem flushed_eq1 (c : Dev nD) (t : Fin cfg1.N) (hf : (cfg1.win 2).flush t = true) :
    (dat1 (V1 m) c).flushed 2 t = ((cfg1.win 2).blk t).view.read (Elt Ideal) (result m c) := by
  have h3 : t.val % 4 = 3 := (flush1_2 t).mp hf
  have hN : t.val < 16 := lt_of_lt_of_eq t.isLt N_1
  have hb : t.val / 4 < 4 := by omega
  show (cfg1.win 2).cut (grid1.coords t) ((dat1 (V1 m) c).after 2 t) = _
  rw [after1_2]
  obtain ⟨e0, e1, e2, e3⟩ := idx_facts1o t
  funext j
  obtain ⟨u0, k, h, w, rfl⟩ : ∃ (u0 : Fin 1) (k : Fin 8) (h w : Fin 256), j = ix4 u0 k h w := ⟨j 0, j 1, j 2, j 3, eq_ix4 j⟩
  obtain rfl : u0 = 0 := Subsingleton.elim _ _
  show (outsAt1 (V1 m) c t.val t.isLt).1 (ix4 (0 : Fin 1) k h w) = result m c (((cfg1.win 2).blk t).view.emb (ix4 (0 : Fin 1) k h w))
  rw [out_last m c t h3 hb k h w]
  unfold result
  rw [← Cert.Spec.G_ix4]
  refine congrArg (Cert.Spec.G (xin m c)) ?_
  funext a; apply Fin.ext
  match a with
  | ⟨0, _⟩ => show t.val / 4 = win1_2.index t (0 : Fin 4) * 1 + 1 * 0; omega
  | ⟨1, _⟩ => show k.val = win1_2.index t (1 : Fin 4) * 8 + 1 * k.val; omega
  | ⟨2, _⟩ => show h.val = win1_2.index t (2 : Fin 4) * 256 + 1 * h.val; omega
  | ⟨3, _⟩ => show w.val = win1_2.index t (3 : Fin 4) * 256 + 1 * w.val; omega

theorem mem_blk1 (t : Fin cfg1.N) (i : S4x8x256x256.Idx) :
    i ∈ ((cfg1.win 2).blk t).view.set ↔ ∀ a : Fin 4, win1_2.index t a * S1x8x256x256.size a ≤ (i a).val ∧ (i a).val < win1_2.index t a * S1x8x256x256.size a + S1x8x256x256.size a := by
  show i ∈ ((View.whole main_v1).slice (win1_2.rect t)).set ↔ _
  rw [View.set_slice_whole, Rect.mem_set_unit]
  exact Iff.rfl

/-- The result array ends holding the result: image b's block is written back at the last chunk of image b. -/
theorem final1 (c : Dev nD) : (dat1 (V1 m) c).arrAt 2 cfg1.N = result m c :=
  (dat1 (V1 m) c).arrAt_eq_of_cover 2 (result m c) (fun t hf => flushed_eq1 m c t hf) fun i => by
    have hi0 : (i 0).val < 4 := (i 0).isLt
    have hi1 : (i 1).val < 8 := (i 1).isLt
    have hi2 : (i 2).val < 256 := (i 2).isLt
    have hi3 : (i 3).val < 256 := (i 3).isLt
    have hN : 4 * (i 0).val + 3 < cfg1.N := lt_of_lt_of_eq (by omega) (show (16 : ℕ) = cfg1.N from N_1.symm)
    refine ⟨⟨4 * (i 0).val + 3, hN⟩, (flush1_2 _).mpr (by show (4 * (i 0).val + 3) % 4 = 3; omega), ?_⟩
    rw [mem_blk1]
    obtain ⟨e0, e1, e2, e3⟩ := idx_facts1o ⟨4 * (i 0).val + 3, hN⟩
    have e0' : win1_2.index ⟨4 * (i 0).val + 3, hN⟩ (0 : Fin 4) = (i 0).val := by rw [e0]; show (4 * (i 0).val + 3) / 4 = (i 0).val; omega
    intro a
    match a with
    | ⟨0, _⟩ => show win1_2.index _ (0 : Fin 4) * 1 ≤ (i 0).val ∧ (i 0).val < win1_2.index _ (0 : Fin 4) * 1 + 1; rw [e0']; omega
    | ⟨1, _⟩ => show win1_2.index _ (1 : Fin 4) * 8 ≤ (i 1).val ∧ (i 1).val < win1_2.index _ (1 : Fin 4) * 8 + 8; rw [e1]; omega
    | ⟨2, _⟩ => show win1_2.index _ (2 : Fin 4) * 256 ≤ (i 2).val ∧ (i 2).val < win1_2.index _ (2 : Fin 4) * 256 + 256; rw [e2]; omega
    | ⟨3, _⟩ => show win1_2.index _ (3 : Fin 4) * 256 ≤ (i 3).val ∧ (i 3).val < win1_2.index _ (3 : Fin 4) * 256 + 256; rw [e3]; omega

/-- THE KERNEL'S RUN, READ: the result array ends at the specification's function of the input, the input unchanged. -/
theorem run_G (ρ : Dev nD → PrngReg) : θ_run defs (onTc (τ := τ) (main (F := Ideal))) ⟨m, fun _ => 0, ρ⟩ (fun r => ∀ c : Dev nD,
      r.2.mem ((c.tc : Thread nD τ).loc main_v1) = Cert.Spec.G (xin m c)
      ∧ r.2.mem ((c.tc : Thread nD τ).loc main_arg0) = m ((c.tc : Thread nD τ).loc main_arg0)) :=
  (θ_run defs _ _).mono (fun _ h c => ⟨(h c).1.trans (final1 m c), (h c).2⟩) (run_all m ρ)

end Cert.KernelIdeal.Hand

end
-- ==== Proof.RefStages.lean ====
/-
  The reference's arithmetic as functions of whole arrays.

  Each definition is one step of the computation, stated on arrays of any float instance: the per-channel spatial
  mean; the array with a reflecting border of one pixel; the centred array and the squared norm of its channel
  vector; for a neighbour offset, the centred shifted array and the cosine similarity it gives; and the eight
  similarities stacked along a new axis. `refOut` composes them into the result as one function of the input.
-/
import proofs.«100834_j73478300500485_1_alg».proof.ReferenceIdeal

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- An f32 array of a given shape. -/
abbrev Arr (F : FTy → Type) (S : Shape) : Type := (⟨S, .f32⟩ : BufTy).Contents (Elt F)

/-- The spatial mean of every channel: the sum over rows and columns (from the initial value zero) divided by the
    pixel count, the f32 word 0x47800000. -/
def meanT (x : Arr F S4x64x256x256) : Arr F S4x64x1x1 :=
  Host.divf
    (broadcastInDim S4x64x1x1 ![0, 1] bcast_S4x64_S4x64x1x1_0_1
      (Host.reduceAdd x (constant S_ .f32 0x00000000#32 : Arr F S_) reducesTo_S4x64x256x256_S4x64_d2_3 h_S_ : Arr F S4x64))
    (broadcastInDim S4x64x1x1 ![] bcast_S_S4x64x1x1 (constant S_ .f32 0x47800000#32 : Arr F S_))

/-- The means repeated over every pixel. -/
def meanB (mu : Arr F S4x64x1x1) : Arr F S4x64x256x256 :=
  broadcastInDim S4x64x256x256 ![0, 1, 2, 3] bcast_S4x64x1x1_S4x64x256x256_0_1_2_3 mu

/-- The sum over the 64 channels, from the initial value zero. -/
def sumC (y : Arr F S4x64x256x256) : Arr F S4x256x256 :=
  Host.reduceAdd y (constant S_ .f32 0x00000000#32 : Arr F S_) reducesTo_S4x64x256x256_S4x256x256_d1 h_S_

/-- The centred array. -/
def cxT (x : Arr F S4x64x256x256) (mu : Arr F S4x64x1x1) : Arr F S4x64x256x256 := subf x (meanB mu)

/-- The squared norm of the centred channel vector at every pixel. -/
def normT (cx : Arr F S4x64x256x256) : Arr F S4x256x256 := sumC (mulf cx cx)

/-- The lower bound of the denominator at every pixel. -/
def epsB : Arr F S4x256x256 :=
  broadcastInDim S4x256x256 ![] bcast_S_S4x256x256 (constant S_ .f32 0x322BCC77#32 : Arr F S_)

/-- A one-row array joined above a [256-row] array along the row axis. -/
def catTop (a : Arr F S4x64x1x256) (b : Arr F S4x64x256x256) : Arr F S4x64x257x256 :=
  concatenate S4x64x257x256 2 [⟨S4x64x1x256, a⟩, ⟨S4x64x256x256, b⟩] concatenates_S4x64x1x256_S4x64x256x256_S4x64x257x256_d2
/-- A one-row array joined below. -/
def catBot (a : Arr F S4x64x257x256) (b : Arr F S4x64x1x256) : Arr F S4x64x258x256 :=
  concatenate S4x64x258x256 2 [⟨S4x64x257x256, a⟩, ⟨S4x64x1x256, b⟩] concatenates_S4x64x257x256_S4x64x1x256_S4x64x258x256_d2
/-- A one-column array joined on the left along the column axis. -/
def catLeft (a : Arr F S4x64x258x1) (b : Arr F S4x64x258x256) : Arr F S4x64x258x257 :=
  concatenate S4x64x258x257 3 [⟨S4x64x258x1, a⟩, ⟨S4x64x258x256, b⟩] concatenates_S4x64x258x1_S4x64x258x256_S4x64x258x257_d3
/-- A one-column array joined on the right. -/
def catRight (a : Arr F S4x64x258x257) (b : Arr F S4x64x258x1) : Arr F S4x64x258x258 :=
  concatenate S4x64x258x258 3 [⟨S4x64x258x257, a⟩, ⟨S4x64x258x1, b⟩] concatenates_S4x64x258x257_S4x64x258x1_S4x64x258x258_d3

/-- Row 1 (a one-row slice, reversed along its one-element axis) put above row 0. -/
def topT (x : Arr F S4x64x256x256) : Arr F S4x64x257x256 :=
  catTop (Host.reverse (s := S4x64x1x256) [2] (extractStridedSlice S4x64x1x256 ![0, 0, 1, 0] x slices_S4x64x256x256_S4x64x1x256_0_0_1_0)) x
/-- Then its row 255, the input's row 254, put below the last row. -/
def padH (x : Arr F S4x64x256x256) : Arr F S4x64x258x256 :=
  catBot (topT x) (Host.reverse (s := S4x64x1x256) [2] (extractStridedSlice S4x64x1x256 ![0, 0, 255, 0] (topT x) slices_S4x64x257x256_S4x64x1x256_0_0_255_0))
/-- Columns: column 1 put left of column 0. -/
def leftT (y : Arr F S4x64x258x256) : Arr F S4x64x258x257 :=
  catLeft (Host.reverse (s := S4x64x258x1) [3] (extractStridedSlice S4x64x258x1 ![0, 0, 0, 1] y slices_S4x64x258x256_S4x64x258x1_0_0_0_1)) y
/-- Then its column 255, the operand's column 254, put right of the last column. -/
def padW (y : Arr F S4x64x258x256) : Arr F S4x64x258x258 :=
  catRight (leftT y) (Host.reverse (s := S4x64x258x1) [3] (extractStridedSlice S4x64x258x1 ![0, 0, 0, 255] (leftT y) slices_S4x64x258x257_S4x64x258x1_0_0_0_255))

/-- The input with its reflecting border. -/
def padT (x : Arr F S4x64x256x256) : Arr F S4x64x258x258 := padW (padH x)

/-- The centred neighbour array at a window offset of the bordered array. -/
def cnT (st : Fin 4 → Nat) (hs : S4x64x258x258.Slices st S4x64x256x256) (p : Arr F S4x64x258x258) (mu : Arr F S4x64x1x1) :
    Arr F S4x64x256x256 :=
  subf (extractStridedSlice S4x64x256x256 st p hs) (meanB mu)

/-- One offset's result: Σ_c cn·cx over max(√(Σ_c cn² · Σ_c cx²), ε). -/
def dirFn (st : Fin 4 → Nat) (hs : S4x64x258x258.Slices st S4x64x256x256) (p : Arr F S4x64x258x258) (mu : Arr F S4x64x1x1)
    (cx : Arr F S4x64x256x256) (nrm : Arr F S4x256x256) : Arr F S4x256x256 :=
  Host.divf (sumC (mulf (cnT st hs p mu) cx))
    (maximumf (Host.sqrt (mulf (sumC (mulf (cnT st hs p mu) (cnT st hs p mu))) nrm)) epsB)

/-- One offset's result as a function of the input. -/
def dirT (st : Fin 4 → Nat) (hs : S4x64x258x258.Slices st S4x64x256x256) (x : Arr F S4x64x256x256) : Arr F S4x256x256 :=
  dirFn st hs (padT x) (meanT x) (cxT x (meanT x)) (normT (cxT x (meanT x)))

/-- A [4,256,256] array given a unit second axis. -/
def unitAxis (d : Arr F S4x256x256) : Arr F S4x1x256x256 :=
  broadcastInDim S4x1x256x256 ![0, 2, 3] bcast_S4x256x256_S4x1x256x256_0_2_3 d

/-- Eight results stacked along the second axis. -/
def outT (d0 d1 d2 d3 d4 d5 d6 d7 : Arr F S4x256x256) : Arr F S4x8x256x256 :=
  concatenate S4x8x256x256 1
    [⟨S4x1x256x256, unitAxis d0⟩, ⟨S4x1x256x256, unitAxis d1⟩, ⟨S4x1x256x256, unitAxis d2⟩, ⟨S4x1x256x256, unitAxis d3⟩,
     ⟨S4x1x256x256, unitAxis d4⟩, ⟨S4x1x256x256, unitAxis d5⟩, ⟨S4x1x256x256, unitAxis d6⟩, ⟨S4x1x256x256, unitAxis d7⟩]
    concatenates_S4x1x256x256_S4x1x256x256_S4x1x256x256_S4x1x256x256_S4x1x256x256_S4x1x256x256_S4x1x256x256_S4x1x256x256_S4x8x256x256_d1

/-- The reference's result as one function of its input: the eight offsets of the 3 × 3 window in row-major order,
    the centre left out. -/
def refOut (x : Arr F S4x64x256x256) : Arr F S4x8x256x256 :=
  outT (dirT ![0, 0, 0, 0] slices_S4x64x258x258_S4x64x256x256_0_0_0_0 x)
    (dirT ![0, 0, 0, 1] slices_S4x64x258x258_S4x64x256x256_0_0_0_1 x)
    (dirT ![0, 0, 0, 2] slices_S4x64x258x258_S4x64x256x256_0_0_0_2 x)
    (dirT ![0, 0, 1, 0] slices_S4x64x258x258_S4x64x256x256_0_0_1_0 x)
    (dirT ![0, 0, 1, 2] slices_S4x64x258x258_S4x64x256x256_0_0_1_2 x)
    (dirT ![0, 0, 2, 0] slices_S4x64x258x258_S4x64x256x256_0_0_2_0 x)
    (dirT ![0, 0, 2, 1] slices_S4x64x258x258_S4x64x256x256_0_0_2_1 x)
    (dirT ![0, 0, 2, 2] slices_S4x64x258x258_S4x64x256x256_0_0_2_2 x)

end Cert.RefSide

end
-- ==== Proof.RefIdx4.lean ====
/-
  Layout operations on rank-four arrays, read at an index given by its four coordinates: a window cut out at offsets
  on the last two axes reads the source at the shifted coordinates; two arrays joined along the third or the fourth
  axis read the first piece below its extent and the second piece past it, the extent less; reversing an axis of
  one element changes nothing.
-/
import Idealize.ShloMosaic.PureOps.Ideal
import Idealize.ShloMosaic.Lib.ValueIdx
import Idealize.ShloMosaic.Lib.Pipeline.Value

noncomputable section

namespace Cert.RefSide

open Idealize.ShloMosaic Idealize.ShloMosaic.ValueIdx

/-- A statement about the four axes of a rank-four shape, axis by axis. -/
theorem forall_fin4 {P : Fin 4 → Prop} (h0 : P 0) (h1 : P 1) (h2 : P 2) (h3 : P 3) : ∀ a, P a := by
  intro a; fin_cases a
  exacts [h0, h1, h2, h3]
theorem forall_fin3 {P : Fin 3 → Prop} (h0 : P 0) (h1 : P 1) (h2 : P 2) : ∀ a, P a := by
  intro a; fin_cases a
  exacts [h0, h1, h2]
theorem forall_fin2 {P : Fin 2 → Prop} (h0 : P 0) (h1 : P 1) : ∀ a, P a := by
  intro a; fin_cases a
  exacts [h0, h1]

variable {α : Type} {n0 n1 n2 n3 : Nat}

/-- A window at offsets (0, 0, o2, o3) read at (a, b, c, d) is the source at (a, b, o2 + c, o3 + d). -/
theorem slice4_apply {m2 m3 : Nat} (o2 o3 : Nat) (x : (⟨4, ![n0, n1, n2, n3]⟩ : Shape).Idx → α)
    (hs : (⟨4, ![n0, n1, n2, n3]⟩ : Shape).Slices ![0, 0, o2, o3] ⟨4, ![n0, n1, m2, m3]⟩)
    (a : Fin n0) (b : Fin n1) (c : Fin m2) (d : Fin m3) (c' : Fin n2) (d' : Fin n3)
    (hc : c'.val = o2 + c.val) (hd : d'.val = o3 + d.val) :
    extractStridedSlice ⟨4, ![n0, n1, m2, m3]⟩ ![0, 0, o2, o3] x hs (ix4 a b c d) = x (ix4 a b c' d') :=
  extractStridedSlice_apply _ _ _ _ _ (forall_fin4 (Nat.zero_add _).symm (Nat.zero_add _).symm hc hd)

/-- Joined along the third axis, below the first piece's extent: the first piece. -/
theorem cat4_axis2_left {p q r : Nat} (x₁ : (⟨4, ![n0, n1, p, n3]⟩ : Shape).Idx → α) (x₂ : (⟨4, ![n0, n1, q, n3]⟩ : Shape).Idx → α)
    (h : Shape.Concatenates [⟨4, ![n0, n1, p, n3]⟩, ⟨4, ![n0, n1, q, n3]⟩] ⟨4, ![n0, n1, r, n3]⟩ 2)
    (a : Fin n0) (b : Fin n1) (c : Fin r) (d : Fin n3) (c' : Fin p) (h' : c'.val = c.val) :
    concatenate ⟨4, ![n0, n1, r, n3]⟩ 2 [⟨⟨4, ![n0, n1, p, n3]⟩, x₁⟩, ⟨⟨4, ![n0, n1, q, n3]⟩, x₂⟩] h (ix4 a b c d) = x₁ (ix4 a b c' d) := by
  refine concatenate_pair_apply_left (t := ⟨4, ![n0, n1, r, n3]⟩) (s₁ := ⟨4, ![n0, n1, p, n3]⟩) (s₂ := ⟨4, ![n0, n1, q, n3]⟩) 2 x₁ x₂ h (ix4 a b c d) rfl (ix4 a b c' d) ?_
  intro e; fin_cases e
  · rfl
  · rfl
  · exact h'
  · rfl

/-- Joined along the third axis, past the first piece's extent: the second piece, the extent less. -/
theorem cat4_axis2_right {p q r : Nat} (x₁ : (⟨4, ![n0, n1, p, n3]⟩ : Shape).Idx → α) (x₂ : (⟨4, ![n0, n1, q, n3]⟩ : Shape).Idx → α)
    (h : Shape.Concatenates [⟨4, ![n0, n1, p, n3]⟩, ⟨4, ![n0, n1, q, n3]⟩] ⟨4, ![n0, n1, r, n3]⟩ 2)
    (a : Fin n0) (b : Fin n1) (c : Fin r) (d : Fin n3) (c' : Fin q) (h' : c'.val + p = c.val) :
    concatenate ⟨4, ![n0, n1, r, n3]⟩ 2 [⟨⟨4, ![n0, n1, p, n3]⟩, x₁⟩, ⟨⟨4, ![n0, n1, q, n3]⟩, x₂⟩] h (ix4 a b c d) = x₂ (ix4 a b c' d) := by
  refine concatenate_pair_apply_right (t := ⟨4, ![n0, n1, r, n3]⟩) (s₁ := ⟨4, ![n0, n1, p, n3]⟩) (s₂ := ⟨4, ![n0, n1, q, n3]⟩) 2 x₁ x₂ h (ix4 a b c d) rfl rfl (ix4 a b c' d) ?_ h'
  intro e; fin_cases e
  · intro _; rfl
  · intro _; rfl
  · intro hne; exact absurd rfl hne
  · intro _; rfl

/-- Joined along the fourth axis, below the first piece's extent: the first piece. -/
theorem cat4_axis3_left {p q r : Nat} (x₁ : (⟨4, ![n0, n1, n2, p]⟩ : Shape).Idx → α) (x₂ : (⟨4, ![n0, n1, n2, q]⟩ : Shape).Idx → α)
    (h : Shape.Concatenates [⟨4, ![n0, n1, n2, p]⟩, ⟨4, ![n0, n1, n2, q]⟩] ⟨4, ![n0, n1, n2, r]⟩ 3)
    (a : Fin n0) (b : Fin n1) (c : Fin n2) (d : Fin r) (d' : Fin p) (h' : d'.val = d.val) :
    concatenate ⟨4, ![n0, n1, n2, r]⟩ 3 [⟨⟨4, ![n0, n1, n2, p]⟩, x₁⟩, ⟨⟨4, ![n0, n1, n2, q]⟩, x₂⟩] h (ix4 a b c d) = x₁ (ix4 a b c d') := by
  refine concatenate_pair_apply_left (t := ⟨4, ![n0, n1, n2, r]⟩) (s₁ := ⟨4, ![n0, n1, n2, p]⟩) (s₂ := ⟨4, ![n0, n1, n2, q]⟩) 3 x₁ x₂ h (ix4 a b c d) rfl (ix4 a b c d') ?_
  intro e; fin_cases e
  · rfl
  · rfl
  · rfl
  · exact h'

/-- Joined along the fourth axis, past the first piece's extent: the second piece, the extent less. -/
theorem cat4_axis3_right {p q r : Nat} (x₁ : (⟨4, ![n0, n1, n2, p]⟩ : Shape).Idx → α) (x₂ : (⟨4, ![n0, n1, n2, q]⟩ : Shape).Idx → α)
    (h : Shape.Concatenates [⟨4, ![n0, n1, n2, p]⟩, ⟨4, ![n0, n1, n2, q]⟩] ⟨4, ![n0, n1, n2, r]⟩ 3)
    (a : Fin n0) (b : Fin n1) (c : Fin n2) (d : Fin r) (d' : Fin q) (h' : d'.val + p = d.val) :
    concatenate ⟨4, ![n0, n1, n2, r]⟩ 3 [⟨⟨4, ![n0, n1, n2, p]⟩, x₁⟩, ⟨⟨4, ![n0, n1, n2, q]⟩, x₂⟩] h (ix4 a b c d) = x₂ (ix4 a b c d') := by
  refine concatenate_pair_apply_right (t := ⟨4, ![n0, n1, n2, r]⟩) (s₁ := ⟨4, ![n0, n1, n2, p]⟩) (s₂ := ⟨4, ![n0, n1, n2, q]⟩) 3 x₁ x₂ h (ix4 a b c d) rfl rfl (ix4 a b c d') ?_ h'
  intro e; fin_cases e
  · intro _; rfl
  · intro _; rfl
  · intro _; rfl
  · intro hne; exact absurd rfl hne

/-- Reversing a third axis of one element changes nothing. -/
theorem reverse4_unit2 (z : (⟨4, ![n0, n1, 1, n3]⟩ : Shape).Idx → α) (a : Fin n0) (b : Fin n1) (u : Fin 1) (d : Fin n3) :
    Host.reverse (s := ⟨4, ![n0, n1, 1, n3]⟩) [2] z (ix4 a b u d) = z (ix4 a b u d) := by
  unfold Host.reverse
  exact congrArg z (funext (forall_fin4 rfl rfl (Subsingleton.elim (α := Fin 1) _ _) rfl))

/-- Reversing a fourth axis of one element changes nothing. -/
theorem reverse4_unit3 (z : (⟨4, ![n0, n1, n2, 1]⟩ : Shape).Idx → α) (a : Fin n0) (b : Fin n1) (c : Fin n2) (u : Fin 1) :
    Host.reverse (s := ⟨4, ![n0, n1, n2, 1]⟩) [3] z (ix4 a b c u) = z (ix4 a b c u) := by
  unfold Host.reverse
  exact congrArg z (funext (forall_fin4 rfl rfl rfl (Subsingleton.elim (α := Fin 1) _ _)))

end Cert.RefSide

end
-- ==== Proof.RefValA.lean ====
/-
  The reference's arithmetic read at an index, on the extended reals.

  The literal 0x47800000 is the real 65536. A sum over rows and columns of one channel is the double sum over the two
  coordinates; the sum over the channel axis is the sum over the channel coordinate; both start from the literal zero,
  which adds nothing. The mean array at (b, c, 0, 0) is therefore the specification's mean, and the centred array at a
  pixel is the pixel's value less its channel's mean.
-/
import proofs.«100834_j73478300500485_1_alg».proof.Proof.RefStages
import proofs.«100834_j73478300500485_1_alg».proof.Proof.Spec
import Idealize.ShloMosaic.Lib.IdealHost
import Idealize.ShloMosaic.Lib.Pipeline.Value
import proofs.«100834_j73478300500485_1_alg».proof.Proof.RefIdx4

noncomputable section

namespace Cert.RefSide

open Cert.ReferenceIdeal Cert.ReferenceIdeal.Facts₀ Idealize.ShloMosaic Idealize.ShloMosaic.ValueIdx

variable [Cert.ReferenceIdeal.Facts]

/-- The word 0x47800000 (sign 0, exponent 143, fraction 0) denotes 2^(143 − 127) = 65536. -/
theorem ofBits_65536 : Ideal.ofBits .f32 0x47800000#32 = ((65536 : ℝ) : EReal) := by
  simp [Ideal.ofBits, Ideal.ieee, -EReal.coe_mul]; norm_num

/-- The sum over rows and columns at (b, c): the indices that drop to (b, c) are exactly (b, c, h, w). -/
theorem hostReduceAdd_rows_cols (red : S4x64x256x256.ReducesTo [2, 3] S4x64) (x : S4x64x256x256.Idx → EReal) (init : EReal)
    (b : Fin 4) (c : Fin 64) :
    Ideal.hostReduceAdd red x init (ix2 b c) = init + ∑ h : Fin 256, ∑ w : Fin 256, x (ix4 b c h w) := by
  unfold Ideal.hostReduceAdd
  congr 1
  rw [← Finset.sum_product']
  have hd0 : ∀ i : S4x64x256x256.Idx, (red.drop i 0).val = (i 0).val := fun i => red.drop_apply_val_of_eq i 0 0
  have hd1 : ∀ i : S4x64x256x256.Idx, (red.drop i 1).val = (i 1).val := fun i => red.drop_apply_val_of_eq i 1 1
  refine Finset.sum_bij' (fun i _ => ((i 2 : Fin 256), (i 3 : Fin 256))) (fun p _ => ix4 b c p.1 p.2) ?_ ?_ ?_ ?_ ?_
  · intro i _; exact Finset.mem_product.mpr ⟨Finset.mem_univ _, Finset.mem_univ _⟩
  · intro p _
    refine Finset.mem_filter.mpr ⟨Finset.mem_univ _, funext (forall_fin2 (Fin.ext ?_) (Fin.ext ?_))⟩
    · exact hd0 _
    · exact hd1 _
  · intro i hi
    have e := (Finset.mem_filter.mp hi).2
    have e0 : (i 0).val = b.val := (hd0 i).symm.trans (congrArg Fin.val (congrFun e 0))
    have e1 : (i 1).val = c.val := (hd1 i).symm.trans (congrArg Fin.val (congrFun e 1))
    exact funext (forall_fin4 (Fin.ext e0.symm) (Fin.ext e1.symm) rfl rfl)
  · intro p _; rfl
  · intro i hi
    have e := (Finset.mem_filter.mp hi).2
    have e0 : (i 0).val = b.val := (hd0 i).symm.trans (congrArg Fin.val (congrFun e 0))
    have e1 : (i 1).val = c.val := (hd1 i).symm.trans (congrArg Fin.val (congrFun e 1))
    exact congrArg x (funext (forall_fin4 (Fin.ext e0) (Fin.ext e1) rfl rfl))

/-- The mean array at (b, c, 0, 0) is the mean of channel c of image b. -/
theorem meanT_apply (x : Arr Ideal S4x64x256x256) (b : Fin 4) (c : Fin 64) (u v : Fin 1) :
    meanT x (ix4 b c u v) = Spec.mean x b c := by
  unfold meanT Spec.mean
  rw [hostDivf_apply, broadcastInDim_scalar_apply, constant_apply, ofBits_65536,
    broadcastInDim_apply _ _ _ _ (ix2 b c) (forall_fin2 rfl rfl), hostReduceAdd_apply, constant_apply, Ideal.ofBits_zero_f32,
    hostReduceAdd_rows_cols, zero_add]

/-- The means repeated over the pixels read the mean array at (b, c, 0, 0). -/
theorem meanB_apply (mu : Arr Ideal S4x64x1x1) (b : Fin 4) (c : Fin 64) (h w : Fin 256) :
    meanB mu (ix4 b c h w) = mu (ix4 b c 0 0) := by
  unfold meanB
  exact broadcastInDim_apply _ _ _ _ (ix4 b c 0 0) (forall_fin4 rfl rfl rfl rfl)

/-- The centred array at a pixel. -/
theorem cxT_apply (x : Arr Ideal S4x64x256x256) (b : Fin 4) (c : Fin 64) (h w : Fin 256) :
    cxT x (meanT x) (ix4 b c h w) = Spec.cx x b c h w := by
  unfold cxT Spec.cx
  rw [subf_apply, meanB_apply, meanT_apply]

/-- The sum over the channel axis at (b, h, w). -/
theorem sumC_apply (y : Arr Ideal S4x64x256x256) (b : Fin 4) (h w : Fin 256) :
    sumC y (ix3 b h w) = ∑ c : Fin 64, y (ix4 b c h w) := by
  unfold sumC
  rw [hostReduceAdd_apply, Ideal.hostReduceAdd_single _ (by decide : S4x64x256x256.Reduces [1] S4x256x256), constant_apply,
    Ideal.ofBits_zero_f32, zero_add]
  exact Finset.sum_congr rfl fun c _ => congrArg y (funext (forall_fin4 rfl rfl rfl rfl))

/-- The squared norm of the centred channel vector at a pixel. -/
theorem normT_apply (x : Arr Ideal S4x64x256x256) (b : Fin 4) (h w : Fin 256) :
    normT (cxT x (meanT x)) (ix3 b h w) = Spec.norm x b h w := by
  unfold normT Spec.norm
  rw [sumC_apply]
  exact Finset.sum_congr rfl fun c _ => by rw [mulf_apply, cxT_apply]

/-- The lower bound at every pixel is ε. -/
theorem epsB_apply (j : S4x256x256.Idx) : epsB (F := Ideal) j = Spec.eps := by
  unfold epsB Spec.eps
  rw [broadcastInDim_scalar_apply, constant_apply]

/-- The host's square root at an index. -/
theorem hostSqrt_apply {s : Shape} (y : FVec Ideal s .f32) (i : s.Idx) : Host.sqrt y i = Ideal.sqrt (y i) := rfl

end Cert.RefSide

end
-- ==== Proof.RefPad.lean ====
/-
  The bordered array read at an index.

  Row r of the 258-row array is row 1 of the input for r = 0, row 254 for r = 257, and row r − 1 otherwise; the same
  holds for the columns. Reading the bordered array at (b, c, r, s) therefore reads the input at the two reflected
  coordinates.
-/
import proofs.«100834_j73478300500485_1_alg».proof.Proof.RefStages
import proofs.«100834_j73478300500485_1_alg».proof.Proof.RefIdx4

noncomputable section

namespace Cert.RefSide

open Cert.ReferenceIdeal Cert.ReferenceIdeal.Facts₀ Idealize.ShloMosaic Idealize.ShloMosaic.ValueIdx

variable {F : FTy → Type} [FloatOps F] [Cert.ReferenceIdeal.Facts]

/-- The input coordinate that coordinate r of the array with one line put in front holds. -/
def up257 (r : Fin 257) : Fin 256 := ⟨if r.val = 0 then 1 else r.val - 1, by have := r.isLt; split_ifs <;> omega⟩
/-- The input coordinate that coordinate r of the bordered array holds. -/
def up258 (r : Fin 258) : Fin 256 :=
  ⟨if r.val = 0 then 1 else if r.val = 257 then 254 else r.val - 1, by have := r.isLt; split_ifs <;> omega⟩

theorem topT_apply (x : Arr F S4x64x256x256) (b : Fin 4) (c : Fin 64) (r : Fin 257) (w : Fin 256) :
    topT x (ix4 b c r w) = x (ix4 b c (up257 r) w) := by
  unfold topT catTop
  by_cases hr : r.val = 0
  · refine (cat4_axis2_left _ _ _ b c r w (0 : Fin 1) hr.symm).trans ?_
    rw [reverse4_unit2]
    refine (slice4_apply 1 0 x _ b c (0 : Fin 1) w ⟨1, by decide⟩ w rfl (Nat.zero_add _).symm).trans ?_
    exact congrArg x (congrArg (fun k => ix4 b c k w) (Fin.ext (by unfold up257; dsimp only; split_ifs <;> first | omega | contradiction)))
  · have hlt := r.isLt
    refine (cat4_axis2_right _ _ _ b c r w ⟨r.val - 1, by omega⟩ (by show r.val - 1 + 1 = r.val; omega)).trans ?_
    exact congrArg x (congrArg (fun k => ix4 b c k w) (Fin.ext (by unfold up257; dsimp only; split_ifs <;> first | omega | contradiction)))

theorem padH_apply (x : Arr F S4x64x256x256) (b : Fin 4) (c : Fin 64) (r : Fin 258) (w : Fin 256) :
    padH x (ix4 b c r w) = x (ix4 b c (up258 r) w) := by
  unfold padH catBot
  have hlt := r.isLt
  by_cases hr : r.val = 257
  · refine (cat4_axis2_right _ _ _ b c r w (0 : Fin 1) (by show 0 + 257 = r.val; omega)).trans ?_
    rw [reverse4_unit2]
    refine (slice4_apply 255 0 (topT x) _ b c (0 : Fin 1) w ⟨255, by decide⟩ w rfl (Nat.zero_add _).symm).trans ?_
    rw [topT_apply]
    exact congrArg x (congrArg (fun k => ix4 b c k w) (Fin.ext (by unfold up257 up258; dsimp only; split_ifs <;> first | omega | contradiction)))
  · refine (cat4_axis2_left (p := 257) _ _ _ b c r w ⟨r.val, by omega⟩ rfl).trans ?_
    rw [topT_apply]
    exact congrArg x (congrArg (fun k => ix4 b c k w) (Fin.ext (by unfold up257 up258; dsimp only; split_ifs <;> first | omega | contradiction)))

theorem leftT_apply (y : Arr F S4x64x258x256) (b : Fin 4) (c : Fin 64) (r : Fin 258) (s : Fin 257) :
    leftT y (ix4 b c r s) = y (ix4 b c r (up257 s)) := by
  unfold leftT catLeft
  by_cases hs : s.val = 0
  · refine (cat4_axis3_left _ _ _ b c r s (0 : Fin 1) hs.symm).trans ?_
    rw [reverse4_unit3]
    refine (slice4_apply 0 1 y _ b c r (0 : Fin 1) r ⟨1, by decide⟩ (Nat.zero_add _).symm rfl).trans ?_
    exact congrArg y (congrArg (fun k => ix4 b c r k) (Fin.ext (by unfold up257; dsimp only; split_ifs <;> first | omega | contradiction)))
  · have hlt := s.isLt
    refine (cat4_axis3_right _ _ _ b c r s ⟨s.val - 1, by omega⟩ (by show s.val - 1 + 1 = s.val; omega)).trans ?_
    exact congrArg y (congrArg (fun k => ix4 b c r k) (Fin.ext (by unfold up257; dsimp only; split_ifs <;> first | omega | contradiction)))

theorem padW_apply (y : Arr F S4x64x258x256) (b : Fin 4) (c : Fin 64) (r s : Fin 258) :
    padW y (ix4 b c r s) = y (ix4 b c r (up258 s)) := by
  unfold padW catRight
  have hlt := s.isLt
  by_cases hs : s.val = 257
  · refine (cat4_axis3_right _ _ _ b c r s (0 : Fin 1) (by show 0 + 257 = s.val; omega)).trans ?_
    rw [reverse4_unit3]
    refine (slice4_apply 0 255 (leftT y) _ b c r (0 : Fin 1) r ⟨255, by decide⟩ (Nat.zero_add _).symm rfl).trans ?_
    rw [leftT_apply]
    exact congrArg y (congrArg (fun k => ix4 b c r k) (Fin.ext (by unfold up257 up258; dsimp only; split_ifs <;> first | omega | contradiction)))
  · refine (cat4_axis3_left (p := 257) _ _ _ b c r s ⟨s.val, by omega⟩ rfl).trans ?_
    rw [leftT_apply]
    exact congrArg y (congrArg (fun k => ix4 b c r k) (Fin.ext (by unfold up257 up258; dsimp only; split_ifs <;> first | omega | contradiction)))

/-- The bordered array at (b, c, r, s) is the input at the reflected coordinates. -/
theorem padT_apply (x : Arr F S4x64x256x256) (b : Fin 4) (c : Fin 64) (r s : Fin 258) :
    padT x (ix4 b c r s) = x (ix4 b c (up258 r) (up258 s)) := by
  unfold padT
  rw [padW_apply, padH_apply]

end Cert.RefSide

end
-- ==== Proof.RefDir.lean ====
/-
  One neighbour offset's result read at a pixel.

  The window of the bordered array at offset (di, dj), read at (b, c, h, w), is the input at the reflected neighbour
  coordinates (refl h di, refl w dj); less the channel's mean it is the centred neighbour value. The offset's result at
  (b, h, w) is then the quotient of Σ_c cn·cx by max(√(Σ_c cn² · Σ_c cx²), ε) — one statement for every offset.
-/
import proofs.«100834_j73478300500485_1_alg».proof.Proof.RefStages
import proofs.«100834_j73478300500485_1_alg».proof.Proof.Spec
import proofs.«100834_j73478300500485_1_alg».proof.Proof.RefIdx4
import proofs.«100834_j73478300500485_1_alg».proof.Proof.RefValA
import proofs.«100834_j73478300500485_1_alg».proof.Proof.RefPad

noncomputable section

namespace Cert.RefSide

open Cert.ReferenceIdeal Cert.ReferenceIdeal.Facts₀ Idealize.ShloMosaic Idealize.ShloMosaic.ValueIdx

variable [Cert.ReferenceIdeal.Facts]

/-- A coordinate of the bordered array at offset d from i holds the input's reflected neighbour coordinate. -/
theorem up258_refl (i : Fin 256) (d : Fin 3) (k : Fin 258) (hk : k.val = d.val + i.val) : up258 k = Spec.refl i d := by
  apply Fin.ext
  unfold up258 Spec.refl
  dsimp only
  have := i.isLt; have := d.isLt
  split_ifs <;> omega

/-- The centred neighbour array at a pixel. -/
theorem cnT_apply (oi oj : Fin 3) (hs : S4x64x258x258.Slices ![0, 0, oi.val, oj.val] S4x64x256x256)
    (x : Arr Ideal S4x64x256x256) (b : Fin 4) (c : Fin 64) (h w : Fin 256) :
    cnT ![0, 0, oi.val, oj.val] hs (padT x) (meanT x) (ix4 b c h w)
      = x (ix4 b c (Spec.refl h oi) (Spec.refl w oj)) - Spec.mean x b c := by
  have hh := h.isLt; have hw := w.isLt; have hi := oi.isLt; have hj := oj.isLt
  have e : extractStridedSlice S4x64x256x256 ![0, 0, oi.val, oj.val] (padT x) hs (ix4 b c h w)
      = padT x (ix4 b c (⟨oi.val + h.val, by omega⟩ : Fin 258) (⟨oj.val + w.val, by omega⟩ : Fin 258)) :=
    slice4_apply oi.val oj.val (padT x) hs b c h w _ _ rfl rfl
  unfold cnT
  rw [subf_apply, meanB_apply, meanT_apply, e, padT_apply, up258_refl h oi _ rfl, up258_refl w oj _ rfl]

/-- An offset's result at a pixel, from the four arrays it is computed from. -/
theorem dirFn_apply (st : Fin 4 → Nat) (hs : S4x64x258x258.Slices st S4x64x256x256) (p : Arr Ideal S4x64x258x258)
    (mu : Arr Ideal S4x64x1x1) (cx : Arr Ideal S4x64x256x256) (nrm : Arr Ideal S4x256x256) (b : Fin 4) (h w : Fin 256) :
    dirFn st hs p mu cx nrm (ix3 b h w)
      = Ideal.div (∑ c : Fin 64, cnT st hs p mu (ix4 b c h w) * cx (ix4 b c h w))
          (max (Ideal.sqrt ((∑ c : Fin 64, cnT st hs p mu (ix4 b c h w) * cnT st hs p mu (ix4 b c h w)) * nrm (ix3 b h w)))
            Spec.eps) := by
  unfold dirFn
  rw [hostDivf_apply, maximumf_apply, hostSqrt_apply, mulf_apply, sumC_apply, sumC_apply, epsB_apply]
  simp only [mulf_apply]

/-- An offset's result at a pixel as a function of the input: ONE statement for all offsets (di, dj). -/
theorem dirT_apply (oi oj : Fin 3) (hs : S4x64x258x258.Slices ![0, 0, oi.val, oj.val] S4x64x256x256)
    (x : Arr Ideal S4x64x256x256) (b : Fin 4) (h w : Fin 256) :
    dirT ![0, 0, oi.val, oj.val] hs x (ix3 b h w)
      = Ideal.div (∑ c : Fin 64, (x (ix4 b c (Spec.refl h oi) (Spec.refl w oj)) - Spec.mean x b c) * Spec.cx x b c h w)
          (max (Ideal.sqrt ((∑ c : Fin 64, (x (ix4 b c (Spec.refl h oi) (Spec.refl w oj)) - Spec.mean x b c)
              * (x (ix4 b c (Spec.refl h oi) (Spec.refl w oj)) - Spec.mean x b c)) * Spec.norm x b h w))
            Spec.eps) := by
  unfold dirT
  rw [dirFn_apply, normT_apply]
  simp only [cnT_apply, cxT_apply]

/-- The specification's result at a pixel, written out over the k-th offset. -/
theorem outAt_eq (x : Spec.XIdx → EReal) (b : Fin 4) (k : Fin 8) (h w : Fin 256) :
    Spec.outAt x b k h w
      = Ideal.div (∑ c : Fin 64, (x (ix4 b c (Spec.refl h (Spec.dh k)) (Spec.refl w (Spec.dw k))) - Spec.mean x b c) * Spec.cx x b c h w)
          (max (Ideal.sqrt ((∑ c : Fin 64, (x (ix4 b c (Spec.refl h (Spec.dh k)) (Spec.refl w (Spec.dw k))) - Spec.mean x b c)
              * (x (ix4 b c (Spec.refl h (Spec.dh k)) (Spec.refl w (Spec.dw k))) - Spec.mean x b c)) * Spec.norm x b h w))
            Spec.eps) := rfl

end Cert.RefSide

end
-- ==== Proof.RefOps.lean ====
/-
  The reference program as a straight line of array operations.

  Its text is one sequence of 157 operations on whole arrays (the padding function's sixteen and the four
  reversals it calls stand where the call stands). They are listed here in the order the program runs them, cut
  where the mathematics cuts: the channel means, the reflecting border, the centred array and its norm, then for
  each of the eight neighbour offsets the fifteen operations that produce that offset's cosine similarity, and
  last the stacking of the eight results. The program is shown to be exactly this line, so that every execution of
  it terminates and leaves in each array the value the operations compose to.
-/
import proofs.«100834_j73478300500485_1_alg».proof.ReferenceIdeal
import proofs.«100834_j73478300500485_1_alg».proof.Proof.RefStages
import Idealize.ShloMosaic.Lib.StableHlo.Run
import Idealize.ShloMosaic.Lib.Pipeline.Frame

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The spatial sum of every channel, divided by the pixel count 65536: the per-channel mean, as a [4,64,1,1] array. -/
abbrev wPre : List (HloOp τ sig (Elt F)) :=
  [ StableHlo.nullary main_cst (constant S_ .f32 0x00000000#32),
    StableHlo.binary main_arg0 main_cst main_v0 ((fun x v => Host.reduceAdd x v reducesTo_S4x64x256x256_S4x64_d2_3 h_S_) : (⟨S4x64x256x256, .f32⟩ : BufTy).Contents (Elt F) → (⟨S_, .f32⟩ : BufTy).Contents (Elt F) → (⟨S4x64, .f32⟩ : BufTy).Contents (Elt F)),
    StableHlo.unary main_v0 main_v1 (broadcastInDim S4x64x1x1 ![0, 1] bcast_S4x64_S4x64x1x1_0_1 : (⟨S4x64, .f32⟩ : BufTy).Contents (Elt F) → (⟨S4x64x1x1, .f32⟩ : BufTy).Contents (Elt F)),
    StableHlo.nullary main_cst_0 (constant S_ .f32 0x47800000#32),
    StableHlo.unary main_cst_0 main_v2 (broadcastInDim S4x64x1x1 ![] bcast_S_S4x64x1x1 : (⟨S_, .f32⟩ : BufTy).Contents (Elt F) → (⟨S4x64x1x1, .f32⟩ : BufTy).Contents (Elt F)),
    StableHlo.binary main_v1 main_v2 main_v3 (Host.divf : (⟨S4x64x1x1, .f32⟩ : BufTy).Contents (Elt F) → (⟨S4x64x1x1, .f32⟩ : BufTy).Contents (Elt F) → (⟨S4x64x1x1, .f32⟩ : BufTy).Contents (Elt F)),
    StableHlo.nullary main_c (constantI S_ 32 0#32) ]

/-- The reflecting border: one row above and below, then one column left and right, each a copy of the row or column next to the edge one. -/
abbrev wPad : List (HloOp τ sig (Elt F)) :=
  [ StableHlo.TRef.unary (TRef.of main_arg0 : TRef sig ⟨S4x64x256x256, .f32⟩) main_call0.v0 (extractStridedSlice S4x64x1x256 ![0, 0, 0, 0] · slices_S4x64x256x256_S4x64x1x256_0_0_0_0),
    StableHlo.TRef.unary (TRef.of main_arg0 : TRef sig ⟨S4x64x256x256, .f32⟩) main_call0.v1 (extractStridedSlice S4x64x1x256 ![0, 0, 1, 0] · slices_S4x64x256x256_S4x64x1x256_0_0_1_0),
    StableHlo.TRef.unary main_call0.v1 main_call0.call0.v0 (Host.reverse [2]),
    StableHlo.TRef.binary main_call0.call0.v0 (TRef.of main_arg0 : TRef sig ⟨S4x64x256x256, .f32⟩) main_call0.v3 catTop,
    StableHlo.TRef.unary main_call0.v3 main_call0.v4 (extractStridedSlice S4x64x1x256 ![0, 0, 256, 0] · slices_S4x64x257x256_S4x64x1x256_0_0_256_0),
    StableHlo.TRef.unary main_call0.v3 main_call0.v5 (extractStridedSlice S4x64x1x256 ![0, 0, 255, 0] · slices_S4x64x257x256_S4x64x1x256_0_0_255_0),
    StableHlo.TRef.unary main_call0.v5 main_call0.call1.v0 (Host.reverse [2]),
    StableHlo.TRef.binary main_call0.v3 main_call0.call1.v0 main_call0.v7 catBot,
    StableHlo.TRef.unary main_call0.v7 main_call0.v8 (extractStridedSlice S4x64x258x1 ![0, 0, 0, 0] · slices_S4x64x258x256_S4x64x258x1_0_0_0_0),
    StableHlo.TRef.unary main_call0.v7 main_call0.v9 (extractStridedSlice S4x64x258x1 ![0, 0, 0, 1] · slices_S4x64x258x256_S4x64x258x1_0_0_0_1),
    StableHlo.TRef.unary main_call0.v9 main_call0.call2.v0 (Host.reverse [3]),
    StableHlo.TRef.binary main_call0.call2.v0 main_call0.v7 main_call0.v11 catLeft,
    StableHlo.TRef.unary main_call0.v11 main_call0.v12 (extractStridedSlice S4x64x258x1 ![0, 0, 0, 256] · slices_S4x64x258x257_S4x64x258x1_0_0_0_256),
    StableHlo.TRef.unary main_call0.v11 main_call0.v13 (extractStridedSlice S4x64x258x1 ![0, 0, 0, 255] · slices_S4x64x258x257_S4x64x258x1_0_0_0_255),
    StableHlo.TRef.unary main_call0.v13 main_call0.call3.v0 (Host.reverse [3]),
    StableHlo.TRef.binary main_call0.v11 main_call0.call3.v0 main_call0.v15 catRight ]

/-- The centred array x − mean and the squared norm of its channel vector at every pixel. -/
abbrev wCx : List (HloOp τ sig (Elt F)) :=
  [ StableHlo.unary main_v3 main_v5 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_arg0 main_v5 main_v6 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v6 main_v6 main_v7 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_1 (constant S_ .f32 0x00000000#32),
    StableHlo.binary main_v7 main_cst_1 main_v8 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)) ]

/-- Neighbour offset 0: the window of the bordered array at that offset, centred; its products with the centred array and with itself summed over the channels; the quotient of the first sum by max(√(second sum · squared norm), ε). -/
abbrev wD0 : List (HloOp τ sig (Elt F)) :=
  [ StableHlo.unary main_v4 main_v9 ((extractStridedSlice S4x64x256x256 ![0, 0, 0, 0] · slices_S4x64x258x258_S4x64x256x256_0_0_0_0) : (⟨S4x64x258x258, .f32⟩ : BufTy).Contents (Elt F) → (⟨S4x64x256x256, .f32⟩ : BufTy).Contents (Elt F)),
    StableHlo.unary main_v3 main_v10 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_v9 main_v10 main_v11 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v11 main_v6 main_v12 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_2 (constant S_ .f32 0x00000000#32),
    StableHlo.binary main_v12 main_cst_2 main_v13 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v11 main_v11 main_v14 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_3 (constant S_ .f32 0x00000000#32),
    StableHlo.binary main_v14 main_cst_3 main_v15 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v15 main_v8 main_v16 (mulf : (⟨S4x256x256, .f32⟩ : BufTy).Contents (Elt F) → (⟨S4x256x256, .f32⟩ : BufTy).Contents (Elt F) → (⟨S4x256x256, .f32⟩ : BufTy).Contents (Elt F)),
    StableHlo.unary main_v16 main_v17 (Host.sqrt : (⟨S4x256x256, .f32⟩ : BufTy).Contents (Elt F) → (⟨S4x256x256, .f32⟩ : BufTy).Contents (Elt F)),
    StableHlo.nullary main_cst_4 (constant S_ .f32 0x322BCC77#32),
    StableHlo.unary main_cst_4 main_v18 (broadcastInDim S4x256x256 ![] bcast_S_S4x256x256 : (⟨S_, .f32⟩ : BufTy).Contents (Elt F) → (⟨S4x256x256, .f32⟩ : BufTy).Contents (Elt F)),
    StableHlo.binary main_v17 main_v18 main_v19 (maximumf : (⟨S4x256x256, .f32⟩ : BufTy).Contents (Elt F) → (⟨S4x256x256, .f32⟩ : BufTy).Contents (Elt F) → (⟨S4x256x256, .f32⟩ : BufTy).Contents (Elt F)),
    StableHlo.binary main_v13 main_v19 main_v20 (Host.divf : (⟨S4x256x256, .f32⟩ : BufTy).Contents (Elt F) → (⟨S4x256x256, .f32⟩ : BufTy).Contents (Elt F) → (⟨S4x256x256, .f32⟩ : BufTy).Contents (Elt F)) ]

/-- Neighbour offset 1: the window of the bordered array at that offset, centred; its products with the centred array and with itself summed over the channels; the quotient of the first sum by max(√(second sum · squared norm), ε). -/
abbrev wD1 : List (HloOp τ sig (Elt F)) :=
  [ StableHlo.unary main_v4 main_v21 ((extractStridedSlice S4x64x256x256 ![0, 0, 0, 1] · slices_S4x64x258x258_S4x64x256x256_0_0_0_1) : (⟨S4x64x258x258, .f32⟩ : BufTy).Contents (Elt F) → (⟨S4x64x256x256, .f32⟩ : BufTy).Contents (Elt F)),
    StableHlo.unary main_v3 main_v22 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_v21 main_v22 main_v23 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v23 main_v6 main_v24 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_5 (constant S_ .f32 0x00000000#32),
    StableHlo.binary main_v24 main_cst_5 main_v25 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v23 main_v23 main_v26 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_6 (constant S_ .f32 0x00000000#32),
    StableHlo.binary main_v26 main_cst_6 main_v27 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v27 main_v8 main_v28 (mulf : (⟨S4x256x256, .f32⟩ : BufTy).Contents (Elt F) → (⟨S4x256x256, .f32⟩ : BufTy).Contents (Elt F) → (⟨S4x256x256, .f32⟩ : BufTy).Contents (Elt F)),
    StableHlo.unary main_v28 main_v29 (Host.sqrt : (⟨S4x256x256, .f32⟩ : BufTy).Contents (Elt F) → (⟨S4x256x256, .f32⟩ : BufTy).Contents (Elt F)),
    StableHlo.nullary main_cst_7 (constant S_ .f32 0x322BCC77#32),
    StableHlo.unary main_cst_7 main_v30 (broadcastInDim S4x256x256 ![] bcast_S_S4x256x256 : (⟨S_, .f32⟩ : BufTy).Contents (Elt F) → (⟨S4x256x256, .f32⟩ : BufTy).Contents (Elt F)),
    StableHlo.binary main_v29 main_v30 main_v31 (maximumf : (⟨S4x256x256, .f32⟩ : BufTy).Contents (Elt F) → (⟨S4x256x256, .f32⟩ : BufTy).Contents (Elt F) → (⟨S4x256x256, .f32⟩ : BufTy).Contents (Elt F)),
    StableHlo.binary main_v25 main_v31 main_v32 (Host.divf : (⟨S4x256x256, .f32⟩ : BufTy).Contents (Elt F) → (⟨S4x256x256, .f32⟩ : BufTy).Contents (Elt F) → (⟨S4x256x256, .f32⟩ : BufTy).Contents (Elt F)) ]

/-- Neighbour offset 2: the window of the bordered array at that offset, centred; its products with the centred array and with itself summed over the channels; the quotient of the first sum by max(√(second sum · squared norm), ε). -/
abbrev wD2 : List (HloOp τ sig (Elt F)) :=
  [ StableHlo.unary main_v4 main_v33 ((extractStridedSlice S4x64x256x256 ![0, 0, 0, 2] · slices_S4x64x258x258_S4x64x256x256_0_0_0_2) : (⟨S4x64x258x258, .f32⟩ : BufTy).Contents (Elt F) → (⟨S4x64x256x256, .f32⟩ : BufTy).Contents (Elt F)),
    StableHlo.unary main_v3 main_v34 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_v33 main_v34 main_v35 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v35 main_v6 main_v36 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_8 (constant S_ .f32 0x00000000#32),
    StableHlo.binary main_v36 main_cst_8 main_v37 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v35 main_v35 main_v38 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_9 (constant S_ .f32 0x00000000#32),
    StableHlo.binary main_v38 main_cst_9 main_v39 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v39 main_v8 main_v40 (mulf : (⟨S4x256x256, .f32⟩ : BufTy).Contents (Elt F) → (⟨S4x256x256, .f32⟩ : BufTy).Contents (Elt F) → (⟨S4x256x256, .f32⟩ : BufTy).Contents (Elt F)),
    StableHlo.unary main_v40 main_v41 (Host.sqrt : (⟨S4x256x256, .f32⟩ : BufTy).Contents (Elt F) → (⟨S4x256x256, .f32⟩ : BufTy).Contents (Elt F)),
    StableHlo.nullary main_cst_10 (constant S_ .f32 0x322BCC77#32),
    StableHlo.unary main_cst_10 main_v42 (broadcastInDim S4x256x256 ![] bcast_S_S4x256x256 : (⟨S_, .f32⟩ : BufTy).Contents (Elt F) → (⟨S4x256x256, .f32⟩ : BufTy).Contents (Elt F)),
    StableHlo.binary main_v41 main_v42 main_v43 (maximumf : (⟨S4x256x256, .f32⟩ : BufTy).Contents (Elt F) → (⟨S4x256x256, .f32⟩ : BufTy).Contents (Elt F) → (⟨S4x256x256, .f32⟩ : BufTy).Contents (Elt F)),
    StableHlo.binary main_v37 main_v43 main_v44 (Host.divf : (⟨S4x256x256, .f32⟩ : BufTy).Contents (Elt F) → (⟨S4x256x256, .f32⟩ : BufTy).Contents (Elt F) → (⟨S4x256x256, .f32⟩ : BufTy).Contents (Elt F)) ]

/-- Neighbour offset 3: the window of the bordered array at that offset, centred; its products with the centred array and with itself summed over the channels; the quotient of the first sum by max(√(second sum · squared norm), ε). -/
abbrev wD3 : List (HloOp τ sig (Elt F)) :=
  [ StableHlo.unary main_v4 main_v45 ((extractStridedSlice S4x64x256x256 ![0, 0, 1, 0] · slices_S4x64x258x258_S4x64x256x256_0_0_1_0) : (⟨S4x64x258x258, .f32⟩ : BufTy).Contents (Elt F) → (⟨S4x64x256x256, .f32⟩ : BufTy).Contents (Elt F)),
    StableHlo.unary main_v3 main_v46 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_v45 main_v46 main_v47 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v47 main_v6 main_v48 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_11 (constant S_ .f32 0x00000000#32),
    StableHlo.binary main_v48 main_cst_11 main_v49 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v47 main_v47 main_v50 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_12 (constant S_ .f32 0x00000000#32),
    StableHlo.binary main_v50 main_cst_12 main_v51 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v51 main_v8 main_v52 (mulf : (⟨S4x256x256, .f32⟩ : BufTy).Contents (Elt F) → (⟨S4x256x256, .f32⟩ : BufTy).Contents (Elt F) → (⟨S4x256x256, .f32⟩ : BufTy).Contents (Elt F)),
    StableHlo.unary main_v52 main_v53 (Host.sqrt : (⟨S4x256x256, .f32⟩ : BufTy).Contents (Elt F) → (⟨S4x256x256, .f32⟩ : BufTy).Contents (Elt F)),
    StableHlo.nullary main_cst_13 (constant S_ .f32 0x322BCC77#32),
    StableHlo.unary main_cst_13 main_v54 (broadcastInDim S4x256x256 ![] bcast_S_S4x256x256 : (⟨S_, .f32⟩ : BufTy).Contents (Elt F) → (⟨S4x256x256, .f32⟩ : BufTy).Contents (Elt F)),
    StableHlo.binary main_v53 main_v54 main_v55 (maximumf : (⟨S4x256x256, .f32⟩ : BufTy).Contents (Elt F) → (⟨S4x256x256, .f32⟩ : BufTy).Contents (Elt F) → (⟨S4x256x256, .f32⟩ : BufTy).Contents (Elt F)),
    StableHlo.binary main_v49 main_v55 main_v56 (Host.divf : (⟨S4x256x256, .f32⟩ : BufTy).Contents (Elt F) → (⟨S4x256x256, .f32⟩ : BufTy).Contents (Elt F) → (⟨S4x256x256, .f32⟩ : BufTy).Contents (Elt F)) ]

/-- Neighbour offset 4: the window of the bordered array at that offset, centred; its products with the centred array and with itself summed over the channels; the quotient of the first sum by max(√(second sum · squared norm), ε). -/
abbrev wD4 : List (HloOp τ sig (Elt F)) :=
  [ StableHlo.unary main_v4 main_v57 ((extractStridedSlice S4x64x256x256 ![0, 0, 1, 2] · slices_S4x64x258x258_S4x64x256x256_0_0_1_2) : (⟨S4x64x258x258, .f32⟩ : BufTy).Contents (Elt F) → (⟨S4x64x256x256, .f32⟩ : BufTy).Contents (Elt F)),
    StableHlo.unary main_v3 main_v58 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_v57 main_v58 main_v59 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v59 main_v6 main_v60 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_14 (constant S_ .f32 0x00000000#32),
    StableHlo.binary main_v60 main_cst_14 main_v61 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v59 main_v59 main_v62 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_15 (constant S_ .f32 0x00000000#32),
    StableHlo.binary main_v62 main_cst_15 main_v63 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v63 main_v8 main_v64 (mulf : (⟨S4x256x256, .f32⟩ : BufTy).Contents (Elt F) → (⟨S4x256x256, .f32⟩ : BufTy).Contents (Elt F) → (⟨S4x256x256, .f32⟩ : BufTy).Contents (Elt F)),
    StableHlo.unary main_v64 main_v65 (Host.sqrt : (⟨S4x256x256, .f32⟩ : BufTy).Contents (Elt F) → (⟨S4x256x256, .f32⟩ : BufTy).Contents (Elt F)),
    StableHlo.nullary main_cst_16 (constant S_ .f32 0x322BCC77#32),
    StableHlo.unary main_cst_16 main_v66 (broadcastInDim S4x256x256 ![] bcast_S_S4x256x256 : (⟨S_, .f32⟩ : BufTy).Contents (Elt F) → (⟨S4x256x256, .f32⟩ : BufTy).Contents (Elt F)),
    StableHlo.binary main_v65 main_v66 main_v67 (maximumf : (⟨S4x256x256, .f32⟩ : BufTy).Contents (Elt F) → (⟨S4x256x256, .f32⟩ : BufTy).Contents (Elt F) → (⟨S4x256x256, .f32⟩ : BufTy).Contents (Elt F)),
    StableHlo.binary main_v61 main_v67 main_v68 (Host.divf : (⟨S4x256x256, .f32⟩ : BufTy).Contents (Elt F) → (⟨S4x256x256, .f32⟩ : BufTy).Contents (Elt F) → (⟨S4x256x256, .f32⟩ : BufTy).Contents (Elt F)) ]

/-- Neighbour offset 5: the window of the bordered array at that offset, centred; its products with the centred array and with itself summed over the channels; the quotient of the first sum by max(√(second sum · squared norm), ε). -/
abbrev wD5 : List (HloOp τ sig (Elt F)) :=
  [ StableHlo.unary main_v4 main_v69 ((extractStridedSlice S4x64x256x256 ![0, 0, 2, 0] · slices_S4x64x258x258_S4x64x256x256_0_0_2_0) : (⟨S4x64x258x258, .f32⟩ : BufTy).Contents (Elt F) → (⟨S4x64x256x256, .f32⟩ : BufTy).Contents (Elt F)),
    StableHlo.unary main_v3 main_v70 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_v69 main_v70 main_v71 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v71 main_v6 main_v72 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_17 (constant S_ .f32 0x00000000#32),
    StableHlo.binary main_v72 main_cst_17 main_v73 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v71 main_v71 main_v74 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_18 (constant S_ .f32 0x00000000#32),
    StableHlo.binary main_v74 main_cst_18 main_v75 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v75 main_v8 main_v76 (mulf : (⟨S4x256x256, .f32⟩ : BufTy).Contents (Elt F) → (⟨S4x256x256, .f32⟩ : BufTy).Contents (Elt F) → (⟨S4x256x256, .f32⟩ : BufTy).Contents (Elt F)),
    StableHlo.unary main_v76 main_v77 (Host.sqrt : (⟨S4x256x256, .f32⟩ : BufTy).Contents (Elt F) → (⟨S4x256x256, .f32⟩ : BufTy).Contents (Elt F)),
    StableHlo.nullary main_cst_19 (constant S_ .f32 0x322BCC77#32),
    StableHlo.unary main_cst_19 main_v78 (broadcastInDim S4x256x256 ![] bcast_S_S4x256x256 : (⟨S_, .f32⟩ : BufTy).Contents (Elt F) → (⟨S4x256x256, .f32⟩ : BufTy).Contents (Elt F)),
    StableHlo.binary main_v77 main_v78 main_v79 (maximumf : (⟨S4x256x256, .f32⟩ : BufTy).Contents (Elt F) → (⟨S4x256x256, .f32⟩ : BufTy).Contents (Elt F) → (⟨S4x256x256, .f32⟩ : BufTy).Contents (Elt F)),
    StableHlo.binary main_v73 main_v79 main_v80 (Host.divf : (⟨S4x256x256, .f32⟩ : BufTy).Contents (Elt F) → (⟨S4x256x256, .f32⟩ : BufTy).Contents (Elt F) → (⟨S4x256x256, .f32⟩ : BufTy).Contents (Elt F)) ]

/-- Neighbour offset 6: the window of the bordered array at that offset, centred; its products with the centred array and with itself summed over the channels; the quotient of the first sum by max(√(second sum · squared norm), ε). -/
abbrev wD6 : List (HloOp τ sig (Elt F)) :=
  [ StableHlo.unary main_v4 main_v81 ((extractStridedSlice S4x64x256x256 ![0, 0, 2, 1] · slices_S4x64x258x258_S4x64x256x256_0_0_2_1) : (⟨S4x64x258x258, .f32⟩ : BufTy).Contents (Elt F) → (⟨S4x64x256x256, .f32⟩ : BufTy).Contents (Elt F)),
    StableHlo.unary main_v3 main_v82 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_v81 main_v82 main_v83 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v83 main_v6 main_v84 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_20 (constant S_ .f32 0x00000000#32),
    StableHlo.binary main_v84 main_cst_20 main_v85 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v83 main_v83 main_v86 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_21 (constant S_ .f32 0x00000000#32),
    StableHlo.binary main_v86 main_cst_21 main_v87 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v87 main_v8 main_v88 (mulf : (⟨S4x256x256, .f32⟩ : BufTy).Contents (Elt F) → (⟨S4x256x256, .f32⟩ : BufTy).Contents (Elt F) → (⟨S4x256x256, .f32⟩ : BufTy).Contents (Elt F)),
    StableHlo.unary main_v88 main_v89 (Host.sqrt : (⟨S4x256x256, .f32⟩ : BufTy).Contents (Elt F) → (⟨S4x256x256, .f32⟩ : BufTy).Contents (Elt F)),
    StableHlo.nullary main_cst_22 (constant S_ .f32 0x322BCC77#32),
    StableHlo.unary main_cst_22 main_v90 (broadcastInDim S4x256x256 ![] bcast_S_S4x256x256 : (⟨S_, .f32⟩ : BufTy).Contents (Elt F) → (⟨S4x256x256, .f32⟩ : BufTy).Contents (Elt F)),
    StableHlo.binary main_v89 main_v90 main_v91 (maximumf : (⟨S4x256x256, .f32⟩ : BufTy).Contents (Elt F) → (⟨S4x256x256, .f32⟩ : BufTy).Contents (Elt F) → (⟨S4x256x256, .f32⟩ : BufTy).Contents (Elt F)),
    StableHlo.binary main_v85 main_v91 main_v92 (Host.divf : (⟨S4x256x256, .f32⟩ : BufTy).Contents (Elt F) → (⟨S4x256x256, .f32⟩ : BufTy).Contents (Elt F) → (⟨S4x256x256, .f32⟩ : BufTy).Contents (Elt F)) ]

/-- Neighbour offset 7: the window of the bordered array at that offset, centred; its products with the centred array and with itself summed over the channels; the quotient of the first sum by max(√(second sum · squared norm), ε). -/
abbrev wD7 : List (HloOp τ sig (Elt F)) :=
  [ StableHlo.unary main_v4 main_v93 ((extractStridedSlice S4x64x256x256 ![0, 0, 2, 2] · slices_S4x64x258x258_S4x64x256x256_0_0_2_2) : (⟨S4x64x258x258, .f32⟩ : BufTy).Contents (Elt F) → (⟨S4x64x256x256, .f32⟩ : BufTy).Contents (Elt F)),
    StableHlo.unary main_v3 main_v94 (broadcastInDim S4x64x256x256 ![0, 1, 2, 3] bcast_S4x64x1x1_S4x64x256x256_0_1_2_3 : (⟨S4x64x1x1, .f32⟩ : BufTy).Contents (Elt F) → (⟨S4x64x256x256, .f32⟩ : BufTy).Contents (Elt F)),
    StableHlo.binary main_v93 main_v94 main_v95 (subf : (⟨S4x64x256x256, .f32⟩ : BufTy).Contents (Elt F) → (⟨S4x64x256x256, .f32⟩ : BufTy).Contents (Elt F) → (⟨S4x64x256x256, .f32⟩ : BufTy).Contents (Elt F)),
    StableHlo.binary main_v95 main_v6 main_v96 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_23 (constant S_ .f32 0x00000000#32),
    StableHlo.binary main_v96 main_cst_23 main_v97 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v95 main_v95 main_v98 (mulf : (⟨S4x64x256x256, .f32⟩ : BufTy).Contents (Elt F) → (⟨S4x64x256x256, .f32⟩ : BufTy).Contents (Elt F) → (⟨S4x64x256x256, .f32⟩ : BufTy).Contents (Elt F)),
    StableHlo.nullary main_cst_24 (constant S_ .f32 0x00000000#32),
    StableHlo.binary main_v98 main_cst_24 main_v99 ((fun x v => Host.reduceAdd x v reducesTo_S4x64x256x256_S4x256x256_d1 h_S_) : (⟨S4x64x256x256, .f32⟩ : BufTy).Contents (Elt F) → (⟨S_, .f32⟩ : BufTy).Contents (Elt F) → (⟨S4x256x256, .f32⟩ : BufTy).Contents (Elt F)),
    StableHlo.binary main_v99 main_v8 main_v100 (mulf : (⟨S4x256x256, .f32⟩ : BufTy).Contents (Elt F) → (⟨S4x256x256, .f32⟩ : BufTy).Contents (Elt F) → (⟨S4x256x256, .f32⟩ : BufTy).Contents (Elt F)),
    StableHlo.unary main_v100 main_v101 (Host.sqrt : (⟨S4x256x256, .f32⟩ : BufTy).Contents (Elt F) → (⟨S4x256x256, .f32⟩ : BufTy).Contents (Elt F)),
    StableHlo.nullary main_cst_25 (constant S_ .f32 0x322BCC77#32),
    StableHlo.unary main_cst_25 main_v102 (broadcastInDim S4x256x256 ![] bcast_S_S4x256x256 : (⟨S_, .f32⟩ : BufTy).Contents (Elt F) → (⟨S4x256x256, .f32⟩ : BufTy).Contents (Elt F)),
    StableHlo.binary main_v101 main_v102 main_v103 (maximumf : (⟨S4x256x256, .f32⟩ : BufTy).Contents (Elt F) → (⟨S4x256x256, .f32⟩ : BufTy).Contents (Elt F) → (⟨S4x256x256, .f32⟩ : BufTy).Contents (Elt F)),
    StableHlo.binary main_v97 main_v103 main_v104 (Host.divf : (⟨S4x256x256, .f32⟩ : BufTy).Contents (Elt F) → (⟨S4x256x256, .f32⟩ : BufTy).Contents (Elt F) → (⟨S4x256x256, .f32⟩ : BufTy).Contents (Elt F)) ]

/-- Each direction's [4,256,256] result given a unit axis, and the eight stacked along it. -/
abbrev wOut : List (HloOp τ sig (Elt F)) :=
  [ StableHlo.unary main_v20 main_v105 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v32 main_v106 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v44 main_v107 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v56 main_v108 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v68 main_v109 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v80 main_v110 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v92 main_v111 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v104 main_v112 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.nary ![main_v105, main_v106, main_v107, main_v108, main_v109, main_v110, main_v111, main_v112] main_v113 (fun u => concatenate S4x8x256x256 1 [⟨S4x1x256x256, u 0⟩, ⟨S4x1x256x256, u 1⟩, ⟨S4x1x256x256, u 2⟩, ⟨S4x1x256x256, u 3⟩, ⟨S4x1x256x256, u 4⟩, ⟨S4x1x256x256, u 5⟩, ⟨S4x1x256x256, u 6⟩, ⟨S4x1x256x256, u 7⟩] concatenates_S4x1x256x256_S4x1x256x256_S4x1x256x256_S4x1x256x256_S4x1x256x256_S4x1x256x256_S4x1x256x256_S4x1x256x256_S4x8x256x256_d1) ]

/-- The operations of the program's first, second and third stretch of text. -/
abbrev ops0 : List (HloOp τ sig (Elt F)) := wPre ++ (wPad ++ (wCx ++ (wD0 ++ (wD1 ++ (wD2 ++ wD3.take 2)))))
abbrev ops1 : List (HloOp τ sig (Elt F)) := wD3.drop 2 ++ (wD4 ++ (wD5 ++ (wD6 ++ wD7.take 2)))
abbrev ops2 : List (HloOp τ sig (Elt F)) := wD7.drop 2 ++ wOut
/-- All 157 operations, in order. -/
abbrev ops : List (HloOp τ sig (Elt F)) := ops0 ++ (ops1 ++ ops2)

set_option maxRecDepth 16384 in
set_option maxHeartbeats 4000000 in
theorem main_part0_eq (c : Dev nD) : main_part0 (F := F) c = seq ops0 := rfl
set_option maxRecDepth 16384 in
set_option maxHeartbeats 4000000 in
theorem main_part1_eq (c : Dev nD) : main_part1 (F := F) c = seq ops1 := rfl
set_option maxRecDepth 16384 in
set_option maxHeartbeats 4000000 in
theorem main_part2_eq (c : Dev nD) : main_part2 (F := F) c = seq ops2 := rfl

set_option maxRecDepth 16384 in
/-- The program is the straight line of its operations. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem wPre_sub : (wPre : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
set_option maxRecDepth 8192 in
theorem wPad_sub : (wPad : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub ..⟩
set_option maxRecDepth 8192 in
theorem wCx_sub : (wCx : List (HloOp τ sig (Elt F))).Forall fun op => op.bufs ⊆ tcRefs τ sig :=
  ⟨unary_bufs_sub .., binary_bufs_sub .., binary_bufs_sub .., nullary_bufs_sub .., binary_bufs_sub ..⟩
set_option maxRecDepth 8192 in
theorem wD0_sub : (wD0 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., binary_bufs_sub ..⟩
set_option maxRecDepth 8192 in
theorem wD1_sub : (wD1 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., binary_bufs_sub ..⟩
set_option maxRecDepth 8192 in
theorem wD2_sub : (wD2 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., binary_bufs_sub ..⟩
set_option maxRecDepth 8192 in
theorem wD3_sub : (wD3 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., binary_bufs_sub ..⟩
set_option maxRecDepth 8192 in
theorem wD4_sub : (wD4 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., binary_bufs_sub ..⟩
set_option maxRecDepth 8192 in
theorem wD5_sub : (wD5 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., binary_bufs_sub ..⟩
set_option maxRecDepth 8192 in
theorem wD6_sub : (wD6 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., binary_bufs_sub ..⟩
set_option maxRecDepth 8192 in
theorem wD7_sub : (wD7 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., binary_bufs_sub ..⟩
set_option maxRecDepth 8192 in
theorem wOut_sub : (wOut : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub ..⟩

/-- Every operation touches arrays of the device only. -/
theorem ops_sub : (ops : List (HloOp τ sig (Elt F))).Forall fun op => op.bufs ⊆ tcRefs τ sig :=
  List.forall_iff_forall_mem.mpr fun op h => by
    simp only [ops, ops0, ops1, ops2, List.mem_append] at h
    have hD3 := List.forall_iff_forall_mem.mp (wD3_sub (F := F))
    have hD7 := List.forall_iff_forall_mem.mp (wD7_sub (F := F))
    rcases h with (h | h | h | h | h | h | h) | (h | h | h | h | h) | (h | h)
    exacts [List.forall_iff_forall_mem.mp wPre_sub op h, List.forall_iff_forall_mem.mp wPad_sub op h,
      List.forall_iff_forall_mem.mp wCx_sub op h, List.forall_iff_forall_mem.mp wD0_sub op h,
      List.forall_iff_forall_mem.mp wD1_sub op h, List.forall_iff_forall_mem.mp wD2_sub op h,
      hD3 op (List.mem_of_mem_take h), hD3 op (List.mem_of_mem_drop h),
      List.forall_iff_forall_mem.mp wD4_sub op h, List.forall_iff_forall_mem.mp wD5_sub op h,
      List.forall_iff_forall_mem.mp wD6_sub op h, hD7 op (List.mem_of_mem_take h), hD7 op (List.mem_of_mem_drop h),
      List.forall_iff_forall_mem.mp wOut_sub op h]

theorem after_take_drop (n : Nat) (l : List (HloOp τ sig (Elt F))) (V : Valuation τ sig (Elt F)) :
    after (l.drop n) (after (l.take n) V) = after l V := by
  rw [← StableHlo.after_append, List.take_append_drop]

/-- The arrays after the whole line are the arrays after its thirteen pieces, one after the other. -/
theorem after_ops (V : Valuation τ sig (Elt F)) :
    after ops V = after wOut (after wD7 (after wD6 (after wD5 (after wD4 (after wD3 (after wD2 (after wD1 (after wD0
      (after wCx (after wPad (after wPre V))))))))))) := by
  simp only [ops, ops0, ops1, ops2, StableHlo.after_append, after_take_drop]

/-- Every weakly fair execution of the program terminates, and leaves in every array of every device what the
    operations, run in order from the launch contents, leave there. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.RefSide

end
-- ==== Proof.RefWinA.lean ====
/-
  What the first three pieces of the line leave in the arrays: the channel means, the bordered input, the centred
  array and its squared norm — each the corresponding function of what the piece found in the arrays it reads; an
  array the piece does not write is left as it was.
-/
import proofs.«100834_j73478300500485_1_alg».proof.Proof.RefOps
import proofs.«100834_j73478300500485_1_alg».proof.Proof.RefStages

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxRecDepth 8192 in
theorem wPre_v3 (V : Valuation τ sig (Elt F)) : after wPre V (Proc.devRef .tc main_v3) = meanT (V (Proc.devRef .tc main_arg0)) := by
  simp only [wPre]
  after_results_simp
  rfl
set_option maxRecDepth 8192 in
theorem wPre_keep_main_arg0 (V : Valuation τ sig (Elt F)) : after wPre V (Proc.devRef .tc main_arg0) = V (Proc.devRef .tc main_arg0) := by
  simp only [wPre]
  after_results_simp

set_option maxRecDepth 8192 in
set_option maxHeartbeats 1000000 in
theorem wPad_v4 (V : Valuation τ sig (Elt F)) : after wPad V (Proc.devRef .tc main_v4) = padT (V (Proc.devRef .tc main_arg0)) := by
  simp only [wPad]
  after_results_simp
  simp only [TRef.toBuf, TRef.ofBuf, cast_eq]
  rfl
set_option maxRecDepth 8192 in
theorem wPad_keep_main_arg0 (V : Valuation τ sig (Elt F)) : after wPad V (Proc.devRef .tc main_arg0) = V (Proc.devRef .tc main_arg0) := by
  simp only [wPad]
  after_results_simp
set_option maxRecDepth 8192 in
theorem wPad_keep_main_v3 (V : Valuation τ sig (Elt F)) : after wPad V (Proc.devRef .tc main_v3) = V (Proc.devRef .tc main_v3) := by
  simp only [wPad]
  after_results_simp

set_option maxRecDepth 8192 in
theorem wCx_v6 (V : Valuation τ sig (Elt F)) : after wCx V (Proc.devRef .tc main_v6) = cxT (V (Proc.devRef .tc main_arg0)) (V (Proc.devRef .tc main_v3)) := by
  simp only [wCx]
  after_results_simp
  rfl
set_option maxRecDepth 8192 in
theorem wCx_v8 (V : Valuation τ sig (Elt F)) : after wCx V (Proc.devRef .tc main_v8) = normT (cxT (V (Proc.devRef .tc main_arg0)) (V (Proc.devRef .tc main_v3))) := by
  simp only [wCx]
  after_results_simp
  rfl
set_option maxRecDepth 8192 in
theorem wCx_keep_main_arg0 (V : Valuation τ sig (Elt F)) : after wCx V (Proc.devRef .tc main_arg0) = V (Proc.devRef .tc main_arg0) := by
  simp only [wCx]
  after_results_simp
set_option maxRecDepth 8192 in
theorem wCx_keep_main_v3 (V : Valuation τ sig (Elt F)) : after wCx V (Proc.devRef .tc main_v3) = V (Proc.devRef .tc main_v3) := by
  simp only [wCx]
  after_results_simp
set_option maxRecDepth 8192 in
theorem wCx_keep_main_v4 (V : Valuation τ sig (Elt F)) : after wCx V (Proc.devRef .tc main_v4) = V (Proc.devRef .tc main_v4) := by
  simp only [wCx]
  after_results_simp

end Cert.RefSide

end
-- ==== Proof.RefWinD0.lean ====
/-
  What a neighbour offset's fifteen operations leave: in their last array the offset's cosine similarity, as the
  function `dirFn` of the bordered input, the means, the centred array and its squared norm found in the arrays
  they read; every array they do not write is left as it was.
-/
import proofs.«100834_j73478300500485_1_alg».proof.Proof.RefOps
import proofs.«100834_j73478300500485_1_alg».proof.Proof.RefStages

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 1000000 in
theorem wD0_res (V : Valuation τ sig (Elt F)) :
    after wD0 V (Proc.devRef .tc main_v20) = dirFn ![0, 0, 0, 0] slices_S4x64x258x258_S4x64x256x256_0_0_0_0 (V (Proc.devRef .tc main_v4)) (V (Proc.devRef .tc main_v3)) (V (Proc.devRef .tc main_v6)) (V (Proc.devRef .tc main_v8)) := by
  simp only [wD0]
  after_results_simp
  rfl
set_option maxRecDepth 8192 in
theorem wD0_keep_main_arg0 (V : Valuation τ sig (Elt F)) : after wD0 V (Proc.devRef .tc main_arg0) = V (Proc.devRef .tc main_arg0) := by
  simp only [wD0]
  after_results_simp
set_option maxRecDepth 8192 in
theorem wD0_keep_main_v3 (V : Valuation τ sig (Elt F)) : after wD0 V (Proc.devRef .tc main_v3) = V (Proc.devRef .tc main_v3) := by
  simp only [wD0]
  after_results_simp
set_option maxRecDepth 8192 in
theorem wD0_keep_main_v4 (V : Valuation τ sig (Elt F)) : after wD0 V (Proc.devRef .tc main_v4) = V (Proc.devRef .tc main_v4) := by
  simp only [wD0]
  after_results_simp
set_option maxRecDepth 8192 in
theorem wD0_keep_main_v6 (V : Valuation τ sig (Elt F)) : after wD0 V (Proc.devRef .tc main_v6) = V (Proc.devRef .tc main_v6) := by
  simp only [wD0]
  after_results_simp
set_option maxRecDepth 8192 in
theorem wD0_keep_main_v8 (V : Valuation τ sig (Elt F)) : after wD0 V (Proc.devRef .tc main_v8) = V (Proc.devRef .tc main_v8) := by
  simp only [wD0]
  after_results_simp

set_option maxRecDepth 8192 in
set_option maxHeartbeats 1000000 in
theorem wD1_res (V : Valuation τ sig (Elt F)) :
    after wD1 V (Proc.devRef .tc main_v32) = dirFn ![0, 0, 0, 1] slices_S4x64x258x258_S4x64x256x256_0_0_0_1 (V (Proc.devRef .tc main_v4)) (V (Proc.devRef .tc main_v3)) (V (Proc.devRef .tc main_v6)) (V (Proc.devRef .tc main_v8)) := by
  simp only [wD1]
  after_results_simp
  rfl
set_option maxRecDepth 8192 in
theorem wD1_keep_main_arg0 (V : Valuation τ sig (Elt F)) : after wD1 V (Proc.devRef .tc main_arg0) = V (Proc.devRef .tc main_arg0) := by
  simp only [wD1]
  after_results_simp
set_option maxRecDepth 8192 in
theorem wD1_keep_main_v3 (V : Valuation τ sig (Elt F)) : after wD1 V (Proc.devRef .tc main_v3) = V (Proc.devRef .tc main_v3) := by
  simp only [wD1]
  after_results_simp
set_option maxRecDepth 8192 in
theorem wD1_keep_main_v4 (V : Valuation τ sig (Elt F)) : after wD1 V (Proc.devRef .tc main_v4) = V (Proc.devRef .tc main_v4) := by
  simp only [wD1]
  after_results_simp
set_option maxRecDepth 8192 in
theorem wD1_keep_main_v6 (V : Valuation τ sig (Elt F)) : after wD1 V (Proc.devRef .tc main_v6) = V (Proc.devRef .tc main_v6) := by
  simp only [wD1]
  after_results_simp
set_option maxRecDepth 8192 in
theorem wD1_keep_main_v8 (V : Valuation τ sig (Elt F)) : after wD1 V (Proc.devRef .tc main_v8) = V (Proc.devRef .tc main_v8) := by
  simp only [wD1]
  after_results_simp
set_option maxRecDepth 8192 in
theorem wD1_keep_main_v20 (V : Valuation τ sig (Elt F)) : after wD1 V (Proc.devRef .tc main_v20) = V (Proc.devRef .tc main_v20) := by
  simp only [wD1]
  after_results_simp

set_option maxRecDepth 8192 in
set_option maxHeartbeats 1000000 in
theorem wD2_res (V : Valuation τ sig (Elt F)) :
    after wD2 V (Proc.devRef .tc main_v44) = dirFn ![0, 0, 0, 2] slices_S4x64x258x258_S4x64x256x256_0_0_0_2 (V (Proc.devRef .tc main_v4)) (V (Proc.devRef .tc main_v3)) (V (Proc.devRef .tc main_v6)) (V (Proc.devRef .tc main_v8)) := by
  simp only [wD2]
  after_results_simp
  rfl
set_option maxRecDepth 8192 in
theorem wD2_keep_main_arg0 (V : Valuation τ sig (Elt F)) : after wD2 V (Proc.devRef .tc main_arg0) = V (Proc.devRef .tc main_arg0) := by
  simp only [wD2]
  after_results_simp
set_option maxRecDepth 8192 in
theorem wD2_keep_main_v3 (V : Valuation τ sig (Elt F)) : after wD2 V (Proc.devRef .tc main_v3) = V (Proc.devRef .tc main_v3) := by
  simp only [wD2]
  after_results_simp
set_option maxRecDepth 8192 in
theorem wD2_keep_main_v4 (V : Valuation τ sig (Elt F)) : after wD2 V (Proc.devRef .tc main_v4) = V (Proc.devRef .tc main_v4) := by
  simp only [wD2]
  after_results_simp
set_option maxRecDepth 8192 in
theorem wD2_keep_main_v6 (V : Valuation τ sig (Elt F)) : after wD2 V (Proc.devRef .tc main_v6) = V (Proc.devRef .tc main_v6) := by
  simp only [wD2]
  after_results_simp
set_option maxRecDepth 8192 in
theorem wD2_keep_main_v8 (V : Valuation τ sig (Elt F)) : after wD2 V (Proc.devRef .tc main_v8) = V (Proc.devRef .tc main_v8) := by
  simp only [wD2]
  after_results_simp
set_option maxRecDepth 8192 in
theorem wD2_keep_main_v20 (V : Valuation τ sig (Elt F)) : after wD2 V (Proc.devRef .tc main_v20) = V (Proc.devRef .tc main_v20) := by
  simp only [wD2]
  after_results_simp
set_option maxRecDepth 8192 in
theorem wD2_keep_main_v32 (V : Valuation τ sig (Elt F)) : after wD2 V (Proc.devRef .tc main_v32) = V (Proc.devRef .tc main_v32) := by
  simp only [wD2]
  after_results_simp

set_option maxRecDepth 8192 in
set_option maxHeartbeats 1000000 in
theorem wD3_res (V : Valuation τ sig (Elt F)) :
    after wD3 V (Proc.devRef .tc main_v56) = dirFn ![0, 0, 1, 0] slices_S4x64x258x258_S4x64x256x256_0_0_1_0 (V (Proc.devRef .tc main_v4)) (V (Proc.devRef .tc main_v3)) (V (Proc.devRef .tc main_v6)) (V (Proc.devRef .tc main_v8)) := by
  simp only [wD3]
  after_results_simp
  rfl
set_option maxRecDepth 8192 in
theorem wD3_keep_main_arg0 (V : Valuation τ sig (Elt F)) : after wD3 V (Proc.devRef .tc main_arg0) = V (Proc.devRef .tc main_arg0) := by
  simp only [wD3]
  after_results_simp
set_option maxRecDepth 8192 in
theorem wD3_keep_main_v3 (V : Valuation τ sig (Elt F)) : after wD3 V (Proc.devRef .tc main_v3) = V (Proc.devRef .tc main_v3) := by
  simp only [wD3]
  after_results_simp
set_option maxRecDepth 8192 in
theorem wD3_keep_main_v4 (V : Valuation τ sig (Elt F)) : after wD3 V (Proc.devRef .tc main_v4) = V (Proc.devRef .tc main_v4) := by
  simp only [wD3]
  after_results_simp
set_option maxRecDepth 8192 in
theorem wD3_keep_main_v6 (V : Valuation τ sig (Elt F)) : after wD3 V (Proc.devRef .tc main_v6) = V (Proc.devRef .tc main_v6) := by
  simp only [wD3]
  after_results_simp
set_option maxRecDepth 8192 in
theorem wD3_keep_main_v8 (V : Valuation τ sig (Elt F)) : after wD3 V (Proc.devRef .tc main_v8) = V (Proc.devRef .tc main_v8) := by
  simp only [wD3]
  after_results_simp
set_option maxRecDepth 8192 in
theorem wD3_keep_main_v20 (V : Valuation τ sig (Elt F)) : after wD3 V (Proc.devRef .tc main_v20) = V (Proc.devRef .tc main_v20) := by
  simp only [wD3]
  after_results_simp
set_option maxRecDepth 8192 in
theorem wD3_keep_main_v32 (V : Valuation τ sig (Elt F)) : after wD3 V (Proc.devRef .tc main_v32) = V (Proc.devRef .tc main_v32) := by
  simp only [wD3]
  after_results_simp
set_option maxRecDepth 8192 in
theorem wD3_keep_main_v44 (V : Valuation τ sig (Elt F)) : after wD3 V (Proc.devRef .tc main_v44) = V (Proc.devRef .tc main_v44) := by
  simp only [wD3]
  after_results_simp

end Cert.RefSide

end
-- ==== Proof.RefWinD1.lean ====
/-
  What a neighbour offset's fifteen operations leave: in their last array the offset's cosine similarity, as the
  function `dirFn` of the bordered input, the means, the centred array and its squared norm found in the arrays
  they read; every array they do not write is left as it was.
-/
import proofs.«100834_j73478300500485_1_alg».proof.Proof.RefOps
import proofs.«100834_j73478300500485_1_alg».proof.Proof.RefStages

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 1000000 in
theorem wD4_res (V : Valuation τ sig (Elt F)) :
    after wD4 V (Proc.devRef .tc main_v68) = dirFn ![0, 0, 1, 2] slices_S4x64x258x258_S4x64x256x256_0_0_1_2 (V (Proc.devRef .tc main_v4)) (V (Proc.devRef .tc main_v3)) (V (Proc.devRef .tc main_v6)) (V (Proc.devRef .tc main_v8)) := by
  simp only [wD4]
  after_results_simp
  rfl
set_option maxRecDepth 8192 in
theorem wD4_keep_main_arg0 (V : Valuation τ sig (Elt F)) : after wD4 V (Proc.devRef .tc main_arg0) = V (Proc.devRef .tc main_arg0) := by
  simp only [wD4]
  after_results_simp
set_option maxRecDepth 8192 in
theorem wD4_keep_main_v3 (V : Valuation τ sig (Elt F)) : after wD4 V (Proc.devRef .tc main_v3) = V (Proc.devRef .tc main_v3) := by
  simp only [wD4]
  after_results_simp
set_option maxRecDepth 8192 in
theorem wD4_keep_main_v4 (V : Valuation τ sig (Elt F)) : after wD4 V (Proc.devRef .tc main_v4) = V (Proc.devRef .tc main_v4) := by
  simp only [wD4]
  after_results_simp
set_option maxRecDepth 8192 in
theorem wD4_keep_main_v6 (V : Valuation τ sig (Elt F)) : after wD4 V (Proc.devRef .tc main_v6) = V (Proc.devRef .tc main_v6) := by
  simp only [wD4]
  after_results_simp
set_option maxRecDepth 8192 in
theorem wD4_keep_main_v8 (V : Valuation τ sig (Elt F)) : after wD4 V (Proc.devRef .tc main_v8) = V (Proc.devRef .tc main_v8) := by
  simp only [wD4]
  after_results_simp
set_option maxRecDepth 8192 in
theorem wD4_keep_main_v20 (V : Valuation τ sig (Elt F)) : after wD4 V (Proc.devRef .tc main_v20) = V (Proc.devRef .tc main_v20) := by
  simp only [wD4]
  after_results_simp
set_option maxRecDepth 8192 in
theorem wD4_keep_main_v32 (V : Valuation τ sig (Elt F)) : after wD4 V (Proc.devRef .tc main_v32) = V (Proc.devRef .tc main_v32) := by
  simp only [wD4]
  after_results_simp
set_option maxRecDepth 8192 in
theorem wD4_keep_main_v44 (V : Valuation τ sig (Elt F)) : after wD4 V (Proc.devRef .tc main_v44) = V (Proc.devRef .tc main_v44) := by
  simp only [wD4]
  after_results_simp
set_option maxRecDepth 8192 in
theorem wD4_keep_main_v56 (V : Valuation τ sig (Elt F)) : after wD4 V (Proc.devRef .tc main_v56) = V (Proc.devRef .tc main_v56) := by
  simp only [wD4]
  after_results_simp

set_option maxRecDepth 8192 in
set_option maxHeartbeats 1000000 in
theorem wD5_res (V : Valuation τ sig (Elt F)) :
    after wD5 V (Proc.devRef .tc main_v80) = dirFn ![0, 0, 2, 0] slices_S4x64x258x258_S4x64x256x256_0_0_2_0 (V (Proc.devRef .tc main_v4)) (V (Proc.devRef .tc main_v3)) (V (Proc.devRef .tc main_v6)) (V (Proc.devRef .tc main_v8)) := by
  simp only [wD5]
  after_results_simp
  rfl
set_option maxRecDepth 8192 in
theorem wD5_keep_main_arg0 (V : Valuation τ sig (Elt F)) : after wD5 V (Proc.devRef .tc main_arg0) = V (Proc.devRef .tc main_arg0) := by
  simp only [wD5]
  after_results_simp
set_option maxRecDepth 8192 in
theorem wD5_keep_main_v3 (V : Valuation τ sig (Elt F)) : after wD5 V (Proc.devRef .tc main_v3) = V (Proc.devRef .tc main_v3) := by
  simp only [wD5]
  after_results_simp
set_option maxRecDepth 8192 in
theorem wD5_keep_main_v4 (V : Valuation τ sig (Elt F)) : after wD5 V (Proc.devRef .tc main_v4) = V (Proc.devRef .tc main_v4) := by
  simp only [wD5]
  after_results_simp
set_option maxRecDepth 8192 in
theorem wD5_keep_main_v6 (V : Valuation τ sig (Elt F)) : after wD5 V (Proc.devRef .tc main_v6) = V (Proc.devRef .tc main_v6) := by
  simp only [wD5]
  after_results_simp
set_option maxRecDepth 8192 in
theorem wD5_keep_main_v8 (V : Valuation τ sig (Elt F)) : after wD5 V (Proc.devRef .tc main_v8) = V (Proc.devRef .tc main_v8) := by
  simp only [wD5]
  after_results_simp
set_option maxRecDepth 8192 in
theorem wD5_keep_main_v20 (V : Valuation τ sig (Elt F)) : after wD5 V (Proc.devRef .tc main_v20) = V (Proc.devRef .tc main_v20) := by
  simp only [wD5]
  after_results_simp
set_option maxRecDepth 8192 in
theorem wD5_keep_main_v32 (V : Valuation τ sig (Elt F)) : after wD5 V (Proc.devRef .tc main_v32) = V (Proc.devRef .tc main_v32) := by
  simp only [wD5]
  after_results_simp
set_option maxRecDepth 8192 in
theorem wD5_keep_main_v44 (V : Valuation τ sig (Elt F)) : after wD5 V (Proc.devRef .tc main_v44) = V (Proc.devRef .tc main_v44) := by
  simp only [wD5]
  after_results_simp
set_option maxRecDepth 8192 in
theorem wD5_keep_main_v56 (V : Valuation τ sig (Elt F)) : after wD5 V (Proc.devRef .tc main_v56) = V (Proc.devRef .tc main_v56) := by
  simp only [wD5]
  after_results_simp
set_option maxRecDepth 8192 in
theorem wD5_keep_main_v68 (V : Valuation τ sig (Elt F)) : after wD5 V (Proc.devRef .tc main_v68) = V (Proc.devRef .tc main_v68) := by
  simp only [wD5]
  after_results_simp

set_option maxRecDepth 8192 in
set_option maxHeartbeats 1000000 in
theorem wD6_res (V : Valuation τ sig (Elt F)) :
    after wD6 V (Proc.devRef .tc main_v92) = dirFn ![0, 0, 2, 1] slices_S4x64x258x258_S4x64x256x256_0_0_2_1 (V (Proc.devRef .tc main_v4)) (V (Proc.devRef .tc main_v3)) (V (Proc.devRef .tc main_v6)) (V (Proc.devRef .tc main_v8)) := by
  simp only [wD6]
  after_results_simp
  rfl
set_option maxRecDepth 8192 in
theorem wD6_keep_main_arg0 (V : Valuation τ sig (Elt F)) : after wD6 V (Proc.devRef .tc main_arg0) = V (Proc.devRef .tc main_arg0) := by
  simp only [wD6]
  after_results_simp
set_option maxRecDepth 8192 in
theorem wD6_keep_main_v3 (V : Valuation τ sig (Elt F)) : after wD6 V (Proc.devRef .tc main_v3) = V (Proc.devRef .tc main_v3) := by
  simp only [wD6]
  after_results_simp
set_option maxRecDepth 8192 in
theorem wD6_keep_main_v4 (V : Valuation τ sig (Elt F)) : after wD6 V (Proc.devRef .tc main_v4) = V (Proc.devRef .tc main_v4) := by
  simp only [wD6]
  after_results_simp
set_option maxRecDepth 8192 in
theorem wD6_keep_main_v6 (V : Valuation τ sig (Elt F)) : after wD6 V (Proc.devRef .tc main_v6) = V (Proc.devRef .tc main_v6) := by
  simp only [wD6]
  after_results_simp
set_option maxRecDepth 8192 in
theorem wD6_keep_main_v8 (V : Valuation τ sig (Elt F)) : after wD6 V (Proc.devRef .tc main_v8) = V (Proc.devRef .tc main_v8) := by
  simp only [wD6]
  after_results_simp
set_option maxRecDepth 8192 in
theorem wD6_keep_main_v20 (V : Valuation τ sig (Elt F)) : after wD6 V (Proc.devRef .tc main_v20) = V (Proc.devRef .tc main_v20) := by
  simp only [wD6]
  after_results_simp
set_option maxRecDepth 8192 in
theorem wD6_keep_main_v32 (V : Valuation τ sig (Elt F)) : after wD6 V (Proc.devRef .tc main_v32) = V (Proc.devRef .tc main_v32) := by
  simp only [wD6]
  after_results_simp
set_option maxRecDepth 8192 in
theorem wD6_keep_main_v44 (V : Valuation τ sig (Elt F)) : after wD6 V (Proc.devRef .tc main_v44) = V (Proc.devRef .tc main_v44) := by
  simp only [wD6]
  after_results_simp
set_option maxRecDepth 8192 in
theorem wD6_keep_main_v56 (V : Valuation τ sig (Elt F)) : after wD6 V (Proc.devRef .tc main_v56) = V (Proc.devRef .tc main_v56) := by
  simp only [wD6]
  after_results_simp
set_option maxRecDepth 8192 in
theorem wD6_keep_main_v68 (V : Valuation τ sig (Elt F)) : after wD6 V (Proc.devRef .tc main_v68) = V (Proc.devRef .tc main_v68) := by
  simp only [wD6]
  after_results_simp
set_option maxRecDepth 8192 in
theorem wD6_keep_main_v80 (V : Valuation τ sig (Elt F)) : after wD6 V (Proc.devRef .tc main_v80) = V (Proc.devRef .tc main_v80) := by
  simp only [wD6]
  after_results_simp

set_option maxRecDepth 8192 in
set_option maxHeartbeats 1000000 in
theorem wD7_res (V : Valuation τ sig (Elt F)) :
    after wD7 V (Proc.devRef .tc main_v104) = dirFn ![0, 0, 2, 2] slices_S4x64x258x258_S4x64x256x256_0_0_2_2 (V (Proc.devRef .tc main_v4)) (V (Proc.devRef .tc main_v3)) (V (Proc.devRef .tc main_v6)) (V (Proc.devRef .tc main_v8)) := by
  simp only [wD7]
  after_results_simp
  rfl
set_option maxRecDepth 8192 in
theorem wD7_keep_main_arg0 (V : Valuation τ sig (Elt F)) : after wD7 V (Proc.devRef .tc main_arg0) = V (Proc.devRef .tc main_arg0) := by
  simp only [wD7]
  after_results_simp
set_option maxRecDepth 8192 in
theorem wD7_keep_main_v3 (V : Valuation τ sig (Elt F)) : after wD7 V (Proc.devRef .tc main_v3) = V (Proc.devRef .tc main_v3) := by
  simp only [wD7]
  after_results_simp
set_option maxRecDepth 8192 in
theorem wD7_keep_main_v4 (V : Valuation τ sig (Elt F)) : after wD7 V (Proc.devRef .tc main_v4) = V (Proc.devRef .tc main_v4) := by
  simp only [wD7]
  after_results_simp
set_option maxRecDepth 8192 in
theorem wD7_keep_main_v6 (V : Valuation τ sig (Elt F)) : after wD7 V (Proc.devRef .tc main_v6) = V (Proc.devRef .tc main_v6) := by
  simp only [wD7]
  after_results_simp
set_option maxRecDepth 8192 in
theorem wD7_keep_main_v8 (V : Valuation τ sig (Elt F)) : after wD7 V (Proc.devRef .tc main_v8) = V (Proc.devRef .tc main_v8) := by
  simp only [wD7]
  after_results_simp
set_option maxRecDepth 8192 in
theorem wD7_keep_main_v20 (V : Valuation τ sig (Elt F)) : after wD7 V (Proc.devRef .tc main_v20) = V (Proc.devRef .tc main_v20) := by
  simp only [wD7]
  after_results_simp
set_option maxRecDepth 8192 in
theorem wD7_keep_main_v32 (V : Valuation τ sig (Elt F)) : after wD7 V (Proc.devRef .tc main_v32) = V (Proc.devRef .tc main_v32) := by
  simp only [wD7]
  after_results_simp
set_option maxRecDepth 8192 in
theorem wD7_keep_main_v44 (V : Valuation τ sig (Elt F)) : after wD7 V (Proc.devRef .tc main_v44) = V (Proc.devRef .tc main_v44) := by
  simp only [wD7]
  after_results_simp
set_option maxRecDepth 8192 in
theorem wD7_keep_main_v56 (V : Valuation τ sig (Elt F)) : after wD7 V (Proc.devRef .tc main_v56) = V (Proc.devRef .tc main_v56) := by
  simp only [wD7]
  after_results_simp
set_option maxRecDepth 8192 in
theorem wD7_keep_main_v68 (V : Valuation τ sig (Elt F)) : after wD7 V (Proc.devRef .tc main_v68) = V (Proc.devRef .tc main_v68) := by
  simp only [wD7]
  after_results_simp
set_option maxRecDepth 8192 in
theorem wD7_keep_main_v80 (V : Valuation τ sig (Elt F)) : after wD7 V (Proc.devRef .tc main_v80) = V (Proc.devRef .tc main_v80) := by
  simp only [wD7]
  after_results_simp
set_option maxRecDepth 8192 in
theorem wD7_keep_main_v92 (V : Valuation τ sig (Elt F)) : after wD7 V (Proc.devRef .tc main_v92) = V (Proc.devRef .tc main_v92) := by
  simp only [wD7]
  after_results_simp

end Cert.RefSide

end
-- ==== Proof.RefWinOut.lean ====
/-
  What the last nine operations leave: the eight similarities, each given a unit second axis, stacked along it.
-/
import proofs.«100834_j73478300500485_1_alg».proof.Proof.RefOps
import proofs.«100834_j73478300500485_1_alg».proof.Proof.RefStages

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 1000000 in
theorem wOut_v113 (V : Valuation τ sig (Elt F)) :
    after wOut V (Proc.devRef .tc main_v113) = outT (V (Proc.devRef .tc main_v20)) (V (Proc.devRef .tc main_v32)) (V (Proc.devRef .tc main_v44)) (V (Proc.devRef .tc main_v56)) (V (Proc.devRef .tc main_v68)) (V (Proc.devRef .tc main_v80)) (V (Proc.devRef .tc main_v92)) (V (Proc.devRef .tc main_v104)) := by
  simp only [wOut]
  after_results_simp
  rfl
set_option maxRecDepth 8192 in
theorem wOut_keep_main_arg0 (V : Valuation τ sig (Elt F)) : after wOut V (Proc.devRef .tc main_arg0) = V (Proc.devRef .tc main_arg0) := by
  simp only [wOut]
  after_results_simp

end Cert.RefSide

end
-- ==== Proof.RefRun.lean ====
/-
  The run of the reference: every weakly fair execution terminates, leaves the input array as it was, and leaves in
  the result array `refOut` of the input.

  The arrays after the whole line are followed piece by piece. After the means, the border, the centring and the
  norm, four arrays hold those functions of the input; each neighbour offset then adds its similarity, computed from
  those four, and touches none of them; the last piece stacks the eight.
-/
import proofs.«100834_j73478300500485_1_alg».proof.Proof.RefOps
import proofs.«100834_j73478300500485_1_alg».proof.Proof.RefStages
import proofs.«100834_j73478300500485_1_alg».proof.Proof.RefWinA
import proofs.«100834_j73478300500485_1_alg».proof.Proof.RefWinD0
import proofs.«100834_j73478300500485_1_alg».proof.Proof.RefWinD1
import proofs.«100834_j73478300500485_1_alg».proof.Proof.RefWinOut

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The arrays after the first `k` pieces. -/
def after0 (V : Valuation τ sig (Elt F)) : Valuation τ sig (Elt F) := V
def after1 (V : Valuation τ sig (Elt F)) : Valuation τ sig (Elt F) := after wPre (after0 V)
def after2 (V : Valuation τ sig (Elt F)) : Valuation τ sig (Elt F) := after wPad (after1 V)
def after3 (V : Valuation τ sig (Elt F)) : Valuation τ sig (Elt F) := after wCx (after2 V)
def after4 (V : Valuation τ sig (Elt F)) : Valuation τ sig (Elt F) := after wD0 (after3 V)
def after5 (V : Valuation τ sig (Elt F)) : Valuation τ sig (Elt F) := after wD1 (after4 V)
def after6 (V : Valuation τ sig (Elt F)) : Valuation τ sig (Elt F) := after wD2 (after5 V)
def after7 (V : Valuation τ sig (Elt F)) : Valuation τ sig (Elt F) := after wD3 (after6 V)
def after8 (V : Valuation τ sig (Elt F)) : Valuation τ sig (Elt F) := after wD4 (after7 V)
def after9 (V : Valuation τ sig (Elt F)) : Valuation τ sig (Elt F) := after wD5 (after8 V)
def after10 (V : Valuation τ sig (Elt F)) : Valuation τ sig (Elt F) := after wD6 (after9 V)
def after11 (V : Valuation τ sig (Elt F)) : Valuation τ sig (Elt F) := after wD7 (after10 V)
def after12 (V : Valuation τ sig (Elt F)) : Valuation τ sig (Elt F) := after wOut (after11 V)

theorem after_ops_eq (V : Valuation τ sig (Elt F)) : after ops V = after12 V := after_ops V

theorem A0_main_arg0 (V : Valuation τ sig (Elt F)) : after0 V (Proc.devRef .tc main_arg0) = (V (Proc.devRef .tc main_arg0)) := rfl
theorem A1_main_arg0 (V : Valuation τ sig (Elt F)) : after1 V (Proc.devRef .tc main_arg0) = (V (Proc.devRef .tc main_arg0)) :=
  (wPre_keep_main_arg0 (after0 V)).trans (A0_main_arg0 V)
theorem A1_main_v3 (V : Valuation τ sig (Elt F)) : after1 V (Proc.devRef .tc main_v3) = meanT (V (Proc.devRef .tc main_arg0)) :=
  (wPre_v3 (after0 V)).trans (by rw [A0_main_arg0])

theorem A2_main_arg0 (V : Valuation τ sig (Elt F)) : after2 V (Proc.devRef .tc main_arg0) = (V (Proc.devRef .tc main_arg0)) :=
  (wPad_keep_main_arg0 (after1 V)).trans (A1_main_arg0 V)
theorem A2_main_v3 (V : Valuation τ sig (Elt F)) : after2 V (Proc.devRef .tc main_v3) = meanT (V (Proc.devRef .tc main_arg0)) :=
  (wPad_keep_main_v3 (after1 V)).trans (A1_main_v3 V)
theorem A2_main_v4 (V : Valuation τ sig (Elt F)) : after2 V (Proc.devRef .tc main_v4) = padT (V (Proc.devRef .tc main_arg0)) :=
  (wPad_v4 (after1 V)).trans (by rw [A1_main_arg0])

theorem A3_main_arg0 (V : Valuation τ sig (Elt F)) : after3 V (Proc.devRef .tc main_arg0) = (V (Proc.devRef .tc main_arg0)) :=
  (wCx_keep_main_arg0 (after2 V)).trans (A2_main_arg0 V)
theorem A3_main_v3 (V : Valuation τ sig (Elt F)) : after3 V (Proc.devRef .tc main_v3) = meanT (V (Proc.devRef .tc main_arg0)) :=
  (wCx_keep_main_v3 (after2 V)).trans (A2_main_v3 V)
theorem A3_main_v4 (V : Valuation τ sig (Elt F)) : after3 V (Proc.devRef .tc main_v4) = padT (V (Proc.devRef .tc main_arg0)) :=
  (wCx_keep_main_v4 (after2 V)).trans (A2_main_v4 V)
theorem A3_main_v6 (V : Valuation τ sig (Elt F)) : after3 V (Proc.devRef .tc main_v6) = cxT (V (Proc.devRef .tc main_arg0)) (meanT (V (Proc.devRef .tc main_arg0))) :=
  (wCx_v6 (after2 V)).trans (by rw [A2_main_arg0, A2_main_v3])
theorem A3_main_v8 (V : Valuation τ sig (Elt F)) : after3 V (Proc.devRef .tc main_v8) = normT (cxT (V (Proc.devRef .tc main_arg0)) (meanT (V (Proc.devRef .tc main_arg0)))) :=
  (wCx_v8 (after2 V)).trans (by rw [A2_main_arg0, A2_main_v3])

theorem A4_main_arg0 (V : Valuation τ sig (Elt F)) : after4 V (Proc.devRef .tc main_arg0) = (V (Proc.devRef .tc main_arg0)) :=
  (wD0_keep_main_arg0 (after3 V)).trans (A3_main_arg0 V)
theorem A4_main_v3 (V : Valuation τ sig (Elt F)) : after4 V (Proc.devRef .tc main_v3) = meanT (V (Proc.devRef .tc main_arg0)) :=
  (wD0_keep_main_v3 (after3 V)).trans (A3_main_v3 V)
theorem A4_main_v4 (V : Valuation τ sig (Elt F)) : after4 V (Proc.devRef .tc main_v4) = padT (V (Proc.devRef .tc main_arg0)) :=
  (wD0_keep_main_v4 (after3 V)).trans (A3_main_v4 V)
theorem A4_main_v6 (V : Valuation τ sig (Elt F)) : after4 V (Proc.devRef .tc main_v6) = cxT (V (Proc.devRef .tc main_arg0)) (meanT (V (Proc.devRef .tc main_arg0))) :=
  (wD0_keep_main_v6 (after3 V)).trans (A3_main_v6 V)
theorem A4_main_v8 (V : Valuation τ sig (Elt F)) : after4 V (Proc.devRef .tc main_v8) = normT (cxT (V (Proc.devRef .tc main_arg0)) (meanT (V (Proc.devRef .tc main_arg0)))) :=
  (wD0_keep_main_v8 (after3 V)).trans (A3_main_v8 V)
theorem A4_main_v20 (V : Valuation τ sig (Elt F)) : after4 V (Proc.devRef .tc main_v20) = dirT ![0, 0, 0, 0] slices_S4x64x258x258_S4x64x256x256_0_0_0_0 (V (Proc.devRef .tc main_arg0)) :=
  (wD0_res (after3 V)).trans (by rw [A3_main_v4, A3_main_v3, A3_main_v6, A3_main_v8]; rfl)

theorem A5_main_arg0 (V : Valuation τ sig (Elt F)) : after5 V (Proc.devRef .tc main_arg0) = (V (Proc.devRef .tc main_arg0)) :=
  (wD1_keep_main_arg0 (after4 V)).trans (A4_main_arg0 V)
theorem A5_main_v3 (V : Valuation τ sig (Elt F)) : after5 V (Proc.devRef .tc main_v3) = meanT (V (Proc.devRef .tc main_arg0)) :=
  (wD1_keep_main_v3 (after4 V)).trans (A4_main_v3 V)
theorem A5_main_v4 (V : Valuation τ sig (Elt F)) : after5 V (Proc.devRef .tc main_v4) = padT (V (Proc.devRef .tc main_arg0)) :=
  (wD1_keep_main_v4 (after4 V)).trans (A4_main_v4 V)
theorem A5_main_v6 (V : Valuation τ sig (Elt F)) : after5 V (Proc.devRef .tc main_v6) = cxT (V (Proc.devRef .tc main_arg0)) (meanT (V (Proc.devRef .tc main_arg0))) :=
  (wD1_keep_main_v6 (after4 V)).trans (A4_main_v6 V)
theorem A5_main_v8 (V : Valuation τ sig (Elt F)) : after5 V (Proc.devRef .tc main_v8) = normT (cxT (V (Proc.devRef .tc main_arg0)) (meanT (V (Proc.devRef .tc main_arg0)))) :=
  (wD1_keep_main_v8 (after4 V)).trans (A4_main_v8 V)
theorem A5_main_v20 (V : Valuation τ sig (Elt F)) : after5 V (Proc.devRef .tc main_v20) = dirT ![0, 0, 0, 0] slices_S4x64x258x258_S4x64x256x256_0_0_0_0 (V (Proc.devRef .tc main_arg0)) :=
  (wD1_keep_main_v20 (after4 V)).trans (A4_main_v20 V)
theorem A5_main_v32 (V : Valuation τ sig (Elt F)) : after5 V (Proc.devRef .tc main_v32) = dirT ![0, 0, 0, 1] slices_S4x64x258x258_S4x64x256x256_0_0_0_1 (V (Proc.devRef .tc main_arg0)) :=
  (wD1_res (after4 V)).trans (by rw [A4_main_v4, A4_main_v3, A4_main_v6, A4_main_v8]; rfl)

theorem A6_main_arg0 (V : Valuation τ sig (Elt F)) : after6 V (Proc.devRef .tc main_arg0) = (V (Proc.devRef .tc main_arg0)) :=
  (wD2_keep_main_arg0 (after5 V)).trans (A5_main_arg0 V)
theorem A6_main_v3 (V : Valuation τ sig (Elt F)) : after6 V (Proc.devRef .tc main_v3) = meanT (V (Proc.devRef .tc main_arg0)) :=
  (wD2_keep_main_v3 (after5 V)).trans (A5_main_v3 V)
theorem A6_main_v4 (V : Valuation τ sig (Elt F)) : after6 V (Proc.devRef .tc main_v4) = padT (V (Proc.devRef .tc main_arg0)) :=
  (wD2_keep_main_v4 (after5 V)).trans (A5_main_v4 V)
theorem A6_main_v6 (V : Valuation τ sig (Elt F)) : after6 V (Proc.devRef .tc main_v6) = cxT (V (Proc.devRef .tc main_arg0)) (meanT (V (Proc.devRef .tc main_arg0))) :=
  (wD2_keep_main_v6 (after5 V)).trans (A5_main_v6 V)
theorem A6_main_v8 (V : Valuation τ sig (Elt F)) : after6 V (Proc.devRef .tc main_v8) = normT (cxT (V (Proc.devRef .tc main_arg0)) (meanT (V (Proc.devRef .tc main_arg0)))) :=
  (wD2_keep_main_v8 (after5 V)).trans (A5_main_v8 V)
theorem A6_main_v20 (V : Valuation τ sig (Elt F)) : after6 V (Proc.devRef .tc main_v20) = dirT ![0, 0, 0, 0] slices_S4x64x258x258_S4x64x256x256_0_0_0_0 (V (Proc.devRef .tc main_arg0)) :=
  (wD2_keep_main_v20 (after5 V)).trans (A5_main_v20 V)
theorem A6_main_v32 (V : Valuation τ sig (Elt F)) : after6 V (Proc.devRef .tc main_v32) = dirT ![0, 0, 0, 1] slices_S4x64x258x258_S4x64x256x256_0_0_0_1 (V (Proc.devRef .tc main_arg0)) :=
  (wD2_keep_main_v32 (after5 V)).trans (A5_main_v32 V)
theorem A6_main_v44 (V : Valuation τ sig (Elt F)) : after6 V (Proc.devRef .tc main_v44) = dirT ![0, 0, 0, 2] slices_S4x64x258x258_S4x64x256x256_0_0_0_2 (V (Proc.devRef .tc main_arg0)) :=
  (wD2_res (after5 V)).trans (by rw [A5_main_v4, A5_main_v3, A5_main_v6, A5_main_v8]; rfl)

theorem A7_main_arg0 (V : Valuation τ sig (Elt F)) : after7 V (Proc.devRef .tc main_arg0) = (V (Proc.devRef .tc main_arg0)) :=
  (wD3_keep_main_arg0 (after6 V)).trans (A6_main_arg0 V)
theorem A7_main_v3 (V : Valuation τ sig (Elt F)) : after7 V (Proc.devRef .tc main_v3) = meanT (V (Proc.devRef .tc main_arg0)) :=
  (wD3_keep_main_v3 (after6 V)).trans (A6_main_v3 V)
theorem A7_main_v4 (V : Valuation τ sig (Elt F)) : after7 V (Proc.devRef .tc main_v4) = padT (V (Proc.devRef .tc main_arg0)) :=
  (wD3_keep_main_v4 (after6 V)).trans (A6_main_v4 V)
theorem A7_main_v6 (V : Valuation τ sig (Elt F)) : after7 V (Proc.devRef .tc main_v6) = cxT (V (Proc.devRef .tc main_arg0)) (meanT (V (Proc.devRef .tc main_arg0))) :=
  (wD3_keep_main_v6 (after6 V)).trans (A6_main_v6 V)
theorem A7_main_v8 (V : Valuation τ sig (Elt F)) : after7 V (Proc.devRef .tc main_v8) = normT (cxT (V (Proc.devRef .tc main_arg0)) (meanT (V (Proc.devRef .tc main_arg0)))) :=
  (wD3_keep_main_v8 (after6 V)).trans (A6_main_v8 V)
theorem A7_main_v20 (V : Valuation τ sig (Elt F)) : after7 V (Proc.devRef .tc main_v20) = dirT ![0, 0, 0, 0] slices_S4x64x258x258_S4x64x256x256_0_0_0_0 (V (Proc.devRef .tc main_arg0)) :=
  (wD3_keep_main_v20 (after6 V)).trans (A6_main_v20 V)
theorem A7_main_v32 (V : Valuation τ sig (Elt F)) : after7 V (Proc.devRef .tc main_v32) = dirT ![0, 0, 0, 1] slices_S4x64x258x258_S4x64x256x256_0_0_0_1 (V (Proc.devRef .tc main_arg0)) :=
  (wD3_keep_main_v32 (after6 V)).trans (A6_main_v32 V)
theorem A7_main_v44 (V : Valuation τ sig (Elt F)) : after7 V (Proc.devRef .tc main_v44) = dirT ![0, 0, 0, 2] slices_S4x64x258x258_S4x64x256x256_0_0_0_2 (V (Proc.devRef .tc main_arg0)) :=
  (wD3_keep_main_v44 (after6 V)).trans (A6_main_v44 V)
theorem A7_main_v56 (V : Valuation τ sig (Elt F)) : after7 V (Proc.devRef .tc main_v56) = dirT ![0, 0, 1, 0] slices_S4x64x258x258_S4x64x256x256_0_0_1_0 (V (Proc.devRef .tc main_arg0)) :=
  (wD3_res (after6 V)).trans (by rw [A6_main_v4, A6_main_v3, A6_main_v6, A6_main_v8]; rfl)

theorem A8_main_arg0 (V : Valuation τ sig (Elt F)) : after8 V (Proc.devRef .tc main_arg0) = (V (Proc.devRef .tc main_arg0)) :=
  (wD4_keep_main_arg0 (after7 V)).trans (A7_main_arg0 V)
theorem A8_main_v3 (V : Valuation τ sig (Elt F)) : after8 V (Proc.devRef .tc main_v3) = meanT (V (Proc.devRef .tc main_arg0)) :=
  (wD4_keep_main_v3 (after7 V)).trans (A7_main_v3 V)
theorem A8_main_v4 (V : Valuation τ sig (Elt F)) : after8 V (Proc.devRef .tc main_v4) = padT (V (Proc.devRef .tc main_arg0)) :=
  (wD4_keep_main_v4 (after7 V)).trans (A7_main_v4 V)
theorem A8_main_v6 (V : Valuation τ sig (Elt F)) : after8 V (Proc.devRef .tc main_v6) = cxT (V (Proc.devRef .tc main_arg0)) (meanT (V (Proc.devRef .tc main_arg0))) :=
  (wD4_keep_main_v6 (after7 V)).trans (A7_main_v6 V)
theorem A8_main_v8 (V : Valuation τ sig (Elt F)) : after8 V (Proc.devRef .tc main_v8) = normT (cxT (V (Proc.devRef .tc main_arg0)) (meanT (V (Proc.devRef .tc main_arg0)))) :=
  (wD4_keep_main_v8 (after7 V)).trans (A7_main_v8 V)
theorem A8_main_v20 (V : Valuation τ sig (Elt F)) : after8 V (Proc.devRef .tc main_v20) = dirT ![0, 0, 0, 0] slices_S4x64x258x258_S4x64x256x256_0_0_0_0 (V (Proc.devRef .tc main_arg0)) :=
  (wD4_keep_main_v20 (after7 V)).trans (A7_main_v20 V)
theorem A8_main_v32 (V : Valuation τ sig (Elt F)) : after8 V (Proc.devRef .tc main_v32) = dirT ![0, 0, 0, 1] slices_S4x64x258x258_S4x64x256x256_0_0_0_1 (V (Proc.devRef .tc main_arg0)) :=
  (wD4_keep_main_v32 (after7 V)).trans (A7_main_v32 V)
theorem A8_main_v44 (V : Valuation τ sig (Elt F)) : after8 V (Proc.devRef .tc main_v44) = dirT ![0, 0, 0, 2] slices_S4x64x258x258_S4x64x256x256_0_0_0_2 (V (Proc.devRef .tc main_arg0)) :=
  (wD4_keep_main_v44 (after7 V)).trans (A7_main_v44 V)
theorem A8_main_v56 (V : Valuation τ sig (Elt F)) : after8 V (Proc.devRef .tc main_v56) = dirT ![0, 0, 1, 0] slices_S4x64x258x258_S4x64x256x256_0_0_1_0 (V (Proc.devRef .tc main_arg0)) :=
  (wD4_keep_main_v56 (after7 V)).trans (A7_main_v56 V)
theorem A8_main_v68 (V : Valuation τ sig (Elt F)) : after8 V (Proc.devRef .tc main_v68) = dirT ![0, 0, 1, 2] slices_S4x64x258x258_S4x64x256x256_0_0_1_2 (V (Proc.devRef .tc main_arg0)) :=
  (wD4_res (after7 V)).trans (by rw [A7_main_v4, A7_main_v3, A7_main_v6, A7_main_v8]; rfl)

theorem A9_main_arg0 (V : Valuation τ sig (Elt F)) : after9 V (Proc.devRef .tc main_arg0) = (V (Proc.devRef .tc main_arg0)) :=
  (wD5_keep_main_arg0 (after8 V)).trans (A8_main_arg0 V)
theorem A9_main_v3 (V : Valuation τ sig (Elt F)) : after9 V (Proc.devRef .tc main_v3) = meanT (V (Proc.devRef .tc main_arg0)) :=
  (wD5_keep_main_v3 (after8 V)).trans (A8_main_v3 V)
theorem A9_main_v4 (V : Valuation τ sig (Elt F)) : after9 V (Proc.devRef .tc main_v4) = padT (V (Proc.devRef .tc main_arg0)) :=
  (wD5_keep_main_v4 (after8 V)).trans (A8_main_v4 V)
theorem A9_main_v6 (V : Valuation τ sig (Elt F)) : after9 V (Proc.devRef .tc main_v6) = cxT (V (Proc.devRef .tc main_arg0)) (meanT (V (Proc.devRef .tc main_arg0))) :=
  (wD5_keep_main_v6 (after8 V)).trans (A8_main_v6 V)
theorem A9_main_v8 (V : Valuation τ sig (Elt F)) : after9 V (Proc.devRef .tc main_v8) = normT (cxT (V (Proc.devRef .tc main_arg0)) (meanT (V (Proc.devRef .tc main_arg0)))) :=
  (wD5_keep_main_v8 (after8 V)).trans (A8_main_v8 V)
theorem A9_main_v20 (V : Valuation τ sig (Elt F)) : after9 V (Proc.devRef .tc main_v20) = dirT ![0, 0, 0, 0] slices_S4x64x258x258_S4x64x256x256_0_0_0_0 (V (Proc.devRef .tc main_arg0)) :=
  (wD5_keep_main_v20 (after8 V)).trans (A8_main_v20 V)
theorem A9_main_v32 (V : Valuation τ sig (Elt F)) : after9 V (Proc.devRef .tc main_v32) = dirT ![0, 0, 0, 1] slices_S4x64x258x258_S4x64x256x256_0_0_0_1 (V (Proc.devRef .tc main_arg0)) :=
  (wD5_keep_main_v32 (after8 V)).trans (A8_main_v32 V)
theorem A9_main_v44 (V : Valuation τ sig (Elt F)) : after9 V (Proc.devRef .tc main_v44) = dirT ![0, 0, 0, 2] slices_S4x64x258x258_S4x64x256x256_0_0_0_2 (V (Proc.devRef .tc main_arg0)) :=
  (wD5_keep_main_v44 (after8 V)).trans (A8_main_v44 V)
theorem A9_main_v56 (V : Valuation τ sig (Elt F)) : after9 V (Proc.devRef .tc main_v56) = dirT ![0, 0, 1, 0] slices_S4x64x258x258_S4x64x256x256_0_0_1_0 (V (Proc.devRef .tc main_arg0)) :=
  (wD5_keep_main_v56 (after8 V)).trans (A8_main_v56 V)
theorem A9_main_v68 (V : Valuation τ sig (Elt F)) : after9 V (Proc.devRef .tc main_v68) = dirT ![0, 0, 1, 2] slices_S4x64x258x258_S4x64x256x256_0_0_1_2 (V (Proc.devRef .tc main_arg0)) :=
  (wD5_keep_main_v68 (after8 V)).trans (A8_main_v68 V)
theorem A9_main_v80 (V : Valuation τ sig (Elt F)) : after9 V (Proc.devRef .tc main_v80) = dirT ![0, 0, 2, 0] slices_S4x64x258x258_S4x64x256x256_0_0_2_0 (V (Proc.devRef .tc main_arg0)) :=
  (wD5_res (after8 V)).trans (by rw [A8_main_v4, A8_main_v3, A8_main_v6, A8_main_v8]; rfl)

theorem A10_main_arg0 (V : Valuation τ sig (Elt F)) : after10 V (Proc.devRef .tc main_arg0) = (V (Proc.devRef .tc main_arg0)) :=
  (wD6_keep_main_arg0 (after9 V)).trans (A9_main_arg0 V)
theorem A10_main_v3 (V : Valuation τ sig (Elt F)) : after10 V (Proc.devRef .tc main_v3) = meanT (V (Proc.devRef .tc main_arg0)) :=
  (wD6_keep_main_v3 (after9 V)).trans (A9_main_v3 V)
theorem A10_main_v4 (V : Valuation τ sig (Elt F)) : after10 V (Proc.devRef .tc main_v4) = padT (V (Proc.devRef .tc main_arg0)) :=
  (wD6_keep_main_v4 (after9 V)).trans (A9_main_v4 V)
theorem A10_main_v6 (V : Valuation τ sig (Elt F)) : after10 V (Proc.devRef .tc main_v6) = cxT (V (Proc.devRef .tc main_arg0)) (meanT (V (Proc.devRef .tc main_arg0))) :=
  (wD6_keep_main_v6 (after9 V)).trans (A9_main_v6 V)
theorem A10_main_v8 (V : Valuation τ sig (Elt F)) : after10 V (Proc.devRef .tc main_v8) = normT (cxT (V (Proc.devRef .tc main_arg0)) (meanT (V (Proc.devRef .tc main_arg0)))) :=
  (wD6_keep_main_v8 (after9 V)).trans (A9_main_v8 V)
theorem A10_main_v20 (V : Valuation τ sig (Elt F)) : after10 V (Proc.devRef .tc main_v20) = dirT ![0, 0, 0, 0] slices_S4x64x258x258_S4x64x256x256_0_0_0_0 (V (Proc.devRef .tc main_arg0)) :=
  (wD6_keep_main_v20 (after9 V)).trans (A9_main_v20 V)
theorem A10_main_v32 (V : Valuation τ sig (Elt F)) : after10 V (Proc.devRef .tc main_v32) = dirT ![0, 0, 0, 1] slices_S4x64x258x258_S4x64x256x256_0_0_0_1 (V (Proc.devRef .tc main_arg0)) :=
  (wD6_keep_main_v32 (after9 V)).trans (A9_main_v32 V)
theorem A10_main_v44 (V : Valuation τ sig (Elt F)) : after10 V (Proc.devRef .tc main_v44) = dirT ![0, 0, 0, 2] slices_S4x64x258x258_S4x64x256x256_0_0_0_2 (V (Proc.devRef .tc main_arg0)) :=
  (wD6_keep_main_v44 (after9 V)).trans (A9_main_v44 V)
theorem A10_main_v56 (V : Valuation τ sig (Elt F)) : after10 V (Proc.devRef .tc main_v56) = dirT ![0, 0, 1, 0] slices_S4x64x258x258_S4x64x256x256_0_0_1_0 (V (Proc.devRef .tc main_arg0)) :=
  (wD6_keep_main_v56 (after9 V)).trans (A9_main_v56 V)
theorem A10_main_v68 (V : Valuation τ sig (Elt F)) : after10 V (Proc.devRef .tc main_v68) = dirT ![0, 0, 1, 2] slices_S4x64x258x258_S4x64x256x256_0_0_1_2 (V (Proc.devRef .tc main_arg0)) :=
  (wD6_keep_main_v68 (after9 V)).trans (A9_main_v68 V)
theorem A10_main_v80 (V : Valuation τ sig (Elt F)) : after10 V (Proc.devRef .tc main_v80) = dirT ![0, 0, 2, 0] slices_S4x64x258x258_S4x64x256x256_0_0_2_0 (V (Proc.devRef .tc main_arg0)) :=
  (wD6_keep_main_v80 (after9 V)).trans (A9_main_v80 V)
theorem A10_main_v92 (V : Valuation τ sig (Elt F)) : after10 V (Proc.devRef .tc main_v92) = dirT ![0, 0, 2, 1] slices_S4x64x258x258_S4x64x256x256_0_0_2_1 (V (Proc.devRef .tc main_arg0)) :=
  (wD6_res (after9 V)).trans (by rw [A9_main_v4, A9_main_v3, A9_main_v6, A9_main_v8]; rfl)

theorem A11_main_arg0 (V : Valuation τ sig (Elt F)) : after11 V (Proc.devRef .tc main_arg0) = (V (Proc.devRef .tc main_arg0)) :=
  (wD7_keep_main_arg0 (after10 V)).trans (A10_main_arg0 V)
theorem A11_main_v20 (V : Valuation τ sig (Elt F)) : after11 V (Proc.devRef .tc main_v20) = dirT ![0, 0, 0, 0] slices_S4x64x258x258_S4x64x256x256_0_0_0_0 (V (Proc.devRef .tc main_arg0)) :=
  (wD7_keep_main_v20 (after10 V)).trans (A10_main_v20 V)
theorem A11_main_v32 (V : Valuation τ sig (Elt F)) : after11 V (Proc.devRef .tc main_v32) = dirT ![0, 0, 0, 1] slices_S4x64x258x258_S4x64x256x256_0_0_0_1 (V (Proc.devRef .tc main_arg0)) :=
  (wD7_keep_main_v32 (after10 V)).trans (A10_main_v32 V)
theorem A11_main_v44 (V : Valuation τ sig (Elt F)) : after11 V (Proc.devRef .tc main_v44) = dirT ![0, 0, 0, 2] slices_S4x64x258x258_S4x64x256x256_0_0_0_2 (V (Proc.devRef .tc main_arg0)) :=
  (wD7_keep_main_v44 (after10 V)).trans (A10_main_v44 V)
theorem A11_main_v56 (V : Valuation τ sig (Elt F)) : after11 V (Proc.devRef .tc main_v56) = dirT ![0, 0, 1, 0] slices_S4x64x258x258_S4x64x256x256_0_0_1_0 (V (Proc.devRef .tc main_arg0)) :=
  (wD7_keep_main_v56 (after10 V)).trans (A10_main_v56 V)
theorem A11_main_v68 (V : Valuation τ sig (Elt F)) : after11 V (Proc.devRef .tc main_v68) = dirT ![0, 0, 1, 2] slices_S4x64x258x258_S4x64x256x256_0_0_1_2 (V (Proc.devRef .tc main_arg0)) :=
  (wD7_keep_main_v68 (after10 V)).trans (A10_main_v68 V)
theorem A11_main_v80 (V : Valuation τ sig (Elt F)) : after11 V (Proc.devRef .tc main_v80) = dirT ![0, 0, 2, 0] slices_S4x64x258x258_S4x64x256x256_0_0_2_0 (V (Proc.devRef .tc main_arg0)) :=
  (wD7_keep_main_v80 (after10 V)).trans (A10_main_v80 V)
theorem A11_main_v92 (V : Valuation τ sig (Elt F)) : after11 V (Proc.devRef .tc main_v92) = dirT ![0, 0, 2, 1] slices_S4x64x258x258_S4x64x256x256_0_0_2_1 (V (Proc.devRef .tc main_arg0)) :=
  (wD7_keep_main_v92 (after10 V)).trans (A10_main_v92 V)
theorem A11_main_v104 (V : Valuation τ sig (Elt F)) : after11 V (Proc.devRef .tc main_v104) = dirT ![0, 0, 2, 2] slices_S4x64x258x258_S4x64x256x256_0_0_2_2 (V (Proc.devRef .tc main_arg0)) :=
  (wD7_res (after10 V)).trans (by rw [A10_main_v4, A10_main_v3, A10_main_v6, A10_main_v8]; rfl)

theorem A12_main_arg0 (V : Valuation τ sig (Elt F)) : after12 V (Proc.devRef .tc main_arg0) = (V (Proc.devRef .tc main_arg0)) :=
  (wOut_keep_main_arg0 (after11 V)).trans (A11_main_arg0 V)
theorem A12_main_v113 (V : Valuation τ sig (Elt F)) : after12 V (Proc.devRef .tc main_v113) = refOut (V (Proc.devRef .tc main_arg0)) :=
  (wOut_v113 (after11 V)).trans (by rw [A11_main_v20, A11_main_v32, A11_main_v44, A11_main_v56, A11_main_v68, A11_main_v80, A11_main_v92, A11_main_v104]; rfl)

/-- After the whole line the result array holds `refOut` of the input array, which is unchanged. -/
theorem after_ops_result (V : Valuation τ sig (Elt F)) : after ops V (Proc.devRef .tc main_v113) = refOut (V (Proc.devRef .tc main_arg0)) := by
  rw [after_ops_eq]; exact A12_main_v113 V
theorem after_ops_input (V : Valuation τ sig (Elt F)) : after ops V (Proc.devRef .tc main_arg0) = (V (Proc.devRef .tc main_arg0)) := by
  rw [after_ops_eq]; exact A12_main_arg0 V

/-- Every weakly fair execution of the reference terminates; the result array then holds `refOut` of the input
    array's launch contents, and the input array holds what it held. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v113) = refOut (m ((c.tc : Thread nD τ).loc main_arg0))
      ∧ r.2.mem ((c.tc : Thread nD τ).loc main_arg0) = m ((c.tc : Thread nD τ).loc main_arg0)) :=
  (θ_run defs _ _).mono (fun _ h c => ⟨(h c main_v113).trans (after_ops_result _), (h c main_arg0).trans (after_ops_input _)⟩)
    (run_after m ρ)

end Cert.RefSide

end
-- ==== Proof.RefG.lean ====
/-
  The reference's result is the specification's.

  The eight results stacked along the second axis read, at (b, k, h, w), the k-th result at (b, h, w); the k-th offset
  of the program is (dh k, dw k), so that value is the specification's at (b, k, h, w). With the run of the program this
  gives: every execution ends with the result array at the specification of the input array.
-/
import proofs.«100834_j73478300500485_1_alg».proof.Proof.RefStages
import proofs.«100834_j73478300500485_1_alg».proof.Proof.Spec
import proofs.«100834_j73478300500485_1_alg».proof.Proof.RefIdx4
import proofs.«100834_j73478300500485_1_alg».proof.Proof.RefValA
import proofs.«100834_j73478300500485_1_alg».proof.Proof.RefDir
import proofs.«100834_j73478300500485_1_alg».proof.Proof.RefRun

noncomputable section

namespace Cert.RefSide

open Cert.ReferenceIdeal Cert.ReferenceIdeal.Facts₀ Idealize.ShloMosaic Idealize.ShloMosaic.ValueIdx Idealize.SL.Sem

variable [Cert.ReferenceIdeal.Facts]

/-- A result given a unit second axis reads the result. -/
theorem unitAxis_apply (d : Arr Ideal S4x256x256) (b : Fin 4) (u : Fin 1) (h w : Fin 256) :
    unitAxis d (ix4 b u h w) = d (ix3 b h w) := by
  unfold unitAxis
  exact broadcastInDim_apply _ _ _ _ (ix3 b h w) (forall_fin3 rfl rfl rfl)

theorem outT_apply_0 (d0 d1 d2 d3 d4 d5 d6 d7 : Arr Ideal S4x256x256) (b : Fin 4) (h w : Fin 256) :
    outT d0 d1 d2 d3 d4 d5 d6 d7 (ix4 b (0 : Fin 8) h w) = d0 (ix3 b h w) := by
  unfold outT
  refine (concatenate_apply_piece (1 : Fin 4) _ _ (ix4 b (0 : Fin 8) h w) 0 ?hk S4x1x256x256 (unitAxis d0) ?hx ?hr 0 ?hp
    (ix4 b (0 : Fin 1) h w) ?hi ?ha).trans (unitAxis_apply d0 b 0 h w)
  case hk => show 0 < 8; decide
  case hx => rfl
  case hr => rfl
  case hp => rfl
  case ha => rfl
  case hi =>
    intro e; fin_cases e
    · intro _; rfl
    · intro hne; exact absurd rfl hne
    · intro _; rfl
    · intro _; rfl

theorem outT_apply_1 (d0 d1 d2 d3 d4 d5 d6 d7 : Arr Ideal S4x256x256) (b : Fin 4) (h w : Fin 256) :
    outT d0 d1 d2 d3 d4 d5 d6 d7 (ix4 b (1 : Fin 8) h w) = d1 (ix3 b h w) := by
  unfold outT
  refine (concatenate_apply_piece (1 : Fin 4) _ _ (ix4 b (1 : Fin 8) h w) 1 ?hk S4x1x256x256 (unitAxis d1) ?hx ?hr 1 ?hp
    (ix4 b (0 : Fin 1) h w) ?hi ?ha).trans (unitAxis_apply d1 b 0 h w)
  case hk => show 1 < 8; decide
  case hx => rfl
  case hr => rfl
  case hp => rfl
  case ha => rfl
  case hi =>
    intro e; fin_cases e
    · intro _; rfl
    · intro hne; exact absurd rfl hne
    · intro _; rfl
    · intro _; rfl

theorem outT_apply_2 (d0 d1 d2 d3 d4 d5 d6 d7 : Arr Ideal S4x256x256) (b : Fin 4) (h w : Fin 256) :
    outT d0 d1 d2 d3 d4 d5 d6 d7 (ix4 b (2 : Fin 8) h w) = d2 (ix3 b h w) := by
  unfold outT
  refine (concatenate_apply_piece (1 : Fin 4) _ _ (ix4 b (2 : Fin 8) h w) 2 ?hk S4x1x256x256 (unitAxis d2) ?hx ?hr 2 ?hp
    (ix4 b (0 : Fin 1) h w) ?hi ?ha).trans (unitAxis_apply d2 b 0 h w)
  case hk => show 2 < 8; decide
  case hx => rfl
  case hr => rfl
  case hp => rfl
  case ha => rfl
  case hi =>
    intro e; fin_cases e
    · intro _; rfl
    · intro hne; exact absurd rfl hne
    · intro _; rfl
    · intro _; rfl

theorem outT_apply_3 (d0 d1 d2 d3 d4 d5 d6 d7 : Arr Ideal S4x256x256) (b : Fin 4) (h w : Fin 256) :
    outT d0 d1 d2 d3 d4 d5 d6 d7 (ix4 b (3 : Fin 8) h w) = d3 (ix3 b h w) := by
  unfold outT
  refine (concatenate_apply_piece (1 : Fin 4) _ _ (ix4 b (3 : Fin 8) h w) 3 ?hk S4x1x256x256 (unitAxis d3) ?hx ?hr 3 ?hp
    (ix4 b (0 : Fin 1) h w) ?hi ?ha).trans (unitAxis_apply d3 b 0 h w)
  case hk => show 3 < 8; decide
  case hx => rfl
  case hr => rfl
  case hp => rfl
  case ha => rfl
  case hi =>
    intro e; fin_cases e
    · intro _; rfl
    · intro hne; exact absurd rfl hne
    · intro _; rfl
    · intro _; rfl

theorem outT_apply_4 (d0 d1 d2 d3 d4 d5 d6 d7 : Arr Ideal S4x256x256) (b : Fin 4) (h w : Fin 256) :
    outT d0 d1 d2 d3 d4 d5 d6 d7 (ix4 b (4 : Fin 8) h w) = d4 (ix3 b h w) := by
  unfold outT
  refine (concatenate_apply_piece (1 : Fin 4) _ _ (ix4 b (4 : Fin 8) h w) 4 ?hk S4x1x256x256 (unitAxis d4) ?hx ?hr 4 ?hp
    (ix4 b (0 : Fin 1) h w) ?hi ?ha).trans (unitAxis_apply d4 b 0 h w)
  case hk => show 4 < 8; decide
  case hx => rfl
  case hr => rfl
  case hp => rfl
  case ha => rfl
  case hi =>
    intro e; fin_cases e
    · intro _; rfl
    · intro hne; exact absurd rfl hne
    · intro _; rfl
    · intro _; rfl

theorem outT_apply_5 (d0 d1 d2 d3 d4 d5 d6 d7 : Arr Ideal S4x256x256) (b : Fin 4) (h w : Fin 256) :
    outT d0 d1 d2 d3 d4 d5 d6 d7 (ix4 b (5 : Fin 8) h w) = d5 (ix3 b h w) := by
  unfold outT
  refine (concatenate_apply_piece (1 : Fin 4) _ _ (ix4 b (5 : Fin 8) h w) 5 ?hk S4x1x256x256 (unitAxis d5) ?hx ?hr 5 ?hp
    (ix4 b (0 : Fin 1) h w) ?hi ?ha).trans (unitAxis_apply d5 b 0 h w)
  case hk => show 5 < 8; decide
  case hx => rfl
  case hr => rfl
  case hp => rfl
  case ha => rfl
  case hi =>
    intro e; fin_cases e
    · intro _; rfl
    · intro hne; exact absurd rfl hne
    · intro _; rfl
    · intro _; rfl

theorem outT_apply_6 (d0 d1 d2 d3 d4 d5 d6 d7 : Arr Ideal S4x256x256) (b : Fin 4) (h w : Fin 256) :
    outT d0 d1 d2 d3 d4 d5 d6 d7 (ix4 b (6 : Fin 8) h w) = d6 (ix3 b h w) := by
  unfold outT
  refine (concatenate_apply_piece (1 : Fin 4) _ _ (ix4 b (6 : Fin 8) h w) 6 ?hk S4x1x256x256 (unitAxis d6) ?hx ?hr 6 ?hp
    (ix4 b (0 : Fin 1) h w) ?hi ?ha).trans (unitAxis_apply d6 b 0 h w)
  case hk => show 6 < 8; decide
  case hx => rfl
  case hr => rfl
  case hp => rfl
  case ha => rfl
  case hi =>
    intro e; fin_cases e
    · intro _; rfl
    · intro hne; exact absurd rfl hne
    · intro _; rfl
    · intro _; rfl

theorem outT_apply_7 (d0 d1 d2 d3 d4 d5 d6 d7 : Arr Ideal S4x256x256) (b : Fin 4) (h w : Fin 256) :
    outT d0 d1 d2 d3 d4 d5 d6 d7 (ix4 b (7 : Fin 8) h w) = d7 (ix3 b h w) := by
  unfold outT
  refine (concatenate_apply_piece (1 : Fin 4) _ _ (ix4 b (7 : Fin 8) h w) 7 ?hk S4x1x256x256 (unitAxis d7) ?hx ?hr 7 ?hp
    (ix4 b (0 : Fin 1) h w) ?hi ?ha).trans (unitAxis_apply d7 b 0 h w)
  case hk => show 7 < 8; decide
  case hx => rfl
  case hr => rfl
  case hp => rfl
  case ha => rfl
  case hi =>
    intro e; fin_cases e
    · intro _; rfl
    · intro hne; exact absurd rfl hne
    · intro _; rfl
    · intro _; rfl

/-- The reference's result at (b, k, h, w) is the specification's there. -/
theorem refOut_apply (x : Arr Ideal S4x64x256x256) (b : Fin 4) (k : Fin 8) (h w : Fin 256) :
    refOut x (ix4 b k h w) = Spec.outAt x b k h w := by
  unfold refOut
  rw [outAt_eq]
  fin_cases k
  · exact (outT_apply_0 _ _ _ _ _ _ _ _ b h w).trans (dirT_apply (0 : Fin 3) (0 : Fin 3) slices_S4x64x258x258_S4x64x256x256_0_0_0_0 x b h w)
  · exact (outT_apply_1 _ _ _ _ _ _ _ _ b h w).trans (dirT_apply (0 : Fin 3) (1 : Fin 3) slices_S4x64x258x258_S4x64x256x256_0_0_0_1 x b h w)
  · exact (outT_apply_2 _ _ _ _ _ _ _ _ b h w).trans (dirT_apply (0 : Fin 3) (2 : Fin 3) slices_S4x64x258x258_S4x64x256x256_0_0_0_2 x b h w)
  · exact (outT_apply_3 _ _ _ _ _ _ _ _ b h w).trans (dirT_apply (1 : Fin 3) (0 : Fin 3) slices_S4x64x258x258_S4x64x256x256_0_0_1_0 x b h w)
  · exact (outT_apply_4 _ _ _ _ _ _ _ _ b h w).trans (dirT_apply (1 : Fin 3) (2 : Fin 3) slices_S4x64x258x258_S4x64x256x256_0_0_1_2 x b h w)
  · exact (outT_apply_5 _ _ _ _ _ _ _ _ b h w).trans (dirT_apply (2 : Fin 3) (0 : Fin 3) slices_S4x64x258x258_S4x64x256x256_0_0_2_0 x b h w)
  · exact (outT_apply_6 _ _ _ _ _ _ _ _ b h w).trans (dirT_apply (2 : Fin 3) (1 : Fin 3) slices_S4x64x258x258_S4x64x256x256_0_0_2_1 x b h w)
  · exact (outT_apply_7 _ _ _ _ _ _ _ _ b h w).trans (dirT_apply (2 : Fin 3) (2 : Fin 3) slices_S4x64x258x258_S4x64x256x256_0_0_2_2 x b h w)

/-- The reference's result array is the specification of its input array. -/
theorem refOut_eq_G (x : Arr Ideal S4x64x256x256) : refOut x = Cert.Spec.G x := by
  funext j
  obtain ⟨b, k, h, w, rfl⟩ : ∃ (b : Fin 4) (k : Fin 8) (h w : Fin 256), j = ix4 b k h w := ⟨j 0, j 1, j 2, j 3, eq_ix4 j⟩
  rw [Spec.G_ix4]
  exact refOut_apply x b k h w

/-- Every weakly fair execution of the reference terminates; the result array then holds the specification of the
    input array's launch contents, and the input array holds what it held. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v113) = Cert.Spec.G (m ((c.tc : Thread nD τ).loc main_arg0))
      ∧ r.2.mem ((c.tc : Thread nD τ).loc main_arg0) = m ((c.tc : Thread nD τ).loc main_arg0)) :=
  (θ_run defs _ _).mono (fun _ h c => ⟨(h c).1.trans (refOut_eq_G _), (h c).2⟩) (run (F := Ideal) m ρ)

end Cert.RefSide

end
-- ==== Proof.lean ====
/-
  The certificate's proof: the Pallas kernel (two regions: per-channel spatial means, then windowed cosine
  similarities accumulated over four channel chunks) against the jnp reference.

  Specification (Proof/Spec.lean): for x : [4,64,256,256], out[b,k,h,w] = (Σ_c cn·cx) / max(√((Σ_c cn²)(Σ_c cx²)), ε),
  cx the centred value at a pixel and cn the centred value at its k-th neighbour with a reflecting boundary.
  Kernel side: the two regions are run one after the other (Proof/K/, Proof/KI/: the bodies' runs, the data the
  pipeline carries between grid points, the run of the whole program), the first region's array is read as the
  means (KI/Value0), the second region's kept sums are followed point by point (KI/Value1*) and its write-backs
  read as the specification (KI/Value1Final). Reference side: the host operations run in order and read at an index
  (Proof/Ref*). The five claims are assembled below.
-/
import proofs.«100834_j73478300500485_1_alg».proof.Defs
import proofs.«100834_j73478300500485_1_alg».proof.Proof.Gen.Kernel
import proofs.«100834_j73478300500485_1_alg».proof.Proof.Gen.KernelIdeal
import proofs.«100834_j73478300500485_1_alg».proof.Proof.Gen.ReferenceIdeal
import proofs.«100834_j73478300500485_1_alg».proof.Proof.Gen.Pre_finite_inputs
import proofs.«100834_j73478300500485_1_alg».proof.Proof.K.Run
import proofs.«100834_j73478300500485_1_alg».proof.Proof.KI.Value1Final
import proofs.«100834_j73478300500485_1_alg».proof.Proof.RefG

noncomputable section

namespace Cert.Proof

open Idealize.ShloMosaic Idealize.SL.Sem

/-- The word-level kernel runs and leaves its argument unchanged: the two-region run at the bit-level instance. -/
theorem frame_k : Cert.frame_Kernel := fun m ρ _ => Cert.Kernel.Hand.frame m ρ

/-- The same for the idealized kernel, at the ideal instance. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.RefSide.run_G m ρ)

/-- The ideal pass rewrote no operation: nothing to preserve. -/
theorem preserves : Cert.preserves_Kernel_KernelIdeal := trivial

/-- Both idealized programs end with the specification's function of the (agreeing) input arrays: the kernel by its
    two regions (channel means, then the accumulated correlations), the reference by its host operations. Nothing
    here needs the inputs to be finite: the two sides differ only in how sums are grouped and in writing the mean's
    division by 65536 as a product with 2⁻¹⁶, which agree on every extended real. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), ?_, ?_⟩
  · exact Cert.KernelIdeal.Hand.run_G m ρ
  · refine (θ_run Cert.ReferenceIdeal.defs _ _).mono (fun _ h c => ⟨(h c).1.trans ?_, (h c).2⟩) (Cert.RefSide.run_G m' ρ')
    rw [hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
